-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S204800x16 : Shape := ⟨2, ![204800, 16]⟩
abbrev S66x64 : Shape := ⟨2, ![66, 64]⟩
abbrev S_ : Shape := ⟨0, ![]⟩

class Facts : Prop where
  bcast_S_S66x64 : S_.BroadcastsInDim S66x64 (![] : Fin 0 → Fin S66x64.rank)
  reducesTo_S66x64_S_d0_1 : S66x64.ReducesTo [0, 1] S_
  h_S_ : 0 < S_.numel
  bcast_S_S204800x16 : S_.BroadcastsInDim S204800x16 (![] : Fin 0 → Fin S204800x16.rank)
  reducesTo_S204800x16_S_d0_1 : S204800x16.ReducesTo [0, 1] S_

variable [Facts]

def fn_part1 {F : FTy → Type} [FloatOps F] (main_v10 : IVec S_ 1) (main_v15 : IVec S204800x16 1) (main_c_5 : IVec S_ 1) : IVec S_ 1 :=
  let main_v16 : IVec S_ 1 := (fun x v => Host.reduce IntOp.andi x v reducesTo_S204800x16_S_d0_1 h_S_) main_v15 main_c_5
  let main_v17 : IVec S_ 1 := andi main_v10 main_v16
  main_v17

def fn {F : FTy → Type} [FloatOps F] (main_arg0 : IVec S204800x16 32) (main_arg1 : IVec S204800x16 32) (main_arg2 : FVec F S66x64 .f32) : IVec S_ 1 :=
  let main_v0 : FVec F S66x64 .f32 := Host.absf main_arg2
  let main_cst : FVec F S_ .f32 := constant S_ .f32 0x7F800000#32
  let main_v1 : FVec F S66x64 .f32 := broadcastInDim S66x64 ![] bcast_S_S66x64 main_cst
  let main_v2 : IVec S66x64 1 := cmpf .olt main_v0 main_v1
  let main_c : IVec S_ 1 := constantI S_ 1 1#1
  let main_v3 : IVec S_ 1 := (fun x v => Host.reduce IntOp.andi x v reducesTo_S66x64_S_d0_1 h_S_) main_v2 main_c
  let main_c_0 : IVec S_ 32 := constantI S_ 32 0#32
  let main_v4 : IVec S204800x16 32 := broadcastInDim S204800x16 ![] bcast_S_S204800x16 main_c_0
  let main_v5 : IVec S204800x16 1 := cmpi .sge main_arg0 main_v4
  let main_c_1 : IVec S_ 32 := constantI S_ 32 65#32
  let main_v6 : IVec S204800x16 32 := broadcastInDim S204800x16 ![] bcast_S_S204800x16 main_c_1
  let main_v7 : IVec S204800x16 1 := cmpi .sle main_arg0 main_v6
  let main_v8 : IVec S204800x16 1 := andi main_v5 main_v7
  let main_c_2 : IVec S_ 1 := constantI S_ 1 1#1
  let main_v9 : IVec S_ 1 := (fun x v => Host.reduce IntOp.andi x v reducesTo_S204800x16_S_d0_1 h_S_) main_v8 main_c_2
  let main_v10 : IVec S_ 1 := andi main_v3 main_v9
  let main_c_3 : IVec S_ 32 := constantI S_ 32 0#32
  let main_v11 : IVec S204800x16 32 := broadcastInDim S204800x16 ![] bcast_S_S204800x16 main_c_3
  let main_v12 : IVec S204800x16 1 := cmpi .sge main_arg1 main_v11
  let main_c_4 : IVec S_ 32 := constantI S_ 32 1#32
  let main_v13 : IVec S204800x16 32 := broadcastInDim S204800x16 ![] bcast_S_S204800x16 main_c_4
  let main_v14 : IVec S204800x16 1 := cmpi .sle main_arg1 main_v13
  let main_v15 : IVec S204800x16 1 := andi main_v12 main_v14
  let main_c_5 : IVec S_ 1 := constantI S_ 1 1#1
  fn_part1 (F := F) main_v10 main_v15 main_c_5
-- ==== Kernel.lean ====
abbrev S204800x16 : Shape := ⟨2, ![204800, 16]⟩
abbrev S66x64 : Shape := ⟨2, ![66, 64]⟩
abbrev S3276800 : Shape := ⟨1, ![3276800]⟩
abbrev S4224 : Shape := ⟨1, ![4224]⟩
abbrev S3276800x64 : Shape := ⟨2, ![3276800, 64]⟩
abbrev S256 : Shape := ⟨1, ![256]⟩
abbrev S256x64 : Shape := ⟨2, ![256, 64]⟩
abbrev S_ : Shape := ⟨0, ![]⟩
abbrev S16 : Shape := ⟨1, ![16]⟩
abbrev S1 : Shape := ⟨1, ![1]⟩
abbrev S1x16 : Shape := ⟨2, ![1, 16]⟩
abbrev S8192x16 : Shape := ⟨2, ![8192, 16]⟩
abbrev S204800x16x64 : Shape := ⟨3, ![204800, 16, 64]⟩

abbrev nBuf : Table → Nat
  | .hbm => 8
  | .local .tc .vmem => 4
  | .local .scVector .vmem => 5
  | _ => 0

abbrev bufTy : (tb : Table) → Fin (nBuf tb) → BufTy
  | .hbm, ⟨0, _⟩ => ⟨S204800x16, .i32⟩
  | .hbm, ⟨1, _⟩ => ⟨S204800x16, .i32⟩
  | .hbm, ⟨2, _⟩ => ⟨S66x64, .f32⟩
  | .hbm, ⟨3, _⟩ => ⟨S3276800, .i32⟩
  | .hbm, ⟨4, _⟩ => ⟨S4224, .f32⟩
  | .hbm, ⟨5, _⟩ => ⟨S3276800x64, .f32⟩
  | .hbm, ⟨6, _⟩ => ⟨S204800x16, .i32⟩
  | .hbm, ⟨7, _⟩ => ⟨S204800x16x64, .f32⟩
  | .local .tc .vmem, ⟨0, _⟩ => ⟨S8192x16, .i32⟩
  | .local .tc .vmem, ⟨1, _⟩ => ⟨S8192x16, .i32⟩
  | .local .tc .vmem, ⟨2, _⟩ => ⟨S8192x16, .i32⟩
  | .local .tc .vmem, ⟨3, _⟩ => ⟨S8192x16, .i32⟩
  | .local .scVector .vmem, ⟨0, _⟩ => ⟨S4224, .f32⟩
  | .local .scVector .vmem, ⟨1, _⟩ => ⟨S256, .i32⟩
  | .local .scVector .vmem, ⟨2, _⟩ => ⟨S256, .i32⟩
  | .local .scVector .vmem, ⟨3, _⟩ => ⟨S256x64, .f32⟩
  | .local .scVector .vmem, ⟨4, _⟩ => ⟨S256x64, .f32⟩
  | _, _ => ⟨S204800x16, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v1_scv : Ref sig .scVector := ⟨.hbm, 4, rfl⟩
abbrev main_v0_scv : Ref sig .scVector := ⟨.hbm, 3, rfl⟩
abbrev main_v2_scv : Ref sig .scVector := ⟨.hbm, 5, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc1_sem0_0 : DmaSem sig := 5
abbrev cc1_sem0_1 : DmaSem sig := 6
abbrev cc1_sem1_0 : DmaSem sig := 7
abbrev cc1_sem1_1 : DmaSem sig := 8
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c102400_i32 : BitVec 32 := 102400#32
  let v2 : BitVec 32 := Scalar.muli v1 c102400_i32
  let v3 : BitVec 32 := Scalar.addi v2 c0_i32
  ![v3.toNat]
@[reducible] def k0_t1_loop : Scf.Loop 32 :=
  let c0_i32_0 : BitVec 32 := 0#32
  let c200_i32 : BitVec 32 := 200#32
  let v10 : BitVec 32 := Scalar.addi c0_i32_0 c200_i32
  let c1_i32 : BitVec 32 := 1#32
  ⟨c0_i32_0, v10, c1_i32⟩
def k0_off2 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c102400_i32 : BitVec 32 := 102400#32
  let v2 : BitVec 32 := Scalar.muli v1 c102400_i32
  let c0_i32_7 : BitVec 32 := 0#32
  let c0_i32_0 : BitVec 32 := 0#32
  let c1_i32 : BitVec 32 := 1#32
  let arg15 : BitVec 32 := Scf.iv c0_i32_0 c1_i32 k0_t1
  let c2_i32_6 : BitVec 32 := 2#32
  let v17 : BitVec 32 := Scalar.muli arg15 c2_i32_6
  let v18 : BitVec 32 := Scalar.addi c0_i32_7 v17
  let c256_i32_8 : BitVec 32 := 256#32
  let v19 : BitVec 32 := Scalar.muli v18 c256_i32_8
  let v20 : BitVec 32 := Scalar.addi v2 v19
  ![v20.toNat]
def k0_cond1 (k0_t1 : Fin k0_t1_loop.trips) : BitVec 1 :=
  let c0_i32_7 : BitVec 32 := 0#32
  let c0_i32_0 : BitVec 32 := 0#32
  let c1_i32 : BitVec 32 := 1#32
  let arg15 : BitVec 32 := Scf.iv c0_i32_0 c1_i32 k0_t1
  let c2_i32_6 : BitVec 32 := 2#32
  let v17 : BitVec 32 := Scalar.muli arg15 c2_i32_6
  let v18 : BitVec 32 := Scalar.addi c0_i32_7 v17
  let c2_i32_9 : BitVec 32 := 2#32
  let v23 : BitVec 1 := Scalar.cmpi .sge v18 c2_i32_9
  let v24 : BitVec 32 := Scalar.extui v23
  let c0_i32_10 : BitVec 32 := 0#32
  let v25 : BitVec 1 := Scalar.cmpi .ne v24 c0_i32_10
  v25

def k0_off3 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c102400_i32 : BitVec 32 := 102400#32
  let v2 : BitVec 32 := Scalar.muli v1 c102400_i32
  let c0_i32_7 : BitVec 32 := 0#32
  let c0_i32_0 : BitVec 32 := 0#32
  let c1_i32 : BitVec 32 := 1#32
  let arg15 : BitVec 32 := Scf.iv c0_i32_0 c1_i32 k0_t1
  let c2_i32_6 : BitVec 32 := 2#32
  let v17 : BitVec 32 := Scalar.muli arg15 c2_i32_6
  let v18 : BitVec 32 := Scalar.addi c0_i32_7 v17
  let c2_i32_33 : BitVec 32 := 2#32
  let v52 : BitVec 32 := Scalar.subi v18 c2_i32_33
  let c256_i32_34 : BitVec 32 := 256#32
  let v53 : BitVec 32 := Scalar.muli v52 c256_i32_34
  let v54 : BitVec 32 := Scalar.addi v2 v53
  let c0_i32_35 : BitVec 32 := 0#32
  ![v54.toNat, 0]
@[reducible] def k0_t2_loop : Scf.Loop 32 :=
  let c0_i32_11 : BitVec 32 := 0#32
  let c16_i32 : BitVec 32 := 16#32
  let v26 : BitVec 32 := Scalar.addi c0_i32_11 c16_i32
  let c1_i32_12 : BitVec 32 := 1#32
  ⟨c0_i32_11, v26, c1_i32_12⟩
def k0_off4 (k0_t2 : Fin k0_t2_loop.trips) : Fin 1 → Nat :=
  let c0_i32_34 : BitVec 32 := 0#32
  let c0_i32_11 : BitVec 32 := 0#32
  let c1_i32_12 : BitVec 32 := 1#32
  let arg16 : BitVec 32 := Scf.iv c0_i32_11 c1_i32_12 k0_t2
  let c1_i32_33 : BitVec 32 := 1#32
  let v52 : BitVec 32 := Scalar.muli arg16 c1_i32_33
  let v53 : BitVec 32 := Scalar.addi c0_i32_34 v52
  let c16_i32_35 : BitVec 32 := 16#32
  let v54 : BitVec 32 := Scalar.muli v53 c16_i32_35
  let v55 : Index := Scalar.indexCast v54
  ![v55.toNat]

def k0_chk1 (v64 : IVec S16 32) : Prop :=
  (∀ a x, ((![v64] : Fin 1 → IVec S16 32) a x).toNat < S4224.size a)
instance k0_chk1.dec : ∀ (v64 : IVec S16 32), Decidable (k0_chk1 v64) := fun v64 => decidable_of_iff' _ (Iff.of_eq (k0_chk1.eq_1 v64))
theorem k0_idx1_inb : ∀ (v64 : IVec S16 32) (k0_hw1 : k0_chk1 v64), ∀ a x, ((![v64] : Fin 1 → IVec S16 32) a x).toNat < S4224.size a := fun v64 k0_hw1 => k0_hw1

def k0_chk2 (v67 : IVec S16 32) : Prop :=
  (∀ a x, ((![v67] : Fin 1 → IVec S16 32) a x).toNat < S4224.size a)
instance k0_chk2.dec : ∀ (v67 : IVec S16 32), Decidable (k0_chk2 v67) := fun v67 => decidable_of_iff' _ (Iff.of_eq (k0_chk2.eq_1 v67))
theorem k0_idx2_inb : ∀ (v67 : IVec S16 32) (k0_hw2 : k0_chk2 v67), ∀ a x, ((![v67] : Fin 1 → IVec S16 32) a x).toNat < S4224.size a := fun v67 k0_hw2 => k0_hw2

def k0_chk3 (v70 : IVec S16 32) : Prop :=
  (∀ a x, ((![v70] : Fin 1 → IVec S16 32) a x).toNat < S4224.size a)
instance k0_chk3.dec : ∀ (v70 : IVec S16 32), Decidable (k0_chk3 v70) := fun v70 => decidable_of_iff' _ (Iff.of_eq (k0_chk3.eq_1 v70))
theorem k0_idx3_inb : ∀ (v70 : IVec S16 32) (k0_hw3 : k0_chk3 v70), ∀ a x, ((![v70] : Fin 1 → IVec S16 32) a x).toNat < S4224.size a := fun v70 k0_hw3 => k0_hw3

def k0_chk4 (v73 : IVec S16 32) : Prop :=
  (∀ a x, ((![v73] : Fin 1 → IVec S16 32) a x).toNat < S4224.size a)
instance k0_chk4.dec : ∀ (v73 : IVec S16 32), Decidable (k0_chk4 v73) := fun v73 => decidable_of_iff' _ (Iff.of_eq (k0_chk4.eq_1 v73))
theorem k0_idx4_inb : ∀ (v73 : IVec S16 32) (k0_hw4 : k0_chk4 v73), ∀ a x, ((![v73] : Fin 1 → IVec S16 32) a x).toNat < S4224.size a := fun v73 k0_hw4 => k0_hw4

def k0_chk5 (v82 : IVec S16 32) : Prop :=
  (∀ a x, ((![v82] : Fin 1 → IVec S16 32) a x).toNat < S4224.size a)
instance k0_chk5.dec : ∀ (v82 : IVec S16 32), Decidable (k0_chk5 v82) := fun v82 => decidable_of_iff' _ (Iff.of_eq (k0_chk5.eq_1 v82))
theorem k0_idx5_inb : ∀ (v82 : IVec S16 32) (k0_hw5 : k0_chk5 v82), ∀ a x, ((![v82] : Fin 1 → IVec S16 32) a x).toNat < S4224.size a := fun v82 k0_hw5 => k0_hw5

def k0_chk6 (v85 : IVec S16 32) : Prop :=
  (∀ a x, ((![v85] : Fin 1 → IVec S16 32) a x).toNat < S4224.size a)
instance k0_chk6.dec : ∀ (v85 : IVec S16 32), Decidable (k0_chk6 v85) := fun v85 => decidable_of_iff' _ (Iff.of_eq (k0_chk6.eq_1 v85))
theorem k0_idx6_inb : ∀ (v85 : IVec S16 32) (k0_hw6 : k0_chk6 v85), ∀ a x, ((![v85] : Fin 1 → IVec S16 32) a x).toNat < S4224.size a := fun v85 k0_hw6 => k0_hw6

def k0_chk7 (v88 : IVec S16 32) : Prop :=
  (∀ a x, ((![v88] : Fin 1 → IVec S16 32) a x).toNat < S4224.size a)
instance k0_chk7.dec : ∀ (v88 : IVec S16 32), Decidable (k0_chk7 v88) := fun v88 => decidable_of_iff' _ (Iff.of_eq (k0_chk7.eq_1 v88))
theorem k0_idx7_inb : ∀ (v88 : IVec S16 32) (k0_hw7 : k0_chk7 v88), ∀ a x, ((![v88] : Fin 1 → IVec S16 32) a x).toNat < S4224.size a := fun v88 k0_hw7 => k0_hw7

def k0_chk8 (v91 : IVec S16 32) : Prop :=
  (∀ a x, ((![v91] : Fin 1 → IVec S16 32) a x).toNat < S4224.size a)
instance k0_chk8.dec : ∀ (v91 : IVec S16 32), Decidable (k0_chk8 v91) := fun v91 => decidable_of_iff' _ (Iff.of_eq (k0_chk8.eq_1 v91))
theorem k0_idx8_inb : ∀ (v91 : IVec S16 32) (k0_hw8 : k0_chk8 v91), ∀ a x, ((![v91] : Fin 1 → IVec S16 32) a x).toNat < S4224.size a := fun v91 k0_hw8 => k0_hw8
def k0_off5 (k0_t2 : Fin k0_t2_loop.trips) (c0_i32_45 : BitVec 32) : Fin 2 → Nat :=
  let c0_i32_34 : BitVec 32 := 0#32
  let c0_i32_11 : BitVec 32 := 0#32
  let c1_i32_12 : BitVec 32 := 1#32
  let arg16 : BitVec 32 := Scf.iv c0_i32_11 c1_i32_12 k0_t2
  let c1_i32_33 : BitVec 32 := 1#32
  let v52 : BitVec 32 := Scalar.muli arg16 c1_i32_33
  let v53 : BitVec 32 := Scalar.addi c0_i32_34 v52
  let c16_i32_43 : BitVec 32 := 16#32
  let v93 : BitVec 32 := Scalar.muli v53 c16_i32_43
  let c0_i32_44 : BitVec 32 := 0#32
  let v94 : BitVec 32 := Scalar.addi v93 c0_i32_44
  let v95 : BitVec 32 := Scalar.addi v94 c0_i32_45
  let v96 : Index := Scalar.indexCast v95
  let c0 : Index := 0#32
  ![v96.toNat, 0]
def k0_off6 (k0_t2 : Fin k0_t2_loop.trips) (c0_i32_48 : BitVec 32) : Fin 2 → Nat :=
  let c0_i32_34 : BitVec 32 := 0#32
  let c0_i32_11 : BitVec 32 := 0#32
  let c1_i32_12 : BitVec 32 := 1#32
  let arg16 : BitVec 32 := Scf.iv c0_i32_11 c1_i32_12 k0_t2
  let c1_i32_33 : BitVec 32 := 1#32
  let v52 : BitVec 32 := Scalar.muli arg16 c1_i32_33
  let v53 : BitVec 32 := Scalar.addi c0_i32_34 v52
  let c16_i32_46 : BitVec 32 := 16#32
  let v98 : BitVec 32 := Scalar.muli v53 c16_i32_46
  let c0_i32_47 : BitVec 32 := 0#32
  let v99 : BitVec 32 := Scalar.addi v98 c0_i32_47
  let v100 : BitVec 32 := Scalar.addi v99 c0_i32_48
  let v101 : Index := Scalar.indexCast v100
  let c16 : Index := 16#32
  ![v101.toNat, 16]
def k0_off7 (k0_t2 : Fin k0_t2_loop.trips) (c0_i32_51 : BitVec 32) : Fin 2 → Nat :=
  let c0_i32_34 : BitVec 32 := 0#32
  let c0_i32_11 : BitVec 32 := 0#32
  let c1_i32_12 : BitVec 32 := 1#32
  let arg16 : BitVec 32 := Scf.iv c0_i32_11 c1_i32_12 k0_t2
  let c1_i32_33 : BitVec 32 := 1#32
  let v52 : BitVec 32 := Scalar.muli arg16 c1_i32_33
  let v53 : BitVec 32 := Scalar.addi c0_i32_34 v52
  let c16_i32_49 : BitVec 32 := 16#32
  let v103 : BitVec 32 := Scalar.muli v53 c16_i32_49
  let c0_i32_50 : BitVec 32 := 0#32
  let v104 : BitVec 32 := Scalar.addi v103 c0_i32_50
  let v105 : BitVec 32 := Scalar.addi v104 c0_i32_51
  let v106 : Index := Scalar.indexCast v105
  let c32 : Index := 32#32
  ![v106.toNat, 32]
def k0_off8 (k0_t2 : Fin k0_t2_loop.trips) (c0_i32_54 : BitVec 32) : Fin 2 → Nat :=
  let c0_i32_34 : BitVec 32 := 0#32
  let c0_i32_11 : BitVec 32 := 0#32
  let c1_i32_12 : BitVec 32 := 1#32
  let arg16 : BitVec 32 := Scf.iv c0_i32_11 c1_i32_12 k0_t2
  let c1_i32_33 : BitVec 32 := 1#32
  let v52 : BitVec 32 := Scalar.muli arg16 c1_i32_33
  let v53 : BitVec 32 := Scalar.addi c0_i32_34 v52
  let c16_i32_52 : BitVec 32 := 16#32
  let v108 : BitVec 32 := Scalar.muli v53 c16_i32_52
  let c0_i32_53 : BitVec 32 := 0#32
  let v109 : BitVec 32 := Scalar.addi v108 c0_i32_53
  let v110 : BitVec 32 := Scalar.addi v109 c0_i32_54
  let v111 : Index := Scalar.indexCast v110
  let c48 : Index := 48#32
  ![v111.toNat, 48]

def k0_chk9 (v140 : IVec S16 32) : Prop :=
  (∀ a x, ((![v140] : Fin 1 → IVec S16 32) a x).toNat < S4224.size a)
instance k0_chk9.dec : ∀ (v140 : IVec S16 32), Decidable (k0_chk9 v140) := fun v140 => decidable_of_iff' _ (Iff.of_eq (k0_chk9.eq_1 v140))
theorem k0_idx9_inb : ∀ (v140 : IVec S16 32) (k0_hw9 : k0_chk9 v140), ∀ a x, ((![v140] : Fin 1 → IVec S16 32) a x).toNat < S4224.size a := fun v140 k0_hw9 => k0_hw9

def k0_chk10 (v143 : IVec S16 32) : Prop :=
  (∀ a x, ((![v143] : Fin 1 → IVec S16 32) a x).toNat < S4224.size a)
instance k0_chk10.dec : ∀ (v143 : IVec S16 32), Decidable (k0_chk10 v143) := fun v143 => decidable_of_iff' _ (Iff.of_eq (k0_chk10.eq_1 v143))
theorem k0_idx10_inb : ∀ (v143 : IVec S16 32) (k0_hw10 : k0_chk10 v143), ∀ a x, ((![v143] : Fin 1 → IVec S16 32) a x).toNat < S4224.size a := fun v143 k0_hw10 => k0_hw10

def k0_chk11 (v146 : IVec S16 32) : Prop :=
  (∀ a x, ((![v146] : Fin 1 → IVec S16 32) a x).toNat < S4224.size a)
instance k0_chk11.dec : ∀ (v146 : IVec S16 32), Decidable (k0_chk11 v146) := fun v146 => decidable_of_iff' _ (Iff.of_eq (k0_chk11.eq_1 v146))
theorem k0_idx11_inb : ∀ (v146 : IVec S16 32) (k0_hw11 : k0_chk11 v146), ∀ a x, ((![v146] : Fin 1 → IVec S16 32) a x).toNat < S4224.size a := fun v146 k0_hw11 => k0_hw11

def k0_chk12 (v149 : IVec S16 32) : Prop :=
  (∀ a x, ((![v149] : Fin 1 → IVec S16 32) a x).toNat < S4224.size a)
instance k0_chk12.dec : ∀ (v149 : IVec S16 32), Decidable (k0_chk12 v149) := fun v149 => decidable_of_iff' _ (Iff.of_eq (k0_chk12.eq_1 v149))
theorem k0_idx12_inb : ∀ (v149 : IVec S16 32) (k0_hw12 : k0_chk12 v149), ∀ a x, ((![v149] : Fin 1 → IVec S16 32) a x).toNat < S4224.size a := fun v149 k0_hw12 => k0_hw12

def k0_chk13 (v158 : IVec S16 32) : Prop :=
  (∀ a x, ((![v158] : Fin 1 → IVec S16 32) a x).toNat < S4224.size a)
instance k0_chk13.dec : ∀ (v158 : IVec S16 32), Decidable (k0_chk13 v158) := fun v158 => decidable_of_iff' _ (Iff.of_eq (k0_chk13.eq_1 v158))
theorem k0_idx13_inb : ∀ (v158 : IVec S16 32) (k0_hw13 : k0_chk13 v158), ∀ a x, ((![v158] : Fin 1 → IVec S16 32) a x).toNat < S4224.size a := fun v158 k0_hw13 => k0_hw13

def k0_chk14 (v161 : IVec S16 32) : Prop :=
  (∀ a x, ((![v161] : Fin 1 → IVec S16 32) a x).toNat < S4224.size a)
instance k0_chk14.dec : ∀ (v161 : IVec S16 32), Decidable (k0_chk14 v161) := fun v161 => decidable_of_iff' _ (Iff.of_eq (k0_chk14.eq_1 v161))
theorem k0_idx14_inb : ∀ (v161 : IVec S16 32) (k0_hw14 : k0_chk14 v161), ∀ a x, ((![v161] : Fin 1 → IVec S16 32) a x).toNat < S4224.size a := fun v161 k0_hw14 => k0_hw14

def k0_chk15 (v164 : IVec S16 32) : Prop :=
  (∀ a x, ((![v164] : Fin 1 → IVec S16 32) a x).toNat < S4224.size a)
instance k0_chk15.dec : ∀ (v164 : IVec S16 32), Decidable (k0_chk15 v164) := fun v164 => decidable_of_iff' _ (Iff.of_eq (k0_chk15.eq_1 v164))
theorem k0_idx15_inb : ∀ (v164 : IVec S16 32) (k0_hw15 : k0_chk15 v164), ∀ a x, ((![v164] : Fin 1 → IVec S16 32) a x).toNat < S4224.size a := fun v164 k0_hw15 => k0_hw15

def k0_chk16 (v167 : IVec S16 32) : Prop :=
  (∀ a x, ((![v167] : Fin 1 → IVec S16 32) a x).toNat < S4224.size a)
instance k0_chk16.dec : ∀ (v167 : IVec S16 32), Decidable (k0_chk16 v167) := fun v167 => decidable_of_iff' _ (Iff.of_eq (k0_chk16.eq_1 v167))
theorem k0_idx16_inb : ∀ (v167 : IVec S16 32) (k0_hw16 : k0_chk16 v167), ∀ a x, ((![v167] : Fin 1 → IVec S16 32) a x).toNat < S4224.size a := fun v167 k0_hw16 => k0_hw16
def k0_off9 (k0_t2 : Fin k0_t2_loop.trips) (c0_i32_83 : BitVec 32) : Fin 2 → Nat :=
  let c0_i32_34 : BitVec 32 := 0#32
  let c0_i32_11 : BitVec 32 := 0#32
  let c1_i32_12 : BitVec 32 := 1#32
  let arg16 : BitVec 32 := Scf.iv c0_i32_11 c1_i32_12 k0_t2
  let c1_i32_33 : BitVec 32 := 1#32
  let v52 : BitVec 32 := Scalar.muli arg16 c1_i32_33
  let v53 : BitVec 32 := Scalar.addi c0_i32_34 v52
  let c16_i32_81 : BitVec 32 := 16#32
  let v169 : BitVec 32 := Scalar.muli v53 c16_i32_81
  let c2_i32_82 : BitVec 32 := 2#32
  let v170 : BitVec 32 := Scalar.addi v169 c2_i32_82
  let v171 : BitVec 32 := Scalar.addi v170 c0_i32_83
  let v172 : Index := Scalar.indexCast v171
  let c0_84 : Index := 0#32
  ![v172.toNat, 0]
def k0_off10 (k0_t2 : Fin k0_t2_loop.trips) (c0_i32_87 : BitVec 32) : Fin 2 → Nat :=
  let c0_i32_34 : BitVec 32 := 0#32
  let c0_i32_11 : BitVec 32 := 0#32
  let c1_i32_12 : BitVec 32 := 1#32
  let arg16 : BitVec 32 := Scf.iv c0_i32_11 c1_i32_12 k0_t2
  let c1_i32_33 : BitVec 32 := 1#32
  let v52 : BitVec 32 := Scalar.muli arg16 c1_i32_33
  let v53 : BitVec 32 := Scalar.addi c0_i32_34 v52
  let c16_i32_85 : BitVec 32 := 16#32
  let v174 : BitVec 32 := Scalar.muli v53 c16_i32_85
  let c2_i32_86 : BitVec 32 := 2#32
  let v175 : BitVec 32 := Scalar.addi v174 c2_i32_86
  let v176 : BitVec 32 := Scalar.addi v175 c0_i32_87
  let v177 : Index := Scalar.indexCast v176
  let c16_88 : Index := 16#32
  ![v177.toNat, 16]
def k0_off11 (k0_t2 : Fin k0_t2_loop.trips) (c0_i32_91 : BitVec 32) : Fin 2 → Nat :=
  let c0_i32_34 : BitVec 32 := 0#32
  let c0_i32_11 : BitVec 32 := 0#32
  let c1_i32_12 : BitVec 32 := 1#32
  let arg16 : BitVec 32 := Scf.iv c0_i32_11 c1_i32_12 k0_t2
  let c1_i32_33 : BitVec 32 := 1#32
  let v52 : BitVec 32 := Scalar.muli arg16 c1_i32_33
  let v53 : BitVec 32 := Scalar.addi c0_i32_34 v52
  let c16_i32_89 : BitVec 32 := 16#32
  let v179 : BitVec 32 := Scalar.muli v53 c16_i32_89
  let c2_i32_90 : BitVec 32 := 2#32
  let v180 : BitVec 32 := Scalar.addi v179 c2_i32_90
  let v181 : BitVec 32 := Scalar.addi v180 c0_i32_91
  let v182 : Index := Scalar.indexCast v181
  let c32_92 : Index := 32#32
  ![v182.toNat, 32]
def k0_off12 (k0_t2 : Fin k0_t2_loop.trips) (c0_i32_95 : BitVec 32) : Fin 2 → Nat :=
  let c0_i32_34 : BitVec 32 := 0#32
  let c0_i32_11 : BitVec 32 := 0#32
  let c1_i32_12 : BitVec 32 := 1#32
  let arg16 : BitVec 32 := Scf.iv c0_i32_11 c1_i32_12 k0_t2
  let c1_i32_33 : BitVec 32 := 1#32
  let v52 : BitVec 32 := Scalar.muli arg16 c1_i32_33
  let v53 : BitVec 32 := Scalar.addi c0_i32_34 v52
  let c16_i32_93 : BitVec 32 := 16#32
  let v184 : BitVec 32 := Scalar.muli v53 c16_i32_93
  let c2_i32_94 : BitVec 32 := 2#32
  let v185 : BitVec 32 := Scalar.addi v184 c2_i32_94
  let v186 : BitVec 32 := Scalar.addi v185 c0_i32_95
  let v187 : Index := Scalar.indexCast v186
  let c48_96 : Index := 48#32
  ![v187.toNat, 48]

def k0_chk17 (v216 : IVec S16 32) : Prop :=
  (∀ a x, ((![v216] : Fin 1 → IVec S16 32) a x).toNat < S4224.size a)
instance k0_chk17.dec : ∀ (v216 : IVec S16 32), Decidable (k0_chk17 v216) := fun v216 => decidable_of_iff' _ (Iff.of_eq (k0_chk17.eq_1 v216))
theorem k0_idx17_inb : ∀ (v216 : IVec S16 32) (k0_hw17 : k0_chk17 v216), ∀ a x, ((![v216] : Fin 1 → IVec S16 32) a x).toNat < S4224.size a := fun v216 k0_hw17 => k0_hw17

def k0_chk18 (v219 : IVec S16 32) : Prop :=
  (∀ a x, ((![v219] : Fin 1 → IVec S16 32) a x).toNat < S4224.size a)
instance k0_chk18.dec : ∀ (v219 : IVec S16 32), Decidable (k0_chk18 v219) := fun v219 => decidable_of_iff' _ (Iff.of_eq (k0_chk18.eq_1 v219))
theorem k0_idx18_inb : ∀ (v219 : IVec S16 32) (k0_hw18 : k0_chk18 v219), ∀ a x, ((![v219] : Fin 1 → IVec S16 32) a x).toNat < S4224.size a := fun v219 k0_hw18 => k0_hw18

def k0_chk19 (v222 : IVec S16 32) : Prop :=
  (∀ a x, ((![v222] : Fin 1 → IVec S16 32) a x).toNat < S4224.size a)
instance k0_chk19.dec : ∀ (v222 : IVec S16 32), Decidable (k0_chk19 v222) := fun v222 => decidable_of_iff' _ (Iff.of_eq (k0_chk19.eq_1 v222))
theorem k0_idx19_inb : ∀ (v222 : IVec S16 32) (k0_hw19 : k0_chk19 v222), ∀ a x, ((![v222] : Fin 1 → IVec S16 32) a x).toNat < S4224.size a := fun v222 k0_hw19 => k0_hw19

def k0_chk20 (v225 : IVec S16 32) : Prop :=
  (∀ a x, ((![v225] : Fin 1 → IVec S16 32) a x).toNat < S4224.size a)
instance k0_chk20.dec : ∀ (v225 : IVec S16 32), Decidable (k0_chk20 v225) := fun v225 => decidable_of_iff' _ (Iff.of_eq (k0_chk20.eq_1 v225))
theorem k0_idx20_inb : ∀ (v225 : IVec S16 32) (k0_hw20 : k0_chk20 v225), ∀ a x, ((![v225] : Fin 1 → IVec S16 32) a x).toNat < S4224.size a := fun v225 k0_hw20 => k0_hw20

def k0_chk21 (v234 : IVec S16 32) : Prop :=
  (∀ a x, ((![v234] : Fin 1 → IVec S16 32) a x).toNat < S4224.size a)
instance k0_chk21.dec : ∀ (v234 : IVec S16 32), Decidable (k0_chk21 v234) := fun v234 => decidable_of_iff' _ (Iff.of_eq (k0_chk21.eq_1 v234))
theorem k0_idx21_inb : ∀ (v234 : IVec S16 32) (k0_hw21 : k0_chk21 v234), ∀ a x, ((![v234] : Fin 1 → IVec S16 32) a x).toNat < S4224.size a := fun v234 k0_hw21 => k0_hw21

def k0_chk22 (v237 : IVec S16 32) : Prop :=
  (∀ a x, ((![v237] : Fin 1 → IVec S16 32) a x).toNat < S4224.size a)
instance k0_chk22.dec : ∀ (v237 : IVec S16 32), Decidable (k0_chk22 v237) := fun v237 => decidable_of_iff' _ (Iff.of_eq (k0_chk22.eq_1 v237))
theorem k0_idx22_inb : ∀ (v237 : IVec S16 32) (k0_hw22 : k0_chk22 v237), ∀ a x, ((![v237] : Fin 1 → IVec S16 32) a x).toNat < S4224.size a := fun v237 k0_hw22 => k0_hw22

def k0_chk23 (v240 : IVec S16 32) : Prop :=
  (∀ a x, ((![v240] : Fin 1 → IVec S16 32) a x).toNat < S4224.size a)
instance k0_chk23.dec : ∀ (v240 : IVec S16 32), Decidable (k0_chk23 v240) := fun v240 => decidable_of_iff' _ (Iff.of_eq (k0_chk23.eq_1 v240))
theorem k0_idx23_inb : ∀ (v240 : IVec S16 32) (k0_hw23 : k0_chk23 v240), ∀ a x, ((![v240] : Fin 1 → IVec S16 32) a x).toNat < S4224.size a := fun v240 k0_hw23 => k0_hw23

def k0_chk24 (v243 : IVec S16 32) : Prop :=
  (∀ a x, ((![v243] : Fin 1 → IVec S16 32) a x).toNat < S4224.size a)
instance k0_chk24.dec : ∀ (v243 : IVec S16 32), Decidable (k0_chk24 v243) := fun v243 => decidable_of_iff' _ (Iff.of_eq (k0_chk24.eq_1 v243))
theorem k0_idx24_inb : ∀ (v243 : IVec S16 32) (k0_hw24 : k0_chk24 v243), ∀ a x, ((![v243] : Fin 1 → IVec S16 32) a x).toNat < S4224.size a := fun v243 k0_hw24 => k0_hw24
def k0_off13 (k0_t2 : Fin k0_t2_loop.trips) (c0_i32_124 : BitVec 32) : Fin 2 → Nat :=
  let c0_i32_34 : BitVec 32 := 0#32
  let c0_i32_11 : BitVec 32 := 0#32
  let c1_i32_12 : BitVec 32 := 1#32
  let arg16 : BitVec 32 := Scf.iv c0_i32_11 c1_i32_12 k0_t2
  let c1_i32_33 : BitVec 32 := 1#32
  let v52 : BitVec 32 := Scalar.muli arg16 c1_i32_33
  let v53 : BitVec 32 := Scalar.addi c0_i32_34 v52
  let c16_i32_123 : BitVec 32 := 16#32
  let v245 : BitVec 32 := Scalar.muli v53 c16_i32_123
  let c4_i32 : BitVec 32 := 4#32
  let v246 : BitVec 32 := Scalar.addi v245 c4_i32
  let v247 : BitVec 32 := Scalar.addi v246 c0_i32_124
  let v248 : Index := Scalar.indexCast v247
  let c0_125 : Index := 0#32
  ![v248.toNat, 0]
def k0_off14 (k0_t2 : Fin k0_t2_loop.trips) (c0_i32_128 : BitVec 32) : Fin 2 → Nat :=
  let c0_i32_34 : BitVec 32 := 0#32
  let c0_i32_11 : BitVec 32 := 0#32
  let c1_i32_12 : BitVec 32 := 1#32
  let arg16 : BitVec 32 := Scf.iv c0_i32_11 c1_i32_12 k0_t2
  let c1_i32_33 : BitVec 32 := 1#32
  let v52 : BitVec 32 := Scalar.muli arg16 c1_i32_33
  let v53 : BitVec 32 := Scalar.addi c0_i32_34 v52
  let c16_i32_126 : BitVec 32 := 16#32
  let v250 : BitVec 32 := Scalar.muli v53 c16_i32_126
  let c4_i32_127 : BitVec 32 := 4#32
  let v251 : BitVec 32 := Scalar.addi v250 c4_i32_127
  let v252 : BitVec 32 := Scalar.addi v251 c0_i32_128
  let v253 : Index := Scalar.indexCast v252
  let c16_129 : Index := 16#32
  ![v253.toNat, 16]
def k0_off15 (k0_t2 : Fin k0_t2_loop.trips) (c0_i32_132 : BitVec 32) : Fin 2 → Nat :=
  let c0_i32_34 : BitVec 32 := 0#32
  let c0_i32_11 : BitVec 32 := 0#32
  let c1_i32_12 : BitVec 32 := 1#32
  let arg16 : BitVec 32 := Scf.iv c0_i32_11 c1_i32_12 k0_t2
  let c1_i32_33 : BitVec 32 := 1#32
  let v52 : BitVec 32 := Scalar.muli arg16 c1_i32_33
  let v53 : BitVec 32 := Scalar.addi c0_i32_34 v52
  let c16_i32_130 : BitVec 32 := 16#32
  let v255 : BitVec 32 := Scalar.muli v53 c16_i32_130
  let c4_i32_131 : BitVec 32 := 4#32
  let v256 : BitVec 32 := Scalar.addi v255 c4_i32_131
  let v257 : BitVec 32 := Scalar.addi v256 c0_i32_132
  let v258 : Index := Scalar.indexCast v257
  let c32_133 : Index := 32#32
  ![v258.toNat, 32]
def k0_off16 (k0_t2 : Fin k0_t2_loop.trips) (c0_i32_136 : BitVec 32) : Fin 2 → Nat :=
  let c0_i32_34 : BitVec 32 := 0#32
  let c0_i32_11 : BitVec 32 := 0#32
  let c1_i32_12 : BitVec 32 := 1#32
  let arg16 : BitVec 32 := Scf.iv c0_i32_11 c1_i32_12 k0_t2
  let c1_i32_33 : BitVec 32 := 1#32
  let v52 : BitVec 32 := Scalar.muli arg16 c1_i32_33
  let v53 : BitVec 32 := Scalar.addi c0_i32_34 v52
  let c16_i32_134 : BitVec 32 := 16#32
  let v260 : BitVec 32 := Scalar.muli v53 c16_i32_134
  let c4_i32_135 : BitVec 32 := 4#32
  let v261 : BitVec 32 := Scalar.addi v260 c4_i32_135
  let v262 : BitVec 32 := Scalar.addi v261 c0_i32_136
  let v263 : Index := Scalar.indexCast v262
  let c48_137 : Index := 48#32
  ![v263.toNat, 48]

def k0_chk25 (v292 : IVec S16 32) : Prop :=
  (∀ a x, ((![v292] : Fin 1 → IVec S16 32) a x).toNat < S4224.size a)
instance k0_chk25.dec : ∀ (v292 : IVec S16 32), Decidable (k0_chk25 v292) := fun v292 => decidable_of_iff' _ (Iff.of_eq (k0_chk25.eq_1 v292))
theorem k0_idx25_inb : ∀ (v292 : IVec S16 32) (k0_hw25 : k0_chk25 v292), ∀ a x, ((![v292] : Fin 1 → IVec S16 32) a x).toNat < S4224.size a := fun v292 k0_hw25 => k0_hw25

def k0_chk26 (v295 : IVec S16 32) : Prop :=
  (∀ a x, ((![v295] : Fin 1 → IVec S16 32) a x).toNat < S4224.size a)
instance k0_chk26.dec : ∀ (v295 : IVec S16 32), Decidable (k0_chk26 v295) := fun v295 => decidable_of_iff' _ (Iff.of_eq (k0_chk26.eq_1 v295))
theorem k0_idx26_inb : ∀ (v295 : IVec S16 32) (k0_hw26 : k0_chk26 v295), ∀ a x, ((![v295] : Fin 1 → IVec S16 32) a x).toNat < S4224.size a := fun v295 k0_hw26 => k0_hw26

def k0_chk27 (v298 : IVec S16 32) : Prop :=
  (∀ a x, ((![v298] : Fin 1 → IVec S16 32) a x).toNat < S4224.size a)
instance k0_chk27.dec : ∀ (v298 : IVec S16 32), Decidable (k0_chk27 v298) := fun v298 => decidable_of_iff' _ (Iff.of_eq (k0_chk27.eq_1 v298))
theorem k0_idx27_inb : ∀ (v298 : IVec S16 32) (k0_hw27 : k0_chk27 v298), ∀ a x, ((![v298] : Fin 1 → IVec S16 32) a x).toNat < S4224.size a := fun v298 k0_hw27 => k0_hw27

def k0_chk28 (v301 : IVec S16 32) : Prop :=
  (∀ a x, ((![v301] : Fin 1 → IVec S16 32) a x).toNat < S4224.size a)
instance k0_chk28.dec : ∀ (v301 : IVec S16 32), Decidable (k0_chk28 v301) := fun v301 => decidable_of_iff' _ (Iff.of_eq (k0_chk28.eq_1 v301))
theorem k0_idx28_inb : ∀ (v301 : IVec S16 32) (k0_hw28 : k0_chk28 v301), ∀ a x, ((![v301] : Fin 1 → IVec S16 32) a x).toNat < S4224.size a := fun v301 k0_hw28 => k0_hw28

def k0_chk29 (v310 : IVec S16 32) : Prop :=
  (∀ a x, ((![v310] : Fin 1 → IVec S16 32) a x).toNat < S4224.size a)
instance k0_chk29.dec : ∀ (v310 : IVec S16 32), Decidable (k0_chk29 v310) := fun v310 => decidable_of_iff' _ (Iff.of_eq (k0_chk29.eq_1 v310))
theorem k0_idx29_inb : ∀ (v310 : IVec S16 32) (k0_hw29 : k0_chk29 v310), ∀ a x, ((![v310] : Fin 1 → IVec S16 32) a x).toNat < S4224.size a := fun v310 k0_hw29 => k0_hw29

def k0_chk30 (v313 : IVec S16 32) : Prop :=
  (∀ a x, ((![v313] : Fin 1 → IVec S16 32) a x).toNat < S4224.size a)
instance k0_chk30.dec : ∀ (v313 : IVec S16 32), Decidable (k0_chk30 v313) := fun v313 => decidable_of_iff' _ (Iff.of_eq (k0_chk30.eq_1 v313))
theorem k0_idx30_inb : ∀ (v313 : IVec S16 32) (k0_hw30 : k0_chk30 v313), ∀ a x, ((![v313] : Fin 1 → IVec S16 32) a x).toNat < S4224.size a := fun v313 k0_hw30 => k0_hw30

def k0_chk31 (v316 : IVec S16 32) : Prop :=
  (∀ a x, ((![v316] : Fin 1 → IVec S16 32) a x).toNat < S4224.size a)
instance k0_chk31.dec : ∀ (v316 : IVec S16 32), Decidable (k0_chk31 v316) := fun v316 => decidable_of_iff' _ (Iff.of_eq (k0_chk31.eq_1 v316))
theorem k0_idx31_inb : ∀ (v316 : IVec S16 32) (k0_hw31 : k0_chk31 v316), ∀ a x, ((![v316] : Fin 1 → IVec S16 32) a x).toNat < S4224.size a := fun v316 k0_hw31 => k0_hw31

def k0_chk32 (v319 : IVec S16 32) : Prop :=
  (∀ a x, ((![v319] : Fin 1 → IVec S16 32) a x).toNat < S4224.size a)
instance k0_chk32.dec : ∀ (v319 : IVec S16 32), Decidable (k0_chk32 v319) := fun v319 => decidable_of_iff' _ (Iff.of_eq (k0_chk32.eq_1 v319))
theorem k0_idx32_inb : ∀ (v319 : IVec S16 32) (k0_hw32 : k0_chk32 v319), ∀ a x, ((![v319] : Fin 1 → IVec S16 32) a x).toNat < S4224.size a := fun v319 k0_hw32 => k0_hw32
def k0_off17 (k0_t2 : Fin k0_t2_loop.trips) (c0_i32_165 : BitVec 32) : Fin 2 → Nat :=
  let c0_i32_34 : BitVec 32 := 0#32
  let c0_i32_11 : BitVec 32 := 0#32
  let c1_i32_12 : BitVec 32 := 1#32
  let arg16 : BitVec 32 := Scf.iv c0_i32_11 c1_i32_12 k0_t2
  let c1_i32_33 : BitVec 32 := 1#32
  let v52 : BitVec 32 := Scalar.muli arg16 c1_i32_33
  let v53 : BitVec 32 := Scalar.addi c0_i32_34 v52
  let c16_i32_164 : BitVec 32 := 16#32
  let v321 : BitVec 32 := Scalar.muli v53 c16_i32_164
  let c6_i32 : BitVec 32 := 6#32
  let v322 : BitVec 32 := Scalar.addi v321 c6_i32
  let v323 : BitVec 32 := Scalar.addi v322 c0_i32_165
  let v324 : Index := Scalar.indexCast v323
  let c0_166 : Index := 0#32
  ![v324.toNat, 0]
def k0_off18 (k0_t2 : Fin k0_t2_loop.trips) (c0_i32_169 : BitVec 32) : Fin 2 → Nat :=
  let c0_i32_34 : BitVec 32 := 0#32
  let c0_i32_11 : BitVec 32 := 0#32
  let c1_i32_12 : BitVec 32 := 1#32
  let arg16 : BitVec 32 := Scf.iv c0_i32_11 c1_i32_12 k0_t2
  let c1_i32_33 : BitVec 32 := 1#32
  let v52 : BitVec 32 := Scalar.muli arg16 c1_i32_33
  let v53 : BitVec 32 := Scalar.addi c0_i32_34 v52
  let c16_i32_167 : BitVec 32 := 16#32
  let v326 : BitVec 32 := Scalar.muli v53 c16_i32_167
  let c6_i32_168 : BitVec 32 := 6#32
  let v327 : BitVec 32 := Scalar.addi v326 c6_i32_168
  let v328 : BitVec 32 := Scalar.addi v327 c0_i32_169
  let v329 : Index := Scalar.indexCast v328
  let c16_170 : Index := 16#32
  ![v329.toNat, 16]
def k0_off19 (k0_t2 : Fin k0_t2_loop.trips) (c0_i32_173 : BitVec 32) : Fin 2 → Nat :=
  let c0_i32_34 : BitVec 32 := 0#32
  let c0_i32_11 : BitVec 32 := 0#32
  let c1_i32_12 : BitVec 32 := 1#32
  let arg16 : BitVec 32 := Scf.iv c0_i32_11 c1_i32_12 k0_t2
  let c1_i32_33 : BitVec 32 := 1#32
  let v52 : BitVec 32 := Scalar.muli arg16 c1_i32_33
  let v53 : BitVec 32 := Scalar.addi c0_i32_34 v52
  let c16_i32_171 : BitVec 32 := 16#32
  let v331 : BitVec 32 := Scalar.muli v53 c16_i32_171
  let c6_i32_172 : BitVec 32 := 6#32
  let v332 : BitVec 32 := Scalar.addi v331 c6_i32_172
  let v333 : BitVec 32 := Scalar.addi v332 c0_i32_173
  let v334 : Index := Scalar.indexCast v333
  let c32_174 : Index := 32#32
  ![v334.toNat, 32]
def k0_off20 (k0_t2 : Fin k0_t2_loop.trips) (c0_i32_177 : BitVec 32) : Fin 2 → Nat :=
  let c0_i32_34 : BitVec 32 := 0#32
  let c0_i32_11 : BitVec 32 := 0#32
  let c1_i32_12 : BitVec 32 := 1#32
  let arg16 : BitVec 32 := Scf.iv c0_i32_11 c1_i32_12 k0_t2
  let c1_i32_33 : BitVec 32 := 1#32
  let v52 : BitVec 32 := Scalar.muli arg16 c1_i32_33
  let v53 : BitVec 32 := Scalar.addi c0_i32_34 v52
  let c16_i32_175 : BitVec 32 := 16#32
  let v336 : BitVec 32 := Scalar.muli v53 c16_i32_175
  let c6_i32_176 : BitVec 32 := 6#32
  let v337 : BitVec 32 := Scalar.addi v336 c6_i32_176
  let v338 : BitVec 32 := Scalar.addi v337 c0_i32_177
  let v339 : Index := Scalar.indexCast v338
  let c48_178 : Index := 48#32
  ![v339.toNat, 48]

def k0_chk33 (v368 : IVec S16 32) : Prop :=
  (∀ a x, ((![v368] : Fin 1 → IVec S16 32) a x).toNat < S4224.size a)
instance k0_chk33.dec : ∀ (v368 : IVec S16 32), Decidable (k0_chk33 v368) := fun v368 => decidable_of_iff' _ (Iff.of_eq (k0_chk33.eq_1 v368))
theorem k0_idx33_inb : ∀ (v368 : IVec S16 32) (k0_hw33 : k0_chk33 v368), ∀ a x, ((![v368] : Fin 1 → IVec S16 32) a x).toNat < S4224.size a := fun v368 k0_hw33 => k0_hw33

def k0_chk34 (v371 : IVec S16 32) : Prop :=
  (∀ a x, ((![v371] : Fin 1 → IVec S16 32) a x).toNat < S4224.size a)
instance k0_chk34.dec : ∀ (v371 : IVec S16 32), Decidable (k0_chk34 v371) := fun v371 => decidable_of_iff' _ (Iff.of_eq (k0_chk34.eq_1 v371))
theorem k0_idx34_inb : ∀ (v371 : IVec S16 32) (k0_hw34 : k0_chk34 v371), ∀ a x, ((![v371] : Fin 1 → IVec S16 32) a x).toNat < S4224.size a := fun v371 k0_hw34 => k0_hw34

def k0_chk35 (v374 : IVec S16 32) : Prop :=
  (∀ a x, ((![v374] : Fin 1 → IVec S16 32) a x).toNat < S4224.size a)
instance k0_chk35.dec : ∀ (v374 : IVec S16 32), Decidable (k0_chk35 v374) := fun v374 => decidable_of_iff' _ (Iff.of_eq (k0_chk35.eq_1 v374))
theorem k0_idx35_inb : ∀ (v374 : IVec S16 32) (k0_hw35 : k0_chk35 v374), ∀ a x, ((![v374] : Fin 1 → IVec S16 32) a x).toNat < S4224.size a := fun v374 k0_hw35 => k0_hw35

def k0_chk36 (v377 : IVec S16 32) : Prop :=
  (∀ a x, ((![v377] : Fin 1 → IVec S16 32) a x).toNat < S4224.size a)
instance k0_chk36.dec : ∀ (v377 : IVec S16 32), Decidable (k0_chk36 v377) := fun v377 => decidable_of_iff' _ (Iff.of_eq (k0_chk36.eq_1 v377))
theorem k0_idx36_inb : ∀ (v377 : IVec S16 32) (k0_hw36 : k0_chk36 v377), ∀ a x, ((![v377] : Fin 1 → IVec S16 32) a x).toNat < S4224.size a := fun v377 k0_hw36 => k0_hw36

def k0_chk37 (v386 : IVec S16 32) : Prop :=
  (∀ a x, ((![v386] : Fin 1 → IVec S16 32) a x).toNat < S4224.size a)
instance k0_chk37.dec : ∀ (v386 : IVec S16 32), Decidable (k0_chk37 v386) := fun v386 => decidable_of_iff' _ (Iff.of_eq (k0_chk37.eq_1 v386))
theorem k0_idx37_inb : ∀ (v386 : IVec S16 32) (k0_hw37 : k0_chk37 v386), ∀ a x, ((![v386] : Fin 1 → IVec S16 32) a x).toNat < S4224.size a := fun v386 k0_hw37 => k0_hw37

def k0_chk38 (v389 : IVec S16 32) : Prop :=
  (∀ a x, ((![v389] : Fin 1 → IVec S16 32) a x).toNat < S4224.size a)
instance k0_chk38.dec : ∀ (v389 : IVec S16 32), Decidable (k0_chk38 v389) := fun v389 => decidable_of_iff' _ (Iff.of_eq (k0_chk38.eq_1 v389))
theorem k0_idx38_inb : ∀ (v389 : IVec S16 32) (k0_hw38 : k0_chk38 v389), ∀ a x, ((![v389] : Fin 1 → IVec S16 32) a x).toNat < S4224.size a := fun v389 k0_hw38 => k0_hw38

def k0_chk39 (v392 : IVec S16 32) : Prop :=
  (∀ a x, ((![v392] : Fin 1 → IVec S16 32) a x).toNat < S4224.size a)
instance k0_chk39.dec : ∀ (v392 : IVec S16 32), Decidable (k0_chk39 v392) := fun v392 => decidable_of_iff' _ (Iff.of_eq (k0_chk39.eq_1 v392))
theorem k0_idx39_inb : ∀ (v392 : IVec S16 32) (k0_hw39 : k0_chk39 v392), ∀ a x, ((![v392] : Fin 1 → IVec S16 32) a x).toNat < S4224.size a := fun v392 k0_hw39 => k0_hw39

def k0_chk40 (v395 : IVec S16 32) : Prop :=
  (∀ a x, ((![v395] : Fin 1 → IVec S16 32) a x).toNat < S4224.size a)
instance k0_chk40.dec : ∀ (v395 : IVec S16 32), Decidable (k0_chk40 v395) := fun v395 => decidable_of_iff' _ (Iff.of_eq (k0_chk40.eq_1 v395))
theorem k0_idx40_inb : ∀ (v395 : IVec S16 32) (k0_hw40 : k0_chk40 v395), ∀ a x, ((![v395] : Fin 1 → IVec S16 32) a x).toNat < S4224.size a := fun v395 k0_hw40 => k0_hw40
def k0_off21 (k0_t2 : Fin k0_t2_loop.trips) (c0_i32_206 : BitVec 32) : Fin 2 → Nat :=
  let c0_i32_34 : BitVec 32 := 0#32
  let c0_i32_11 : BitVec 32 := 0#32
  let c1_i32_12 : BitVec 32 := 1#32
  let arg16 : BitVec 32 := Scf.iv c0_i32_11 c1_i32_12 k0_t2
  let c1_i32_33 : BitVec 32 := 1#32
  let v52 : BitVec 32 := Scalar.muli arg16 c1_i32_33
  let v53 : BitVec 32 := Scalar.addi c0_i32_34 v52
  let c16_i32_205 : BitVec 32 := 16#32
  let v397 : BitVec 32 := Scalar.muli v53 c16_i32_205
  let c8_i32 : BitVec 32 := 8#32
  let v398 : BitVec 32 := Scalar.addi v397 c8_i32
  let v399 : BitVec 32 := Scalar.addi v398 c0_i32_206
  let v400 : Index := Scalar.indexCast v399
  let c0_207 : Index := 0#32
  ![v400.toNat, 0]
def k0_off22 (k0_t2 : Fin k0_t2_loop.trips) (c0_i32_210 : BitVec 32) : Fin 2 → Nat :=
  let c0_i32_34 : BitVec 32 := 0#32
  let c0_i32_11 : BitVec 32 := 0#32
  let c1_i32_12 : BitVec 32 := 1#32
  let arg16 : BitVec 32 := Scf.iv c0_i32_11 c1_i32_12 k0_t2
  let c1_i32_33 : BitVec 32 := 1#32
  let v52 : BitVec 32 := Scalar.muli arg16 c1_i32_33
  let v53 : BitVec 32 := Scalar.addi c0_i32_34 v52
  let c16_i32_208 : BitVec 32 := 16#32
  let v402 : BitVec 32 := Scalar.muli v53 c16_i32_208
  let c8_i32_209 : BitVec 32 := 8#32
  let v403 : BitVec 32 := Scalar.addi v402 c8_i32_209
  let v404 : BitVec 32 := Scalar.addi v403 c0_i32_210
  let v405 : Index := Scalar.indexCast v404
  let c16_211 : Index := 16#32
  ![v405.toNat, 16]
def k0_off23 (k0_t2 : Fin k0_t2_loop.trips) (c0_i32_214 : BitVec 32) : Fin 2 → Nat :=
  let c0_i32_34 : BitVec 32 := 0#32
  let c0_i32_11 : BitVec 32 := 0#32
  let c1_i32_12 : BitVec 32 := 1#32
  let arg16 : BitVec 32 := Scf.iv c0_i32_11 c1_i32_12 k0_t2
  let c1_i32_33 : BitVec 32 := 1#32
  let v52 : BitVec 32 := Scalar.muli arg16 c1_i32_33
  let v53 : BitVec 32 := Scalar.addi c0_i32_34 v52
  let c16_i32_212 : BitVec 32 := 16#32
  let v407 : BitVec 32 := Scalar.muli v53 c16_i32_212
  let c8_i32_213 : BitVec 32 := 8#32
  let v408 : BitVec 32 := Scalar.addi v407 c8_i32_213
  let v409 : BitVec 32 := Scalar.addi v408 c0_i32_214
  let v410 : Index := Scalar.indexCast v409
  let c32_215 : Index := 32#32
  ![v410.toNat, 32]
def k0_off24 (k0_t2 : Fin k0_t2_loop.trips) (c0_i32_218 : BitVec 32) : Fin 2 → Nat :=
  let c0_i32_34 : BitVec 32 := 0#32
  let c0_i32_11 : BitVec 32 := 0#32
  let c1_i32_12 : BitVec 32 := 1#32
  let arg16 : BitVec 32 := Scf.iv c0_i32_11 c1_i32_12 k0_t2
  let c1_i32_33 : BitVec 32 := 1#32
  let v52 : BitVec 32 := Scalar.muli arg16 c1_i32_33
  let v53 : BitVec 32 := Scalar.addi c0_i32_34 v52
  let c16_i32_216 : BitVec 32 := 16#32
  let v412 : BitVec 32 := Scalar.muli v53 c16_i32_216
  let c8_i32_217 : BitVec 32 := 8#32
  let v413 : BitVec 32 := Scalar.addi v412 c8_i32_217
  let v414 : BitVec 32 := Scalar.addi v413 c0_i32_218
  let v415 : Index := Scalar.indexCast v414
  let c48_219 : Index := 48#32
  ![v415.toNat, 48]

def k0_chk41 (v444 : IVec S16 32) : Prop :=
  (∀ a x, ((![v444] : Fin 1 → IVec S16 32) a x).toNat < S4224.size a)
instance k0_chk41.dec : ∀ (v444 : IVec S16 32), Decidable (k0_chk41 v444) := fun v444 => decidable_of_iff' _ (Iff.of_eq (k0_chk41.eq_1 v444))
theorem k0_idx41_inb : ∀ (v444 : IVec S16 32) (k0_hw41 : k0_chk41 v444), ∀ a x, ((![v444] : Fin 1 → IVec S16 32) a x).toNat < S4224.size a := fun v444 k0_hw41 => k0_hw41

def k0_chk42 (v447 : IVec S16 32) : Prop :=
  (∀ a x, ((![v447] : Fin 1 → IVec S16 32) a x).toNat < S4224.size a)
instance k0_chk42.dec : ∀ (v447 : IVec S16 32), Decidable (k0_chk42 v447) := fun v447 => decidable_of_iff' _ (Iff.of_eq (k0_chk42.eq_1 v447))
theorem k0_idx42_inb : ∀ (v447 : IVec S16 32) (k0_hw42 : k0_chk42 v447), ∀ a x, ((![v447] : Fin 1 → IVec S16 32) a x).toNat < S4224.size a := fun v447 k0_hw42 => k0_hw42

def k0_chk43 (v450 : IVec S16 32) : Prop :=
  (∀ a x, ((![v450] : Fin 1 → IVec S16 32) a x).toNat < S4224.size a)
instance k0_chk43.dec : ∀ (v450 : IVec S16 32), Decidable (k0_chk43 v450) := fun v450 => decidable_of_iff' _ (Iff.of_eq (k0_chk43.eq_1 v450))
theorem k0_idx43_inb : ∀ (v450 : IVec S16 32) (k0_hw43 : k0_chk43 v450), ∀ a x, ((![v450] : Fin 1 → IVec S16 32) a x).toNat < S4224.size a := fun v450 k0_hw43 => k0_hw43

def k0_chk44 (v453 : IVec S16 32) : Prop :=
  (∀ a x, ((![v453] : Fin 1 → IVec S16 32) a x).toNat < S4224.size a)
instance k0_chk44.dec : ∀ (v453 : IVec S16 32), Decidable (k0_chk44 v453) := fun v453 => decidable_of_iff' _ (Iff.of_eq (k0_chk44.eq_1 v453))
theorem k0_idx44_inb : ∀ (v453 : IVec S16 32) (k0_hw44 : k0_chk44 v453), ∀ a x, ((![v453] : Fin 1 → IVec S16 32) a x).toNat < S4224.size a := fun v453 k0_hw44 => k0_hw44

def k0_chk45 (v462 : IVec S16 32) : Prop :=
  (∀ a x, ((![v462] : Fin 1 → IVec S16 32) a x).toNat < S4224.size a)
instance k0_chk45.dec : ∀ (v462 : IVec S16 32), Decidable (k0_chk45 v462) := fun v462 => decidable_of_iff' _ (Iff.of_eq (k0_chk45.eq_1 v462))
theorem k0_idx45_inb : ∀ (v462 : IVec S16 32) (k0_hw45 : k0_chk45 v462), ∀ a x, ((![v462] : Fin 1 → IVec S16 32) a x).toNat < S4224.size a := fun v462 k0_hw45 => k0_hw45

def k0_chk46 (v465 : IVec S16 32) : Prop :=
  (∀ a x, ((![v465] : Fin 1 → IVec S16 32) a x).toNat < S4224.size a)
instance k0_chk46.dec : ∀ (v465 : IVec S16 32), Decidable (k0_chk46 v465) := fun v465 => decidable_of_iff' _ (Iff.of_eq (k0_chk46.eq_1 v465))
theorem k0_idx46_inb : ∀ (v465 : IVec S16 32) (k0_hw46 : k0_chk46 v465), ∀ a x, ((![v465] : Fin 1 → IVec S16 32) a x).toNat < S4224.size a := fun v465 k0_hw46 => k0_hw46

def k0_chk47 (v468 : IVec S16 32) : Prop :=
  (∀ a x, ((![v468] : Fin 1 → IVec S16 32) a x).toNat < S4224.size a)
instance k0_chk47.dec : ∀ (v468 : IVec S16 32), Decidable (k0_chk47 v468) := fun v468 => decidable_of_iff' _ (Iff.of_eq (k0_chk47.eq_1 v468))
theorem k0_idx47_inb : ∀ (v468 : IVec S16 32) (k0_hw47 : k0_chk47 v468), ∀ a x, ((![v468] : Fin 1 → IVec S16 32) a x).toNat < S4224.size a := fun v468 k0_hw47 => k0_hw47

def k0_chk48 (v471 : IVec S16 32) : Prop :=
  (∀ a x, ((![v471] : Fin 1 → IVec S16 32) a x).toNat < S4224.size a)
instance k0_chk48.dec : ∀ (v471 : IVec S16 32), Decidable (k0_chk48 v471) := fun v471 => decidable_of_iff' _ (Iff.of_eq (k0_chk48.eq_1 v471))
theorem k0_idx48_inb : ∀ (v471 : IVec S16 32) (k0_hw48 : k0_chk48 v471), ∀ a x, ((![v471] : Fin 1 → IVec S16 32) a x).toNat < S4224.size a := fun v471 k0_hw48 => k0_hw48
def k0_off25 (k0_t2 : Fin k0_t2_loop.trips) (c0_i32_247 : BitVec 32) : Fin 2 → Nat :=
  let c0_i32_34 : BitVec 32 := 0#32
  let c0_i32_11 : BitVec 32 := 0#32
  let c1_i32_12 : BitVec 32 := 1#32
  let arg16 : BitVec 32 := Scf.iv c0_i32_11 c1_i32_12 k0_t2
  let c1_i32_33 : BitVec 32 := 1#32
  let v52 : BitVec 32 := Scalar.muli arg16 c1_i32_33
  let v53 : BitVec 32 := Scalar.addi c0_i32_34 v52
  let c16_i32_246 : BitVec 32 := 16#32
  let v473 : BitVec 32 := Scalar.muli v53 c16_i32_246
  let c10_i32 : BitVec 32 := 10#32
  let v474 : BitVec 32 := Scalar.addi v473 c10_i32
  let v475 : BitVec 32 := Scalar.addi v474 c0_i32_247
  let v476 : Index := Scalar.indexCast v475
  let c0_248 : Index := 0#32
  ![v476.toNat, 0]
def k0_off26 (k0_t2 : Fin k0_t2_loop.trips) (c0_i32_251 : BitVec 32) : Fin 2 → Nat :=
  let c0_i32_34 : BitVec 32 := 0#32
  let c0_i32_11 : BitVec 32 := 0#32
  let c1_i32_12 : BitVec 32 := 1#32
  let arg16 : BitVec 32 := Scf.iv c0_i32_11 c1_i32_12 k0_t2
  let c1_i32_33 : BitVec 32 := 1#32
  let v52 : BitVec 32 := Scalar.muli arg16 c1_i32_33
  let v53 : BitVec 32 := Scalar.addi c0_i32_34 v52
  let c16_i32_249 : BitVec 32 := 16#32
  let v478 : BitVec 32 := Scalar.muli v53 c16_i32_249
  let c10_i32_250 : BitVec 32 := 10#32
  let v479 : BitVec 32 := Scalar.addi v478 c10_i32_250
  let v480 : BitVec 32 := Scalar.addi v479 c0_i32_251
  let v481 : Index := Scalar.indexCast v480
  let c16_252 : Index := 16#32
  ![v481.toNat, 16]
def k0_off27 (k0_t2 : Fin k0_t2_loop.trips) (c0_i32_255 : BitVec 32) : Fin 2 → Nat :=
  let c0_i32_34 : BitVec 32 := 0#32
  let c0_i32_11 : BitVec 32 := 0#32
  let c1_i32_12 : BitVec 32 := 1#32
  let arg16 : BitVec 32 := Scf.iv c0_i32_11 c1_i32_12 k0_t2
  let c1_i32_33 : BitVec 32 := 1#32
  let v52 : BitVec 32 := Scalar.muli arg16 c1_i32_33
  let v53 : BitVec 32 := Scalar.addi c0_i32_34 v52
  let c16_i32_253 : BitVec 32 := 16#32
  let v483 : BitVec 32 := Scalar.muli v53 c16_i32_253
  let c10_i32_254 : BitVec 32 := 10#32
  let v484 : BitVec 32 := Scalar.addi v483 c10_i32_254
  let v485 : BitVec 32 := Scalar.addi v484 c0_i32_255
  let v486 : Index := Scalar.indexCast v485
  let c32_256 : Index := 32#32
  ![v486.toNat, 32]
def k0_off28 (k0_t2 : Fin k0_t2_loop.trips) (c0_i32_259 : BitVec 32) : Fin 2 → Nat :=
  let c0_i32_34 : BitVec 32 := 0#32
  let c0_i32_11 : BitVec 32 := 0#32
  let c1_i32_12 : BitVec 32 := 1#32
  let arg16 : BitVec 32 := Scf.iv c0_i32_11 c1_i32_12 k0_t2
  let c1_i32_33 : BitVec 32 := 1#32
  let v52 : BitVec 32 := Scalar.muli arg16 c1_i32_33
  let v53 : BitVec 32 := Scalar.addi c0_i32_34 v52
  let c16_i32_257 : BitVec 32 := 16#32
  let v488 : BitVec 32 := Scalar.muli v53 c16_i32_257
  let c10_i32_258 : BitVec 32 := 10#32
  let v489 : BitVec 32 := Scalar.addi v488 c10_i32_258
  let v490 : BitVec 32 := Scalar.addi v489 c0_i32_259
  let v491 : Index := Scalar.indexCast v490
  let c48_260 : Index := 48#32
  ![v491.toNat, 48]

def k0_chk49 (v520 : IVec S16 32) : Prop :=
  (∀ a x, ((![v520] : Fin 1 → IVec S16 32) a x).toNat < S4224.size a)
instance k0_chk49.dec : ∀ (v520 : IVec S16 32), Decidable (k0_chk49 v520) := fun v520 => decidable_of_iff' _ (Iff.of_eq (k0_chk49.eq_1 v520))
theorem k0_idx49_inb : ∀ (v520 : IVec S16 32) (k0_hw49 : k0_chk49 v520), ∀ a x, ((![v520] : Fin 1 → IVec S16 32) a x).toNat < S4224.size a := fun v520 k0_hw49 => k0_hw49

def k0_chk50 (v523 : IVec S16 32) : Prop :=
  (∀ a x, ((![v523] : Fin 1 → IVec S16 32) a x).toNat < S4224.size a)
instance k0_chk50.dec : ∀ (v523 : IVec S16 32), Decidable (k0_chk50 v523) := fun v523 => decidable_of_iff' _ (Iff.of_eq (k0_chk50.eq_1 v523))
theorem k0_idx50_inb : ∀ (v523 : IVec S16 32) (k0_hw50 : k0_chk50 v523), ∀ a x, ((![v523] : Fin 1 → IVec S16 32) a x).toNat < S4224.size a := fun v523 k0_hw50 => k0_hw50

def k0_chk51 (v526 : IVec S16 32) : Prop :=
  (∀ a x, ((![v526] : Fin 1 → IVec S16 32) a x).toNat < S4224.size a)
instance k0_chk51.dec : ∀ (v526 : IVec S16 32), Decidable (k0_chk51 v526) := fun v526 => decidable_of_iff' _ (Iff.of_eq (k0_chk51.eq_1 v526))
theorem k0_idx51_inb : ∀ (v526 : IVec S16 32) (k0_hw51 : k0_chk51 v526), ∀ a x, ((![v526] : Fin 1 → IVec S16 32) a x).toNat < S4224.size a := fun v526 k0_hw51 => k0_hw51

def k0_chk52 (v529 : IVec S16 32) : Prop :=
  (∀ a x, ((![v529] : Fin 1 → IVec S16 32) a x).toNat < S4224.size a)
instance k0_chk52.dec : ∀ (v529 : IVec S16 32), Decidable (k0_chk52 v529) := fun v529 => decidable_of_iff' _ (Iff.of_eq (k0_chk52.eq_1 v529))
theorem k0_idx52_inb : ∀ (v529 : IVec S16 32) (k0_hw52 : k0_chk52 v529), ∀ a x, ((![v529] : Fin 1 → IVec S16 32) a x).toNat < S4224.size a := fun v529 k0_hw52 => k0_hw52

def k0_chk53 (v538 : IVec S16 32) : Prop :=
  (∀ a x, ((![v538] : Fin 1 → IVec S16 32) a x).toNat < S4224.size a)
instance k0_chk53.dec : ∀ (v538 : IVec S16 32), Decidable (k0_chk53 v538) := fun v538 => decidable_of_iff' _ (Iff.of_eq (k0_chk53.eq_1 v538))
theorem k0_idx53_inb : ∀ (v538 : IVec S16 32) (k0_hw53 : k0_chk53 v538), ∀ a x, ((![v538] : Fin 1 → IVec S16 32) a x).toNat < S4224.size a := fun v538 k0_hw53 => k0_hw53

def k0_chk54 (v541 : IVec S16 32) : Prop :=
  (∀ a x, ((![v541] : Fin 1 → IVec S16 32) a x).toNat < S4224.size a)
instance k0_chk54.dec : ∀ (v541 : IVec S16 32), Decidable (k0_chk54 v541) := fun v541 => decidable_of_iff' _ (Iff.of_eq (k0_chk54.eq_1 v541))
theorem k0_idx54_inb : ∀ (v541 : IVec S16 32) (k0_hw54 : k0_chk54 v541), ∀ a x, ((![v541] : Fin 1 → IVec S16 32) a x).toNat < S4224.size a := fun v541 k0_hw54 => k0_hw54

def k0_chk55 (v544 : IVec S16 32) : Prop :=
  (∀ a x, ((![v544] : Fin 1 → IVec S16 32) a x).toNat < S4224.size a)
instance k0_chk55.dec : ∀ (v544 : IVec S16 32), Decidable (k0_chk55 v544) := fun v544 => decidable_of_iff' _ (Iff.of_eq (k0_chk55.eq_1 v544))
theorem k0_idx55_inb : ∀ (v544 : IVec S16 32) (k0_hw55 : k0_chk55 v544), ∀ a x, ((![v544] : Fin 1 → IVec S16 32) a x).toNat < S4224.size a := fun v544 k0_hw55 => k0_hw55

def k0_chk56 (v547 : IVec S16 32) : Prop :=
  (∀ a x, ((![v547] : Fin 1 → IVec S16 32) a x).toNat < S4224.size a)
instance k0_chk56.dec : ∀ (v547 : IVec S16 32), Decidable (k0_chk56 v547) := fun v547 => decidable_of_iff' _ (Iff.of_eq (k0_chk56.eq_1 v547))
theorem k0_idx56_inb : ∀ (v547 : IVec S16 32) (k0_hw56 : k0_chk56 v547), ∀ a x, ((![v547] : Fin 1 → IVec S16 32) a x).toNat < S4224.size a := fun v547 k0_hw56 => k0_hw56
def k0_off29 (k0_t2 : Fin k0_t2_loop.trips) (c0_i32_288 : BitVec 32) : Fin 2 → Nat :=
  let c0_i32_34 : BitVec 32 := 0#32
  let c0_i32_11 : BitVec 32 := 0#32
  let c1_i32_12 : BitVec 32 := 1#32
  let arg16 : BitVec 32 := Scf.iv c0_i32_11 c1_i32_12 k0_t2
  let c1_i32_33 : BitVec 32 := 1#32
  let v52 : BitVec 32 := Scalar.muli arg16 c1_i32_33
  let v53 : BitVec 32 := Scalar.addi c0_i32_34 v52
  let c16_i32_287 : BitVec 32 := 16#32
  let v549 : BitVec 32 := Scalar.muli v53 c16_i32_287
  let c12_i32 : BitVec 32 := 12#32
  let v550 : BitVec 32 := Scalar.addi v549 c12_i32
  let v551 : BitVec 32 := Scalar.addi v550 c0_i32_288
  let v552 : Index := Scalar.indexCast v551
  let c0_289 : Index := 0#32
  ![v552.toNat, 0]
def k0_off30 (k0_t2 : Fin k0_t2_loop.trips) (c0_i32_292 : BitVec 32) : Fin 2 → Nat :=
  let c0_i32_34 : BitVec 32 := 0#32
  let c0_i32_11 : BitVec 32 := 0#32
  let c1_i32_12 : BitVec 32 := 1#32
  let arg16 : BitVec 32 := Scf.iv c0_i32_11 c1_i32_12 k0_t2
  let c1_i32_33 : BitVec 32 := 1#32
  let v52 : BitVec 32 := Scalar.muli arg16 c1_i32_33
  let v53 : BitVec 32 := Scalar.addi c0_i32_34 v52
  let c16_i32_290 : BitVec 32 := 16#32
  let v554 : BitVec 32 := Scalar.muli v53 c16_i32_290
  let c12_i32_291 : BitVec 32 := 12#32
  let v555 : BitVec 32 := Scalar.addi v554 c12_i32_291
  let v556 : BitVec 32 := Scalar.addi v555 c0_i32_292
  let v557 : Index := Scalar.indexCast v556
  let c16_293 : Index := 16#32
  ![v557.toNat, 16]
def k0_off31 (k0_t2 : Fin k0_t2_loop.trips) (c0_i32_296 : BitVec 32) : Fin 2 → Nat :=
  let c0_i32_34 : BitVec 32 := 0#32
  let c0_i32_11 : BitVec 32 := 0#32
  let c1_i32_12 : BitVec 32 := 1#32
  let arg16 : BitVec 32 := Scf.iv c0_i32_11 c1_i32_12 k0_t2
  let c1_i32_33 : BitVec 32 := 1#32
  let v52 : BitVec 32 := Scalar.muli arg16 c1_i32_33
  let v53 : BitVec 32 := Scalar.addi c0_i32_34 v52
  let c16_i32_294 : BitVec 32 := 16#32
  let v559 : BitVec 32 := Scalar.muli v53 c16_i32_294
  let c12_i32_295 : BitVec 32 := 12#32
  let v560 : BitVec 32 := Scalar.addi v559 c12_i32_295
  let v561 : BitVec 32 := Scalar.addi v560 c0_i32_296
  let v562 : Index := Scalar.indexCast v561
  let c32_297 : Index := 32#32
  ![v562.toNat, 32]
def k0_off32 (k0_t2 : Fin k0_t2_loop.trips) (c0_i32_300 : BitVec 32) : Fin 2 → Nat :=
  let c0_i32_34 : BitVec 32 := 0#32
  let c0_i32_11 : BitVec 32 := 0#32
  let c1_i32_12 : BitVec 32 := 1#32
  let arg16 : BitVec 32 := Scf.iv c0_i32_11 c1_i32_12 k0_t2
  let c1_i32_33 : BitVec 32 := 1#32
  let v52 : BitVec 32 := Scalar.muli arg16 c1_i32_33
  let v53 : BitVec 32 := Scalar.addi c0_i32_34 v52
  let c16_i32_298 : BitVec 32 := 16#32
  let v564 : BitVec 32 := Scalar.muli v53 c16_i32_298
  let c12_i32_299 : BitVec 32 := 12#32
  let v565 : BitVec 32 := Scalar.addi v564 c12_i32_299
  let v566 : BitVec 32 := Scalar.addi v565 c0_i32_300
  let v567 : Index := Scalar.indexCast v566
  let c48_301 : Index := 48#32
  ![v567.toNat, 48]

def k0_chk57 (v596 : IVec S16 32) : Prop :=
  (∀ a x, ((![v596] : Fin 1 → IVec S16 32) a x).toNat < S4224.size a)
instance k0_chk57.dec : ∀ (v596 : IVec S16 32), Decidable (k0_chk57 v596) := fun v596 => decidable_of_iff' _ (Iff.of_eq (k0_chk57.eq_1 v596))
theorem k0_idx57_inb : ∀ (v596 : IVec S16 32) (k0_hw57 : k0_chk57 v596), ∀ a x, ((![v596] : Fin 1 → IVec S16 32) a x).toNat < S4224.size a := fun v596 k0_hw57 => k0_hw57

def k0_chk58 (v599 : IVec S16 32) : Prop :=
  (∀ a x, ((![v599] : Fin 1 → IVec S16 32) a x).toNat < S4224.size a)
instance k0_chk58.dec : ∀ (v599 : IVec S16 32), Decidable (k0_chk58 v599) := fun v599 => decidable_of_iff' _ (Iff.of_eq (k0_chk58.eq_1 v599))
theorem k0_idx58_inb : ∀ (v599 : IVec S16 32) (k0_hw58 : k0_chk58 v599), ∀ a x, ((![v599] : Fin 1 → IVec S16 32) a x).toNat < S4224.size a := fun v599 k0_hw58 => k0_hw58

def k0_chk59 (v602 : IVec S16 32) : Prop :=
  (∀ a x, ((![v602] : Fin 1 → IVec S16 32) a x).toNat < S4224.size a)
instance k0_chk59.dec : ∀ (v602 : IVec S16 32), Decidable (k0_chk59 v602) := fun v602 => decidable_of_iff' _ (Iff.of_eq (k0_chk59.eq_1 v602))
theorem k0_idx59_inb : ∀ (v602 : IVec S16 32) (k0_hw59 : k0_chk59 v602), ∀ a x, ((![v602] : Fin 1 → IVec S16 32) a x).toNat < S4224.size a := fun v602 k0_hw59 => k0_hw59

def k0_chk60 (v605 : IVec S16 32) : Prop :=
  (∀ a x, ((![v605] : Fin 1 → IVec S16 32) a x).toNat < S4224.size a)
instance k0_chk60.dec : ∀ (v605 : IVec S16 32), Decidable (k0_chk60 v605) := fun v605 => decidable_of_iff' _ (Iff.of_eq (k0_chk60.eq_1 v605))
theorem k0_idx60_inb : ∀ (v605 : IVec S16 32) (k0_hw60 : k0_chk60 v605), ∀ a x, ((![v605] : Fin 1 → IVec S16 32) a x).toNat < S4224.size a := fun v605 k0_hw60 => k0_hw60

def k0_chk61 (v614 : IVec S16 32) : Prop :=
  (∀ a x, ((![v614] : Fin 1 → IVec S16 32) a x).toNat < S4224.size a)
instance k0_chk61.dec : ∀ (v614 : IVec S16 32), Decidable (k0_chk61 v614) := fun v614 => decidable_of_iff' _ (Iff.of_eq (k0_chk61.eq_1 v614))
theorem k0_idx61_inb : ∀ (v614 : IVec S16 32) (k0_hw61 : k0_chk61 v614), ∀ a x, ((![v614] : Fin 1 → IVec S16 32) a x).toNat < S4224.size a := fun v614 k0_hw61 => k0_hw61

def k0_chk62 (v617 : IVec S16 32) : Prop :=
  (∀ a x, ((![v617] : Fin 1 → IVec S16 32) a x).toNat < S4224.size a)
instance k0_chk62.dec : ∀ (v617 : IVec S16 32), Decidable (k0_chk62 v617) := fun v617 => decidable_of_iff' _ (Iff.of_eq (k0_chk62.eq_1 v617))
theorem k0_idx62_inb : ∀ (v617 : IVec S16 32) (k0_hw62 : k0_chk62 v617), ∀ a x, ((![v617] : Fin 1 → IVec S16 32) a x).toNat < S4224.size a := fun v617 k0_hw62 => k0_hw62

def k0_chk63 (v620 : IVec S16 32) : Prop :=
  (∀ a x, ((![v620] : Fin 1 → IVec S16 32) a x).toNat < S4224.size a)
instance k0_chk63.dec : ∀ (v620 : IVec S16 32), Decidable (k0_chk63 v620) := fun v620 => decidable_of_iff' _ (Iff.of_eq (k0_chk63.eq_1 v620))
theorem k0_idx63_inb : ∀ (v620 : IVec S16 32) (k0_hw63 : k0_chk63 v620), ∀ a x, ((![v620] : Fin 1 → IVec S16 32) a x).toNat < S4224.size a := fun v620 k0_hw63 => k0_hw63

def k0_chk64 (v623 : IVec S16 32) : Prop :=
  (∀ a x, ((![v623] : Fin 1 → IVec S16 32) a x).toNat < S4224.size a)
instance k0_chk64.dec : ∀ (v623 : IVec S16 32), Decidable (k0_chk64 v623) := fun v623 => decidable_of_iff' _ (Iff.of_eq (k0_chk64.eq_1 v623))
theorem k0_idx64_inb : ∀ (v623 : IVec S16 32) (k0_hw64 : k0_chk64 v623), ∀ a x, ((![v623] : Fin 1 → IVec S16 32) a x).toNat < S4224.size a := fun v623 k0_hw64 => k0_hw64
def k0_off33 (k0_t2 : Fin k0_t2_loop.trips) (c0_i32_329 : BitVec 32) : Fin 2 → Nat :=
  let c0_i32_34 : BitVec 32 := 0#32
  let c0_i32_11 : BitVec 32 := 0#32
  let c1_i32_12 : BitVec 32 := 1#32
  let arg16 : BitVec 32 := Scf.iv c0_i32_11 c1_i32_12 k0_t2
  let c1_i32_33 : BitVec 32 := 1#32
  let v52 : BitVec 32 := Scalar.muli arg16 c1_i32_33
  let v53 : BitVec 32 := Scalar.addi c0_i32_34 v52
  let c16_i32_328 : BitVec 32 := 16#32
  let v625 : BitVec 32 := Scalar.muli v53 c16_i32_328
  let c14_i32 : BitVec 32 := 14#32
  let v626 : BitVec 32 := Scalar.addi v625 c14_i32
  let v627 : BitVec 32 := Scalar.addi v626 c0_i32_329
  let v628 : Index := Scalar.indexCast v627
  let c0_330 : Index := 0#32
  ![v628.toNat, 0]
def k0_off34 (k0_t2 : Fin k0_t2_loop.trips) (c0_i32_333 : BitVec 32) : Fin 2 → Nat :=
  let c0_i32_34 : BitVec 32 := 0#32
  let c0_i32_11 : BitVec 32 := 0#32
  let c1_i32_12 : BitVec 32 := 1#32
  let arg16 : BitVec 32 := Scf.iv c0_i32_11 c1_i32_12 k0_t2
  let c1_i32_33 : BitVec 32 := 1#32
  let v52 : BitVec 32 := Scalar.muli arg16 c1_i32_33
  let v53 : BitVec 32 := Scalar.addi c0_i32_34 v52
  let c16_i32_331 : BitVec 32 := 16#32
  let v630 : BitVec 32 := Scalar.muli v53 c16_i32_331
  let c14_i32_332 : BitVec 32 := 14#32
  let v631 : BitVec 32 := Scalar.addi v630 c14_i32_332
  let v632 : BitVec 32 := Scalar.addi v631 c0_i32_333
  let v633 : Index := Scalar.indexCast v632
  let c16_334 : Index := 16#32
  ![v633.toNat, 16]
def k0_off35 (k0_t2 : Fin k0_t2_loop.trips) (c0_i32_337 : BitVec 32) : Fin 2 → Nat :=
  let c0_i32_34 : BitVec 32 := 0#32
  let c0_i32_11 : BitVec 32 := 0#32
  let c1_i32_12 : BitVec 32 := 1#32
  let arg16 : BitVec 32 := Scf.iv c0_i32_11 c1_i32_12 k0_t2
  let c1_i32_33 : BitVec 32 := 1#32
  let v52 : BitVec 32 := Scalar.muli arg16 c1_i32_33
  let v53 : BitVec 32 := Scalar.addi c0_i32_34 v52
  let c16_i32_335 : BitVec 32 := 16#32
  let v635 : BitVec 32 := Scalar.muli v53 c16_i32_335
  let c14_i32_336 : BitVec 32 := 14#32
  let v636 : BitVec 32 := Scalar.addi v635 c14_i32_336
  let v637 : BitVec 32 := Scalar.addi v636 c0_i32_337
  let v638 : Index := Scalar.indexCast v637
  let c32_338 : Index := 32#32
  ![v638.toNat, 32]
def k0_off36 (k0_t2 : Fin k0_t2_loop.trips) (c0_i32_341 : BitVec 32) : Fin 2 → Nat :=
  let c0_i32_34 : BitVec 32 := 0#32
  let c0_i32_11 : BitVec 32 := 0#32
  let c1_i32_12 : BitVec 32 := 1#32
  let arg16 : BitVec 32 := Scf.iv c0_i32_11 c1_i32_12 k0_t2
  let c1_i32_33 : BitVec 32 := 1#32
  let v52 : BitVec 32 := Scalar.muli arg16 c1_i32_33
  let v53 : BitVec 32 := Scalar.addi c0_i32_34 v52
  let c16_i32_339 : BitVec 32 := 16#32
  let v640 : BitVec 32 := Scalar.muli v53 c16_i32_339
  let c14_i32_340 : BitVec 32 := 14#32
  let v641 : BitVec 32 := Scalar.addi v640 c14_i32_340
  let v642 : BitVec 32 := Scalar.addi v641 c0_i32_341
  let v643 : Index := Scalar.indexCast v642
  let c48_342 : Index := 48#32
  ![v643.toNat, 48]
def k0_off37 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c102400_i32 : BitVec 32 := 102400#32
  let v2 : BitVec 32 := Scalar.muli v1 c102400_i32
  let c0_i32_7 : BitVec 32 := 0#32
  let c0_i32_0 : BitVec 32 := 0#32
  let c1_i32 : BitVec 32 := 1#32
  let arg15 : BitVec 32 := Scf.iv c0_i32_0 c1_i32 k0_t1
  let c2_i32_6 : BitVec 32 := 2#32
  let v17 : BitVec 32 := Scalar.muli arg15 c2_i32_6
  let v18 : BitVec 32 := Scalar.addi c0_i32_7 v17
  let c256_i32_14 : BitVec 32 := 256#32
  let v27 : BitVec 32 := Scalar.muli v18 c256_i32_14
  let v28 : BitVec 32 := Scalar.addi v2 v27
  let c0_i32_15 : BitVec 32 := 0#32
  ![v28.toNat, 0]
def k0_cond2 (k0_t1 : Fin k0_t1_loop.trips) : BitVec 1 :=
  let c0_i32_7 : BitVec 32 := 0#32
  let c0_i32_0 : BitVec 32 := 0#32
  let c1_i32 : BitVec 32 := 1#32
  let arg15 : BitVec 32 := Scf.iv c0_i32_0 c1_i32 k0_t1
  let c2_i32_6 : BitVec 32 := 2#32
  let v17 : BitVec 32 := Scalar.muli arg15 c2_i32_6
  let v18 : BitVec 32 := Scalar.addi c0_i32_7 v17
  let c2_i32_17 : BitVec 32 := 2#32
  let v31 : BitVec 32 := Scalar.addi v18 c2_i32_17
  let c400_i32 : BitVec 32 := 400#32
  let v32 : BitVec 1 := Scalar.cmpi .slt v31 c400_i32
  let v33 : BitVec 32 := Scalar.extui v32
  let c0_i32_18 : BitVec 32 := 0#32
  let v34 : BitVec 1 := Scalar.cmpi .ne v33 c0_i32_18
  v34

def k0_off38 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c102400_i32 : BitVec 32 := 102400#32
  let v2 : BitVec 32 := Scalar.muli v1 c102400_i32
  let c0_i32_7 : BitVec 32 := 0#32
  let c0_i32_0 : BitVec 32 := 0#32
  let c1_i32 : BitVec 32 := 1#32
  let arg15 : BitVec 32 := Scf.iv c0_i32_0 c1_i32 k0_t1
  let c2_i32_6 : BitVec 32 := 2#32
  let v17 : BitVec 32 := Scalar.muli arg15 c2_i32_6
  let v18 : BitVec 32 := Scalar.addi c0_i32_7 v17
  let c2_i32_33 : BitVec 32 := 2#32
  let v52 : BitVec 32 := Scalar.addi v18 c2_i32_33
  let c256_i32_34 : BitVec 32 := 256#32
  let v53 : BitVec 32 := Scalar.muli v52 c256_i32_34
  let v54 : BitVec 32 := Scalar.addi v2 v53
  ![v54.toNat]
def k0_off39 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c102400_i32 : BitVec 32 := 102400#32
  let v2 : BitVec 32 := Scalar.muli v1 c102400_i32
  let c0_i32_7 : BitVec 32 := 0#32
  let c0_i32_0 : BitVec 32 := 0#32
  let c1_i32 : BitVec 32 := 1#32
  let arg15 : BitVec 32 := Scf.iv c0_i32_0 c1_i32 k0_t1
  let c2_i32_6 : BitVec 32 := 2#32
  let v17 : BitVec 32 := Scalar.muli arg15 c2_i32_6
  let v18 : BitVec 32 := Scalar.addi c0_i32_7 v17
  let c1_i32_19 : BitVec 32 := 1#32
  let v35 : BitVec 32 := Scalar.addi v18 c1_i32_19
  let c256_i32_20 : BitVec 32 := 256#32
  let v36 : BitVec 32 := Scalar.muli v35 c256_i32_20
  let v37 : BitVec 32 := Scalar.addi v2 v36
  ![v37.toNat]
def k0_cond3 (k0_t1 : Fin k0_t1_loop.trips) : BitVec 1 :=
  let c0_i32_7 : BitVec 32 := 0#32
  let c0_i32_0 : BitVec 32 := 0#32
  let c1_i32 : BitVec 32 := 1#32
  let arg15 : BitVec 32 := Scf.iv c0_i32_0 c1_i32 k0_t1
  let c2_i32_6 : BitVec 32 := 2#32
  let v17 : BitVec 32 := Scalar.muli arg15 c2_i32_6
  let v18 : BitVec 32 := Scalar.addi c0_i32_7 v17
  let c1_i32_19 : BitVec 32 := 1#32
  let v35 : BitVec 32 := Scalar.addi v18 c1_i32_19
  let c2_i32_21 : BitVec 32 := 2#32
  let v40 : BitVec 1 := Scalar.cmpi .sge v35 c2_i32_21
  let v41 : BitVec 32 := Scalar.extui v40
  let c0_i32_22 : BitVec 32 := 0#32
  let v42 : BitVec 1 := Scalar.cmpi .ne v41 c0_i32_22
  v42

def k0_off40 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c102400_i32 : BitVec 32 := 102400#32
  let v2 : BitVec 32 := Scalar.muli v1 c102400_i32
  let c0_i32_7 : BitVec 32 := 0#32
  let c0_i32_0 : BitVec 32 := 0#32
  let c1_i32 : BitVec 32 := 1#32
  let arg15 : BitVec 32 := Scf.iv c0_i32_0 c1_i32 k0_t1
  let c2_i32_6 : BitVec 32 := 2#32
  let v17 : BitVec 32 := Scalar.muli arg15 c2_i32_6
  let v18 : BitVec 32 := Scalar.addi c0_i32_7 v17
  let c1_i32_19 : BitVec 32 := 1#32
  let v35 : BitVec 32 := Scalar.addi v18 c1_i32_19
  let c2_i32_33 : BitVec 32 := 2#32
  let v52 : BitVec 32 := Scalar.subi v35 c2_i32_33
  let c256_i32_34 : BitVec 32 := 256#32
  let v53 : BitVec 32 := Scalar.muli v52 c256_i32_34
  let v54 : BitVec 32 := Scalar.addi v2 v53
  let c0_i32_35 : BitVec 32 := 0#32
  ![v54.toNat, 0]
@[reducible] def k0_t3_loop : Scf.Loop 32 :=
  let c0_i32_23 : BitVec 32 := 0#32
  let c16_i32_24 : BitVec 32 := 16#32
  let v43 : BitVec 32 := Scalar.addi c0_i32_23 c16_i32_24
  let c1_i32_25 : BitVec 32 := 1#32
  ⟨c0_i32_23, v43, c1_i32_25⟩
def k0_off41 (k0_t3 : Fin k0_t3_loop.trips) : Fin 1 → Nat :=
  let c0_i32_34 : BitVec 32 := 0#32
  let c0_i32_23 : BitVec 32 := 0#32
  let c1_i32_25 : BitVec 32 := 1#32
  let arg16 : BitVec 32 := Scf.iv c0_i32_23 c1_i32_25 k0_t3
  let c1_i32_33 : BitVec 32 := 1#32
  let v52 : BitVec 32 := Scalar.muli arg16 c1_i32_33
  let v53 : BitVec 32 := Scalar.addi c0_i32_34 v52
  let c16_i32_35 : BitVec 32 := 16#32
  let v54 : BitVec 32 := Scalar.muli v53 c16_i32_35
  let v55 : Index := Scalar.indexCast v54
  ![v55.toNat]

def k0_chk65 (v64 : IVec S16 32) : Prop :=
  (∀ a x, ((![v64] : Fin 1 → IVec S16 32) a x).toNat < S4224.size a)
instance k0_chk65.dec : ∀ (v64 : IVec S16 32), Decidable (k0_chk65 v64) := fun v64 => decidable_of_iff' _ (Iff.of_eq (k0_chk65.eq_1 v64))
theorem k0_idx65_inb : ∀ (v64 : IVec S16 32) (k0_hw65 : k0_chk65 v64), ∀ a x, ((![v64] : Fin 1 → IVec S16 32) a x).toNat < S4224.size a := fun v64 k0_hw65 => k0_hw65

def k0_chk66 (v67 : IVec S16 32) : Prop :=
  (∀ a x, ((![v67] : Fin 1 → IVec S16 32) a x).toNat < S4224.size a)
instance k0_chk66.dec : ∀ (v67 : IVec S16 32), Decidable (k0_chk66 v67) := fun v67 => decidable_of_iff' _ (Iff.of_eq (k0_chk66.eq_1 v67))
theorem k0_idx66_inb : ∀ (v67 : IVec S16 32) (k0_hw66 : k0_chk66 v67), ∀ a x, ((![v67] : Fin 1 → IVec S16 32) a x).toNat < S4224.size a := fun v67 k0_hw66 => k0_hw66

def k0_chk67 (v70 : IVec S16 32) : Prop :=
  (∀ a x, ((![v70] : Fin 1 → IVec S16 32) a x).toNat < S4224.size a)
instance k0_chk67.dec : ∀ (v70 : IVec S16 32), Decidable (k0_chk67 v70) := fun v70 => decidable_of_iff' _ (Iff.of_eq (k0_chk67.eq_1 v70))
theorem k0_idx67_inb : ∀ (v70 : IVec S16 32) (k0_hw67 : k0_chk67 v70), ∀ a x, ((![v70] : Fin 1 → IVec S16 32) a x).toNat < S4224.size a := fun v70 k0_hw67 => k0_hw67

def k0_chk68 (v73 : IVec S16 32) : Prop :=
  (∀ a x, ((![v73] : Fin 1 → IVec S16 32) a x).toNat < S4224.size a)
instance k0_chk68.dec : ∀ (v73 : IVec S16 32), Decidable (k0_chk68 v73) := fun v73 => decidable_of_iff' _ (Iff.of_eq (k0_chk68.eq_1 v73))
theorem k0_idx68_inb : ∀ (v73 : IVec S16 32) (k0_hw68 : k0_chk68 v73), ∀ a x, ((![v73] : Fin 1 → IVec S16 32) a x).toNat < S4224.size a := fun v73 k0_hw68 => k0_hw68

def k0_chk69 (v82 : IVec S16 32) : Prop :=
  (∀ a x, ((![v82] : Fin 1 → IVec S16 32) a x).toNat < S4224.size a)
instance k0_chk69.dec : ∀ (v82 : IVec S16 32), Decidable (k0_chk69 v82) := fun v82 => decidable_of_iff' _ (Iff.of_eq (k0_chk69.eq_1 v82))
theorem k0_idx69_inb : ∀ (v82 : IVec S16 32) (k0_hw69 : k0_chk69 v82), ∀ a x, ((![v82] : Fin 1 → IVec S16 32) a x).toNat < S4224.size a := fun v82 k0_hw69 => k0_hw69

def k0_chk70 (v85 : IVec S16 32) : Prop :=
  (∀ a x, ((![v85] : Fin 1 → IVec S16 32) a x).toNat < S4224.size a)
instance k0_chk70.dec : ∀ (v85 : IVec S16 32), Decidable (k0_chk70 v85) := fun v85 => decidable_of_iff' _ (Iff.of_eq (k0_chk70.eq_1 v85))
theorem k0_idx70_inb : ∀ (v85 : IVec S16 32) (k0_hw70 : k0_chk70 v85), ∀ a x, ((![v85] : Fin 1 → IVec S16 32) a x).toNat < S4224.size a := fun v85 k0_hw70 => k0_hw70

def k0_chk71 (v88 : IVec S16 32) : Prop :=
  (∀ a x, ((![v88] : Fin 1 → IVec S16 32) a x).toNat < S4224.size a)
instance k0_chk71.dec : ∀ (v88 : IVec S16 32), Decidable (k0_chk71 v88) := fun v88 => decidable_of_iff' _ (Iff.of_eq (k0_chk71.eq_1 v88))
theorem k0_idx71_inb : ∀ (v88 : IVec S16 32) (k0_hw71 : k0_chk71 v88), ∀ a x, ((![v88] : Fin 1 → IVec S16 32) a x).toNat < S4224.size a := fun v88 k0_hw71 => k0_hw71

def k0_chk72 (v91 : IVec S16 32) : Prop :=
  (∀ a x, ((![v91] : Fin 1 → IVec S16 32) a x).toNat < S4224.size a)
instance k0_chk72.dec : ∀ (v91 : IVec S16 32), Decidable (k0_chk72 v91) := fun v91 => decidable_of_iff' _ (Iff.of_eq (k0_chk72.eq_1 v91))
theorem k0_idx72_inb : ∀ (v91 : IVec S16 32) (k0_hw72 : k0_chk72 v91), ∀ a x, ((![v91] : Fin 1 → IVec S16 32) a x).toNat < S4224.size a := fun v91 k0_hw72 => k0_hw72
def k0_off42 (k0_t3 : Fin k0_t3_loop.trips) (c0_i32_45 : BitVec 32) : Fin 2 → Nat :=
  let c0_i32_34 : BitVec 32 := 0#32
  let c0_i32_23 : BitVec 32 := 0#32
  let c1_i32_25 : BitVec 32 := 1#32
  let arg16 : BitVec 32 := Scf.iv c0_i32_23 c1_i32_25 k0_t3
  let c1_i32_33 : BitVec 32 := 1#32
  let v52 : BitVec 32 := Scalar.muli arg16 c1_i32_33
  let v53 : BitVec 32 := Scalar.addi c0_i32_34 v52
  let c16_i32_43 : BitVec 32 := 16#32
  let v93 : BitVec 32 := Scalar.muli v53 c16_i32_43
  let c0_i32_44 : BitVec 32 := 0#32
  let v94 : BitVec 32 := Scalar.addi v93 c0_i32_44
  let v95 : BitVec 32 := Scalar.addi v94 c0_i32_45
  let v96 : Index := Scalar.indexCast v95
  let c0 : Index := 0#32
  ![v96.toNat, 0]
def k0_off43 (k0_t3 : Fin k0_t3_loop.trips) (c0_i32_48 : BitVec 32) : Fin 2 → Nat :=
  let c0_i32_34 : BitVec 32 := 0#32
  let c0_i32_23 : BitVec 32 := 0#32
  let c1_i32_25 : BitVec 32 := 1#32
  let arg16 : BitVec 32 := Scf.iv c0_i32_23 c1_i32_25 k0_t3
  let c1_i32_33 : BitVec 32 := 1#32
  let v52 : BitVec 32 := Scalar.muli arg16 c1_i32_33
  let v53 : BitVec 32 := Scalar.addi c0_i32_34 v52
  let c16_i32_46 : BitVec 32 := 16#32
  let v98 : BitVec 32 := Scalar.muli v53 c16_i32_46
  let c0_i32_47 : BitVec 32 := 0#32
  let v99 : BitVec 32 := Scalar.addi v98 c0_i32_47
  let v100 : BitVec 32 := Scalar.addi v99 c0_i32_48
  let v101 : Index := Scalar.indexCast v100
  let c16 : Index := 16#32
  ![v101.toNat, 16]
def k0_off44 (k0_t3 : Fin k0_t3_loop.trips) (c0_i32_51 : BitVec 32) : Fin 2 → Nat :=
  let c0_i32_34 : BitVec 32 := 0#32
  let c0_i32_23 : BitVec 32 := 0#32
  let c1_i32_25 : BitVec 32 := 1#32
  let arg16 : BitVec 32 := Scf.iv c0_i32_23 c1_i32_25 k0_t3
  let c1_i32_33 : BitVec 32 := 1#32
  let v52 : BitVec 32 := Scalar.muli arg16 c1_i32_33
  let v53 : BitVec 32 := Scalar.addi c0_i32_34 v52
  let c16_i32_49 : BitVec 32 := 16#32
  let v103 : BitVec 32 := Scalar.muli v53 c16_i32_49
  let c0_i32_50 : BitVec 32 := 0#32
  let v104 : BitVec 32 := Scalar.addi v103 c0_i32_50
  let v105 : BitVec 32 := Scalar.addi v104 c0_i32_51
  let v106 : Index := Scalar.indexCast v105
  let c32 : Index := 32#32
  ![v106.toNat, 32]
def k0_off45 (k0_t3 : Fin k0_t3_loop.trips) (c0_i32_54 : BitVec 32) : Fin 2 → Nat :=
  let c0_i32_34 : BitVec 32 := 0#32
  let c0_i32_23 : BitVec 32 := 0#32
  let c1_i32_25 : BitVec 32 := 1#32
  let arg16 : BitVec 32 := Scf.iv c0_i32_23 c1_i32_25 k0_t3
  let c1_i32_33 : BitVec 32 := 1#32
  let v52 : BitVec 32 := Scalar.muli arg16 c1_i32_33
  let v53 : BitVec 32 := Scalar.addi c0_i32_34 v52
  let c16_i32_52 : BitVec 32 := 16#32
  let v108 : BitVec 32 := Scalar.muli v53 c16_i32_52
  let c0_i32_53 : BitVec 32 := 0#32
  let v109 : BitVec 32 := Scalar.addi v108 c0_i32_53
  let v110 : BitVec 32 := Scalar.addi v109 c0_i32_54
  let v111 : Index := Scalar.indexCast v110
  let c48 : Index := 48#32
  ![v111.toNat, 48]

def k0_chk73 (v140 : IVec S16 32) : Prop :=
  (∀ a x, ((![v140] : Fin 1 → IVec S16 32) a x).toNat < S4224.size a)
instance k0_chk73.dec : ∀ (v140 : IVec S16 32), Decidable (k0_chk73 v140) := fun v140 => decidable_of_iff' _ (Iff.of_eq (k0_chk73.eq_1 v140))
theorem k0_idx73_inb : ∀ (v140 : IVec S16 32) (k0_hw73 : k0_chk73 v140), ∀ a x, ((![v140] : Fin 1 → IVec S16 32) a x).toNat < S4224.size a := fun v140 k0_hw73 => k0_hw73

def k0_chk74 (v143 : IVec S16 32) : Prop :=
  (∀ a x, ((![v143] : Fin 1 → IVec S16 32) a x).toNat < S4224.size a)
instance k0_chk74.dec : ∀ (v143 : IVec S16 32), Decidable (k0_chk74 v143) := fun v143 => decidable_of_iff' _ (Iff.of_eq (k0_chk74.eq_1 v143))
theorem k0_idx74_inb : ∀ (v143 : IVec S16 32) (k0_hw74 : k0_chk74 v143), ∀ a x, ((![v143] : Fin 1 → IVec S16 32) a x).toNat < S4224.size a := fun v143 k0_hw74 => k0_hw74

def k0_chk75 (v146 : IVec S16 32) : Prop :=
  (∀ a x, ((![v146] : Fin 1 → IVec S16 32) a x).toNat < S4224.size a)
instance k0_chk75.dec : ∀ (v146 : IVec S16 32), Decidable (k0_chk75 v146) := fun v146 => decidable_of_iff' _ (Iff.of_eq (k0_chk75.eq_1 v146))
theorem k0_idx75_inb : ∀ (v146 : IVec S16 32) (k0_hw75 : k0_chk75 v146), ∀ a x, ((![v146] : Fin 1 → IVec S16 32) a x).toNat < S4224.size a := fun v146 k0_hw75 => k0_hw75

def k0_chk76 (v149 : IVec S16 32) : Prop :=
  (∀ a x, ((![v149] : Fin 1 → IVec S16 32) a x).toNat < S4224.size a)
instance k0_chk76.dec : ∀ (v149 : IVec S16 32), Decidable (k0_chk76 v149) := fun v149 => decidable_of_iff' _ (Iff.of_eq (k0_chk76.eq_1 v149))
theorem k0_idx76_inb : ∀ (v149 : IVec S16 32) (k0_hw76 : k0_chk76 v149), ∀ a x, ((![v149] : Fin 1 → IVec S16 32) a x).toNat < S4224.size a := fun v149 k0_hw76 => k0_hw76

def k0_chk77 (v158 : IVec S16 32) : Prop :=
  (∀ a x, ((![v158] : Fin 1 → IVec S16 32) a x).toNat < S4224.size a)
instance k0_chk77.dec : ∀ (v158 : IVec S16 32), Decidable (k0_chk77 v158) := fun v158 => decidable_of_iff' _ (Iff.of_eq (k0_chk77.eq_1 v158))
theorem k0_idx77_inb : ∀ (v158 : IVec S16 32) (k0_hw77 : k0_chk77 v158), ∀ a x, ((![v158] : Fin 1 → IVec S16 32) a x).toNat < S4224.size a := fun v158 k0_hw77 => k0_hw77

def k0_chk78 (v161 : IVec S16 32) : Prop :=
  (∀ a x, ((![v161] : Fin 1 → IVec S16 32) a x).toNat < S4224.size a)
instance k0_chk78.dec : ∀ (v161 : IVec S16 32), Decidable (k0_chk78 v161) := fun v161 => decidable_of_iff' _ (Iff.of_eq (k0_chk78.eq_1 v161))
theorem k0_idx78_inb : ∀ (v161 : IVec S16 32) (k0_hw78 : k0_chk78 v161), ∀ a x, ((![v161] : Fin 1 → IVec S16 32) a x).toNat < S4224.size a := fun v161 k0_hw78 => k0_hw78

def k0_chk79 (v164 : IVec S16 32) : Prop :=
  (∀ a x, ((![v164] : Fin 1 → IVec S16 32) a x).toNat < S4224.size a)
instance k0_chk79.dec : ∀ (v164 : IVec S16 32), Decidable (k0_chk79 v164) := fun v164 => decidable_of_iff' _ (Iff.of_eq (k0_chk79.eq_1 v164))
theorem k0_idx79_inb : ∀ (v164 : IVec S16 32) (k0_hw79 : k0_chk79 v164), ∀ a x, ((![v164] : Fin 1 → IVec S16 32) a x).toNat < S4224.size a := fun v164 k0_hw79 => k0_hw79

def k0_chk80 (v167 : IVec S16 32) : Prop :=
  (∀ a x, ((![v167] : Fin 1 → IVec S16 32) a x).toNat < S4224.size a)
instance k0_chk80.dec : ∀ (v167 : IVec S16 32), Decidable (k0_chk80 v167) := fun v167 => decidable_of_iff' _ (Iff.of_eq (k0_chk80.eq_1 v167))
theorem k0_idx80_inb : ∀ (v167 : IVec S16 32) (k0_hw80 : k0_chk80 v167), ∀ a x, ((![v167] : Fin 1 → IVec S16 32) a x).toNat < S4224.size a := fun v167 k0_hw80 => k0_hw80
def k0_off46 (k0_t3 : Fin k0_t3_loop.trips) (c0_i32_83 : BitVec 32) : Fin 2 → Nat :=
  let c0_i32_34 : BitVec 32 := 0#32
  let c0_i32_23 : BitVec 32 := 0#32
  let c1_i32_25 : BitVec 32 := 1#32
  let arg16 : BitVec 32 := Scf.iv c0_i32_23 c1_i32_25 k0_t3
  let c1_i32_33 : BitVec 32 := 1#32
  let v52 : BitVec 32 := Scalar.muli arg16 c1_i32_33
  let v53 : BitVec 32 := Scalar.addi c0_i32_34 v52
  let c16_i32_81 : BitVec 32 := 16#32
  let v169 : BitVec 32 := Scalar.muli v53 c16_i32_81
  let c2_i32_82 : BitVec 32 := 2#32
  let v170 : BitVec 32 := Scalar.addi v169 c2_i32_82
  let v171 : BitVec 32 := Scalar.addi v170 c0_i32_83
  let v172 : Index := Scalar.indexCast v171
  let c0_84 : Index := 0#32
  ![v172.toNat, 0]
def k0_off47 (k0_t3 : Fin k0_t3_loop.trips) (c0_i32_87 : BitVec 32) : Fin 2 → Nat :=
  let c0_i32_34 : BitVec 32 := 0#32
  let c0_i32_23 : BitVec 32 := 0#32
  let c1_i32_25 : BitVec 32 := 1#32
  let arg16 : BitVec 32 := Scf.iv c0_i32_23 c1_i32_25 k0_t3
  let c1_i32_33 : BitVec 32 := 1#32
  let v52 : BitVec 32 := Scalar.muli arg16 c1_i32_33
  let v53 : BitVec 32 := Scalar.addi c0_i32_34 v52
  let c16_i32_85 : BitVec 32 := 16#32
  let v174 : BitVec 32 := Scalar.muli v53 c16_i32_85
  let c2_i32_86 : BitVec 32 := 2#32
  let v175 : BitVec 32 := Scalar.addi v174 c2_i32_86
  let v176 : BitVec 32 := Scalar.addi v175 c0_i32_87
  let v177 : Index := Scalar.indexCast v176
  let c16_88 : Index := 16#32
  ![v177.toNat, 16]
def k0_off48 (k0_t3 : Fin k0_t3_loop.trips) (c0_i32_91 : BitVec 32) : Fin 2 → Nat :=
  let c0_i32_34 : BitVec 32 := 0#32
  let c0_i32_23 : BitVec 32 := 0#32
  let c1_i32_25 : BitVec 32 := 1#32
  let arg16 : BitVec 32 := Scf.iv c0_i32_23 c1_i32_25 k0_t3
  let c1_i32_33 : BitVec 32 := 1#32
  let v52 : BitVec 32 := Scalar.muli arg16 c1_i32_33
  let v53 : BitVec 32 := Scalar.addi c0_i32_34 v52
  let c16_i32_89 : BitVec 32 := 16#32
  let v179 : BitVec 32 := Scalar.muli v53 c16_i32_89
  let c2_i32_90 : BitVec 32 := 2#32
  let v180 : BitVec 32 := Scalar.addi v179 c2_i32_90
  let v181 : BitVec 32 := Scalar.addi v180 c0_i32_91
  let v182 : Index := Scalar.indexCast v181
  let c32_92 : Index := 32#32
  ![v182.toNat, 32]
def k0_off49 (k0_t3 : Fin k0_t3_loop.trips) (c0_i32_95 : BitVec 32) : Fin 2 → Nat :=
  let c0_i32_34 : BitVec 32 := 0#32
  let c0_i32_23 : BitVec 32 := 0#32
  let c1_i32_25 : BitVec 32 := 1#32
  let arg16 : BitVec 32 := Scf.iv c0_i32_23 c1_i32_25 k0_t3
  let c1_i32_33 : BitVec 32 := 1#32
  let v52 : BitVec 32 := Scalar.muli arg16 c1_i32_33
  let v53 : BitVec 32 := Scalar.addi c0_i32_34 v52
  let c16_i32_93 : BitVec 32 := 16#32
  let v184 : BitVec 32 := Scalar.muli v53 c16_i32_93
  let c2_i32_94 : BitVec 32 := 2#32
  let v185 : BitVec 32 := Scalar.addi v184 c2_i32_94
  let v186 : BitVec 32 := Scalar.addi v185 c0_i32_95
  let v187 : Index := Scalar.indexCast v186
  let c48_96 : Index := 48#32
  ![v187.toNat, 48]

def k0_chk81 (v216 : IVec S16 32) : Prop :=
  (∀ a x, ((![v216] : Fin 1 → IVec S16 32) a x).toNat < S4224.size a)
instance k0_chk81.dec : ∀ (v216 : IVec S16 32), Decidable (k0_chk81 v216) := fun v216 => decidable_of_iff' _ (Iff.of_eq (k0_chk81.eq_1 v216))
theorem k0_idx81_inb : ∀ (v216 : IVec S16 32) (k0_hw81 : k0_chk81 v216), ∀ a x, ((![v216] : Fin 1 → IVec S16 32) a x).toNat < S4224.size a := fun v216 k0_hw81 => k0_hw81

def k0_chk82 (v219 : IVec S16 32) : Prop :=
  (∀ a x, ((![v219] : Fin 1 → IVec S16 32) a x).toNat < S4224.size a)
instance k0_chk82.dec : ∀ (v219 : IVec S16 32), Decidable (k0_chk82 v219) := fun v219 => decidable_of_iff' _ (Iff.of_eq (k0_chk82.eq_1 v219))
theorem k0_idx82_inb : ∀ (v219 : IVec S16 32) (k0_hw82 : k0_chk82 v219), ∀ a x, ((![v219] : Fin 1 → IVec S16 32) a x).toNat < S4224.size a := fun v219 k0_hw82 => k0_hw82

def k0_chk83 (v222 : IVec S16 32) : Prop :=
  (∀ a x, ((![v222] : Fin 1 → IVec S16 32) a x).toNat < S4224.size a)
instance k0_chk83.dec : ∀ (v222 : IVec S16 32), Decidable (k0_chk83 v222) := fun v222 => decidable_of_iff' _ (Iff.of_eq (k0_chk83.eq_1 v222))
theorem k0_idx83_inb : ∀ (v222 : IVec S16 32) (k0_hw83 : k0_chk83 v222), ∀ a x, ((![v222] : Fin 1 → IVec S16 32) a x).toNat < S4224.size a := fun v222 k0_hw83 => k0_hw83

def k0_chk84 (v225 : IVec S16 32) : Prop :=
  (∀ a x, ((![v225] : Fin 1 → IVec S16 32) a x).toNat < S4224.size a)
instance k0_chk84.dec : ∀ (v225 : IVec S16 32), Decidable (k0_chk84 v225) := fun v225 => decidable_of_iff' _ (Iff.of_eq (k0_chk84.eq_1 v225))
theorem k0_idx84_inb : ∀ (v225 : IVec S16 32) (k0_hw84 : k0_chk84 v225), ∀ a x, ((![v225] : Fin 1 → IVec S16 32) a x).toNat < S4224.size a := fun v225 k0_hw84 => k0_hw84

def k0_chk85 (v234 : IVec S16 32) : Prop :=
  (∀ a x, ((![v234] : Fin 1 → IVec S16 32) a x).toNat < S4224.size a)
instance k0_chk85.dec : ∀ (v234 : IVec S16 32), Decidable (k0_chk85 v234) := fun v234 => decidable_of_iff' _ (Iff.of_eq (k0_chk85.eq_1 v234))
theorem k0_idx85_inb : ∀ (v234 : IVec S16 32) (k0_hw85 : k0_chk85 v234), ∀ a x, ((![v234] : Fin 1 → IVec S16 32) a x).toNat < S4224.size a := fun v234 k0_hw85 => k0_hw85

def k0_chk86 (v237 : IVec S16 32) : Prop :=
  (∀ a x, ((![v237] : Fin 1 → IVec S16 32) a x).toNat < S4224.size a)
instance k0_chk86.dec : ∀ (v237 : IVec S16 32), Decidable (k0_chk86 v237) := fun v237 => decidable_of_iff' _ (Iff.of_eq (k0_chk86.eq_1 v237))
theorem k0_idx86_inb : ∀ (v237 : IVec S16 32) (k0_hw86 : k0_chk86 v237), ∀ a x, ((![v237] : Fin 1 → IVec S16 32) a x).toNat < S4224.size a := fun v237 k0_hw86 => k0_hw86

def k0_chk87 (v240 : IVec S16 32) : Prop :=
  (∀ a x, ((![v240] : Fin 1 → IVec S16 32) a x).toNat < S4224.size a)
instance k0_chk87.dec : ∀ (v240 : IVec S16 32), Decidable (k0_chk87 v240) := fun v240 => decidable_of_iff' _ (Iff.of_eq (k0_chk87.eq_1 v240))
theorem k0_idx87_inb : ∀ (v240 : IVec S16 32) (k0_hw87 : k0_chk87 v240), ∀ a x, ((![v240] : Fin 1 → IVec S16 32) a x).toNat < S4224.size a := fun v240 k0_hw87 => k0_hw87

def k0_chk88 (v243 : IVec S16 32) : Prop :=
  (∀ a x, ((![v243] : Fin 1 → IVec S16 32) a x).toNat < S4224.size a)
instance k0_chk88.dec : ∀ (v243 : IVec S16 32), Decidable (k0_chk88 v243) := fun v243 => decidable_of_iff' _ (Iff.of_eq (k0_chk88.eq_1 v243))
theorem k0_idx88_inb : ∀ (v243 : IVec S16 32) (k0_hw88 : k0_chk88 v243), ∀ a x, ((![v243] : Fin 1 → IVec S16 32) a x).toNat < S4224.size a := fun v243 k0_hw88 => k0_hw88
def k0_off50 (k0_t3 : Fin k0_t3_loop.trips) (c0_i32_124 : BitVec 32) : Fin 2 → Nat :=
  let c0_i32_34 : BitVec 32 := 0#32
  let c0_i32_23 : BitVec 32 := 0#32
  let c1_i32_25 : BitVec 32 := 1#32
  let arg16 : BitVec 32 := Scf.iv c0_i32_23 c1_i32_25 k0_t3
  let c1_i32_33 : BitVec 32 := 1#32
  let v52 : BitVec 32 := Scalar.muli arg16 c1_i32_33
  let v53 : BitVec 32 := Scalar.addi c0_i32_34 v52
  let c16_i32_123 : BitVec 32 := 16#32
  let v245 : BitVec 32 := Scalar.muli v53 c16_i32_123
  let c4_i32 : BitVec 32 := 4#32
  let v246 : BitVec 32 := Scalar.addi v245 c4_i32
  let v247 : BitVec 32 := Scalar.addi v246 c0_i32_124
  let v248 : Index := Scalar.indexCast v247
  let c0_125 : Index := 0#32
  ![v248.toNat, 0]
def k0_off51 (k0_t3 : Fin k0_t3_loop.trips) (c0_i32_128 : BitVec 32) : Fin 2 → Nat :=
  let c0_i32_34 : BitVec 32 := 0#32
  let c0_i32_23 : BitVec 32 := 0#32
  let c1_i32_25 : BitVec 32 := 1#32
  let arg16 : BitVec 32 := Scf.iv c0_i32_23 c1_i32_25 k0_t3
  let c1_i32_33 : BitVec 32 := 1#32
  let v52 : BitVec 32 := Scalar.muli arg16 c1_i32_33
  let v53 : BitVec 32 := Scalar.addi c0_i32_34 v52
  let c16_i32_126 : BitVec 32 := 16#32
  let v250 : BitVec 32 := Scalar.muli v53 c16_i32_126
  let c4_i32_127 : BitVec 32 := 4#32
  let v251 : BitVec 32 := Scalar.addi v250 c4_i32_127
  let v252 : BitVec 32 := Scalar.addi v251 c0_i32_128
  let v253 : Index := Scalar.indexCast v252
  let c16_129 : Index := 16#32
  ![v253.toNat, 16]
def k0_off52 (k0_t3 : Fin k0_t3_loop.trips) (c0_i32_132 : BitVec 32) : Fin 2 → Nat :=
  let c0_i32_34 : BitVec 32 := 0#32
  let c0_i32_23 : BitVec 32 := 0#32
  let c1_i32_25 : BitVec 32 := 1#32
  let arg16 : BitVec 32 := Scf.iv c0_i32_23 c1_i32_25 k0_t3
  let c1_i32_33 : BitVec 32 := 1#32
  let v52 : BitVec 32 := Scalar.muli arg16 c1_i32_33
  let v53 : BitVec 32 := Scalar.addi c0_i32_34 v52
  let c16_i32_130 : BitVec 32 := 16#32
  let v255 : BitVec 32 := Scalar.muli v53 c16_i32_130
  let c4_i32_131 : BitVec 32 := 4#32
  let v256 : BitVec 32 := Scalar.addi v255 c4_i32_131
  let v257 : BitVec 32 := Scalar.addi v256 c0_i32_132
  let v258 : Index := Scalar.indexCast v257
  let c32_133 : Index := 32#32
  ![v258.toNat, 32]
def k0_off53 (k0_t3 : Fin k0_t3_loop.trips) (c0_i32_136 : BitVec 32) : Fin 2 → Nat :=
  let c0_i32_34 : BitVec 32 := 0#32
  let c0_i32_23 : BitVec 32 := 0#32
  let c1_i32_25 : BitVec 32 := 1#32
  let arg16 : BitVec 32 := Scf.iv c0_i32_23 c1_i32_25 k0_t3
  let c1_i32_33 : BitVec 32 := 1#32
  let v52 : BitVec 32 := Scalar.muli arg16 c1_i32_33
  let v53 : BitVec 32 := Scalar.addi c0_i32_34 v52
  let c16_i32_134 : BitVec 32 := 16#32
  let v260 : BitVec 32 := Scalar.muli v53 c16_i32_134
  let c4_i32_135 : BitVec 32 := 4#32
  let v261 : BitVec 32 := Scalar.addi v260 c4_i32_135
  let v262 : BitVec 32 := Scalar.addi v261 c0_i32_136
  let v263 : Index := Scalar.indexCast v262
  let c48_137 : Index := 48#32
  ![v263.toNat, 48]

def k0_chk89 (v292 : IVec S16 32) : Prop :=
  (∀ a x, ((![v292] : Fin 1 → IVec S16 32) a x).toNat < S4224.size a)
instance k0_chk89.dec : ∀ (v292 : IVec S16 32), Decidable (k0_chk89 v292) := fun v292 => decidable_of_iff' _ (Iff.of_eq (k0_chk89.eq_1 v292))
theorem k0_idx89_inb : ∀ (v292 : IVec S16 32) (k0_hw89 : k0_chk89 v292), ∀ a x, ((![v292] : Fin 1 → IVec S16 32) a x).toNat < S4224.size a := fun v292 k0_hw89 => k0_hw89

def k0_chk90 (v295 : IVec S16 32) : Prop :=
  (∀ a x, ((![v295] : Fin 1 → IVec S16 32) a x).toNat < S4224.size a)
instance k0_chk90.dec : ∀ (v295 : IVec S16 32), Decidable (k0_chk90 v295) := fun v295 => decidable_of_iff' _ (Iff.of_eq (k0_chk90.eq_1 v295))
theorem k0_idx90_inb : ∀ (v295 : IVec S16 32) (k0_hw90 : k0_chk90 v295), ∀ a x, ((![v295] : Fin 1 → IVec S16 32) a x).toNat < S4224.size a := fun v295 k0_hw90 => k0_hw90

def k0_chk91 (v298 : IVec S16 32) : Prop :=
  (∀ a x, ((![v298] : Fin 1 → IVec S16 32) a x).toNat < S4224.size a)
instance k0_chk91.dec : ∀ (v298 : IVec S16 32), Decidable (k0_chk91 v298) := fun v298 => decidable_of_iff' _ (Iff.of_eq (k0_chk91.eq_1 v298))
theorem k0_idx91_inb : ∀ (v298 : IVec S16 32) (k0_hw91 : k0_chk91 v298), ∀ a x, ((![v298] : Fin 1 → IVec S16 32) a x).toNat < S4224.size a := fun v298 k0_hw91 => k0_hw91

def k0_chk92 (v301 : IVec S16 32) : Prop :=
  (∀ a x, ((![v301] : Fin 1 → IVec S16 32) a x).toNat < S4224.size a)
instance k0_chk92.dec : ∀ (v301 : IVec S16 32), Decidable (k0_chk92 v301) := fun v301 => decidable_of_iff' _ (Iff.of_eq (k0_chk92.eq_1 v301))
theorem k0_idx92_inb : ∀ (v301 : IVec S16 32) (k0_hw92 : k0_chk92 v301), ∀ a x, ((![v301] : Fin 1 → IVec S16 32) a x).toNat < S4224.size a := fun v301 k0_hw92 => k0_hw92

def k0_chk93 (v310 : IVec S16 32) : Prop :=
  (∀ a x, ((![v310] : Fin 1 → IVec S16 32) a x).toNat < S4224.size a)
instance k0_chk93.dec : ∀ (v310 : IVec S16 32), Decidable (k0_chk93 v310) := fun v310 => decidable_of_iff' _ (Iff.of_eq (k0_chk93.eq_1 v310))
theorem k0_idx93_inb : ∀ (v310 : IVec S16 32) (k0_hw93 : k0_chk93 v310), ∀ a x, ((![v310] : Fin 1 → IVec S16 32) a x).toNat < S4224.size a := fun v310 k0_hw93 => k0_hw93

def k0_chk94 (v313 : IVec S16 32) : Prop :=
  (∀ a x, ((![v313] : Fin 1 → IVec S16 32) a x).toNat < S4224.size a)
instance k0_chk94.dec : ∀ (v313 : IVec S16 32), Decidable (k0_chk94 v313) := fun v313 => decidable_of_iff' _ (Iff.of_eq (k0_chk94.eq_1 v313))
theorem k0_idx94_inb : ∀ (v313 : IVec S16 32) (k0_hw94 : k0_chk94 v313), ∀ a x, ((![v313] : Fin 1 → IVec S16 32) a x).toNat < S4224.size a := fun v313 k0_hw94 => k0_hw94

def k0_chk95 (v316 : IVec S16 32) : Prop :=
  (∀ a x, ((![v316] : Fin 1 → IVec S16 32) a x).toNat < S4224.size a)
instance k0_chk95.dec : ∀ (v316 : IVec S16 32), Decidable (k0_chk95 v316) := fun v316 => decidable_of_iff' _ (Iff.of_eq (k0_chk95.eq_1 v316))
theorem k0_idx95_inb : ∀ (v316 : IVec S16 32) (k0_hw95 : k0_chk95 v316), ∀ a x, ((![v316] : Fin 1 → IVec S16 32) a x).toNat < S4224.size a := fun v316 k0_hw95 => k0_hw95

def k0_chk96 (v319 : IVec S16 32) : Prop :=
  (∀ a x, ((![v319] : Fin 1 → IVec S16 32) a x).toNat < S4224.size a)
instance k0_chk96.dec : ∀ (v319 : IVec S16 32), Decidable (k0_chk96 v319) := fun v319 => decidable_of_iff' _ (Iff.of_eq (k0_chk96.eq_1 v319))
theorem k0_idx96_inb : ∀ (v319 : IVec S16 32) (k0_hw96 : k0_chk96 v319), ∀ a x, ((![v319] : Fin 1 → IVec S16 32) a x).toNat < S4224.size a := fun v319 k0_hw96 => k0_hw96
def k0_off54 (k0_t3 : Fin k0_t3_loop.trips) (c0_i32_165 : BitVec 32) : Fin 2 → Nat :=
  let c0_i32_34 : BitVec 32 := 0#32
  let c0_i32_23 : BitVec 32 := 0#32
  let c1_i32_25 : BitVec 32 := 1#32
  let arg16 : BitVec 32 := Scf.iv c0_i32_23 c1_i32_25 k0_t3
  let c1_i32_33 : BitVec 32 := 1#32
  let v52 : BitVec 32 := Scalar.muli arg16 c1_i32_33
  let v53 : BitVec 32 := Scalar.addi c0_i32_34 v52
  let c16_i32_164 : BitVec 32 := 16#32
  let v321 : BitVec 32 := Scalar.muli v53 c16_i32_164
  let c6_i32 : BitVec 32 := 6#32
  let v322 : BitVec 32 := Scalar.addi v321 c6_i32
  let v323 : BitVec 32 := Scalar.addi v322 c0_i32_165
  let v324 : Index := Scalar.indexCast v323
  let c0_166 : Index := 0#32
  ![v324.toNat, 0]
def k0_off55 (k0_t3 : Fin k0_t3_loop.trips) (c0_i32_169 : BitVec 32) : Fin 2 → Nat :=
  let c0_i32_34 : BitVec 32 := 0#32
  let c0_i32_23 : BitVec 32 := 0#32
  let c1_i32_25 : BitVec 32 := 1#32
  let arg16 : BitVec 32 := Scf.iv c0_i32_23 c1_i32_25 k0_t3
  let c1_i32_33 : BitVec 32 := 1#32
  let v52 : BitVec 32 := Scalar.muli arg16 c1_i32_33
  let v53 : BitVec 32 := Scalar.addi c0_i32_34 v52
  let c16_i32_167 : BitVec 32 := 16#32
  let v326 : BitVec 32 := Scalar.muli v53 c16_i32_167
  let c6_i32_168 : BitVec 32 := 6#32
  let v327 : BitVec 32 := Scalar.addi v326 c6_i32_168
  let v328 : BitVec 32 := Scalar.addi v327 c0_i32_169
  let v329 : Index := Scalar.indexCast v328
  let c16_170 : Index := 16#32
  ![v329.toNat, 16]
def k0_off56 (k0_t3 : Fin k0_t3_loop.trips) (c0_i32_173 : BitVec 32) : Fin 2 → Nat :=
  let c0_i32_34 : BitVec 32 := 0#32
  let c0_i32_23 : BitVec 32 := 0#32
  let c1_i32_25 : BitVec 32 := 1#32
  let arg16 : BitVec 32 := Scf.iv c0_i32_23 c1_i32_25 k0_t3
  let c1_i32_33 : BitVec 32 := 1#32
  let v52 : BitVec 32 := Scalar.muli arg16 c1_i32_33
  let v53 : BitVec 32 := Scalar.addi c0_i32_34 v52
  let c16_i32_171 : BitVec 32 := 16#32
  let v331 : BitVec 32 := Scalar.muli v53 c16_i32_171
  let c6_i32_172 : BitVec 32 := 6#32
  let v332 : BitVec 32 := Scalar.addi v331 c6_i32_172
  let v333 : BitVec 32 := Scalar.addi v332 c0_i32_173
  let v334 : Index := Scalar.indexCast v333
  let c32_174 : Index := 32#32
  ![v334.toNat, 32]
def k0_off57 (k0_t3 : Fin k0_t3_loop.trips) (c0_i32_177 : BitVec 32) : Fin 2 → Nat :=
  let c0_i32_34 : BitVec 32 := 0#32
  let c0_i32_23 : BitVec 32 := 0#32
  let c1_i32_25 : BitVec 32 := 1#32
  let arg16 : BitVec 32 := Scf.iv c0_i32_23 c1_i32_25 k0_t3
  let c1_i32_33 : BitVec 32 := 1#32
  let v52 : BitVec 32 := Scalar.muli arg16 c1_i32_33
  let v53 : BitVec 32 := Scalar.addi c0_i32_34 v52
  let c16_i32_175 : BitVec 32 := 16#32
  let v336 : BitVec 32 := Scalar.muli v53 c16_i32_175
  let c6_i32_176 : BitVec 32 := 6#32
  let v337 : BitVec 32 := Scalar.addi v336 c6_i32_176
  let v338 : BitVec 32 := Scalar.addi v337 c0_i32_177
  let v339 : Index := Scalar.indexCast v338
  let c48_178 : Index := 48#32
  ![v339.toNat, 48]

def k0_chk97 (v368 : IVec S16 32) : Prop :=
  (∀ a x, ((![v368] : Fin 1 → IVec S16 32) a x).toNat < S4224.size a)
instance k0_chk97.dec : ∀ (v368 : IVec S16 32), Decidable (k0_chk97 v368) := fun v368 => decidable_of_iff' _ (Iff.of_eq (k0_chk97.eq_1 v368))
theorem k0_idx97_inb : ∀ (v368 : IVec S16 32) (k0_hw97 : k0_chk97 v368), ∀ a x, ((![v368] : Fin 1 → IVec S16 32) a x).toNat < S4224.size a := fun v368 k0_hw97 => k0_hw97

def k0_chk98 (v371 : IVec S16 32) : Prop :=
  (∀ a x, ((![v371] : Fin 1 → IVec S16 32) a x).toNat < S4224.size a)
instance k0_chk98.dec : ∀ (v371 : IVec S16 32), Decidable (k0_chk98 v371) := fun v371 => decidable_of_iff' _ (Iff.of_eq (k0_chk98.eq_1 v371))
theorem k0_idx98_inb : ∀ (v371 : IVec S16 32) (k0_hw98 : k0_chk98 v371), ∀ a x, ((![v371] : Fin 1 → IVec S16 32) a x).toNat < S4224.size a := fun v371 k0_hw98 => k0_hw98

def k0_chk99 (v374 : IVec S16 32) : Prop :=
  (∀ a x, ((![v374] : Fin 1 → IVec S16 32) a x).toNat < S4224.size a)
instance k0_chk99.dec : ∀ (v374 : IVec S16 32), Decidable (k0_chk99 v374) := fun v374 => decidable_of_iff' _ (Iff.of_eq (k0_chk99.eq_1 v374))
theorem k0_idx99_inb : ∀ (v374 : IVec S16 32) (k0_hw99 : k0_chk99 v374), ∀ a x, ((![v374] : Fin 1 → IVec S16 32) a x).toNat < S4224.size a := fun v374 k0_hw99 => k0_hw99

def k0_chk100 (v377 : IVec S16 32) : Prop :=
  (∀ a x, ((![v377] : Fin 1 → IVec S16 32) a x).toNat < S4224.size a)
instance k0_chk100.dec : ∀ (v377 : IVec S16 32), Decidable (k0_chk100 v377) := fun v377 => decidable_of_iff' _ (Iff.of_eq (k0_chk100.eq_1 v377))
theorem k0_idx100_inb : ∀ (v377 : IVec S16 32) (k0_hw100 : k0_chk100 v377), ∀ a x, ((![v377] : Fin 1 → IVec S16 32) a x).toNat < S4224.size a := fun v377 k0_hw100 => k0_hw100

def k0_chk101 (v386 : IVec S16 32) : Prop :=
  (∀ a x, ((![v386] : Fin 1 → IVec S16 32) a x).toNat < S4224.size a)
instance k0_chk101.dec : ∀ (v386 : IVec S16 32), Decidable (k0_chk101 v386) := fun v386 => decidable_of_iff' _ (Iff.of_eq (k0_chk101.eq_1 v386))
theorem k0_idx101_inb : ∀ (v386 : IVec S16 32) (k0_hw101 : k0_chk101 v386), ∀ a x, ((![v386] : Fin 1 → IVec S16 32) a x).toNat < S4224.size a := fun v386 k0_hw101 => k0_hw101

def k0_chk102 (v389 : IVec S16 32) : Prop :=
  (∀ a x, ((![v389] : Fin 1 → IVec S16 32) a x).toNat < S4224.size a)
instance k0_chk102.dec : ∀ (v389 : IVec S16 32), Decidable (k0_chk102 v389) := fun v389 => decidable_of_iff' _ (Iff.of_eq (k0_chk102.eq_1 v389))
theorem k0_idx102_inb : ∀ (v389 : IVec S16 32) (k0_hw102 : k0_chk102 v389), ∀ a x, ((![v389] : Fin 1 → IVec S16 32) a x).toNat < S4224.size a := fun v389 k0_hw102 => k0_hw102

def k0_chk103 (v392 : IVec S16 32) : Prop :=
  (∀ a x, ((![v392] : Fin 1 → IVec S16 32) a x).toNat < S4224.size a)
instance k0_chk103.dec : ∀ (v392 : IVec S16 32), Decidable (k0_chk103 v392) := fun v392 => decidable_of_iff' _ (Iff.of_eq (k0_chk103.eq_1 v392))
theorem k0_idx103_inb : ∀ (v392 : IVec S16 32) (k0_hw103 : k0_chk103 v392), ∀ a x, ((![v392] : Fin 1 → IVec S16 32) a x).toNat < S4224.size a := fun v392 k0_hw103 => k0_hw103

def k0_chk104 (v395 : IVec S16 32) : Prop :=
  (∀ a x, ((![v395] : Fin 1 → IVec S16 32) a x).toNat < S4224.size a)
instance k0_chk104.dec : ∀ (v395 : IVec S16 32), Decidable (k0_chk104 v395) := fun v395 => decidable_of_iff' _ (Iff.of_eq (k0_chk104.eq_1 v395))
theorem k0_idx104_inb : ∀ (v395 : IVec S16 32) (k0_hw104 : k0_chk104 v395), ∀ a x, ((![v395] : Fin 1 → IVec S16 32) a x).toNat < S4224.size a := fun v395 k0_hw104 => k0_hw104
def k0_off58 (k0_t3 : Fin k0_t3_loop.trips) (c0_i32_206 : BitVec 32) : Fin 2 → Nat :=
  let c0_i32_34 : BitVec 32 := 0#32
  let c0_i32_23 : BitVec 32 := 0#32
  let c1_i32_25 : BitVec 32 := 1#32
  let arg16 : BitVec 32 := Scf.iv c0_i32_23 c1_i32_25 k0_t3
  let c1_i32_33 : BitVec 32 := 1#32
  let v52 : BitVec 32 := Scalar.muli arg16 c1_i32_33
  let v53 : BitVec 32 := Scalar.addi c0_i32_34 v52
  let c16_i32_205 : BitVec 32 := 16#32
  let v397 : BitVec 32 := Scalar.muli v53 c16_i32_205
  let c8_i32 : BitVec 32 := 8#32
  let v398 : BitVec 32 := Scalar.addi v397 c8_i32
  let v399 : BitVec 32 := Scalar.addi v398 c0_i32_206
  let v400 : Index := Scalar.indexCast v399
  let c0_207 : Index := 0#32
  ![v400.toNat, 0]
def k0_off59 (k0_t3 : Fin k0_t3_loop.trips) (c0_i32_210 : BitVec 32) : Fin 2 → Nat :=
  let c0_i32_34 : BitVec 32 := 0#32
  let c0_i32_23 : BitVec 32 := 0#32
  let c1_i32_25 : BitVec 32 := 1#32
  let arg16 : BitVec 32 := Scf.iv c0_i32_23 c1_i32_25 k0_t3
  let c1_i32_33 : BitVec 32 := 1#32
  let v52 : BitVec 32 := Scalar.muli arg16 c1_i32_33
  let v53 : BitVec 32 := Scalar.addi c0_i32_34 v52
  let c16_i32_208 : BitVec 32 := 16#32
  let v402 : BitVec 32 := Scalar.muli v53 c16_i32_208
  let c8_i32_209 : BitVec 32 := 8#32
  let v403 : BitVec 32 := Scalar.addi v402 c8_i32_209
  let v404 : BitVec 32 := Scalar.addi v403 c0_i32_210
  let v405 : Index := Scalar.indexCast v404
  let c16_211 : Index := 16#32
  ![v405.toNat, 16]
def k0_off60 (k0_t3 : Fin k0_t3_loop.trips) (c0_i32_214 : BitVec 32) : Fin 2 → Nat :=
  let c0_i32_34 : BitVec 32 := 0#32
  let c0_i32_23 : BitVec 32 := 0#32
  let c1_i32_25 : BitVec 32 := 1#32
  let arg16 : BitVec 32 := Scf.iv c0_i32_23 c1_i32_25 k0_t3
  let c1_i32_33 : BitVec 32 := 1#32
  let v52 : BitVec 32 := Scalar.muli arg16 c1_i32_33
  let v53 : BitVec 32 := Scalar.addi c0_i32_34 v52
  let c16_i32_212 : BitVec 32 := 16#32
  let v407 : BitVec 32 := Scalar.muli v53 c16_i32_212
  let c8_i32_213 : BitVec 32 := 8#32
  let v408 : BitVec 32 := Scalar.addi v407 c8_i32_213
  let v409 : BitVec 32 := Scalar.addi v408 c0_i32_214
  let v410 : Index := Scalar.indexCast v409
  let c32_215 : Index := 32#32
  ![v410.toNat, 32]
def k0_off61 (k0_t3 : Fin k0_t3_loop.trips) (c0_i32_218 : BitVec 32) : Fin 2 → Nat :=
  let c0_i32_34 : BitVec 32 := 0#32
  let c0_i32_23 : BitVec 32 := 0#32
  let c1_i32_25 : BitVec 32 := 1#32
  let arg16 : BitVec 32 := Scf.iv c0_i32_23 c1_i32_25 k0_t3
  let c1_i32_33 : BitVec 32 := 1#32
  let v52 : BitVec 32 := Scalar.muli arg16 c1_i32_33
  let v53 : BitVec 32 := Scalar.addi c0_i32_34 v52
  let c16_i32_216 : BitVec 32 := 16#32
  let v412 : BitVec 32 := Scalar.muli v53 c16_i32_216
  let c8_i32_217 : BitVec 32 := 8#32
  let v413 : BitVec 32 := Scalar.addi v412 c8_i32_217
  let v414 : BitVec 32 := Scalar.addi v413 c0_i32_218
  let v415 : Index := Scalar.indexCast v414
  let c48_219 : Index := 48#32
  ![v415.toNat, 48]

def k0_chk105 (v444 : IVec S16 32) : Prop :=
  (∀ a x, ((![v444] : Fin 1 → IVec S16 32) a x).toNat < S4224.size a)
instance k0_chk105.dec : ∀ (v444 : IVec S16 32), Decidable (k0_chk105 v444) := fun v444 => decidable_of_iff' _ (Iff.of_eq (k0_chk105.eq_1 v444))
theorem k0_idx105_inb : ∀ (v444 : IVec S16 32) (k0_hw105 : k0_chk105 v444), ∀ a x, ((![v444] : Fin 1 → IVec S16 32) a x).toNat < S4224.size a := fun v444 k0_hw105 => k0_hw105

def k0_chk106 (v447 : IVec S16 32) : Prop :=
  (∀ a x, ((![v447] : Fin 1 → IVec S16 32) a x).toNat < S4224.size a)
instance k0_chk106.dec : ∀ (v447 : IVec S16 32), Decidable (k0_chk106 v447) := fun v447 => decidable_of_iff' _ (Iff.of_eq (k0_chk106.eq_1 v447))
theorem k0_idx106_inb : ∀ (v447 : IVec S16 32) (k0_hw106 : k0_chk106 v447), ∀ a x, ((![v447] : Fin 1 → IVec S16 32) a x).toNat < S4224.size a := fun v447 k0_hw106 => k0_hw106

def k0_chk107 (v450 : IVec S16 32) : Prop :=
  (∀ a x, ((![v450] : Fin 1 → IVec S16 32) a x).toNat < S4224.size a)
instance k0_chk107.dec : ∀ (v450 : IVec S16 32), Decidable (k0_chk107 v450) := fun v450 => decidable_of_iff' _ (Iff.of_eq (k0_chk107.eq_1 v450))
theorem k0_idx107_inb : ∀ (v450 : IVec S16 32) (k0_hw107 : k0_chk107 v450), ∀ a x, ((![v450] : Fin 1 → IVec S16 32) a x).toNat < S4224.size a := fun v450 k0_hw107 => k0_hw107

def k0_chk108 (v453 : IVec S16 32) : Prop :=
  (∀ a x, ((![v453] : Fin 1 → IVec S16 32) a x).toNat < S4224.size a)
instance k0_chk108.dec : ∀ (v453 : IVec S16 32), Decidable (k0_chk108 v453) := fun v453 => decidable_of_iff' _ (Iff.of_eq (k0_chk108.eq_1 v453))
theorem k0_idx108_inb : ∀ (v453 : IVec S16 32) (k0_hw108 : k0_chk108 v453), ∀ a x, ((![v453] : Fin 1 → IVec S16 32) a x).toNat < S4224.size a := fun v453 k0_hw108 => k0_hw108

def k0_chk109 (v462 : IVec S16 32) : Prop :=
  (∀ a x, ((![v462] : Fin 1 → IVec S16 32) a x).toNat < S4224.size a)
instance k0_chk109.dec : ∀ (v462 : IVec S16 32), Decidable (k0_chk109 v462) := fun v462 => decidable_of_iff' _ (Iff.of_eq (k0_chk109.eq_1 v462))
theorem k0_idx109_inb : ∀ (v462 : IVec S16 32) (k0_hw109 : k0_chk109 v462), ∀ a x, ((![v462] : Fin 1 → IVec S16 32) a x).toNat < S4224.size a := fun v462 k0_hw109 => k0_hw109

def k0_chk110 (v465 : IVec S16 32) : Prop :=
  (∀ a x, ((![v465] : Fin 1 → IVec S16 32) a x).toNat < S4224.size a)
instance k0_chk110.dec : ∀ (v465 : IVec S16 32), Decidable (k0_chk110 v465) := fun v465 => decidable_of_iff' _ (Iff.of_eq (k0_chk110.eq_1 v465))
theorem k0_idx110_inb : ∀ (v465 : IVec S16 32) (k0_hw110 : k0_chk110 v465), ∀ a x, ((![v465] : Fin 1 → IVec S16 32) a x).toNat < S4224.size a := fun v465 k0_hw110 => k0_hw110

def k0_chk111 (v468 : IVec S16 32) : Prop :=
  (∀ a x, ((![v468] : Fin 1 → IVec S16 32) a x).toNat < S4224.size a)
instance k0_chk111.dec : ∀ (v468 : IVec S16 32), Decidable (k0_chk111 v468) := fun v468 => decidable_of_iff' _ (Iff.of_eq (k0_chk111.eq_1 v468))
theorem k0_idx111_inb : ∀ (v468 : IVec S16 32) (k0_hw111 : k0_chk111 v468), ∀ a x, ((![v468] : Fin 1 → IVec S16 32) a x).toNat < S4224.size a := fun v468 k0_hw111 => k0_hw111

def k0_chk112 (v471 : IVec S16 32) : Prop :=
  (∀ a x, ((![v471] : Fin 1 → IVec S16 32) a x).toNat < S4224.size a)
instance k0_chk112.dec : ∀ (v471 : IVec S16 32), Decidable (k0_chk112 v471) := fun v471 => decidable_of_iff' _ (Iff.of_eq (k0_chk112.eq_1 v471))
theorem k0_idx112_inb : ∀ (v471 : IVec S16 32) (k0_hw112 : k0_chk112 v471), ∀ a x, ((![v471] : Fin 1 → IVec S16 32) a x).toNat < S4224.size a := fun v471 k0_hw112 => k0_hw112
def k0_off62 (k0_t3 : Fin k0_t3_loop.trips) (c0_i32_247 : BitVec 32) : Fin 2 → Nat :=
  let c0_i32_34 : BitVec 32 := 0#32
  let c0_i32_23 : BitVec 32 := 0#32
  let c1_i32_25 : BitVec 32 := 1#32
  let arg16 : BitVec 32 := Scf.iv c0_i32_23 c1_i32_25 k0_t3
  let c1_i32_33 : BitVec 32 := 1#32
  let v52 : BitVec 32 := Scalar.muli arg16 c1_i32_33
  let v53 : BitVec 32 := Scalar.addi c0_i32_34 v52
  let c16_i32_246 : BitVec 32 := 16#32
  let v473 : BitVec 32 := Scalar.muli v53 c16_i32_246
  let c10_i32 : BitVec 32 := 10#32
  let v474 : BitVec 32 := Scalar.addi v473 c10_i32
  let v475 : BitVec 32 := Scalar.addi v474 c0_i32_247
  let v476 : Index := Scalar.indexCast v475
  let c0_248 : Index := 0#32
  ![v476.toNat, 0]
def k0_off63 (k0_t3 : Fin k0_t3_loop.trips) (c0_i32_251 : BitVec 32) : Fin 2 → Nat :=
  let c0_i32_34 : BitVec 32 := 0#32
  let c0_i32_23 : BitVec 32 := 0#32
  let c1_i32_25 : BitVec 32 := 1#32
  let arg16 : BitVec 32 := Scf.iv c0_i32_23 c1_i32_25 k0_t3
  let c1_i32_33 : BitVec 32 := 1#32
  let v52 : BitVec 32 := Scalar.muli arg16 c1_i32_33
  let v53 : BitVec 32 := Scalar.addi c0_i32_34 v52
  let c16_i32_249 : BitVec 32 := 16#32
  let v478 : BitVec 32 := Scalar.muli v53 c16_i32_249
  let c10_i32_250 : BitVec 32 := 10#32
  let v479 : BitVec 32 := Scalar.addi v478 c10_i32_250
  let v480 : BitVec 32 := Scalar.addi v479 c0_i32_251
  let v481 : Index := Scalar.indexCast v480
  let c16_252 : Index := 16#32
  ![v481.toNat, 16]
def k0_off64 (k0_t3 : Fin k0_t3_loop.trips) (c0_i32_255 : BitVec 32) : Fin 2 → Nat :=
  let c0_i32_34 : BitVec 32 := 0#32
  let c0_i32_23 : BitVec 32 := 0#32
  let c1_i32_25 : BitVec 32 := 1#32
  let arg16 : BitVec 32 := Scf.iv c0_i32_23 c1_i32_25 k0_t3
  let c1_i32_33 : BitVec 32 := 1#32
  let v52 : BitVec 32 := Scalar.muli arg16 c1_i32_33
  let v53 : BitVec 32 := Scalar.addi c0_i32_34 v52
  let c16_i32_253 : BitVec 32 := 16#32
  let v483 : BitVec 32 := Scalar.muli v53 c16_i32_253
  let c10_i32_254 : BitVec 32 := 10#32
  let v484 : BitVec 32 := Scalar.addi v483 c10_i32_254
  let v485 : BitVec 32 := Scalar.addi v484 c0_i32_255
  let v486 : Index := Scalar.indexCast v485
  let c32_256 : Index := 32#32
  ![v486.toNat, 32]
def k0_off65 (k0_t3 : Fin k0_t3_loop.trips) (c0_i32_259 : BitVec 32) : Fin 2 → Nat :=
  let c0_i32_34 : BitVec 32 := 0#32
  let c0_i32_23 : BitVec 32 := 0#32
  let c1_i32_25 : BitVec 32 := 1#32
  let arg16 : BitVec 32 := Scf.iv c0_i32_23 c1_i32_25 k0_t3
  let c1_i32_33 : BitVec 32 := 1#32
  let v52 : BitVec 32 := Scalar.muli arg16 c1_i32_33
  let v53 : BitVec 32 := Scalar.addi c0_i32_34 v52
  let c16_i32_257 : BitVec 32 := 16#32
  let v488 : BitVec 32 := Scalar.muli v53 c16_i32_257
  let c10_i32_258 : BitVec 32 := 10#32
  let v489 : BitVec 32 := Scalar.addi v488 c10_i32_258
  let v490 : BitVec 32 := Scalar.addi v489 c0_i32_259
  let v491 : Index := Scalar.indexCast v490
  let c48_260 : Index := 48#32
  ![v491.toNat, 48]

def k0_chk113 (v520 : IVec S16 32) : Prop :=
  (∀ a x, ((![v520] : Fin 1 → IVec S16 32) a x).toNat < S4224.size a)
instance k0_chk113.dec : ∀ (v520 : IVec S16 32), Decidable (k0_chk113 v520) := fun v520 => decidable_of_iff' _ (Iff.of_eq (k0_chk113.eq_1 v520))
theorem k0_idx113_inb : ∀ (v520 : IVec S16 32) (k0_hw113 : k0_chk113 v520), ∀ a x, ((![v520] : Fin 1 → IVec S16 32) a x).toNat < S4224.size a := fun v520 k0_hw113 => k0_hw113

def k0_chk114 (v523 : IVec S16 32) : Prop :=
  (∀ a x, ((![v523] : Fin 1 → IVec S16 32) a x).toNat < S4224.size a)
instance k0_chk114.dec : ∀ (v523 : IVec S16 32), Decidable (k0_chk114 v523) := fun v523 => decidable_of_iff' _ (Iff.of_eq (k0_chk114.eq_1 v523))
theorem k0_idx114_inb : ∀ (v523 : IVec S16 32) (k0_hw114 : k0_chk114 v523), ∀ a x, ((![v523] : Fin 1 → IVec S16 32) a x).toNat < S4224.size a := fun v523 k0_hw114 => k0_hw114

def k0_chk115 (v526 : IVec S16 32) : Prop :=
  (∀ a x, ((![v526] : Fin 1 → IVec S16 32) a x).toNat < S4224.size a)
instance k0_chk115.dec : ∀ (v526 : IVec S16 32), Decidable (k0_chk115 v526) := fun v526 => decidable_of_iff' _ (Iff.of_eq (k0_chk115.eq_1 v526))
theorem k0_idx115_inb : ∀ (v526 : IVec S16 32) (k0_hw115 : k0_chk115 v526), ∀ a x, ((![v526] : Fin 1 → IVec S16 32) a x).toNat < S4224.size a := fun v526 k0_hw115 => k0_hw115

def k0_chk116 (v529 : IVec S16 32) : Prop :=
  (∀ a x, ((![v529] : Fin 1 → IVec S16 32) a x).toNat < S4224.size a)
instance k0_chk116.dec : ∀ (v529 : IVec S16 32), Decidable (k0_chk116 v529) := fun v529 => decidable_of_iff' _ (Iff.of_eq (k0_chk116.eq_1 v529))
theorem k0_idx116_inb : ∀ (v529 : IVec S16 32) (k0_hw116 : k0_chk116 v529), ∀ a x, ((![v529] : Fin 1 → IVec S16 32) a x).toNat < S4224.size a := fun v529 k0_hw116 => k0_hw116

def k0_chk117 (v538 : IVec S16 32) : Prop :=
  (∀ a x, ((![v538] : Fin 1 → IVec S16 32) a x).toNat < S4224.size a)
instance k0_chk117.dec : ∀ (v538 : IVec S16 32), Decidable (k0_chk117 v538) := fun v538 => decidable_of_iff' _ (Iff.of_eq (k0_chk117.eq_1 v538))
theorem k0_idx117_inb : ∀ (v538 : IVec S16 32) (k0_hw117 : k0_chk117 v538), ∀ a x, ((![v538] : Fin 1 → IVec S16 32) a x).toNat < S4224.size a := fun v538 k0_hw117 => k0_hw117

def k0_chk118 (v541 : IVec S16 32) : Prop :=
  (∀ a x, ((![v541] : Fin 1 → IVec S16 32) a x).toNat < S4224.size a)
instance k0_chk118.dec : ∀ (v541 : IVec S16 32), Decidable (k0_chk118 v541) := fun v541 => decidable_of_iff' _ (Iff.of_eq (k0_chk118.eq_1 v541))
theorem k0_idx118_inb : ∀ (v541 : IVec S16 32) (k0_hw118 : k0_chk118 v541), ∀ a x, ((![v541] : Fin 1 → IVec S16 32) a x).toNat < S4224.size a := fun v541 k0_hw118 => k0_hw118

def k0_chk119 (v544 : IVec S16 32) : Prop :=
  (∀ a x, ((![v544] : Fin 1 → IVec S16 32) a x).toNat < S4224.size a)
instance k0_chk119.dec : ∀ (v544 : IVec S16 32), Decidable (k0_chk119 v544) := fun v544 => decidable_of_iff' _ (Iff.of_eq (k0_chk119.eq_1 v544))
theorem k0_idx119_inb : ∀ (v544 : IVec S16 32) (k0_hw119 : k0_chk119 v544), ∀ a x, ((![v544] : Fin 1 → IVec S16 32) a x).toNat < S4224.size a := fun v544 k0_hw119 => k0_hw119

def k0_chk120 (v547 : IVec S16 32) : Prop :=
  (∀ a x, ((![v547] : Fin 1 → IVec S16 32) a x).toNat < S4224.size a)
instance k0_chk120.dec : ∀ (v547 : IVec S16 32), Decidable (k0_chk120 v547) := fun v547 => decidable_of_iff' _ (Iff.of_eq (k0_chk120.eq_1 v547))
theorem k0_idx120_inb : ∀ (v547 : IVec S16 32) (k0_hw120 : k0_chk120 v547), ∀ a x, ((![v547] : Fin 1 → IVec S16 32) a x).toNat < S4224.size a := fun v547 k0_hw120 => k0_hw120
def k0_off66 (k0_t3 : Fin k0_t3_loop.trips) (c0_i32_288 : BitVec 32) : Fin 2 → Nat :=
  let c0_i32_34 : BitVec 32 := 0#32
  let c0_i32_23 : BitVec 32 := 0#32
  let c1_i32_25 : BitVec 32 := 1#32
  let arg16 : BitVec 32 := Scf.iv c0_i32_23 c1_i32_25 k0_t3
  let c1_i32_33 : BitVec 32 := 1#32
  let v52 : BitVec 32 := Scalar.muli arg16 c1_i32_33
  let v53 : BitVec 32 := Scalar.addi c0_i32_34 v52
  let c16_i32_287 : BitVec 32 := 16#32
  let v549 : BitVec 32 := Scalar.muli v53 c16_i32_287
  let c12_i32 : BitVec 32 := 12#32
  let v550 : BitVec 32 := Scalar.addi v549 c12_i32
  let v551 : BitVec 32 := Scalar.addi v550 c0_i32_288
  let v552 : Index := Scalar.indexCast v551
  let c0_289 : Index := 0#32
  ![v552.toNat, 0]
def k0_off67 (k0_t3 : Fin k0_t3_loop.trips) (c0_i32_292 : BitVec 32) : Fin 2 → Nat :=
  let c0_i32_34 : BitVec 32 := 0#32
  let c0_i32_23 : BitVec 32 := 0#32
  let c1_i32_25 : BitVec 32 := 1#32
  let arg16 : BitVec 32 := Scf.iv c0_i32_23 c1_i32_25 k0_t3
  let c1_i32_33 : BitVec 32 := 1#32
  let v52 : BitVec 32 := Scalar.muli arg16 c1_i32_33
  let v53 : BitVec 32 := Scalar.addi c0_i32_34 v52
  let c16_i32_290 : BitVec 32 := 16#32
  let v554 : BitVec 32 := Scalar.muli v53 c16_i32_290
  let c12_i32_291 : BitVec 32 := 12#32
  let v555 : BitVec 32 := Scalar.addi v554 c12_i32_291
  let v556 : BitVec 32 := Scalar.addi v555 c0_i32_292
  let v557 : Index := Scalar.indexCast v556
  let c16_293 : Index := 16#32
  ![v557.toNat, 16]
def k0_off68 (k0_t3 : Fin k0_t3_loop.trips) (c0_i32_296 : BitVec 32) : Fin 2 → Nat :=
  let c0_i32_34 : BitVec 32 := 0#32
  let c0_i32_23 : BitVec 32 := 0#32
  let c1_i32_25 : BitVec 32 := 1#32
  let arg16 : BitVec 32 := Scf.iv c0_i32_23 c1_i32_25 k0_t3
  let c1_i32_33 : BitVec 32 := 1#32
  let v52 : BitVec 32 := Scalar.muli arg16 c1_i32_33
  let v53 : BitVec 32 := Scalar.addi c0_i32_34 v52
  let c16_i32_294 : BitVec 32 := 16#32
  let v559 : BitVec 32 := Scalar.muli v53 c16_i32_294
  let c12_i32_295 : BitVec 32 := 12#32
  let v560 : BitVec 32 := Scalar.addi v559 c12_i32_295
  let v561 : BitVec 32 := Scalar.addi v560 c0_i32_296
  let v562 : Index := Scalar.indexCast v561
  let c32_297 : Index := 32#32
  ![v562.toNat, 32]
def k0_off69 (k0_t3 : Fin k0_t3_loop.trips) (c0_i32_300 : BitVec 32) : Fin 2 → Nat :=
  let c0_i32_34 : BitVec 32 := 0#32
  let c0_i32_23 : BitVec 32 := 0#32
  let c1_i32_25 : BitVec 32 := 1#32
  let arg16 : BitVec 32 := Scf.iv c0_i32_23 c1_i32_25 k0_t3
  let c1_i32_33 : BitVec 32 := 1#32
  let v52 : BitVec 32 := Scalar.muli arg16 c1_i32_33
  let v53 : BitVec 32 := Scalar.addi c0_i32_34 v52
  let c16_i32_298 : BitVec 32 := 16#32
  let v564 : BitVec 32 := Scalar.muli v53 c16_i32_298
  let c12_i32_299 : BitVec 32 := 12#32
  let v565 : BitVec 32 := Scalar.addi v564 c12_i32_299
  let v566 : BitVec 32 := Scalar.addi v565 c0_i32_300
  let v567 : Index := Scalar.indexCast v566
  let c48_301 : Index := 48#32
  ![v567.toNat, 48]

def k0_chk121 (v596 : IVec S16 32) : Prop :=
  (∀ a x, ((![v596] : Fin 1 → IVec S16 32) a x).toNat < S4224.size a)
instance k0_chk121.dec : ∀ (v596 : IVec S16 32), Decidable (k0_chk121 v596) := fun v596 => decidable_of_iff' _ (Iff.of_eq (k0_chk121.eq_1 v596))
theorem k0_idx121_inb : ∀ (v596 : IVec S16 32) (k0_hw121 : k0_chk121 v596), ∀ a x, ((![v596] : Fin 1 → IVec S16 32) a x).toNat < S4224.size a := fun v596 k0_hw121 => k0_hw121

def k0_chk122 (v599 : IVec S16 32) : Prop :=
  (∀ a x, ((![v599] : Fin 1 → IVec S16 32) a x).toNat < S4224.size a)
instance k0_chk122.dec : ∀ (v599 : IVec S16 32), Decidable (k0_chk122 v599) := fun v599 => decidable_of_iff' _ (Iff.of_eq (k0_chk122.eq_1 v599))
theorem k0_idx122_inb : ∀ (v599 : IVec S16 32) (k0_hw122 : k0_chk122 v599), ∀ a x, ((![v599] : Fin 1 → IVec S16 32) a x).toNat < S4224.size a := fun v599 k0_hw122 => k0_hw122

def k0_chk123 (v602 : IVec S16 32) : Prop :=
  (∀ a x, ((![v602] : Fin 1 → IVec S16 32) a x).toNat < S4224.size a)
instance k0_chk123.dec : ∀ (v602 : IVec S16 32), Decidable (k0_chk123 v602) := fun v602 => decidable_of_iff' _ (Iff.of_eq (k0_chk123.eq_1 v602))
theorem k0_idx123_inb : ∀ (v602 : IVec S16 32) (k0_hw123 : k0_chk123 v602), ∀ a x, ((![v602] : Fin 1 → IVec S16 32) a x).toNat < S4224.size a := fun v602 k0_hw123 => k0_hw123

def k0_chk124 (v605 : IVec S16 32) : Prop :=
  (∀ a x, ((![v605] : Fin 1 → IVec S16 32) a x).toNat < S4224.size a)
instance k0_chk124.dec : ∀ (v605 : IVec S16 32), Decidable (k0_chk124 v605) := fun v605 => decidable_of_iff' _ (Iff.of_eq (k0_chk124.eq_1 v605))
theorem k0_idx124_inb : ∀ (v605 : IVec S16 32) (k0_hw124 : k0_chk124 v605), ∀ a x, ((![v605] : Fin 1 → IVec S16 32) a x).toNat < S4224.size a := fun v605 k0_hw124 => k0_hw124

def k0_chk125 (v614 : IVec S16 32) : Prop :=
  (∀ a x, ((![v614] : Fin 1 → IVec S16 32) a x).toNat < S4224.size a)
instance k0_chk125.dec : ∀ (v614 : IVec S16 32), Decidable (k0_chk125 v614) := fun v614 => decidable_of_iff' _ (Iff.of_eq (k0_chk125.eq_1 v614))
theorem k0_idx125_inb : ∀ (v614 : IVec S16 32) (k0_hw125 : k0_chk125 v614), ∀ a x, ((![v614] : Fin 1 → IVec S16 32) a x).toNat < S4224.size a := fun v614 k0_hw125 => k0_hw125

def k0_chk126 (v617 : IVec S16 32) : Prop :=
  (∀ a x, ((![v617] : Fin 1 → IVec S16 32) a x).toNat < S4224.size a)
instance k0_chk126.dec : ∀ (v617 : IVec S16 32), Decidable (k0_chk126 v617) := fun v617 => decidable_of_iff' _ (Iff.of_eq (k0_chk126.eq_1 v617))
theorem k0_idx126_inb : ∀ (v617 : IVec S16 32) (k0_hw126 : k0_chk126 v617), ∀ a x, ((![v617] : Fin 1 → IVec S16 32) a x).toNat < S4224.size a := fun v617 k0_hw126 => k0_hw126

def k0_chk127 (v620 : IVec S16 32) : Prop :=
  (∀ a x, ((![v620] : Fin 1 → IVec S16 32) a x).toNat < S4224.size a)
instance k0_chk127.dec : ∀ (v620 : IVec S16 32), Decidable (k0_chk127 v620) := fun v620 => decidable_of_iff' _ (Iff.of_eq (k0_chk127.eq_1 v620))
theorem k0_idx127_inb : ∀ (v620 : IVec S16 32) (k0_hw127 : k0_chk127 v620), ∀ a x, ((![v620] : Fin 1 → IVec S16 32) a x).toNat < S4224.size a := fun v620 k0_hw127 => k0_hw127

def k0_chk128 (v623 : IVec S16 32) : Prop :=
  (∀ a x, ((![v623] : Fin 1 → IVec S16 32) a x).toNat < S4224.size a)
instance k0_chk128.dec : ∀ (v623 : IVec S16 32), Decidable (k0_chk128 v623) := fun v623 => decidable_of_iff' _ (Iff.of_eq (k0_chk128.eq_1 v623))
theorem k0_idx128_inb : ∀ (v623 : IVec S16 32) (k0_hw128 : k0_chk128 v623), ∀ a x, ((![v623] : Fin 1 → IVec S16 32) a x).toNat < S4224.size a := fun v623 k0_hw128 => k0_hw128
def k0_off70 (k0_t3 : Fin k0_t3_loop.trips) (c0_i32_329 : BitVec 32) : Fin 2 → Nat :=
  let c0_i32_34 : BitVec 32 := 0#32
  let c0_i32_23 : BitVec 32 := 0#32
  let c1_i32_25 : BitVec 32 := 1#32
  let arg16 : BitVec 32 := Scf.iv c0_i32_23 c1_i32_25 k0_t3
  let c1_i32_33 : BitVec 32 := 1#32
  let v52 : BitVec 32 := Scalar.muli arg16 c1_i32_33
  let v53 : BitVec 32 := Scalar.addi c0_i32_34 v52
  let c16_i32_328 : BitVec 32 := 16#32
  let v625 : BitVec 32 := Scalar.muli v53 c16_i32_328
  let c14_i32 : BitVec 32 := 14#32
  let v626 : BitVec 32 := Scalar.addi v625 c14_i32
  let v627 : BitVec 32 := Scalar.addi v626 c0_i32_329
  let v628 : Index := Scalar.indexCast v627
  let c0_330 : Index := 0#32
  ![v628.toNat, 0]
def k0_off71 (k0_t3 : Fin k0_t3_loop.trips) (c0_i32_333 : BitVec 32) : Fin 2 → Nat :=
  let c0_i32_34 : BitVec 32 := 0#32
  let c0_i32_23 : BitVec 32 := 0#32
  let c1_i32_25 : BitVec 32 := 1#32
  let arg16 : BitVec 32 := Scf.iv c0_i32_23 c1_i32_25 k0_t3
  let c1_i32_33 : BitVec 32 := 1#32
  let v52 : BitVec 32 := Scalar.muli arg16 c1_i32_33
  let v53 : BitVec 32 := Scalar.addi c0_i32_34 v52
  let c16_i32_331 : BitVec 32 := 16#32
  let v630 : BitVec 32 := Scalar.muli v53 c16_i32_331
  let c14_i32_332 : BitVec 32 := 14#32
  let v631 : BitVec 32 := Scalar.addi v630 c14_i32_332
  let v632 : BitVec 32 := Scalar.addi v631 c0_i32_333
  let v633 : Index := Scalar.indexCast v632
  let c16_334 : Index := 16#32
  ![v633.toNat, 16]
def k0_off72 (k0_t3 : Fin k0_t3_loop.trips) (c0_i32_337 : BitVec 32) : Fin 2 → Nat :=
  let c0_i32_34 : BitVec 32 := 0#32
  let c0_i32_23 : BitVec 32 := 0#32
  let c1_i32_25 : BitVec 32 := 1#32
  let arg16 : BitVec 32 := Scf.iv c0_i32_23 c1_i32_25 k0_t3
  let c1_i32_33 : BitVec 32 := 1#32
  let v52 : BitVec 32 := Scalar.muli arg16 c1_i32_33
  let v53 : BitVec 32 := Scalar.addi c0_i32_34 v52
  let c16_i32_335 : BitVec 32 := 16#32
  let v635 : BitVec 32 := Scalar.muli v53 c16_i32_335
  let c14_i32_336 : BitVec 32 := 14#32
  let v636 : BitVec 32 := Scalar.addi v635 c14_i32_336
  let v637 : BitVec 32 := Scalar.addi v636 c0_i32_337
  let v638 : Index := Scalar.indexCast v637
  let c32_338 : Index := 32#32
  ![v638.toNat, 32]
def k0_off73 (k0_t3 : Fin k0_t3_loop.trips) (c0_i32_341 : BitVec 32) : Fin 2 → Nat :=
  let c0_i32_34 : BitVec 32 := 0#32
  let c0_i32_23 : BitVec 32 := 0#32
  let c1_i32_25 : BitVec 32 := 1#32
  let arg16 : BitVec 32 := Scf.iv c0_i32_23 c1_i32_25 k0_t3
  let c1_i32_33 : BitVec 32 := 1#32
  let v52 : BitVec 32 := Scalar.muli arg16 c1_i32_33
  let v53 : BitVec 32 := Scalar.addi c0_i32_34 v52
  let c16_i32_339 : BitVec 32 := 16#32
  let v640 : BitVec 32 := Scalar.muli v53 c16_i32_339
  let c14_i32_340 : BitVec 32 := 14#32
  let v641 : BitVec 32 := Scalar.addi v640 c14_i32_340
  let v642 : BitVec 32 := Scalar.addi v641 c0_i32_341
  let v643 : Index := Scalar.indexCast v642
  let c48_342 : Index := 48#32
  ![v643.toNat, 48]
def k0_off74 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c102400_i32 : BitVec 32 := 102400#32
  let v2 : BitVec 32 := Scalar.muli v1 c102400_i32
  let c0_i32_7 : BitVec 32 := 0#32
  let c0_i32_0 : BitVec 32 := 0#32
  let c1_i32 : BitVec 32 := 1#32
  let arg15 : BitVec 32 := Scf.iv c0_i32_0 c1_i32 k0_t1
  let c2_i32_6 : BitVec 32 := 2#32
  let v17 : BitVec 32 := Scalar.muli arg15 c2_i32_6
  let v18 : BitVec 32 := Scalar.addi c0_i32_7 v17
  let c1_i32_19 : BitVec 32 := 1#32
  let v35 : BitVec 32 := Scalar.addi v18 c1_i32_19
  let c256_i32_27 : BitVec 32 := 256#32
  let v44 : BitVec 32 := Scalar.muli v35 c256_i32_27
  let v45 : BitVec 32 := Scalar.addi v2 v44
  let c0_i32_28 : BitVec 32 := 0#32
  ![v45.toNat, 0]
def k0_cond4 (k0_t1 : Fin k0_t1_loop.trips) : BitVec 1 :=
  let c0_i32_7 : BitVec 32 := 0#32
  let c0_i32_0 : BitVec 32 := 0#32
  let c1_i32 : BitVec 32 := 1#32
  let arg15 : BitVec 32 := Scf.iv c0_i32_0 c1_i32 k0_t1
  let c2_i32_6 : BitVec 32 := 2#32
  let v17 : BitVec 32 := Scalar.muli arg15 c2_i32_6
  let v18 : BitVec 32 := Scalar.addi c0_i32_7 v17
  let c1_i32_19 : BitVec 32 := 1#32
  let v35 : BitVec 32 := Scalar.addi v18 c1_i32_19
  let c2_i32_30 : BitVec 32 := 2#32
  let v48 : BitVec 32 := Scalar.addi v35 c2_i32_30
  let c400_i32_31 : BitVec 32 := 400#32
  let v49 : BitVec 1 := Scalar.cmpi .slt v48 c400_i32_31
  let v50 : BitVec 32 := Scalar.extui v49
  let c0_i32_32 : BitVec 32 := 0#32
  let v51 : BitVec 1 := Scalar.cmpi .ne v50 c0_i32_32
  v51

def k0_off75 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c102400_i32 : BitVec 32 := 102400#32
  let v2 : BitVec 32 := Scalar.muli v1 c102400_i32
  let c0_i32_7 : BitVec 32 := 0#32
  let c0_i32_0 : BitVec 32 := 0#32
  let c1_i32 : BitVec 32 := 1#32
  let arg15 : BitVec 32 := Scf.iv c0_i32_0 c1_i32 k0_t1
  let c2_i32_6 : BitVec 32 := 2#32
  let v17 : BitVec 32 := Scalar.muli arg15 c2_i32_6
  let v18 : BitVec 32 := Scalar.addi c0_i32_7 v17
  let c1_i32_19 : BitVec 32 := 1#32
  let v35 : BitVec 32 := Scalar.addi v18 c1_i32_19
  let c2_i32_33 : BitVec 32 := 2#32
  let v52 : BitVec 32 := Scalar.addi v35 c2_i32_33
  let c256_i32_34 : BitVec 32 := 256#32
  let v53 : BitVec 32 := Scalar.muli v52 c256_i32_34
  let v54 : BitVec 32 := Scalar.addi v2 v53
  ![v54.toNat]
def k0_off76 (i : grid0.Coords) (c101888_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c102400_i32 : BitVec 32 := 102400#32
  let v2 : BitVec 32 := Scalar.muli v1 c102400_i32
  let v11 : BitVec 32 := Scalar.addi v2 c101888_i32
  let c0_i32_2 : BitVec 32 := 0#32
  ![v11.toNat, 0]
abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x16 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8192x16 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S204800x16_S3276800 : S204800x16.ShapeCasts S3276800
  shapeCasts_S66x64_S4224 : S66x64.ShapeCasts S4224
  iota_S16_d0_w32_scVector : S16.Iotas .scVector 32 [0]
  h_S16 : 0 < S16.numel
  slices_S16_o0_S1 : S16.Slices ![0] S1
  inpos_S1_p0 : ∀ a, (![0] : Fin 1 → Nat) a < S1.size a
  h_S4224 : 0 < S4224.numel
  slices_S16_o1_S1 : S16.Slices ![1] S1
  h_S1x16 : 0 < S1x16.numel
  shapeCasts_S1x16_S16 : S1x16.ShapeCasts S16
  shapeCasts_S16_S1x16 : S16.ShapeCasts S1x16
  slices_S16_o2_S1 : S16.Slices ![2] S1
  slices_S16_o3_S1 : S16.Slices ![3] S1
  slices_S16_o4_S1 : S16.Slices ![4] S1
  slices_S16_o5_S1 : S16.Slices ![5] S1
  slices_S16_o6_S1 : S16.Slices ![6] S1
  slices_S16_o7_S1 : S16.Slices ![7] S1
  slices_S16_o8_S1 : S16.Slices ![8] S1
  slices_S16_o9_S1 : S16.Slices ![9] S1
  slices_S16_o10_S1 : S16.Slices ![10] S1
  slices_S16_o11_S1 : S16.Slices ![11] S1
  slices_S16_o12_S1 : S16.Slices ![12] S1
  slices_S16_o13_S1 : S16.Slices ![13] S1
  slices_S16_o14_S1 : S16.Slices ![14] S1
  slices_S16_o15_S1 : S16.Slices ![15] S1
  inb_S8192x16_S8192x16_0_0 : ∀ a, (![0, 0] : Fin 2 → Nat) a + S8192x16.size a ≤ S8192x16.size a
  h_S8192x16 : 0 < S8192x16.numel
  shapeCasts_S3276800x64_S204800x16x64 : S3276800x64.ShapeCasts S204800x16x64
  hcc0_scratch5 : 0 + S_.numel ≤ 9
  hcc0_scratch6 : 1 + S_.numel ≤ 9
  hcc0_scratch7 : 2 + S_.numel ≤ 9
  hcc0_scratch8 : 3 + S_.numel ≤ 9
  hcc0_scratch9 : 4 + S_.numel ≤ 9
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ (r : Fin 2), ∀ a, (k0_off1 i (BitVec.ofNat 32 (256 * r.val))) a + S256.size a ≤ S3276800.size a
  k0_t1_ok : k0_t1_loop.OK
  k0_off2_inb : ∀ (i : grid0.Coords) (k0_t1 : Fin k0_t1_loop.trips), ∀ a, (k0_off2 i k0_t1) a + S256.size a ≤ S3276800.size a
  k0_off3_inb : ∀ (i : grid0.Coords) (k0_t1 : Fin k0_t1_loop.trips), ∀ (k0_h1 : k0_cond1 k0_t1 = 1#1), ∀ a, (k0_off3 i k0_t1) a + S256x64.size a ≤ S3276800x64.size a
  k0_t2_ok : k0_t2_loop.OK
  k0_off4_inb : ∀ k0_t2 : Fin k0_t2_loop.trips, ∀ a, (k0_off4 k0_t2) a + S16.size a ≤ S256.size a
  k0_off5_inb : ∀ k0_t2 : Fin k0_t2_loop.trips, ∀ (r : Fin 2), ∀ a, (k0_off5 k0_t2 (BitVec.ofNat 32 r.val)) a + S1x16.size a ≤ S256x64.size a
  k0_off6_inb : ∀ k0_t2 : Fin k0_t2_loop.trips, ∀ (r : Fin 2), ∀ a, (k0_off6 k0_t2 (BitVec.ofNat 32 r.val)) a + S1x16.size a ≤ S256x64.size a
  k0_off7_inb : ∀ k0_t2 : Fin k0_t2_loop.trips, ∀ (r : Fin 2), ∀ a, (k0_off7 k0_t2 (BitVec.ofNat 32 r.val)) a + S1x16.size a ≤ S256x64.size a
  k0_off8_inb : ∀ k0_t2 : Fin k0_t2_loop.trips, ∀ (r : Fin 2), ∀ a, (k0_off8 k0_t2 (BitVec.ofNat 32 r.val)) a + S1x16.size a ≤ S256x64.size a
  k0_off9_inb : ∀ k0_t2 : Fin k0_t2_loop.trips, ∀ (r : Fin 2), ∀ a, (k0_off9 k0_t2 (BitVec.ofNat 32 r.val)) a + S1x16.size a ≤ S256x64.size a
  k0_off10_inb : ∀ k0_t2 : Fin k0_t2_loop.trips, ∀ (r : Fin 2), ∀ a, (k0_off10 k0_t2 (BitVec.ofNat 32 r.val)) a + S1x16.size a ≤ S256x64.size a
  k0_off11_inb : ∀ k0_t2 : Fin k0_t2_loop.trips, ∀ (r : Fin 2), ∀ a, (k0_off11 k0_t2 (BitVec.ofNat 32 r.val)) a + S1x16.size a ≤ S256x64.size a
  k0_off12_inb : ∀ k0_t2 : Fin k0_t2_loop.trips, ∀ (r : Fin 2), ∀ a, (k0_off12 k0_t2 (BitVec.ofNat 32 r.val)) a + S1x16.size a ≤ S256x64.size a
  k0_off13_inb : ∀ k0_t2 : Fin k0_t2_loop.trips, ∀ (r : Fin 2), ∀ a, (k0_off13 k0_t2 (BitVec.ofNat 32 r.val)) a + S1x16.size a ≤ S256x64.size a
  k0_off14_inb : ∀ k0_t2 : Fin k0_t2_loop.trips, ∀ (r : Fin 2), ∀ a, (k0_off14 k0_t2 (BitVec.ofNat 32 r.val)) a + S1x16.size a ≤ S256x64.size a
  k0_off15_inb : ∀ k0_t2 : Fin k0_t2_loop.trips, ∀ (r : Fin 2), ∀ a, (k0_off15 k0_t2 (BitVec.ofNat 32 r.val)) a + S1x16.size a ≤ S256x64.size a
  k0_off16_inb : ∀ k0_t2 : Fin k0_t2_loop.trips, ∀ (r : Fin 2), ∀ a, (k0_off16 k0_t2 (BitVec.ofNat 32 r.val)) a + S1x16.size a ≤ S256x64.size a
  k0_off17_inb : ∀ k0_t2 : Fin k0_t2_loop.trips, ∀ (r : Fin 2), ∀ a, (k0_off17 k0_t2 (BitVec.ofNat 32 r.val)) a + S1x16.size a ≤ S256x64.size a
  k0_off18_inb : ∀ k0_t2 : Fin k0_t2_loop.trips, ∀ (r : Fin 2), ∀ a, (k0_off18 k0_t2 (BitVec.ofNat 32 r.val)) a + S1x16.size a ≤ S256x64.size a
  k0_off19_inb : ∀ k0_t2 : Fin k0_t2_loop.trips, ∀ (r : Fin 2), ∀ a, (k0_off19 k0_t2 (BitVec.ofNat 32 r.val)) a + S1x16.size a ≤ S256x64.size a
  k0_off20_inb : ∀ k0_t2 : Fin k0_t2_loop.trips, ∀ (r : Fin 2), ∀ a, (k0_off20 k0_t2 (BitVec.ofNat 32 r.val)) a + S1x16.size a ≤ S256x64.size a
  k0_off21_inb : ∀ k0_t2 : Fin k0_t2_loop.trips, ∀ (r : Fin 2), ∀ a, (k0_off21 k0_t2 (BitVec.ofNat 32 r.val)) a + S1x16.size a ≤ S256x64.size a
  k0_off22_inb : ∀ k0_t2 : Fin k0_t2_loop.trips, ∀ (r : Fin 2), ∀ a, (k0_off22 k0_t2 (BitVec.ofNat 32 r.val)) a + S1x16.size a ≤ S256x64.size a
  k0_off23_inb : ∀ k0_t2 : Fin k0_t2_loop.trips, ∀ (r : Fin 2), ∀ a, (k0_off23 k0_t2 (BitVec.ofNat 32 r.val)) a + S1x16.size a ≤ S256x64.size a
  k0_off24_inb : ∀ k0_t2 : Fin k0_t2_loop.trips, ∀ (r : Fin 2), ∀ a, (k0_off24 k0_t2 (BitVec.ofNat 32 r.val)) a + S1x16.size a ≤ S256x64.size a
  k0_off25_inb : ∀ k0_t2 : Fin k0_t2_loop.trips, ∀ (r : Fin 2), ∀ a, (k0_off25 k0_t2 (BitVec.ofNat 32 r.val)) a + S1x16.size a ≤ S256x64.size a
  k0_off26_inb : ∀ k0_t2 : Fin k0_t2_loop.trips, ∀ (r : Fin 2), ∀ a, (k0_off26 k0_t2 (BitVec.ofNat 32 r.val)) a + S1x16.size a ≤ S256x64.size a
  k0_off27_inb : ∀ k0_t2 : Fin k0_t2_loop.trips, ∀ (r : Fin 2), ∀ a, (k0_off27 k0_t2 (BitVec.ofNat 32 r.val)) a + S1x16.size a ≤ S256x64.size a
  k0_off28_inb : ∀ k0_t2 : Fin k0_t2_loop.trips, ∀ (r : Fin 2), ∀ a, (k0_off28 k0_t2 (BitVec.ofNat 32 r.val)) a + S1x16.size a ≤ S256x64.size a
  k0_off29_inb : ∀ k0_t2 : Fin k0_t2_loop.trips, ∀ (r : Fin 2), ∀ a, (k0_off29 k0_t2 (BitVec.ofNat 32 r.val)) a + S1x16.size a ≤ S256x64.size a
  k0_off30_inb : ∀ k0_t2 : Fin k0_t2_loop.trips, ∀ (r : Fin 2), ∀ a, (k0_off30 k0_t2 (BitVec.ofNat 32 r.val)) a + S1x16.size a ≤ S256x64.size a
  k0_off31_inb : ∀ k0_t2 : Fin k0_t2_loop.trips, ∀ (r : Fin 2), ∀ a, (k0_off31 k0_t2 (BitVec.ofNat 32 r.val)) a + S1x16.size a ≤ S256x64.size a
  k0_off32_inb : ∀ k0_t2 : Fin k0_t2_loop.trips, ∀ (r : Fin 2), ∀ a, (k0_off32 k0_t2 (BitVec.ofNat 32 r.val)) a + S1x16.size a ≤ S256x64.size a
  k0_off33_inb : ∀ k0_t2 : Fin k0_t2_loop.trips, ∀ (r : Fin 2), ∀ a, (k0_off33 k0_t2 (BitVec.ofNat 32 r.val)) a + S1x16.size a ≤ S256x64.size a
  k0_off34_inb : ∀ k0_t2 : Fin k0_t2_loop.trips, ∀ (r : Fin 2), ∀ a, (k0_off34 k0_t2 (BitVec.ofNat 32 r.val)) a + S1x16.size a ≤ S256x64.size a
  k0_off35_inb : ∀ k0_t2 : Fin k0_t2_loop.trips, ∀ (r : Fin 2), ∀ a, (k0_off35 k0_t2 (BitVec.ofNat 32 r.val)) a + S1x16.size a ≤ S256x64.size a
  k0_off36_inb : ∀ k0_t2 : Fin k0_t2_loop.trips, ∀ (r : Fin 2), ∀ a, (k0_off36 k0_t2 (BitVec.ofNat 32 r.val)) a + S1x16.size a ≤ S256x64.size a
  k0_off37_inb : ∀ (i : grid0.Coords) (k0_t1 : Fin k0_t1_loop.trips), ∀ a, (k0_off37 i k0_t1) a + S256x64.size a ≤ S3276800x64.size a
  k0_off38_inb : ∀ (i : grid0.Coords) (k0_t1 : Fin k0_t1_loop.trips), ∀ (k0_h2 : k0_cond2 k0_t1 = 1#1), ∀ a, (k0_off38 i k0_t1) a + S256.size a ≤ S3276800.size a
  k0_off39_inb : ∀ (i : grid0.Coords) (k0_t1 : Fin k0_t1_loop.trips), ∀ a, (k0_off39 i k0_t1) a + S256.size a ≤ S3276800.size a
  k0_off40_inb : ∀ (i : grid0.Coords) (k0_t1 : Fin k0_t1_loop.trips), ∀ (k0_h3 : k0_cond3 k0_t1 = 1#1), ∀ a, (k0_off40 i k0_t1) a + S256x64.size a ≤ S3276800x64.size a
  k0_t3_ok : k0_t3_loop.OK
  k0_off41_inb : ∀ k0_t3 : Fin k0_t3_loop.trips, ∀ a, (k0_off41 k0_t3) a + S16.size a ≤ S256.size a
  k0_off42_inb : ∀ k0_t3 : Fin k0_t3_loop.trips, ∀ (r : Fin 2), ∀ a, (k0_off42 k0_t3 (BitVec.ofNat 32 r.val)) a + S1x16.size a ≤ S256x64.size a
  k0_off43_inb : ∀ k0_t3 : Fin k0_t3_loop.trips, ∀ (r : Fin 2), ∀ a, (k0_off43 k0_t3 (BitVec.ofNat 32 r.val)) a + S1x16.size a ≤ S256x64.size a
  k0_off44_inb : ∀ k0_t3 : Fin k0_t3_loop.trips, ∀ (r : Fin 2), ∀ a, (k0_off44 k0_t3 (BitVec.ofNat 32 r.val)) a + S1x16.size a ≤ S256x64.size a
  k0_off45_inb : ∀ k0_t3 : Fin k0_t3_loop.trips, ∀ (r : Fin 2), ∀ a, (k0_off45 k0_t3 (BitVec.ofNat 32 r.val)) a + S1x16.size a ≤ S256x64.size a
  k0_off46_inb : ∀ k0_t3 : Fin k0_t3_loop.trips, ∀ (r : Fin 2), ∀ a, (k0_off46 k0_t3 (BitVec.ofNat 32 r.val)) a + S1x16.size a ≤ S256x64.size a
  k0_off47_inb : ∀ k0_t3 : Fin k0_t3_loop.trips, ∀ (r : Fin 2), ∀ a, (k0_off47 k0_t3 (BitVec.ofNat 32 r.val)) a + S1x16.size a ≤ S256x64.size a
  k0_off48_inb : ∀ k0_t3 : Fin k0_t3_loop.trips, ∀ (r : Fin 2), ∀ a, (k0_off48 k0_t3 (BitVec.ofNat 32 r.val)) a + S1x16.size a ≤ S256x64.size a
  k0_off49_inb : ∀ k0_t3 : Fin k0_t3_loop.trips, ∀ (r : Fin 2), ∀ a, (k0_off49 k0_t3 (BitVec.ofNat 32 r.val)) a + S1x16.size a ≤ S256x64.size a
  k0_off50_inb : ∀ k0_t3 : Fin k0_t3_loop.trips, ∀ (r : Fin 2), ∀ a, (k0_off50 k0_t3 (BitVec.ofNat 32 r.val)) a + S1x16.size a ≤ S256x64.size a
  k0_off51_inb : ∀ k0_t3 : Fin k0_t3_loop.trips, ∀ (r : Fin 2), ∀ a, (k0_off51 k0_t3 (BitVec.ofNat 32 r.val)) a + S1x16.size a ≤ S256x64.size a
  k0_off52_inb : ∀ k0_t3 : Fin k0_t3_loop.trips, ∀ (r : Fin 2), ∀ a, (k0_off52 k0_t3 (BitVec.ofNat 32 r.val)) a + S1x16.size a ≤ S256x64.size a
  k0_off53_inb : ∀ k0_t3 : Fin k0_t3_loop.trips, ∀ (r : Fin 2), ∀ a, (k0_off53 k0_t3 (BitVec.ofNat 32 r.val)) a + S1x16.size a ≤ S256x64.size a
  k0_off54_inb : ∀ k0_t3 : Fin k0_t3_loop.trips, ∀ (r : Fin 2), ∀ a, (k0_off54 k0_t3 (BitVec.ofNat 32 r.val)) a + S1x16.size a ≤ S256x64.size a
  k0_off55_inb : ∀ k0_t3 : Fin k0_t3_loop.trips, ∀ (r : Fin 2), ∀ a, (k0_off55 k0_t3 (BitVec.ofNat 32 r.val)) a + S1x16.size a ≤ S256x64.size a
  k0_off56_inb : ∀ k0_t3 : Fin k0_t3_loop.trips, ∀ (r : Fin 2), ∀ a, (k0_off56 k0_t3 (BitVec.ofNat 32 r.val)) a + S1x16.size a ≤ S256x64.size a
  k0_off57_inb : ∀ k0_t3 : Fin k0_t3_loop.trips, ∀ (r : Fin 2), ∀ a, (k0_off57 k0_t3 (BitVec.ofNat 32 r.val)) a + S1x16.size a ≤ S256x64.size a
  k0_off58_inb : ∀ k0_t3 : Fin k0_t3_loop.trips, ∀ (r : Fin 2), ∀ a, (k0_off58 k0_t3 (BitVec.ofNat 32 r.val)) a + S1x16.size a ≤ S256x64.size a
  k0_off59_inb : ∀ k0_t3 : Fin k0_t3_loop.trips, ∀ (r : Fin 2), ∀ a, (k0_off59 k0_t3 (BitVec.ofNat 32 r.val)) a + S1x16.size a ≤ S256x64.size a
  k0_off60_inb : ∀ k0_t3 : Fin k0_t3_loop.trips, ∀ (r : Fin 2), ∀ a, (k0_off60 k0_t3 (BitVec.ofNat 32 r.val)) a + S1x16.size a ≤ S256x64.size a
  k0_off61_inb : ∀ k0_t3 : Fin k0_t3_loop.trips, ∀ (r : Fin 2), ∀ a, (k0_off61 k0_t3 (BitVec.ofNat 32 r.val)) a + S1x16.size a ≤ S256x64.size a
  k0_off62_inb : ∀ k0_t3 : Fin k0_t3_loop.trips, ∀ (r : Fin 2), ∀ a, (k0_off62 k0_t3 (BitVec.ofNat 32 r.val)) a + S1x16.size a ≤ S256x64.size a
  k0_off63_inb : ∀ k0_t3 : Fin k0_t3_loop.trips, ∀ (r : Fin 2), ∀ a, (k0_off63 k0_t3 (BitVec.ofNat 32 r.val)) a + S1x16.size a ≤ S256x64.size a
  k0_off64_inb : ∀ k0_t3 : Fin k0_t3_loop.trips, ∀ (r : Fin 2), ∀ a, (k0_off64 k0_t3 (BitVec.ofNat 32 r.val)) a + S1x16.size a ≤ S256x64.size a
  k0_off65_inb : ∀ k0_t3 : Fin k0_t3_loop.trips, ∀ (r : Fin 2), ∀ a, (k0_off65 k0_t3 (BitVec.ofNat 32 r.val)) a + S1x16.size a ≤ S256x64.size a
  k0_off66_inb : ∀ k0_t3 : Fin k0_t3_loop.trips, ∀ (r : Fin 2), ∀ a, (k0_off66 k0_t3 (BitVec.ofNat 32 r.val)) a + S1x16.size a ≤ S256x64.size a
  k0_off67_inb : ∀ k0_t3 : Fin k0_t3_loop.trips, ∀ (r : Fin 2), ∀ a, (k0_off67 k0_t3 (BitVec.ofNat 32 r.val)) a + S1x16.size a ≤ S256x64.size a
  k0_off68_inb : ∀ k0_t3 : Fin k0_t3_loop.trips, ∀ (r : Fin 2), ∀ a, (k0_off68 k0_t3 (BitVec.ofNat 32 r.val)) a + S1x16.size a ≤ S256x64.size a
  k0_off69_inb : ∀ k0_t3 : Fin k0_t3_loop.trips, ∀ (r : Fin 2), ∀ a, (k0_off69 k0_t3 (BitVec.ofNat 32 r.val)) a + S1x16.size a ≤ S256x64.size a
  k0_off70_inb : ∀ k0_t3 : Fin k0_t3_loop.trips, ∀ (r : Fin 2), ∀ a, (k0_off70 k0_t3 (BitVec.ofNat 32 r.val)) a + S1x16.size a ≤ S256x64.size a
  k0_off71_inb : ∀ k0_t3 : Fin k0_t3_loop.trips, ∀ (r : Fin 2), ∀ a, (k0_off71 k0_t3 (BitVec.ofNat 32 r.val)) a + S1x16.size a ≤ S256x64.size a
  k0_off72_inb : ∀ k0_t3 : Fin k0_t3_loop.trips, ∀ (r : Fin 2), ∀ a, (k0_off72 k0_t3 (BitVec.ofNat 32 r.val)) a + S1x16.size a ≤ S256x64.size a
  k0_off73_inb : ∀ k0_t3 : Fin k0_t3_loop.trips, ∀ (r : Fin 2), ∀ a, (k0_off73 k0_t3 (BitVec.ofNat 32 r.val)) a + S1x16.size a ≤ S256x64.size a
  k0_off74_inb : ∀ (i : grid0.Coords) (k0_t1 : Fin k0_t1_loop.trips), ∀ a, (k0_off74 i k0_t1) a + S256x64.size a ≤ S3276800x64.size a
  k0_off75_inb : ∀ (i : grid0.Coords) (k0_t1 : Fin k0_t1_loop.trips), ∀ (k0_h4 : k0_cond4 k0_t1 = 1#1), ∀ a, (k0_off75 i k0_t1) a + S256.size a ≤ S3276800.size a
  k0_off76_inb : ∀ i : grid0.Coords, ∀ (r : Fin 2), ∀ a, (k0_off76 i (BitVec.ofNat 32 (101888 + 256 * r.val))) a + S256x64.size a ≤ S3276800x64.size a
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x16.size a ≤ S204800x16.size a
  hwx1_0 : ∀ i : grid1.Coords, EltTy.bits .i32 = 32 ∨ (Rect.block (s := S204800x16) S8192x16.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8192x16.size a ≤ S204800x16.size a
  hwx1_1 : ∀ i : grid1.Coords, EltTy.bits .i32 = 32 ∨ (Rect.block (s := S204800x16) S8192x16.size (cc1_transform_1 i) (hinb1_1 i)).WholeWords (EltTy.packing .i32)

variable [Facts₀]

abbrev cc0_scratch5 : DmaSems sig S_ := SemArray.consecutive 0 S_ hcc0_scratch5
abbrev cc0_scratch6 : DmaSems sig S_ := SemArray.consecutive 1 S_ hcc0_scratch6
abbrev cc0_scratch7 : DmaSems sig S_ := SemArray.consecutive 2 S_ hcc0_scratch7
abbrev cc0_scratch8 : DmaSems sig S_ := SemArray.consecutive 3 S_ hcc0_scratch8
abbrev cc0_scratch9 : DmaSems sig S_ := SemArray.consecutive 4 S_ hcc0_scratch9

abbrev win1_0 : Pipeline.Window sig grid1 :=
  Pipeline.Window.ofSpec (Memref.whole main_arg1) S8192x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S8192x16.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S204800x16 : Shape := ⟨2, ![204800, 16]⟩
abbrev S66x64 : Shape := ⟨2, ![66, 64]⟩
abbrev S_ : Shape := ⟨0, ![]⟩
abbrev S204800x16x1 : Shape := ⟨3, ![204800, 16, 1]⟩
abbrev S1 : Shape := ⟨1, ![1]⟩
abbrev S1x1x1 : Shape := ⟨3, ![1, 1, 1]⟩
abbrev S204800x16x64 : Shape := ⟨3, ![204800, 16, 64]⟩

abbrev nBuf : Space → Nat
  | .hbm => 26
  | .vmem => 0
  | .smem => 0
  | _ => 0

abbrev bufTy : (tb : Table) → Fin (tcTables nBuf tb) → BufTy
  | .hbm, ⟨0, _⟩ => ⟨S204800x16, .i32⟩
  | .hbm, ⟨1, _⟩ => ⟨S204800x16, .i32⟩
  | .hbm, ⟨2, _⟩ => ⟨S66x64, .f32⟩
  | .hbm, ⟨3, _⟩ => ⟨S_, .i32⟩
  | .hbm, ⟨4, _⟩ => ⟨S204800x16, .i32⟩
  | .hbm, ⟨5, _⟩ => ⟨S204800x16, .i1⟩
  | .hbm, ⟨6, _⟩ => ⟨S_, .i32⟩
  | .hbm, ⟨7, _⟩ => ⟨S204800x16, .i32⟩
  | .hbm, ⟨8, _⟩ => ⟨S204800x16, .i32⟩
  | .hbm, ⟨9, _⟩ => ⟨S204800x16, .i32⟩
  | .hbm, ⟨10, _⟩ => ⟨S204800x16x1, .i32⟩
  | .hbm, ⟨11, _⟩ => ⟨S1, .i32⟩
  | .hbm, ⟨12, _⟩ => ⟨S_, .i32⟩
  | .hbm, ⟨13, _⟩ => ⟨S204800x16x1, .i32⟩
  | .hbm, ⟨14, _⟩ => ⟨S204800x16x1, .i1⟩
  | .hbm, ⟨15, _⟩ => ⟨S1x1x1, .i32⟩
  | .hbm, ⟨16, _⟩ => ⟨S204800x16x1, .i32⟩
  | .hbm, ⟨17, _⟩ => ⟨S204800x16x1, .i1⟩
  | .hbm, ⟨18, _⟩ => ⟨S204800x16x1, .i1⟩
  | .hbm, ⟨19, _⟩ => ⟨S_, .i1⟩
  | .hbm, ⟨20, _⟩ => ⟨S204800x16, .i1⟩
  | .hbm, ⟨21, _⟩ => ⟨S204800x16x64, .f32⟩
  | .hbm, ⟨22, _⟩ => ⟨S204800x16x64, .i1⟩
  | .hbm, ⟨23, _⟩ => ⟨S_, .f32⟩
  | .hbm, ⟨24, _⟩ => ⟨S204800x16x64, .f32⟩
  | .hbm, ⟨25, _⟩ => ⟨S204800x16x64, .f32⟩
  | _, _ => ⟨S204800x16, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩

abbrev nD : Nat := 1
abbrev τ : Topo := Topo.v7x

variable {F : FTy → Type} [FloatOps F]

class Facts₀ : Prop where
  bcast_S_S204800x16 : S_.BroadcastsInDim S204800x16 (![] : Fin 0 → Fin S204800x16.rank)
  bcast_S204800x16_S204800x16x1_0_1 : S204800x16.BroadcastsInDim S204800x16x1 (![0, 1] : Fin 2 → Fin S204800x16x1.rank)
  bcast_S_S204800x16x1 : S_.BroadcastsInDim S204800x16x1 (![] : Fin 0 → Fin S204800x16x1.rank)
  bcast_S1_S1x1x1_2 : S1.BroadcastsInDim S1x1x1 (![2] : Fin 1 → Fin S1x1x1.rank)
  bcast_S1x1x1_S204800x16x1_0_1_2 : S1x1x1.BroadcastsInDim S204800x16x1 (![0, 1, 2] : Fin 3 → Fin S204800x16x1.rank)
  reducesTo_S204800x16x1_S204800x16_d2 : S204800x16x1.ReducesTo [2] S204800x16
  h_S_ : 0 < S_.numel
  bcast_S204800x16_S204800x16x64_0_1 : S204800x16.BroadcastsInDim S204800x16x64 (![0, 1] : Fin 2 → Fin S204800x16x64.rank)
  bcast_S_S204800x16x64 : S_.BroadcastsInDim S204800x16x64 (![] : Fin 0 → Fin S204800x16x64.rank)
  gather_S66x64_S204800x16x1_S204800x16x64_2_0_n_n_0_2_164_wf : GatherDims.WF S66x64 S204800x16x1 S204800x16x64 [2] [0] [] [0] [] 2 ![1, 64]

variable [Facts₀]

def gather_S66x64_S204800x16x1_S204800x16x64_2_0_n_n_0_2_164 : GatherDims S66x64 S204800x16x1 S204800x16x64 where
  offsetDims := [2]
  collapsedSliceDims := [0]
  operandBatchingDims := []
  startIndicesBatchingDims := []
  startIndexMap := [0]
  indexVectorDim := 2
  sliceSizes := ![1, 64]
  wf := gather_S66x64_S204800x16x1_S204800x16x64_2_0_n_n_0_2_164_wf

class Facts : Prop extends Facts₀ where

variable [Facts]
-- ==== Proof.PreDecode.lean ====
/-
  The precondition read back for the index array. The printed predicate is the conjunction (a chain of one-bit
  `and`s) of three `jnp.all`s; the middle one is `all (0 ≤ x ∧ x ≤ 65)` over the first argument, both comparisons
  signed on 32-bit words. When the predicate's word is 1 every conjunct's word is 1, so every element of the first
  argument reads, as a signed integer, between 0 and 65; a 32-bit word whose signed value is nonnegative reads the
  same unsigned, hence its unsigned value is at most 65. Nothing is used of the other two arguments.
-/
import proofs.«204299_g532575945014_cont_9to1c4b_494_30_alg».proof.Pre_input_domain
import proofs.«204299_g532575945014_cont_9to1c4b_494_30_alg».proof.Proof.Gen.Pre_input_domain
import Idealize.ShloMosaic.Lib.ReduceAll
import Idealize.ShloMosaic.Lib.ValueIdx

noncomputable section

namespace Cert.Proof.PreDecode

open Idealize.ShloMosaic

/-- The scalar shape has one index. -/
instance subsingleton_scalar_idx : Subsingleton Cert.Pre_input_domain.S_.Idx := ⟨fun _ _ => funext fun d => d.elim0⟩

/-- A 32-bit word whose signed value lies in `[0, 65]` has unsigned value at most 65. -/
theorem toNat_le_of_toInt {x : BitVec 32} (h0 : (0 : Int) ≤ x.toInt) (h1 : x.toInt ≤ 65) : x.toNat ≤ 65 := by
  have hx : 2 * x.toNat < 2 ^ 32 := BitVec.toInt_pos_iff.mp h0
  rw [BitVec.toInt_eq_toNat_of_lt hx] at h1
  omega

/-- Under the printed precondition every element of the first argument is, unsigned, at most 65. -/
theorem enc_le_of_fn {F : FTy → Type} [FloatOps F] [Cert.Pre_input_domain.Facts]
    (a0 a1 : IVec Cert.Pre_input_domain.S204800x16 32) (a2 : FVec F Cert.Pre_input_domain.S66x64 .f32)
    (h : Cert.Pre_input_domain.fn (F := F) a0 a1 a2 = fun _ => 1#1) : ∀ i, (a0 i).toNat ≤ 65 := by
  intro i
  have h0 := congrFun h ValueIdx.ix0
  dsimp only [Cert.Pre_input_domain.fn, Cert.Pre_input_domain.fn_part1] at h0
  -- the outer conjunction: (table finite ∧ index range) ∧ mask range
  obtain ⟨h10, -⟩ := IntOp.andi_eq_one.1 h0
  obtain ⟨-, h9⟩ := IntOp.andi_eq_one.1 h10
  -- the index range's `all`, read at `i`
  have hi := Host.reduce_andi_all _ _ _ _ _ h9 i
  obtain ⟨hge, hle⟩ := IntOp.andi_eq_one.1 hi
  have hge' : (0#32 : BitVec 32).toInt ≤ (a0 i).toInt := IntOp.cmpi_sge.1 hge
  have hle' : (a0 i).toInt ≤ (65#32 : BitVec 32).toInt := IntOp.cmpi_sle.1 hle
  exact toNat_le_of_toInt (by simpa using hge') (by simpa using hle')

end Cert.Proof.PreDecode

end
-- ==== Proof.RefRun.lean ====
/-
  The reference program's run, and its result read at an index.

  The reference is `jnp.take(table, encodings, axis = 0)`: @main calls the outlined `_take`, which normalises negative
  indices (`where (x < 0, x + 66, x)`, itself an outlined `_where`), tests the normalised index against `0 ≤ · ≤ 65`
  (an `and` of two comparisons, reduced over a unit axis), gathers row `x` of the table (start index clamped into
  `[0, 65]`), and selects the gathered row where the test holds and a NaN filler elsewhere. With the calls unfolded
  @main is a straight line of twenty-three host operations, so every weakly fair execution terminates with each buffer
  at the operations' composed term of the launch contents (`composed`), the arguments unchanged.

  Where every index word reads, unsigned, at most 65 (the precondition), the normalisation is the identity (the word is
  not negative), the range test is 1 everywhere, the clamp of the start index is the identity, and the result at
  `(t, c, e)` is the table at `(x[t, c], e)`: `refOut`.
-/
import proofs.«204299_g532575945014_cont_9to1c4b_494_30_alg».proof.ReferenceIdeal
import proofs.«204299_g532575945014_cont_9to1c4b_494_30_alg».proof.Proof.Gen.ReferenceIdeal
import Idealize.ShloMosaic.Lib.StableHlo.Run
import Idealize.ShloMosaic.Lib.ValueIdx
import Idealize.ShloMosaic.Lib.ReduceAll

noncomputable section

namespace Cert.Proof.Ref

open Idealize.ShloMosaic Idealize.ShloMosaic.TcCoe Idealize.SL.Sem Idealize.ShloMosaic.StableHlo
open Idealize.ShloMosaic ValueIdx Cert.ReferenceIdeal
open Cert.ReferenceIdeal.Facts₀

variable {F : FTy → Type} [FloatOps F]

/-! ## The composed term -/

section Composed
variable [Cert.ReferenceIdeal.Facts]

/-- The index words normalised: `x + 66` where `x < 0` (signed), else `x`. -/
def normIdx (enc : IVec S204800x16 32) : IVec S204800x16 32 :=
  select (cmpi .slt enc (broadcastInDim S204800x16 ![] bcast_S_S204800x16 (constantI S_ 32 0#32)))
    (addi enc (broadcastInDim S204800x16 ![] bcast_S_S204800x16 (constantI S_ 32 66#32))) enc

/-- The normalised index words as the gather's start indices, a trailing unit axis added. -/
def startIdx (enc : IVec S204800x16 32) : IVec S204800x16x1 32 :=
  broadcastInDim S204800x16x1 ![0, 1] bcast_S204800x16_S204800x16x1_0_1 (normIdx enc)

/-- The range test: `0 ≤ x ∧ x ≤ 65` (signed) on the normalised words, and-reduced over the unit axis. -/
def inRange (enc : IVec S204800x16 32) : IVec S204800x16 1 :=
  Host.reduce IntOp.andi
    (andi (cmpi .sge (startIdx enc) (broadcastInDim S204800x16x1 ![] bcast_S_S204800x16x1 (constantI S_ 32 0#32)))
      (cmpi .sle (startIdx enc)
        (broadcastInDim S204800x16x1 ![0, 1, 2] bcast_S1x1x1_S204800x16x1_0_1_2
          (broadcastInDim S1x1x1 ![2] bcast_S1_S1x1x1_2 (constantI S1 32 65#32)))))
    (constantI S_ 1 1#1) reducesTo_S204800x16x1_S204800x16_d2 h_S_

/-- What the reference computes from the table and the index words: the gathered rows where the range test holds, the
    NaN filler elsewhere. -/
def composed (tab : FVec F S66x64 .f32) (enc : IVec S204800x16 32) : FVec F S204800x16x64 .f32 :=
  select (broadcastInDim S204800x16x64 ![0, 1] bcast_S204800x16_S204800x16x64_0_1 (inRange enc))
    (Host.gather gather_S66x64_S204800x16x1_S204800x16x64_2_0_n_n_0_2_164 tab (startIdx enc))
    (broadcastInDim S204800x16x64 ![] bcast_S_S204800x16x64 (constant S_ .f32 0x7FC00000#32))

end Composed

/-! ## The run -/

section Run
variable [Cert.ReferenceIdeal.Facts]

/-- @main's twenty-three operations in order, the two calls unfolded: `_take`'s over the buffers of its record
    (`main_call0_…`, its result `main_v0`), the select of `_where` into `main_call0_v4`. -/
abbrev ops : List (HloOp τ sig (Elt F)) :=
  [ nullary main_call0_c (constantI S_ 32 0#32 : (⟨S_, .i32⟩ : BufTy).Contents (Elt F)),
    unary main_call0_c main_call0_v0 (broadcastInDim S204800x16 ![] bcast_S_S204800x16 : (⟨S_, .i32⟩ : BufTy).Contents (Elt F) → (⟨S204800x16, .i32⟩ : BufTy).Contents (Elt F)),
    binary main_arg0 main_call0_v0 main_call0_v1 (cmpi .slt : (⟨S204800x16, .i32⟩ : BufTy).Contents (Elt F) → (⟨S204800x16, .i32⟩ : BufTy).Contents (Elt F) → (⟨S204800x16, .i1⟩ : BufTy).Contents (Elt F)),
    nullary main_call0_c_0 (constantI S_ 32 66#32 : (⟨S_, .i32⟩ : BufTy).Contents (Elt F)),
    unary main_call0_c_0 main_call0_v2 (broadcastInDim S204800x16 ![] bcast_S_S204800x16 : (⟨S_, .i32⟩ : BufTy).Contents (Elt F) → (⟨S204800x16, .i32⟩ : BufTy).Contents (Elt F)),
    binary main_arg0 main_call0_v2 main_call0_v3 (addi : (⟨S204800x16, .i32⟩ : BufTy).Contents (Elt F) → (⟨S204800x16, .i32⟩ : BufTy).Contents (Elt F) → (⟨S204800x16, .i32⟩ : BufTy).Contents (Elt F)),
    ternary main_call0_v1 main_call0_v3 main_arg0 main_call0_v4 (select : (⟨S204800x16, .i1⟩ : BufTy).Contents (Elt F) → (⟨S204800x16, .i32⟩ : BufTy).Contents (Elt F) → (⟨S204800x16, .i32⟩ : BufTy).Contents (Elt F) → (⟨S204800x16, .i32⟩ : BufTy).Contents (Elt F)),
    unary main_call0_v4 main_call0_v5 (broadcastInDim S204800x16x1 ![0, 1] bcast_S204800x16_S204800x16x1_0_1 : (⟨S204800x16, .i32⟩ : BufTy).Contents (Elt F) → (⟨S204800x16x1, .i32⟩ : BufTy).Contents (Elt F)),
    nullary main_call0_c_1 (constantI S1 32 65#32 : (⟨S1, .i32⟩ : BufTy).Contents (Elt F)),
    nullary main_call0_c_2 (constantI S_ 32 0#32 : (⟨S_, .i32⟩ : BufTy).Contents (Elt F)),
    unary main_call0_c_2 main_call0_v6 (broadcastInDim S204800x16x1 ![] bcast_S_S204800x16x1 : (⟨S_, .i32⟩ : BufTy).Contents (Elt F) → (⟨S204800x16x1, .i32⟩ : BufTy).Contents (Elt F)),
    binary main_call0_v5 main_call0_v6 main_call0_v7 (cmpi .sge : (⟨S204800x16x1, .i32⟩ : BufTy).Contents (Elt F) → (⟨S204800x16x1, .i32⟩ : BufTy).Contents (Elt F) → (⟨S204800x16x1, .i1⟩ : BufTy).Contents (Elt F)),
    unary main_call0_c_1 main_call0_v8 (broadcastInDim S1x1x1 ![2] bcast_S1_S1x1x1_2 : (⟨S1, .i32⟩ : BufTy).Contents (Elt F) → (⟨S1x1x1, .i32⟩ : BufTy).Contents (Elt F)),
    unary main_call0_v8 main_call0_v9 (broadcastInDim S204800x16x1 ![0, 1, 2] bcast_S1x1x1_S204800x16x1_0_1_2 : (⟨S1x1x1, .i32⟩ : BufTy).Contents (Elt F) → (⟨S204800x16x1, .i32⟩ : BufTy).Contents (Elt F)),
    binary main_call0_v5 main_call0_v9 main_call0_v10 (cmpi .sle : (⟨S204800x16x1, .i32⟩ : BufTy).Contents (Elt F) → (⟨S204800x16x1, .i32⟩ : BufTy).Contents (Elt F) → (⟨S204800x16x1, .i1⟩ : BufTy).Contents (Elt F)),
    binary main_call0_v7 main_call0_v10 main_call0_v11 (andi : (⟨S204800x16x1, .i1⟩ : BufTy).Contents (Elt F) → (⟨S204800x16x1, .i1⟩ : BufTy).Contents (Elt F) → (⟨S204800x16x1, .i1⟩ : BufTy).Contents (Elt F)),
    nullary main_call0_c_3 (constantI S_ 1 1#1 : (⟨S_, .i1⟩ : BufTy).Contents (Elt F)),
    binary main_call0_v11 main_call0_c_3 main_call0_v12 ((fun x v => Host.reduce IntOp.andi x v reducesTo_S204800x16x1_S204800x16_d2 h_S_) : (⟨S204800x16x1, .i1⟩ : BufTy).Contents (Elt F) → (⟨S_, .i1⟩ : BufTy).Contents (Elt F) → (⟨S204800x16, .i1⟩ : BufTy).Contents (Elt F)),
    binary main_arg2 main_call0_v5 main_call0_v13 ((fun x i => Host.gather gather_S66x64_S204800x16x1_S204800x16x64_2_0_n_n_0_2_164 x i) : (⟨S66x64, .f32⟩ : BufTy).Contents (Elt F) → (⟨S204800x16x1, .i32⟩ : BufTy).Contents (Elt F) → (⟨S204800x16x64, .f32⟩ : BufTy).Contents (Elt F)),
    unary main_call0_v12 main_call0_v14 (broadcastInDim S204800x16x64 ![0, 1] bcast_S204800x16_S204800x16x64_0_1 : (⟨S204800x16, .i1⟩ : BufTy).Contents (Elt F) → (⟨S204800x16x64, .i1⟩ : BufTy).Contents (Elt F)),
    nullary main_call0_cst (constant S_ .f32 0x7FC00000#32 : (⟨S_, .f32⟩ : BufTy).Contents (Elt F)),
    unary main_call0_cst main_call0_v15 (broadcastInDim S204800x16x64 ![] bcast_S_S204800x16x64 : (⟨S_, .f32⟩ : BufTy).Contents (Elt F) → (⟨S204800x16x64, .f32⟩ : BufTy).Contents (Elt F)),
    ternary main_call0_v14 main_call0_v13 main_call0_v15 main_v0 (select : (⟨S204800x16x64, .i1⟩ : BufTy).Contents (Elt F) → (⟨S204800x16x64, .f32⟩ : BufTy).Contents (Elt F) → (⟨S204800x16x64, .f32⟩ : BufTy).Contents (Elt F) → (⟨S204800x16x64, .f32⟩ : BufTy).Contents (Elt F)) ]

-- twenty-three binds re-associated under the two unfolded calls; the reduction and the gather stay folded (their bodies
-- range over every element of their operands, and the equation never looks inside them)
attribute [local irreducible] Host.reduce Host.gather in
set_option maxRecDepth 4096 in
/-- @main is that straight line: the two functions' bodies unfolded at their calls, sequencing reassociated; a typed
    reference's operation at a literal reference is the plain one (its transports along `rfl`). -/
theorem main_eq (c : Dev nD) : main (F := F) c = seq ops := by
  simp only [main, fn_take.body, fn_where.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩

-- the reduction and the gather stay folded while the fold over the operations is computed: their bodies range over
-- every element of their operands, and the equation never looks inside them
attribute [local irreducible] Host.reduce Host.gather in
set_option maxRecDepth 8192 in
/-- The fold at the result buffer is the composed term: each operation's result at its own buffer is its function's
    value, at any other buffer what was there. -/
theorem out_eq (V : Valuation τ sig (Elt F)) :
    after ops V (main_v0 : DevRef τ sig)
      = composed (F := F) (V (main_arg2 : DevRef τ sig)) (V (main_arg0 : DevRef τ sig)) := by
  after_results_simp
  unfold composed inRange startIdx normIdx
  rfl

attribute [local irreducible] Host.reduce Host.gather in
set_option maxRecDepth 8192 in
theorem arg0_eq (V : Valuation τ sig (Elt F)) :
    after ops V (main_arg0 : DevRef τ sig) = V (main_arg0 : DevRef τ sig) := by
  after_results_simp

attribute [local irreducible] Host.reduce Host.gather in
set_option maxRecDepth 8192 in
theorem arg1_eq (V : Valuation τ sig (Elt F)) :
    after ops V (main_arg1 : DevRef τ sig) = V (main_arg1 : DevRef τ sig) := by
  after_results_simp

attribute [local irreducible] Host.reduce Host.gather in
set_option maxRecDepth 8192 in
theorem arg2_eq (V : Valuation τ sig (Elt F)) :
    after ops V (main_arg2 : DevRef τ sig) = V (main_arg2 : DevRef τ sig) := by
  after_results_simp

/-- On every device, for any float values, from any memory with zero counters: every weakly fair execution of @main
    terminates with the result at the operations' composed term of the arguments and the arguments unchanged. -/
theorem run_composed (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v0)
        = composed (F := F) (m ((c.tc : Thread nD τ).loc main_arg2)) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v0).trans (out_eq _),
      (h c main_arg0).trans (arg0_eq _), (h c main_arg1).trans (arg1_eq _), (h c main_arg2).trans (arg2_eq _)⟩)
    (run_seq scopedRefs_eq scopedSems_eq defs main (fun _ => ops) main_eq (fun _ => ops_sub) m ρ)

end Run

/-! ## Words -/

section Words

/-- A 32-bit word reading at most 65 unsigned reads the same signed. -/
theorem toInt_of_le {x : BitVec 32} (h : x.toNat ≤ 65) : x.toInt = (x.toNat : Int) :=
  BitVec.toInt_eq_toNat_of_lt (by omega)

/-- Such a word is not negative, -/
theorem slt_zero_of_le {x : BitVec 32} (h : x.toNat ≤ 65) : IntOp.cmpi .slt x 0#32 = 0#1 := by
  refine eq_zero_of_ne_one fun hlt => ?_
  have h1 := IntOp.cmpi_slt.1 hlt
  rw [toInt_of_le h, show (0#32 : BitVec 32).toInt = 0 from by decide] at h1
  omega

/-- tests `0 ≤ ·`, -/
theorem sge_zero_of_le {x : BitVec 32} (h : x.toNat ≤ 65) : IntOp.cmpi .sge x 0#32 = 1#1 :=
  IntOp.cmpi_sge.2 (by rw [toInt_of_le h, show (0#32 : BitVec 32).toInt = 0 from by decide]; omega)

/-- and tests `· ≤ 65`. -/
theorem sle_of_le {x : BitVec 32} (h : x.toNat ≤ 65) : IntOp.cmpi .sle x 65#32 = 1#1 :=
  IntOp.cmpi_sle.2 (by rw [toInt_of_le h, show (65#32 : BitVec 32).toInt = 65 from by decide]; omega)

/-- Its signed value clamped into `[0, 65]` is its unsigned value, which is its own remainder by 66. -/
theorem clamp_of_le {x : BitVec 32} (h : x.toNat ≤ 65) : min x.toInt.toNat 65 = x.toNat % 66 := by
  rw [toInt_of_le h, Int.toNat_natCast, Nat.min_eq_left h, Nat.mod_eq_of_lt (by omega)]

/-- A left fold by `and` from 1 over `i1` words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 from by decide]
    exact foldl_andi_one f l fun n hn => h n (List.mem_cons_of_mem _ hn)

/-- A reduce by `and` from 1 of an `i1` array that is 1 everywhere is 1 everywhere. -/
theorem reduce_andi_of_all {s t u : Shape} {axes : List (Fin s.rank)} (x : s.Idx → BitVec 1) (init : u.Idx → BitVec 1)
    (h : s.ReducesTo axes t) (hu : 0 < u.numel) (hinit : ∀ k, init k = 1#1) (hx : ∀ i, x i = 1#1) (j : t.Idx) :
    Host.reduce IntOp.andi x init h hu j = 1#1 := by
  rw [Host.reduce_eq_foldl, hinit]
  exact foldl_andi_one x _ fun i _ => hx i

end Words

/-! ## The composed term at an index -/

section AtIndex
variable [Cert.ReferenceIdeal.Facts] {α : Type}

/-- The trailing unit axis added: element `(t, c, 0)` is element `(t, c)`. -/
theorem bcast_unit_apply (y : S204800x16.Idx → α) (i : S204800x16x1.Idx) :
    broadcastInDim S204800x16x1 ![0, 1] bcast_S204800x16_S204800x16x1_0_1 y i
      = y (ix2 (n0 := 204800) (n1 := 16) (i 0) (i 1)) := by
  unfold broadcastInDim
  congr 1
  funext a
  match a with
  | ⟨0, _⟩ => rfl
  | ⟨1, _⟩ => rfl

/-- Broadcast along the row axis: element `(t, c, e)` is element `(t, c)`. -/
theorem bcast_row_apply (y : S204800x16.Idx → α) (j : S204800x16x64.Idx) :
    broadcastInDim S204800x16x64 ![0, 1] bcast_S204800x16_S204800x16x64_0_1 y j
      = y (ix2 (n0 := 204800) (n1 := 16) (j 0) (j 1)) := by
  unfold broadcastInDim
  congr 1
  funext a
  match a with
  | ⟨0, _⟩ => rfl
  | ⟨1, _⟩ => rfl

/-- A word at most 65 is its own normalisation. -/
theorem normIdx_apply (enc : IVec S204800x16 32) (i : S204800x16.Idx) (h : (enc i).toNat ≤ 65) :
    normIdx enc i = enc i := by
  show Scalar.select (IntOp.cmpi .slt (enc i) 0#32) (IntOp.addi (enc i) 66#32) (enc i) = enc i
  rw [slt_zero_of_le h, select_zero]

/-- The start index at `(t, c, 0)` is then the word at `(t, c)`. -/
theorem startIdx_apply (enc : IVec S204800x16 32) (hle : ∀ i, (enc i).toNat ≤ 65) (i : S204800x16x1.Idx) :
    startIdx enc i = enc (ix2 (n0 := 204800) (n1 := 16) (i 0) (i 1)) := by
  unfold startIdx
  rw [bcast_unit_apply, normIdx_apply _ _ (hle _)]

/-- The range test holds everywhere. -/
theorem inRange_apply (enc : IVec S204800x16 32) (hle : ∀ i, (enc i).toNat ≤ 65) (k : S204800x16.Idx) :
    inRange enc k = 1#1 := by
  unfold inRange
  refine reduce_andi_of_all _ _ _ _ (fun _ => rfl) (fun i => ?_) k
  show IntOp.andi (IntOp.cmpi .sge (startIdx enc i) 0#32) (IntOp.cmpi .sle (startIdx enc i) 65#32) = 1#1
  rw [startIdx_apply enc hle, sge_zero_of_le (hle _), sle_of_le (hle _)]
  decide

/-- The gather read at `(t, c, e)`: the table at row the start index `idx[t, c, 0]`, read signed and clamped into
    `[0, 65]`, column `e`. On the row axis (collapsed, named by the start index map) the operand coordinate is the
    clamped start; on the column axis (the one offset axis) it is the result's third coordinate. -/
theorem gather_apply (tab : S66x64.Idx → α) (idx : IVec S204800x16x1 32) (j : S204800x16x64.Idx) :
    Host.gather gather_S66x64_S204800x16x1_S204800x16x64_2_0_n_n_0_2_164 tab idx j
      = tab (ix2 (n0 := 66) (n1 := 64)
          ⟨min (idx (ix3 (n0 := 204800) (n1 := 16) (n2 := 1) (j 0) (j 1) 0)).toInt.toNat 65, by omega⟩ (j 2)) := by
  unfold Host.gather
  congr 1
  funext a
  refine Fin.ext ?_
  match a with
  | ⟨0, _⟩ =>
    show (gather_S66x64_S204800x16x1_S204800x16x64_2_0_n_n_0_2_164).start j idx 0 + (gather_S66x64_S204800x16x1_S204800x16x64_2_0_n_n_0_2_164).batchCoord j 0 + (gather_S66x64_S204800x16x1_S204800x16x64_2_0_n_n_0_2_164).offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gather_S66x64_S204800x16x1_S204800x16x64_2_0_n_n_0_2_164).startIndexMap from List.mem_singleton.mpr rfl)]
    have hsi : (gather_S66x64_S204800x16x1_S204800x16x64_2_0_n_n_0_2_164).siIdx j ⟨List.idxOf (0 : Fin 2) (gather_S66x64_S204800x16x1_S204800x16x64_2_0_n_n_0_2_164).startIndexMap,
        List.idxOf_lt_length_iff.2 (List.mem_singleton.mpr rfl)⟩
          = ix3 (n0 := 204800) (n1 := 16) (n2 := 1) (j 0) (j 1) 0 := by
      funext b; refine Fin.ext ?_
      match b with
      | ⟨0, _⟩ => rfl
      | ⟨1, _⟩ => rfl
      | ⟨2, _⟩ => rfl
    rw [hsi]
    rfl
  | ⟨1, _⟩ =>
    show (gather_S66x64_S204800x16x1_S204800x16x64_2_0_n_n_0_2_164).start j idx 1 + (gather_S66x64_S204800x16x1_S204800x16x64_2_0_n_n_0_2_164).batchCoord j 1 + (gather_S66x64_S204800x16x1_S204800x16x64_2_0_n_n_0_2_164).offCoord j 1 = (j 2).val
    have h1 : (1 : Fin 2) ∉ (gather_S66x64_S204800x16x1_S204800x16x64_2_0_n_n_0_2_164).startIndexMap := by
      show (1 : Fin 2) ∉ [(0 : Fin 2)]
      decide
    have hk : (1 : Fin 2) ∈ (gather_S66x64_S204800x16x1_S204800x16x64_2_0_n_n_0_2_164).sKept :=
      (GatherDims.mem_sKept _ _).2 ⟨by show (1 : Fin 2) ∉ [(0 : Fin 2)]; decide, List.not_mem_nil⟩
    rw [GatherDims.batchCoord_eq_zero _ _ _ List.not_mem_nil]
    unfold GatherDims.start GatherDims.offCoord
    rw [dif_neg h1, dif_pos hk]
    simp only [Nat.zero_add, Nat.add_zero]
    rfl

/-- The composed term at `(t, c, e)`, the index words at most 65: the table at row `x[t, c]`, column `e`. -/
theorem composed_apply (tab : FVec F S66x64 .f32) (enc : IVec S204800x16 32) (hle : ∀ i, (enc i).toNat ≤ 65)
    (j : S204800x16x64.Idx) :
    composed tab enc j
      = tab (ix2 (n0 := 66) (n1 := 64)
          ⟨(enc (ix2 (n0 := 204800) (n1 := 16) (j 0) (j 1))).toNat % 66, Nat.mod_lt _ (by decide)⟩ (j 2)) := by
  unfold composed
  rw [select_apply, bcast_row_apply, inRange_apply enc hle, select_one, gather_apply]
  congr 2
  refine Fin.ext ?_
  show min (startIdx enc (ix3 (n0 := 204800) (n1 := 16) (n2 := 1) (j 0) (j 1) 0)).toInt.toNat 65 = _
  rw [startIdx_apply enc hle]
  exact clamp_of_le (hle _)

end AtIndex

/-! ## The reference's result -/

/-- Row `x[t, c]` of the table at `(t, c, ·)`: what the reference computes where every index word is at most 65. -/
def refOut (tab : Cert.ReferenceIdeal.S66x64.Idx → EReal) (enc : Cert.ReferenceIdeal.S204800x16.Idx → BitVec 32) :
    Cert.ReferenceIdeal.S204800x16x64.Idx → EReal :=
  fun j => tab (ix2 (n0 := 66) (n1 := 64)
    ⟨(enc (ix2 (n0 := 204800) (n1 := 16) (j 0) (j 1))).toNat % 66, Nat.mod_lt _ (by decide)⟩ (j 2))

/-- At the ideal instance, the index words at most 65, the composed term is `refOut`. -/
theorem composed_eq_refOut [Cert.ReferenceIdeal.Facts] (tab : FVec Ideal S66x64 .f32) (enc : IVec S204800x16 32)
    (hle : ∀ i, (enc i).toNat ≤ 65) : composed (F := Ideal) tab enc = refOut tab enc :=
  funext (composed_apply tab enc hle)

/-- On every device, at the ideal instance, from any memory with zero counters whose index words are at most 65: every
    weakly fair execution of @main terminates with the result `refOut` of the table and the index words, and the
    arguments unchanged. -/
theorem run [Cert.ReferenceIdeal.Facts] (m : (ℓ : Loc nD τ sig) → Buf (Elt Ideal) ℓ) (ρ : Dev nD → PrngReg)
    (hle : ∀ (c : Dev nD) i, (m ((c.tc : Thread nD τ).loc main_arg0) i).toNat ≤ 65) :
    θ_run (defs (F := Ideal)) (onTc (τ := τ) (main (F := Ideal))) ⟨m, fun _ => 0, ρ⟩ (fun r => ∀ c : Dev nD,
      r.2.mem ((c.tc : Thread nD τ).loc main_v0)
        = refOut (m ((c.tc : Thread nD τ).loc main_arg2)) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (composed_eq_refOut _ _ (hle c)), (h c).2⟩) (run_composed m ρ)

end Cert.Proof.Ref

end
-- ==== Proof.Ideal.Common.lean ====
/-
  Shared vocabulary of the lookup's proof: the three flat arrays the SparseCore call works on (the table as 4224 floats,
  the 3,276,800 indices, the 3,276,800 gathered rows of 64 floats), the split of the index and row ranges into 32
  consecutive parts of 102,400 (one per worker, worker w = 2·subcore + core), and the function the call computes:
  row r of the result is row idx[r] of the table, i.e. entry (r, e) is the flat table at idx[r]·64 + e.
-/
import proofs.«204299_g532575945014_cont_9to1c4b_494_30_alg».proof.KernelIdeal
import proofs.«204299_g532575945014_cont_9to1c4b_494_30_alg».proof.Proof.Gen.KernelIdeal
import Idealize.ShloMosaic.Lib.SparseCore.Launch
import Idealize.ShloMosaic.Lib.ValueIdx

noncomputable section

namespace Cert.Proof.KI

open Cert.KernelIdeal Cert.KernelIdeal.Gen
open Idealize.ShloMosaic
open Idealize.ShloMosaic.SparseCore (S V T)
open Idealize.SL Idealize.SL.Sem

variable {F : FTy → Type}

/-- The flat table, the flat indices and the gathered rows, as locations of device `d`. -/
abbrev tLoc (d : Dev nD) : Loc nD τ sig := (SparseCore.T d).loc main_v1
abbrev iLoc (d : Dev nD) : Loc nD τ sig := (SparseCore.T d).loc main_v0
abbrev oLoc (d : Dev nD) : Loc nD τ sig := (SparseCore.T d).loc main_v2

/-- The worker number of the tile at grid coordinates `L`: twice the subcore plus the core. -/
def wid (L : grid0.Coords) : Fin 32 := ⟨(L 1).val * 2 + (L 0).val, by
  have h0 : (L 0).val < 2 := (L 0).isLt
  have h1 : (L 1).val < 16 := (L 1).isLt
  omega⟩

theorem idiv : 32 ∣ S3276800.size 0 := ⟨102400, rfl⟩
theorem odiv : 32 ∣ S3276800x64.size 0 := ⟨102400, rfl⟩
/-- Part `w` of the indices, and of the rows: the 102,400 consecutive ones from `w · 102400`. -/
abbrev iPart (w : Fin 32) : Rect S3276800 := Rect.part (s := S3276800) (a₀ := 0) idiv w
abbrev oPart (w : Fin 32) : Rect S3276800x64 := Rect.part (s := S3276800x64) (a₀ := 0) odiv w
abbrev iSet (w : Fin 32) : Finset S3276800.Idx := ((Memref.whole main_v0_scv : Memref sig .scVector .hbm S3276800 .i32).view.slice (iPart w)).set
abbrev oSet (w : Fin 32) : Finset S3276800x64.Idx := ((Memref.whole main_v2_scv : Memref sig .scVector .hbm S3276800x64 .f32).view.slice (oPart w)).set

/-- Entry `col` of the table's row `e`, read off the flat table (the remainder only makes the function total:
    for `e ≤ 65` the position `e · 64 + col` is below 4224). -/
def gRow (tab : S4224.Idx → Elt F .f32) (e : BitVec 32) (col : Fin 64) : Elt F .f32 :=
  tab (ValueIdx.ix1 (n := 4224) ⟨(e.toNat * 64 + col.val) % 4224, Nat.mod_lt _ (by norm_num)⟩)

/-- What the call leaves in the rows: row `r` is the table's row `idx r`. -/
def gOut (tab : S4224.Idx → Elt F .f32) (idx : S3276800.Idx → BitVec 32) : S3276800x64.Idx → Elt F .f32 :=
  fun j => gRow tab (idx (ValueIdx.ix1 (n := 3276800) (j 0))) (j 1)

end Cert.Proof.KI

end
-- ==== Proof.Ideal.Launch.lean ====
/-
  The launch of the lookup: the SparseCore call's operands dealt to the 32 workers and gathered back, the worker's task
  from the body's theorem, and the program's run on the TensorCore around the call.
-/
import proofs.«204299_g532575945014_cont_9to1c4b_494_30_alg».proof.Proof.Ideal.Common
import Idealize.ShloMosaic.Lib.SparseCore.Launch
import Idealize.ShloMosaic.Lib.StableHlo.Run
import Idealize.ShloMosaic.Lib.Pipeline.Kit
import Idealize.ShloMosaic.Lib.Tactic

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
/-- The TensorCore pipeline's rounds library, the left factor of the right factor. -/
def EP : Emb UP (MT nD τ sig (HIx 1) (Elt F) ℕ UU ℕ) := (Emb.inl : Emb UP (UP × Counters)).trans embR
instance EP_landsIn : (EP : Emb UP 𝕄).LandsIn (upEmb : UEmb _ 𝕄) := by unfold EP; infer_instance

/-! ## The launch memory; the flat arrays after @main's two reshapes -/

variable (m : (ℓ : Loc nD τ sig) → Buf (Elt F) ℓ) (ρ : Dev nD → PrngReg)

/-- The launch valuation of device `d`. -/
def V0 (d : Dev nD) : Valuation τ sig (Elt F) := fun b => m (d, b)

abbrev opIdx : HloOp τ sig (Elt F) := StableHlo.reshape main_arg0 main_v0 rfl shapeCasts_S204800x16_S3276800
abbrev opTab : HloOp τ sig (Elt F) := StableHlo.reshape main_arg2 main_v1 rfl shapeCasts_S66x64_S4224
abbrev opOut : HloOp τ sig (Elt F) := StableHlo.reshape main_v2 main_v4 rfl shapeCasts_S3276800x64_S204800x16x64

/-- After the indices' reshape, and after the table's. -/
def V1 (d : Dev nD) : Valuation τ sig (Elt F) := (opIdx (F := F)).result (V0 m d)
def V2 (d : Dev nD) : Valuation τ sig (Elt F) := (opTab (F := F)).result (V1 m d)

/-- The flat indices and the flat table as the call finds them. -/
def idxF (d : Dev nD) : Buf (Elt F) (iLoc d) := V2 m d (Proc.devRef .tc main_v0)
def tabF (d : Dev nD) : Buf (Elt F) (tLoc d) := V2 m d (Proc.devRef .tc main_v1)

/-! ## What the handshakes carry -/

/-- Worker `2·i + c` of SparseCore `c`'s subcore `i`. -/
def wOf (c : Fin 2) (i : Fin 16) : Fin 32 := ⟨i.val * 2 + c.val, by omega⟩

/-- Worker `w`'s read share of the table. -/
abbrev tq (w : Fin 32) : PosShare TreeShare := Transfers.shareTok fullShare 32 w

/-- A worker's operands: its share of the table, its part of the indices, its part of the rows at contents `f`. -/
def wRes (d : Dev nD) (w : Fin 32) (f : Buf (Elt F) (oLoc d)) : sProp 𝕄 :=
  iprop((tLoc d ↦{tq w} tabF m d) ∗ (iLoc d ↦[iSet w]{fullShare} idxF m d) ∗ (oLoc d ↦[oSet w]{fullShare} f))

/-- The rows after the call. -/
def outF (d : Dev nD) : Buf (Elt F) (oLoc d) := gOut (tabF m d) (idxF m d)

def P : (K (F := F)).Pay (nD := nD) (Val := Elt F) (Name := ℕ) (U := UU) where
  st := fun q d c => match q with
    | 0 => bigSep Finset.univ fun i : Fin 16 => wRes m d (wOf (Fin.cast nCore_zero c) i) (m (oLoc d))
  dn := fun q d c => match q with
    | 0 => bigSep Finset.univ fun i : Fin 16 => wRes m d (wOf (Fin.cast nCore_zero c) i) (outF m d)
  go := fun q d c i => match q with
    | 0 => wRes m d (wOf (Fin.cast nCore_zero c) (Fin.cast nSub_zero i)) (m (oLoc d))
  td := fun q d c i => match q with
    | 0 => wRes m d (wOf (Fin.cast nCore_zero c) (Fin.cast nSub_zero i)) (outF m d)
  x := fun _ _ => iprop(emp)

instance wRes_storable (d : Dev nD) (w : Fin 32) (f : Buf (Elt F) (oLoc d)) : BI.Storable (upEmb : UEmb _ 𝕄) (wRes m d w f) := by
  unfold wRes; infer_instance

instance P_storable : (P (F := F) m).IsStorable where
  st q d c := match q with
    | 0 => (inferInstance : BI.Storable (upEmb : UEmb _ 𝕄) (bigSep Finset.univ fun i : Fin 16 => wRes m d (wOf (Fin.cast nCore_zero c) i) (m (oLoc d))))
  dn q d c := match q with
    | 0 => (inferInstance : BI.Storable (upEmb : UEmb _ 𝕄) (bigSep Finset.univ fun i : Fin 16 => wRes m d (wOf (Fin.cast nCore_zero c) i) (outF m d)))
  go q d c i := match q with
    | 0 => (inferInstance : BI.Storable (upEmb : UEmb _ 𝕄) (wRes m d (wOf (Fin.cast nCore_zero c) (Fin.cast nSub_zero i)) (m (oLoc d))))
  td q d c i := match q with
    | 0 => (inferInstance : BI.Storable (upEmb : UEmb _ 𝕄) (wRes m d (wOf (Fin.cast nCore_zero c) (Fin.cast nSub_zero i)) (outF m d)))

variable [FloatOps F]

/-! ## The worker's task -/

abbrev cV (L : grid0.Coords) : Fin τ.nSC := (L 0).castLE hcore0
abbrev jV (L : grid0.Coords) : Fin τ.nSub := (L 1).castLE hsub0

def coordsV (c : Fin (grid0.bound 0)) (s : Fin (grid0.bound 1)) : grid0.Coords :=
  fun | 0 => c | 1 => s | ⟨_ + 2, h⟩ => absurd h (Nat.not_lt.2 (Nat.le_add_left _ _))

/-- The kernel's call at grid coordinates `L`, on the whole arrays and the tile's scratch, as the body table makes it. -/
abbrev kernelAt (L : grid0.Coords) :=
  cc0_gather_kernel (F := F) L (Memref.whole main_v1_scv) (Memref.isWhole_whole _) (Memref.whole main_v0_scv) (Memref.isWhole_whole _)
    (Memref.whole main_v2_scv) (Memref.isWhole_whole _) (Memref.whole cc0_scratch0) (Memref.isWhole_whole _) (Memref.whole cc0_scratch1) (Memref.isWhole_whole _)
    (Memref.whole cc0_scratch2) (Memref.isWhole_whole _) (Memref.whole cc0_scratch3) (Memref.isWhole_whole _) (Memref.whole cc0_scratch4) (Memref.isWhole_whole _)
    cc0_scratch5 cc0_scratch6 cc0_scratch7 cc0_scratch8 cc0_scratch9

/-- What the body's theorem says of one worker: from a share of the table, its part of the indices (each at most 65)
    and its part of the rows, the task ends with its part of the rows holding the table's rows at its indices. -/
def TileBodySpec : Prop :=
  ∀ (d : Dev nD) (L : grid0.Coords) (q : PosShare TreeShare) (tab : Buf (Elt F) (tLoc d)) (idx : Buf (Elt F) (iLoc d))
    (_ : ∀ j, (idx j).toNat ≤ 65) (f0 : Buf (Elt F) (oLoc d))
    (O : CellTallies nD τ sig (HIx 1)) (W : Waits sig (HIx 1)) (_ : ∀ g, O g none = 0),
    (iprop(levAts (K (F := F)).L (K (F := F)).lev ∗ emp
        ∗ ((tLoc d ↦{q} tab) ∗ (iLoc d ↦[iSet (wid L)]{fullShare} idx) ∗ (oLoc d ↦[oSet (wid L)]{fullShare} f0))
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ (kernelAt (F := F) L)
          fun _ => iprop(((tLoc d ↦{q} tab) ∗ (iLoc d ↦[iSet (wid L)]{fullShare} idx) ∗ (oLoc d ↦[oSet (wid L)]{fullShare} gOut tab idx))
            ∗ scopedBufs (V d (cV L) (jV L)) ∗ scopedSems0 (V d (cV L) (jV L))
            ∗ ∃ W', ⌜∀ p ∈ W', p ∈ W ∨ p.2 = none⌝ ∗ owes (V d (cV L) (jV L)) O W')

theorem defs₀_vector (c : Fin τ.nSC) (s : Fin τ.nSub) :
    defs₀ (F := F) (.scVector c s) 0 ()
      = SparseCore.onTile hcore0 hsub0 (fun c s => kernelAt (F := F) (coordsV c s)) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The flat indices are in range: what the precondition gives. -/
def IdxOK : Prop := ∀ (d : Dev nD) j, (idxF m d j).toNat ≤ 65

theorem tileObl (hbody : TileBodySpec (F := F)) (hpre : IdxOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  have hw : wid (coordsV ⟨_, hc.1⟩ ⟨_, hc.2⟩) = wOf (Fin.cast nCore_zero c) (Fin.cast nSub_zero i) := Fin.ext rfl
  have h := hbody d (coordsV ⟨_, hc.1⟩ ⟨_, hc.2⟩) (tq (wOf (Fin.cast nCore_zero c) (Fin.cast nSub_zero i))) (tabF m d) (idxF m d) (hpre d) (m (oLoc d)) O W hO
  rw [hw] at h
  exact h.trans (wp_mono frame _ _ fun _ => obl_post)

theorem vecSplit : (K (F := F)).VecSplit' (P m) 0 := by
  intro d c
  show (bigSep Finset.univ fun i : Fin 16 => wRes m d (wOf (Fin.cast nCore_zero c) i) (m (oLoc d))) ⊢ |={Set.univ}=> iprop(
      (bigSep Finset.univ fun i : Fin ((K (F := F)).nSub 0) => wRes m d (wOf (Fin.cast nCore_zero c) (Fin.cast nSub_zero i)) (m (oLoc d)))
      ∗ ((bigSep Finset.univ fun i : Fin ((K (F := F)).nSub 0) => wRes m d (wOf (Fin.cast nCore_zero c) (Fin.cast nSub_zero i)) (outF m d))
          -∗ bigSep Finset.univ fun i : Fin 16 => wRes m d (wOf (Fin.cast nCore_zero c) i) (outF m d)))
  iintro H; imodintro
  isplitl [H]; · iexact H
  iintro H; iexact H

/-! ## @main on the TensorCore -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev r0' : DevRef τ sig := Proc.devRef .tc (main_v0 : Ref sig .tc)
abbrev r1' : DevRef τ sig := Proc.devRef .tc (main_v1 : Ref sig .tc)
abbrev r2' : DevRef τ sig := Proc.devRef .tc (main_v2 : Ref sig .tc)
abbrev r3' : DevRef τ sig := Proc.devRef .tc (main_v3 : Ref sig .tc)
abbrev r4' : DevRef τ sig := Proc.devRef .tc (main_v4 : Ref sig .tc)

/-- The TensorCore's arrays, all unscoped: the three arguments and @main's five values. -/
abbrev S8 : Finset (DevRef τ sig) := {a0', a1', a2', r0', r1', r2', r3', r4'}

abbrev aLoc (d : Dev nD) (b : Ref sig .tc) : Loc nD τ sig := (SparseCore.T d).loc b

omit [FloatOps F] in
theorem held_S8 (d : Dev nD) (W : Valuation τ sig (Elt F)) :
    (held (T d) S8 W : sProp 𝕄) = iprop((aLoc d main_arg0 ↦{fullShare} W a0') ∗ (aLoc d main_arg1 ↦{fullShare} W a1') ∗ (aLoc d main_arg2 ↦{fullShare} W a2')
      ∗ (aLoc d main_v0 ↦{fullShare} W r0') ∗ (aLoc d main_v1 ↦{fullShare} W r1') ∗ (aLoc d main_v2 ↦{fullShare} W r2')
      ∗ (aLoc d main_v3 ↦{fullShare} W r3') ∗ (aLoc d main_v4 ↦{fullShare} W r4')) := by
  unfold held S8
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((aLoc d main_arg0 ↦{fullShare} W main_arg0) ∗ (aLoc d main_arg1 ↦{fullShare} W main_arg1) ∗ (aLoc d main_arg2 ↦{fullShare} W main_arg2)
      ∗ (aLoc d main_v0 ↦{fullShare} W main_v0) ∗ (aLoc d main_v1 ↦{fullShare} W main_v1) ∗ (aLoc d main_v2 ↦{fullShare} W main_v2)
      ∗ (aLoc d main_v3 ↦{fullShare} W main_v3) ∗ (aLoc d main_v4 ↦{fullShare} W main_v4)) := by
  unfold unscopedBufs
  rw [show (Finset.univ.filter fun b : Ref sig .tc => ¬ b.isScoped) = {main_arg0, main_arg1, main_arg2, main_v0, main_v1, main_v2, main_v3, main_v4} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

theorem unscoped_held (d : Dev nD) : (unscopedBufs d (fun b => m ((SparseCore.T d).loc b)) : sProp 𝕄) = held (T d) S8 (V0 m d) := by
  rw [unscopedBufs_eq, held_S8]; rfl

theorem hIdx : (opIdx (F := F)).bufs ⊆ S8 := show ({a0', r0'} : Finset (DevRef τ sig)) ⊆ S8 by decide
theorem hTab : (opTab (F := F)).bufs ⊆ S8 := show ({a2', r1'} : Finset (DevRef τ sig)) ⊆ S8 by decide
theorem hOut : (opOut (F := F)).bufs ⊆ S8 := show ({r2', r4'} : Finset (DevRef τ sig)) ⊆ S8 by decide

/-! ## The operands dealt to the 32 workers and gathered back -/

omit [FloatOps F] in
theorem iSet_eq (w : Fin 32) : iSet w = (iPart w).set := by
  show ((View.whole (main_v0_scv : Ref sig .scVector)).slice (iPart w)).set = _
  rw [View.set_slice]; exact Finset.map_refl
omit [FloatOps F] in
theorem oSet_eq (w : Fin 32) : oSet w = (oPart w).set := by
  show ((View.whole (main_v2_scv : Ref sig .scVector)).slice (oPart w)).set = _
  rw [View.set_slice]; exact Finset.map_refl
omit [FloatOps F] in
theorem iSets_disjoint : ∀ i ∈ (Finset.univ : Finset (Fin 32)), ∀ j ∈ (Finset.univ : Finset (Fin 32)), i ≠ j → Disjoint (iSet i) (iSet j) :=
  fun i _ j _ h => by rw [iSet_eq, iSet_eq]; exact Rect.part_disjoint idiv h
omit [FloatOps F] in
theorem oSets_disjoint : ∀ i ∈ (Finset.univ : Finset (Fin 32)), ∀ j ∈ (Finset.univ : Finset (Fin 32)), i ≠ j → Disjoint (oSet i) (oSet j) :=
  fun i _ j _ h => by rw [oSet_eq, oSet_eq]; exact Rect.part_disjoint odiv h
omit [FloatOps F] in
theorem iSets_cover : (Finset.univ : Finset (Fin 32)).biUnion iSet = Finset.univ :=
  (Finset.biUnion_congr rfl fun i _ => iSet_eq i).trans (Rect.biUnion_part idiv)
omit [FloatOps F] in
theorem oSets_cover : (Finset.univ : Finset (Fin 32)).biUnion oSet = Finset.univ :=
  (Finset.biUnion_congr rfl fun i _ => oSet_eq i).trans (Rect.biUnion_part odiv)

omit [FloatOps F] in
theorem iPts_parts (d : Dev nD) (f : Buf (Elt F) (iLoc d)) :
    (iLoc d ↦{fullShare} f : sProp 𝕄) = bigSep Finset.univ fun w : Fin 32 => iLoc d ↦[iSet w]{fullShare} f := by
  rw [← pointsTo_biUnion Finset.univ (ℓ := iLoc d) iSet iSets_disjoint, iSets_cover]; try rfl
omit [FloatOps F] in
theorem oPts_parts (d : Dev nD) (f : Buf (Elt F) (oLoc d)) :
    (oLoc d ↦{fullShare} f : sProp 𝕄) = bigSep Finset.univ fun w : Fin 32 => oLoc d ↦[oSet w]{fullShare} f := by
  rw [← pointsTo_biUnion Finset.univ (ℓ := oLoc d) oSet oSets_disjoint, oSets_cover]; try rfl

/-- The workers, by SparseCore and subcore. -/
def wEquiv : Fin 2 × Fin 16 ≃ Fin 32 := (Equiv.prodComm (Fin 2) (Fin 16)).trans (finProdFinEquiv : Fin 16 × Fin 2 ≃ Fin 32)

omit [FloatOps F] in
theorem wEquiv_apply (c : Fin 2) (i : Fin 16) : wEquiv (c, i) = wOf c i := by
  apply Fin.ext; simp [wEquiv, wOf, finProdFinEquiv]; omega

omit [FloatOps F] in
/-- A family over the 32 workers is the family over the two SparseCores of the families over their 16 subcores. -/
theorem bigSep_workers (Φ : Fin 32 → sProp 𝕄) :
    bigSep Finset.univ Φ = bigSep Finset.univ fun c : Fin 2 => bigSep Finset.univ fun i : Fin 16 => Φ (wOf c i) := by
  rw [bigSep_univ_equiv wEquiv Φ, bigSep_univ_prod]
  exact bigSep_congr fun c _ => bigSep_congr fun i _ => by rw [wEquiv_apply]

/-- The whole operands at rows contents `f`, but for the table's share that stays with the TensorCore, are the 32 workers' operands. -/
theorem deal (d : Dev nD) (f : Buf (Elt F) (oLoc d)) :
    iprop((tLoc d ↦{fullShare} tabF m d) ∗ (iLoc d ↦{fullShare} idxF m d) ∗ (oLoc d ↦{fullShare} f))
      ⊣⊢ iprop((tLoc d ↦{Transfers.shareDrop fullShare 32} tabF m d) ∗ bigSep Finset.univ fun c : Fin 2 => bigSep Finset.univ fun i : Fin 16 => wRes m d (wOf c i) f) := by
  rw [← bigSep_workers (fun w => wRes m d w f)]
  unfold wRes
  rw [bigSep_sep', bigSep_sep', ← iPts_parts, ← oPts_parts]
  constructor
  · iintro ⟨Ht, Hi, Ho⟩
    ihave Ht' := (Transfers.pointsTo_toks_split (ℓ := tLoc d) (S := Finset.univ) (f := tabF m d) fullShare 32) $$ Ht
    icases Ht' with ⟨Hd, Hts⟩
    isplitl [Hd]; · iexact Hd
    isplitl [Hts]; · iexact Hts
    isplitl [Hi]; · iexact Hi
    iexact Ho
  · iintro ⟨Hd, Hts, Hi, Ho⟩
    isplitl [Hd Hts]
    · iapply (Transfers.pointsTo_toks_join (ℓ := tLoc d) (S := Finset.univ) (f := tabF m d) fullShare 32)
      isplitl [Hd]; · iexact Hd
      iexact Hts
    isplitl [Hi]; · iexact Hi
    iexact Ho

/-! ## The run of @main -/

/-- The mask as @main's second result holds it. -/
def maskF (d : Dev nD) : Buf (Elt F) (aLoc d main_v3) := m (aLoc d main_arg1)

/-- The valuation after the SparseCore call and the mask's copy. -/
def V3 (d : Dev nD) : Valuation τ sig (Elt F) := Function.update (Function.update (V2 m d) r2' (outF m d)) r3' (maskF m d)
/-- After the rows' reshape. -/
def V4 (d : Dev nD) : Valuation τ sig (Elt F) := (opOut (F := F)).result (V3 m d)

/-- What @main leaves the claim: the arguments at their launch contents, the two results. -/
abbrev FIN (d : Dev nD) : sProp 𝕄 :=
  iprop((aLoc d main_arg0 ↦{fullShare} m (aLoc d main_arg0)) ∗ (aLoc d main_arg1 ↦{fullShare} m (aLoc d main_arg1)) ∗ (aLoc d main_arg2 ↦{fullShare} m (aLoc d main_arg2))
    ∗ (aLoc d main_v4 ↦{fullShare} V4 m d r4') ∗ (aLoc d main_v3 ↦{fullShare} maskF m d))

omit [FloatOps F] in
theorem st0_eq (d : Dev nD) : (bigSep Finset.univ fun c : Fin ((K (F := F)).nCore 0) => (P m).st 0 d c)
    = bigSep Finset.univ fun c : Fin 2 => bigSep Finset.univ fun i : Fin 16 => wRes m d (wOf c i) (m (oLoc d)) :=
  bigSep_congr fun c _ => rfl
omit [FloatOps F] in
theorem dn0_eq (d : Dev nD) : (bigSep Finset.univ fun c : Fin ((K (F := F)).nCore 0) => (P m).dn 0 d c)
    = bigSep Finset.univ fun c : Fin 2 => bigSep Finset.univ fun i : Fin 16 => wRes m d (wOf c i) (outF m d) :=
  bigSep_congr fun c _ => rfl

/-- The rows' buffer is still at its launch contents when the call starts. -/
theorem V2_r2 (d : Dev nD) : V2 m d r2' = m (oLoc d) := by
  unfold V2 V1
  rw [(opTab (F := F)).result_of_not_mem _ (b := r2') (show r2' ∉ ({r1'} : Finset (DevRef τ sig)) by decide),
    (opIdx (F := F)).result_of_not_mem _ (b := r2') (show r2' ∉ ({r0'} : Finset (DevRef τ sig)) by decide)]
  rfl

theorem V2_of_ne (d : Dev nD) (b : DevRef τ sig) (h0 : b ≠ r0') (h1 : b ≠ r1') : V2 m d b = V0 m d b := by
  unfold V2 V1
  rw [(opTab (F := F)).result_of_not_mem _ (b := b) (show b ∉ ({r1'} : Finset (DevRef τ sig)) from fun h => h1 (Finset.mem_singleton.mp h)),
    (opIdx (F := F)).result_of_not_mem _ (b := b) (show b ∉ ({r0'} : Finset (DevRef τ sig)) from fun h => h0 (Finset.mem_singleton.mp h))]

set_option pp.maxSteps 4000 in

theorem V3_of_ne (d : Dev nD) (b : DevRef τ sig) (h2 : b ≠ r2') (h3 : b ≠ r3') : V3 m d b = V2 m d b := by
  unfold V3; rw [Function.update_of_ne h3, Function.update_of_ne h2]
theorem V3_r2 (d : Dev nD) : V3 m d r2' = outF m d := by
  unfold V3; rw [Function.update_of_ne (show r2' ≠ r3' by decide), Function.update_self]
theorem V3_r3 (d : Dev nD) : V3 m d r3' = maskF m d := by
  unfold V3; rw [Function.update_self]
theorem V4_of_ne (d : Dev nD) (b : DevRef τ sig) (h : b ≠ r4') : V4 m d b = V3 m d b :=
  (opOut (F := F)).result_of_not_mem _ (b := b) (show b ∉ ({r4'} : Finset (DevRef τ sig)) from fun hb => h (Finset.mem_singleton.mp hb))

/-- What the mask's copy does at its line of @main, as the theorem about that call states it: from the region
    boundary, the mask and the result buffer whole, what the TensorCore owes, and the pipeline's cells `G d`, the
    call ends with the result buffer holding the mask and the rest as it was. -/
def MaskSpec (G : Dev nD → sProp 𝕄) : Prop :=
  ∀ (d : Dev nD) (a : Buf (Elt F) (aLoc d main_arg1)) (f : Buf (Elt F) (aLoc d main_v3))
    (O : CellTallies nD τ sig (HIx 1)) (_ : ∀ g, O g none = 0) (b : ℕ),
    iprop(levAts (K (F := F)).L (K (F := F)).lev ∗ boundary (SparseCore.T d) ∗ (aLoc d main_arg1 ↦{fullShare} a) ∗ (aLoc d main_v3 ↦{fullShare} f)
        ∗ (∃ W, ⌜(K (F := F)).WBelow (SparseCore.T d) W b⌝ ∗ owes (SparseCore.T d) O W) ∗ G d)
      ⊢ wp frame (wpE ((K (F := F)).defs (D (F := F))) 𝒱 (SparseCore.T d) none) Set.univ
          (Prog.lift (TpuEff.customCall (SparseCore.inner (Pipeline.entry 0)) ()))
          fun _ => iprop(boundary (SparseCore.T d) ∗ (aLoc d main_arg1 ↦{fullShare} a) ∗ (aLoc d main_v3 ↦{fullShare} (fun i => a i))
            ∗ (∃ W, ⌜(K (F := F)).WBelow (SparseCore.T d) W b⌝ ∗ owes (SparseCore.T d) O W))

omit [FloatOps F] in
/-- The TensorCore's state before call `n` is what it owes beside the rest. -/
theorem tcSt_split (d : Dev nD) (n : ℕ) :
    ∃ R : sProp 𝕄, ((K (F := F)).tcSt EH d n : sProp 𝕄)
      = iprop((∃ W, ⌜(K (F := F)).WBelow (SparseCore.T d) W (8 * n)⌝ ∗ owes (SparseCore.T d) ((K (F := F)).Otc d n) W) ∗ R) :=
  ⟨_, by unfold SparseCore.Cfg.tcSt; rfl⟩

omit [FloatOps F] in
/-- After the one call the TensorCore owes no start signal. -/
theorem Otc_one (d : Dev nD) (g : GSem nD τ sig) : (K (F := F)).Otc d 1 g none = 0 := by
  unfold SparseCore.Cfg.Otc
  simp

theorem held_V3 (d : Dev nD) :
    (iprop((aLoc d main_arg0 ↦{fullShare} V2 m d a0') ∗ (aLoc d main_arg1 ↦{fullShare} V2 m d a1') ∗ (aLoc d main_arg2 ↦{fullShare} V2 m d a2')
      ∗ (iLoc d ↦{fullShare} idxF m d) ∗ (tLoc d ↦{fullShare} tabF m d) ∗ (oLoc d ↦{fullShare} outF m d)
      ∗ (aLoc d main_v3 ↦{fullShare} fun i => V2 m d a1' i) ∗ (aLoc d main_v4 ↦{fullShare} V2 m d r4')) : sProp 𝕄)
      = held (SparseCore.T d) S8 (V3 m d) := by
  rw [held_S8, V3_of_ne m d a0' (by decide) (by decide), V3_of_ne m d a1' (by decide) (by decide), V3_of_ne m d a2' (by decide) (by decide),
    V3_of_ne m d r0' (by decide) (by decide), V3_of_ne m d r1' (by decide) (by decide), V3_r2, V3_r3, V3_of_ne m d r4' (by decide) (by decide)]
  rfl

theorem held_V4 (d : Dev nD) :
    (held (SparseCore.T d) S8 ((opOut (F := F)).result (V3 m d)) : sProp 𝕄)
      = iprop((aLoc d main_arg0 ↦{fullShare} m (aLoc d main_arg0)) ∗ (aLoc d main_arg1 ↦{fullShare} m (aLoc d main_arg1)) ∗ (aLoc d main_arg2 ↦{fullShare} m (aLoc d main_arg2))
        ∗ (aLoc d main_v0 ↦{fullShare} V4 m d r0') ∗ (aLoc d main_v1 ↦{fullShare} V4 m d r1') ∗ (aLoc d main_v2 ↦{fullShare} V4 m d r2')
        ∗ (aLoc d main_v3 ↦{fullShare} maskF m d) ∗ (aLoc d main_v4 ↦{fullShare} V4 m d r4')) := by
  rw [show (held (SparseCore.T d) S8 ((opOut (F := F)).result (V3 m d)) : sProp 𝕄) = _ from held_S8 (F := F) d (V4 m d),
    V4_of_ne m d a0' (by decide), V4_of_ne m d a1' (by decide), V4_of_ne m d a2' (by decide), V4_of_ne m d r3' (by decide),
    V3_of_ne m d a0' (by decide) (by decide), V3_of_ne m d a1' (by decide) (by decide), V3_of_ne m d a2' (by decide) (by decide), V3_r3,
    V2_of_ne m d a0' (by decide) (by decide), V2_of_ne m d a1' (by decide) (by decide), V2_of_ne m d a2' (by decide) (by decide)]
  rfl

set_option pp.deepTerms false in
theorem hmain (G : Dev nD → sProp 𝕄) (hmask : MaskSpec (F := F) G) (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d) := by
  obtain ⟨R, hR⟩ := tcSt_split (F := F) d 1
  have hR1 : ((K (F := F)).tcSt EH d (↑(0 : Fin 1) + 1) : sProp 𝕄) = _ := hR
  unfold SparseCore.Cfg.tcRes
  rw [unscoped_held]
  simp only [main, wp_bind, wp_pure]
  iintro ⟨#Hctx, Hst, ⟨Hb, Hheld, Hsems, Hprng⟩, HG⟩
  iapply (wp_hlo_within 𝒱 (SparseCore.T d) none Set.univ (op := opIdx) (S := S8) hIdx (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := opTab) (S := S8) hTab (V := V1 m d)) $$ [Hb Hheld]
  · isplitl [Hb]; · iexact Hb
    iexact Hheld
  iintro ⟨Hb, Hheld⟩
  rw [wp_ret]; imodintro
  ihave Hh := (Entails.of_eq (show (held (SparseCore.T d) S8 ((opTab (F := F)).result (V1 m d)) : sProp 𝕄) = _ from held_S8 (F := F) d (V2 m d))) $$ Hheld
  icases Hh with ⟨Ha0, Ha1, Ha2, Hr0, Hr1, Hr2, Hr3, Hr4⟩
  rw [V2_r2 m d]
  -- the operands dealt to the workers, the call, the results gathered
  ihave Hdeal := (deal m d (m (oLoc d))).1 $$ [Hr1 Hr0 Hr2]
  · isplitl [Hr1]; · iexact Hr1
    isplitl [Hr0]; · iexact Hr0
    iexact Hr2
  icases Hdeal with ⟨Htd, Hws⟩
  iapply ((K (F := F)).wp_run (D (F := F)) 𝒱 (EH := EH) (P := P m) κ d 0) $$ [Hst Hws Htd Ha0 Ha1 Ha2 Hr3 Hr4 Hb Hsems Hprng HG]
  isplitr; · iexact Hctx
  isplitl [Hst]; · iexact Hst
  isplitl [Hws]
  · rw [st0_eq]; iexact Hws
  iintro ⟨Hst, Hdn⟩
  ihave Hdn' := (Entails.of_eq (dn0_eq m d)) $$ Hdn
  ihave Hback := (deal m d (outF m d)).2 $$ [Htd Hdn']
  · isplitl [Htd]; · iexact Htd
    iexact Hdn'
  icases Hback with ⟨Hr1, Hr0, Hr2⟩
  -- the mask's copy on the TensorCore
  ihave Hlev := ((K (F := F)).ctx_levAts (EH := EH) (P := P m) κ) $$ Hctx
  ihave Hst' := (Entails.of_eq hR1) $$ Hst
  icases Hst' with ⟨HO, Hrest⟩
  iapply (wp_wand_r frame _ _) $$ [Hlev Hb Ha1 Hr3 HO HG Hrest Ha0 Ha2 Hr0 Hr1 Hr2 Hr4 Hprng Hsems]
  isplitl [Hlev Hb Ha1 Hr3 HO HG]
  · iapply (hmask d (V2 m d a1') (V2 m d r3') _ (Otc_one (F := F) d) _) $$ [Hlev Hb Ha1 Hr3 HO HG]
    isplitl [Hlev]; · iexact Hlev
    isplitl [Hb]; · iexact Hb
    isplitl [Ha1]; · iexact Ha1
    isplitl [Hr3]; · iexact Hr3
    isplitl [HO]; · iexact HO
    iexact HG
  iintro %_ ⟨Hb, Ha1, Hr3, HO⟩
  -- the rows' reshape
  iapply (wp_hlo_within 𝒱 (SparseCore.T d) none Set.univ (op := opOut) (S := S8) hOut (V := V3 m d)) $$ [Hb Ha0 Ha1 Ha2 Hr0 Hr1 Hr2 Hr3 Hr4]
  · isplitl [Hb]; · iexact Hb
    iapply (Entails.of_eq (held_V3 m d))
    isplitl [Ha0]; · iexact Ha0
    isplitl [Ha1]; · iexact Ha1
    isplitl [Ha2]; · iexact Ha2
    isplitl [Hr0]; · iexact Hr0
    isplitl [Hr1]; · iexact Hr1
    isplitl [Hr2]; · iexact Hr2
    isplitl [Hr3]; · iexact Hr3
    iexact Hr4
  iintro ⟨Hb, Hheld⟩
  ihave Hh := (Entails.of_eq (held_V4 m d)) $$ Hheld
  icases Hh with ⟨Ha0, Ha1, Ha2, -, -, -, Hr3, Hr4⟩
  rw [wp_ret]; imodintro; imodintro
  isplitl [HO Hrest]
  · iapply (Entails.of_eq hR.symm)
    isplitl [HO]; · iexact HO
    iexact Hrest
  isplitl [Ha0]; · iexact Ha0
  isplitl [Ha1]; · iexact Ha1
  isplitl [Ha2]; · iexact Ha2
  isplitl [Hr4]; · iexact Hr4
  iexact Hr3

end Cert.Proof.KI

end
-- ==== Proof.Ideal.Value.lean ====
/-
  The lookup's result read at an index. @main flattens the indices `[204800, 16]` to `[3276800]` and the table
  `[66, 64]` to `[4224]` (row-major reshapes), the call leaves row `r` of `[3276800, 64]` holding the flat table at
  `idx[r] · 64 + ·`, and the rows are reshaped to `[204800, 16, 64]`. A reshape read at an index is the operand at the
  index with the same row-major position: flat position `t · 16 + c` is `(t, c)`, flat position `x · 64 + e` is
  `(x, e)`, and `(t, c, e)` is row `t · 16 + c`, column `e`. With every index word at most 65 the position
  `x · 64 + e` is below 4224, so its remainder by 4224 is itself: the result at `(t, c, e)` is the table at
  `(idx[t, c], e)`.
-/
import proofs.«204299_g532575945014_cont_9to1c4b_494_30_alg».proof.Proof.Ideal.Launch
import Idealize.ShloMosaic.Lib.Pipeline.Value
import Idealize.ShloMosaic.Lib.ValueIdx

noncomputable section

namespace Cert.Proof.KI

open Cert.KernelIdeal Cert.KernelIdeal.Gen
open Idealize.ShloMosaic
open Idealize.ShloMosaic.SparseCore (S V T)

/-! ## The three reshapes at an index -/

section Reshapes
variable {α : Type}

/-- The flattened indices at `t · 16 + c` are the indices at `(t, c)`. -/
theorem flatIdx_apply (x : S204800x16.Idx → α) (t : Fin 204800) (c : Fin 16) :
    shapeCast S3276800 x shapeCasts_S204800x16_S3276800 (ValueIdx.ix1 (n := 3276800) ⟨t.val * 16 + c.val, by omega⟩)
      = x (ValueIdx.ix2 t c) :=
  shapeCast_apply x _ _ _ (by
    rw [Shape.rowMajor_val_two, Shape.rowMajor_val_one]
    rfl)

/-- The flattened table at `r · 64 + e` is the table at `(r, e)`. -/
theorem flatTab_apply (x : S66x64.Idx → α) (r : Fin 66) (e : Fin 64) :
    shapeCast S4224 x shapeCasts_S66x64_S4224 (ValueIdx.ix1 (n := 4224) ⟨r.val * 64 + e.val, by omega⟩)
      = x (ValueIdx.ix2 r e) :=
  shapeCast_apply x _ _ _ (by
    rw [Shape.rowMajor_val_two, Shape.rowMajor_val_one]
    rfl)

/-- The rows reshaped to three axes: `(t, c, e)` is row `t · 16 + c`, column `e`. -/
theorem rows3_apply (y : S3276800x64.Idx → α) (t : Fin 204800) (c : Fin 16) (e : Fin 64) :
    shapeCast S204800x16x64 y shapeCasts_S3276800x64_S204800x16x64 (ValueIdx.ix3 t c e)
      = y (ValueIdx.ix2 (n0 := 3276800) (n1 := 64) ⟨t.val * 16 + c.val, by omega⟩ e) :=
  shapeCast_apply y _ _ _ (by
    rw [Shape.rowMajor_val_three, Shape.rowMajor_val_two]
    rfl)

end Reshapes

/-! ## The valuations at the reshaped buffers -/

variable {F : FTy → Type} [FloatOps F]
variable (m : (ℓ : Loc nD τ sig) → Buf (Elt F) ℓ)

/-- The flat indices are the indices' reshape. -/
theorem idxF_eq (d : Dev nD) :
    idxF m d = shapeCast S3276800 (m (aLoc d main_arg0)) shapeCasts_S204800x16_S3276800 := by
  unfold idxF V2
  rw [(opTab (F := F)).result_of_not_mem _ (b := r0') (show r0' ∉ ({r1'} : Finset (DevRef τ sig)) by decide)]
  unfold V1
  exact StableHlo.reshape_result main_arg0 main_v0 rfl shapeCasts_S204800x16_S3276800 _ _ (V0 m d)

/-- The flat table is the table's reshape. -/
theorem tabF_eq (d : Dev nD) :
    tabF m d = shapeCast S4224 (m (aLoc d main_arg2)) shapeCasts_S66x64_S4224 := by
  unfold tabF V2
  rw [StableHlo.reshape_result main_arg2 main_v1 rfl shapeCasts_S66x64_S4224 _ _ (V1 m d)]
  unfold V1
  rw [(opIdx (F := F)).result_of_not_mem _ (b := a2') (show a2' ∉ ({r0'} : Finset (DevRef τ sig)) by decide)]
  rfl

/-- The result buffer is the reshape of the rows the call left. -/
theorem V4_r4 (d : Dev nD) :
    V4 m d r4' = shapeCast S204800x16x64 (outF m d) shapeCasts_S3276800x64_S204800x16x64 := by
  unfold V4
  rw [StableHlo.reshape_result main_v2 main_v4 rfl shapeCasts_S3276800x64_S204800x16x64 _ _ (V3 m d), V3_r2]
  rfl

/-! ## At an index -/

/-- The flat indices at `t · 16 + c` are the launch indices at `(t, c)`. -/
theorem idxF_apply (d : Dev nD) (t : Fin 204800) (c : Fin 16) :
    idxF m d (ValueIdx.ix1 (n := 3276800) ⟨t.val * 16 + c.val, by omega⟩) = m (aLoc d main_arg0) (ValueIdx.ix2 t c) := by
  rw [idxF_eq]
  exact flatIdx_apply _ t c

/-- Every flat position is such a position. -/
theorem flat_split (j : S3276800.Idx) :
    ∃ (t : Fin 204800) (c : Fin 16), j = ValueIdx.ix1 (n := 3276800) ⟨t.val * 16 + c.val, by omega⟩ := by
  have hj : (j 0).val < 3276800 := (j 0).isLt
  refine ⟨⟨(j 0).val / 16, by omega⟩, ⟨(j 0).val % 16, Nat.mod_lt _ (by decide)⟩, ?_⟩
  refine (ValueIdx.eq_ix1 j).trans ?_
  congr 1
  exact Fin.ext (by show (j 0).val = (j 0).val / 16 * 16 + (j 0).val % 16; omega)

/-- Launch indices at most 65 give flat indices at most 65. -/
theorem idxOK_of_le (h : ∀ (d : Dev nD) i, (m (aLoc d main_arg0) i).toNat ≤ 65) : IdxOK m := by
  intro d j
  obtain ⟨t, c, rfl⟩ := flat_split j
  rw [idxF_apply]
  exact h d _

/-- The result at `(t, c, e)`, the launch indices at most 65: the table at row `idx[t, c]`, column `e`. -/
theorem V4_apply (d : Dev nD) (h : ∀ i, (m (aLoc d main_arg0) i).toNat ≤ 65) (t : Fin 204800) (c : Fin 16) (e : Fin 64) :
    V4 m d r4' (ValueIdx.ix3 t c e)
      = m (aLoc d main_arg2) (ValueIdx.ix2 (n0 := 66) (n1 := 64)
          ⟨(m (aLoc d main_arg0) (ValueIdx.ix2 t c)).toNat % 66, Nat.mod_lt _ (by decide)⟩ e) := by
  have hx := h (ValueIdx.ix2 t c)
  rw [V4_r4]
  refine (rows3_apply (outF m d) t c e).trans ?_
  show gRow (tabF m d) (idxF m d (ValueIdx.ix1 (n := 3276800) ⟨t.val * 16 + c.val, by omega⟩)) e = _
  rw [idxF_apply, tabF_eq]
  unfold gRow
  refine Eq.trans ?_ (flatTab_apply (m (aLoc d main_arg2))
    ⟨(m (aLoc d main_arg0) (ValueIdx.ix2 t c)).toNat % 66, Nat.mod_lt _ (by decide)⟩ e)
  congr 2
  exact Fin.ext (by
    show ((m (aLoc d main_arg0) (ValueIdx.ix2 t c)).toNat * 64 + e.val) % 4224
      = (m (aLoc d main_arg0) (ValueIdx.ix2 t c)).toNat % 66 * 64 + e.val
    have he : e.val < 64 := e.isLt
    omega)

end Cert.Proof.KI

end
-- ==== Proof.Bridge.lean ====
/-
  The two sides' results are one function of the arguments: the kernel's result buffer, read at `(t, c, e)`, and the
  reference's result are both the table at row `idx[t, c]`, column `e` (the two programs' shapes are the same shapes).
-/
import proofs.«204299_g532575945014_cont_9to1c4b_494_30_alg».proof.Proof.Ideal.Value
import proofs.«204299_g532575945014_cont_9to1c4b_494_30_alg».proof.Proof.RefRun

noncomputable section

namespace Cert.Proof.Bridge

open Idealize.ShloMosaic

/-- With the index words at most 65, the kernel's result buffer holds the reference's result of the same arguments. -/
theorem out_eq_ref (m : (ℓ : Loc Cert.KernelIdeal.nD Cert.KernelIdeal.τ Cert.KernelIdeal.sig) → Buf (Elt Ideal) ℓ)
    (d : Dev Cert.KernelIdeal.nD)
    (h : ∀ i, (m (Cert.Proof.KI.aLoc d Cert.KernelIdeal.main_arg0) i).toNat ≤ 65) :
    (Cert.Proof.KI.V4 (F := Ideal) m d Cert.Proof.KI.r4' : Cert.ReferenceIdeal.S204800x16x64.Idx → EReal)
      = Cert.Proof.Ref.refOut (m (Cert.Proof.KI.aLoc d Cert.KernelIdeal.main_arg2))
          (m (Cert.Proof.KI.aLoc d Cert.KernelIdeal.main_arg0)) := by
  funext j
  obtain ⟨t, c, e, rfl⟩ : ∃ t c e, j = ValueIdx.ix3 t c e := ⟨_, _, _, ValueIdx.eq_ix3 j⟩
  exact Cert.Proof.KI.V4_apply m d h t c e

end Cert.Proof.Bridge

end
-- ==== Proof.Bits.Common.lean ====
/-
  Shared vocabulary of the lookup's proof: the three flat arrays the SparseCore call works on (the table as 4224 floats,
  the 3,276,800 indices, the 3,276,800 gathered rows of 64 floats), the split of the index and row ranges into 32
  consecutive parts of 102,400 (one per worker, worker w = 2·subcore + core), and the function the call computes:
  row r of the result is row idx[r] of the table, i.e. entry (r, e) is the flat table at idx[r]·64 + e.
-/
import proofs.«204299_g532575945014_cont_9to1c4b_494_30_alg».proof.Kernel
import proofs.«204299_g532575945014_cont_9to1c4b_494_30_alg».proof.Proof.Gen.Kernel
import Idealize.ShloMosaic.Lib.SparseCore.Launch
import Idealize.ShloMosaic.Lib.ValueIdx

noncomputable section

namespace Cert.Proof.KB

open Cert.Kernel Cert.Kernel.Gen
open Idealize.ShloMosaic
open Idealize.ShloMosaic.SparseCore (S V T)
open Idealize.SL Idealize.SL.Sem

variable {F : FTy → Type}

/-- The flat table, the flat indices and the gathered rows, as locations of device `d`. -/
abbrev tLoc (d : Dev nD) : Loc nD τ sig := (SparseCore.T d).loc main_v1
abbrev iLoc (d : Dev nD) : Loc nD τ sig := (SparseCore.T d).loc main_v0
abbrev oLoc (d : Dev nD) : Loc nD τ sig := (SparseCore.T d).loc main_v2

/-- The worker number of the tile at grid coordinates `L`: twice the subcore plus the core. -/
def wid (L : grid0.Coords) : Fin 32 := ⟨(L 1).val * 2 + (L 0).val, by
  have h0 : (L 0).val < 2 := (L 0).isLt
  have h1 : (L 1).val < 16 := (L 1).isLt
  omega⟩

theorem idiv : 32 ∣ S3276800.size 0 := ⟨102400, rfl⟩
theorem odiv : 32 ∣ S3276800x64.size 0 := ⟨102400, rfl⟩
/-- Part `w` of the indices, and of the rows: the 102,400 consecutive ones from `w · 102400`. -/
abbrev iPart (w : Fin 32) : Rect S3276800 := Rect.part (s := S3276800) (a₀ := 0) idiv w
abbrev oPart (w : Fin 32) : Rect S3276800x64 := Rect.part (s := S3276800x64) (a₀ := 0) odiv w
abbrev iSet (w : Fin 32) : Finset S3276800.Idx := ((Memref.whole main_v0_scv : Memref sig .scVector .hbm S3276800 .i32).view.slice (iPart w)).set
abbrev oSet (w : Fin 32) : Finset S3276800x64.Idx := ((Memref.whole main_v2_scv : Memref sig .scVector .hbm S3276800x64 .f32).view.slice (oPart w)).set

/-- Entry `col` of the table's row `e`, read off the flat table (the remainder only makes the function total:
    for `e ≤ 65` the position `e · 64 + col` is below 4224). -/
def gRow (tab : S4224.Idx → Elt F .f32) (e : BitVec 32) (col : Fin 64) : Elt F .f32 :=
  tab (ValueIdx.ix1 (n := 4224) ⟨(e.toNat * 64 + col.val) % 4224, Nat.mod_lt _ (by norm_num)⟩)

/-- What the call leaves in the rows: row `r` is the table's row `idx r`. -/
def gOut (tab : S4224.Idx → Elt F .f32) (idx : S3276800.Idx → BitVec 32) : S3276800x64.Idx → Elt F .f32 :=
  fun j => gRow tab (idx (ValueIdx.ix1 (n := 3276800) (j 0))) (j 1)

end Cert.Proof.KB

end
-- ==== Proof.Bits.Launch.lean ====
/-
  The launch of the lookup: the SparseCore call's operands dealt to the 32 workers and gathered back, the worker's task
  from the body's theorem, and the program's run on the TensorCore around the call.
-/
import proofs.«204299_g532575945014_cont_9to1c4b_494_30_alg».proof.Proof.Bits.Common
import Idealize.ShloMosaic.Lib.SparseCore.Launch
import Idealize.ShloMosaic.Lib.StableHlo.Run
import Idealize.ShloMosaic.Lib.Pipeline.Kit
import Idealize.ShloMosaic.Lib.Tactic

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
/-- The TensorCore pipeline's rounds library, the left factor of the right factor. -/
def EP : Emb UP (MT nD τ sig (HIx 1) (Elt F) ℕ UU ℕ) := (Emb.inl : Emb UP (UP × Counters)).trans embR
instance EP_landsIn : (EP : Emb UP 𝕄).LandsIn (upEmb : UEmb _ 𝕄) := by unfold EP; infer_instance

/-! ## The launch memory; the flat arrays after @main's two reshapes -/

variable (m : (ℓ : Loc nD τ sig) → Buf (Elt F) ℓ) (ρ : Dev nD → PrngReg)

/-- The launch valuation of device `d`. -/
def V0 (d : Dev nD) : Valuation τ sig (Elt F) := fun b => m (d, b)

abbrev opIdx : HloOp τ sig (Elt F) := StableHlo.reshape main_arg0 main_v0 rfl shapeCasts_S204800x16_S3276800
abbrev opTab : HloOp τ sig (Elt F) := StableHlo.reshape main_arg2 main_v1 rfl shapeCasts_S66x64_S4224
abbrev opOut : HloOp τ sig (Elt F) := StableHlo.reshape main_v2 main_v4 rfl shapeCasts_S3276800x64_S204800x16x64

/-- After the indices' reshape, and after the table's. -/
def V1 (d : Dev nD) : Valuation τ sig (Elt F) := (opIdx (F := F)).result (V0 m d)
def V2 (d : Dev nD) : Valuation τ sig (Elt F) := (opTab (F := F)).result (V1 m d)

/-- The flat indices and the flat table as the call finds them. -/
def idxF (d : Dev nD) : Buf (Elt F) (iLoc d) := V2 m d (Proc.devRef .tc main_v0)
def tabF (d : Dev nD) : Buf (Elt F) (tLoc d) := V2 m d (Proc.devRef .tc main_v1)

/-! ## What the handshakes carry -/

/-- Worker `2·i + c` of SparseCore `c`'s subcore `i`. -/
def wOf (c : Fin 2) (i : Fin 16) : Fin 32 := ⟨i.val * 2 + c.val, by omega⟩

/-- Worker `w`'s read share of the table. -/
abbrev tq (w : Fin 32) : PosShare TreeShare := Transfers.shareTok fullShare 32 w

/-- A worker's operands: its share of the table, its part of the indices, its part of the rows at contents `f`. -/
def wRes (d : Dev nD) (w : Fin 32) (f : Buf (Elt F) (oLoc d)) : sProp 𝕄 :=
  iprop((tLoc d ↦{tq w} tabF m d) ∗ (iLoc d ↦[iSet w]{fullShare} idxF m d) ∗ (oLoc d ↦[oSet w]{fullShare} f))

/-- The rows after the call. -/
def outF (d : Dev nD) : Buf (Elt F) (oLoc d) := gOut (tabF m d) (idxF m d)

def P : (K (F := F)).Pay (nD := nD) (Val := Elt F) (Name := ℕ) (U := UU) where
  st := fun q d c => match q with
    | 0 => bigSep Finset.univ fun i : Fin 16 => wRes m d (wOf (Fin.cast nCore_zero c) i) (m (oLoc d))
  dn := fun q d c => match q with
    | 0 => bigSep Finset.univ fun i : Fin 16 => wRes m d (wOf (Fin.cast nCore_zero c) i) (outF m d)
  go := fun q d c i => match q with
    | 0 => wRes m d (wOf (Fin.cast nCore_zero c) (Fin.cast nSub_zero i)) (m (oLoc d))
  td := fun q d c i => match q with
    | 0 => wRes m d (wOf (Fin.cast nCore_zero c) (Fin.cast nSub_zero i)) (outF m d)
  x := fun _ _ => iprop(emp)

instance wRes_storable (d : Dev nD) (w : Fin 32) (f : Buf (Elt F) (oLoc d)) : BI.Storable (upEmb : UEmb _ 𝕄) (wRes m d w f) := by
  unfold wRes; infer_instance

instance P_storable : (P (F := F) m).IsStorable where
  st q d c := match q with
    | 0 => (inferInstance : BI.Storable (upEmb : UEmb _ 𝕄) (bigSep Finset.univ fun i : Fin 16 => wRes m d (wOf (Fin.cast nCore_zero c) i) (m (oLoc d))))
  dn q d c := match q with
    | 0 => (inferInstance : BI.Storable (upEmb : UEmb _ 𝕄) (bigSep Finset.univ fun i : Fin 16 => wRes m d (wOf (Fin.cast nCore_zero c) i) (outF m d)))
  go q d c i := match q with
    | 0 => (inferInstance : BI.Storable (upEmb : UEmb _ 𝕄) (wRes m d (wOf (Fin.cast nCore_zero c) (Fin.cast nSub_zero i)) (m (oLoc d))))
  td q d c i := match q with
    | 0 => (inferInstance : BI.Storable (upEmb : UEmb _ 𝕄) (wRes m d (wOf (Fin.cast nCore_zero c) (Fin.cast nSub_zero i)) (outF m d)))

variable [FloatOps F]

/-! ## The worker's task -/

abbrev cV (L : grid0.Coords) : Fin τ.nSC := (L 0).castLE hcore0
abbrev jV (L : grid0.Coords) : Fin τ.nSub := (L 1).castLE hsub0

def coordsV (c : Fin (grid0.bound 0)) (s : Fin (grid0.bound 1)) : grid0.Coords :=
  fun | 0 => c | 1 => s | ⟨_ + 2, h⟩ => absurd h (Nat.not_lt.2 (Nat.le_add_left _ _))

/-- The kernel's call at grid coordinates `L`, on the whole arrays and the tile's scratch, as the body table makes it. -/
abbrev kernelAt (L : grid0.Coords) :=
  cc0_gather_kernel (F := F) L (Memref.whole main_v1_scv) (Memref.isWhole_whole _) (Memref.whole main_v0_scv) (Memref.isWhole_whole _)
    (Memref.whole main_v2_scv) (Memref.isWhole_whole _) (Memref.whole cc0_scratch0) (Memref.isWhole_whole _) (Memref.whole cc0_scratch1) (Memref.isWhole_whole _)
    (Memref.whole cc0_scratch2) (Memref.isWhole_whole _) (Memref.whole cc0_scratch3) (Memref.isWhole_whole _) (Memref.whole cc0_scratch4) (Memref.isWhole_whole _)
    cc0_scratch5 cc0_scratch6 cc0_scratch7 cc0_scratch8 cc0_scratch9

/-- What the body's theorem says of one worker: from a share of the table, its part of the indices (each at most 65)
    and its part of the rows, the task ends with its part of the rows holding the table's rows at its indices. -/
def TileBodySpec : Prop :=
  ∀ (d : Dev nD) (L : grid0.Coords) (q : PosShare TreeShare) (tab : Buf (Elt F) (tLoc d)) (idx : Buf (Elt F) (iLoc d))
    (_ : ∀ j, (idx j).toNat ≤ 65) (f0 : Buf (Elt F) (oLoc d))
    (O : CellTallies nD τ sig (HIx 1)) (W : Waits sig (HIx 1)) (_ : ∀ g, O g none = 0),
    (iprop(levAts (K (F := F)).L (K (F := F)).lev ∗ emp
        ∗ ((tLoc d ↦{q} tab) ∗ (iLoc d ↦[iSet (wid L)]{fullShare} idx) ∗ (oLoc d ↦[oSet (wid L)]{fullShare} f0))
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ (kernelAt (F := F) L)
          fun _ => iprop(((tLoc d ↦{q} tab) ∗ (iLoc d ↦[iSet (wid L)]{fullShare} idx) ∗ (oLoc d ↦[oSet (wid L)]{fullShare} gOut tab idx))
            ∗ scopedBufs (V d (cV L) (jV L)) ∗ scopedSems0 (V d (cV L) (jV L))
            ∗ ∃ W', ⌜∀ p ∈ W', p ∈ W ∨ p.2 = none⌝ ∗ owes (V d (cV L) (jV L)) O W')

theorem defs₀_vector (c : Fin τ.nSC) (s : Fin τ.nSub) :
    defs₀ (F := F) (.scVector c s) 0 ()
      = SparseCore.onTile hcore0 hsub0 (fun c s => kernelAt (F := F) (coordsV c s)) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The flat indices are in range: what the precondition gives. -/
def IdxOK : Prop := ∀ (d : Dev nD) j, (idxF m d j).toNat ≤ 65

theorem tileObl (hbody : TileBodySpec (F := F)) (hpre : IdxOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  have hw : wid (coordsV ⟨_, hc.1⟩ ⟨_, hc.2⟩) = wOf (Fin.cast nCore_zero c) (Fin.cast nSub_zero i) := Fin.ext rfl
  have h := hbody d (coordsV ⟨_, hc.1⟩ ⟨_, hc.2⟩) (tq (wOf (Fin.cast nCore_zero c) (Fin.cast nSub_zero i))) (tabF m d) (idxF m d) (hpre d) (m (oLoc d)) O W hO
  rw [hw] at h
  exact h.trans (wp_mono frame _ _ fun _ => obl_post)

theorem vecSplit : (K (F := F)).VecSplit' (P m) 0 := by
  intro d c
  show (bigSep Finset.univ fun i : Fin 16 => wRes m d (wOf (Fin.cast nCore_zero c) i) (m (oLoc d))) ⊢ |={Set.univ}=> iprop(
      (bigSep Finset.univ fun i : Fin ((K (F := F)).nSub 0) => wRes m d (wOf (Fin.cast nCore_zero c) (Fin.cast nSub_zero i)) (m (oLoc d)))
      ∗ ((bigSep Finset.univ fun i : Fin ((K (F := F)).nSub 0) => wRes m d (wOf (Fin.cast nCore_zero c) (Fin.cast nSub_zero i)) (outF m d))
          -∗ bigSep Finset.univ fun i : Fin 16 => wRes m d (wOf (Fin.cast nCore_zero c) i) (outF m d)))
  iintro H; imodintro
  isplitl [H]; · iexact H
  iintro H; iexact H

/-! ## @main on the TensorCore -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev r0' : DevRef τ sig := Proc.devRef .tc (main_v0 : Ref sig .tc)
abbrev r1' : DevRef τ sig := Proc.devRef .tc (main_v1 : Ref sig .tc)
abbrev r2' : DevRef τ sig := Proc.devRef .tc (main_v2 : Ref sig .tc)
abbrev r3' : DevRef τ sig := Proc.devRef .tc (main_v3 : Ref sig .tc)
abbrev r4' : DevRef τ sig := Proc.devRef .tc (main_v4 : Ref sig .tc)

/-- The TensorCore's arrays, all unscoped: the three arguments and @main's five values. -/
abbrev S8 : Finset (DevRef τ sig) := {a0', a1', a2', r0', r1', r2', r3', r4'}

abbrev aLoc (d : Dev nD) (b : Ref sig .tc) : Loc nD τ sig := (SparseCore.T d).loc b

omit [FloatOps F] in
theorem held_S8 (d : Dev nD) (W : Valuation τ sig (Elt F)) :
    (held (T d) S8 W : sProp 𝕄) = iprop((aLoc d main_arg0 ↦{fullShare} W a0') ∗ (aLoc d main_arg1 ↦{fullShare} W a1') ∗ (aLoc d main_arg2 ↦{fullShare} W a2')
      ∗ (aLoc d main_v0 ↦{fullShare} W r0') ∗ (aLoc d main_v1 ↦{fullShare} W r1') ∗ (aLoc d main_v2 ↦{fullShare} W r2')
      ∗ (aLoc d main_v3 ↦{fullShare} W r3') ∗ (aLoc d main_v4 ↦{fullShare} W r4')) := by
  unfold held S8
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((aLoc d main_arg0 ↦{fullShare} W main_arg0) ∗ (aLoc d main_arg1 ↦{fullShare} W main_arg1) ∗ (aLoc d main_arg2 ↦{fullShare} W main_arg2)
      ∗ (aLoc d main_v0 ↦{fullShare} W main_v0) ∗ (aLoc d main_v1 ↦{fullShare} W main_v1) ∗ (aLoc d main_v2 ↦{fullShare} W main_v2)
      ∗ (aLoc d main_v3 ↦{fullShare} W main_v3) ∗ (aLoc d main_v4 ↦{fullShare} W main_v4)) := by
  unfold unscopedBufs
  rw [show (Finset.univ.filter fun b : Ref sig .tc => ¬ b.isScoped) = {main_arg0, main_arg1, main_arg2, main_v0, main_v1, main_v2, main_v3, main_v4} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

theorem unscoped_held (d : Dev nD) : (unscopedBufs d (fun b => m ((SparseCore.T d).loc b)) : sProp 𝕄) = held (T d) S8 (V0 m d) := by
  rw [unscopedBufs_eq, held_S8]; rfl

theorem hIdx : (opIdx (F := F)).bufs ⊆ S8 := show ({a0', r0'} : Finset (DevRef τ sig)) ⊆ S8 by decide
theorem hTab : (opTab (F := F)).bufs ⊆ S8 := show ({a2', r1'} : Finset (DevRef τ sig)) ⊆ S8 by decide
theorem hOut : (opOut (F := F)).bufs ⊆ S8 := show ({r2', r4'} : Finset (DevRef τ sig)) ⊆ S8 by decide

/-! ## The operands dealt to the 32 workers and gathered back -/

omit [FloatOps F] in
theorem iSet_eq (w : Fin 32) : iSet w = (iPart w).set := by
  show ((View.whole (main_v0_scv : Ref sig .scVector)).slice (iPart w)).set = _
  rw [View.set_slice]; exact Finset.map_refl
omit [FloatOps F] in
theorem oSet_eq (w : Fin 32) : oSet w = (oPart w).set := by
  show ((View.whole (main_v2_scv : Ref sig .scVector)).slice (oPart w)).set = _
  rw [View.set_slice]; exact Finset.map_refl
omit [FloatOps F] in
theorem iSets_disjoint : ∀ i ∈ (Finset.univ : Finset (Fin 32)), ∀ j ∈ (Finset.univ : Finset (Fin 32)), i ≠ j → Disjoint (iSet i) (iSet j) :=
  fun i _ j _ h => by rw [iSet_eq, iSet_eq]; exact Rect.part_disjoint idiv h
omit [FloatOps F] in
theorem oSets_disjoint : ∀ i ∈ (Finset.univ : Finset (Fin 32)), ∀ j ∈ (Finset.univ : Finset (Fin 32)), i ≠ j → Disjoint (oSet i) (oSet j) :=
  fun i _ j _ h => by rw [oSet_eq, oSet_eq]; exact Rect.part_disjoint odiv h
omit [FloatOps F] in
theorem iSets_cover : (Finset.univ : Finset (Fin 32)).biUnion iSet = Finset.univ :=
  (Finset.biUnion_congr rfl fun i _ => iSet_eq i).trans (Rect.biUnion_part idiv)
omit [FloatOps F] in
theorem oSets_cover : (Finset.univ : Finset (Fin 32)).biUnion oSet = Finset.univ :=
  (Finset.biUnion_congr rfl fun i _ => oSet_eq i).trans (Rect.biUnion_part odiv)

omit [FloatOps F] in
theorem iPts_parts (d : Dev nD) (f : Buf (Elt F) (iLoc d)) :
    (iLoc d ↦{fullShare} f : sProp 𝕄) = bigSep Finset.univ fun w : Fin 32 => iLoc d ↦[iSet w]{fullShare} f := by
  rw [← pointsTo_biUnion Finset.univ (ℓ := iLoc d) iSet iSets_disjoint, iSets_cover]; try rfl
omit [FloatOps F] in
theorem oPts_parts (d : Dev nD) (f : Buf (Elt F) (oLoc d)) :
    (oLoc d ↦{fullShare} f : sProp 𝕄) = bigSep Finset.univ fun w : Fin 32 => oLoc d ↦[oSet w]{fullShare} f := by
  rw [← pointsTo_biUnion Finset.univ (ℓ := oLoc d) oSet oSets_disjoint, oSets_cover]; try rfl

/-- The workers, by SparseCore and subcore. -/
def wEquiv : Fin 2 × Fin 16 ≃ Fin 32 := (Equiv.prodComm (Fin 2) (Fin 16)).trans (finProdFinEquiv : Fin 16 × Fin 2 ≃ Fin 32)

omit [FloatOps F] in
theorem wEquiv_apply (c : Fin 2) (i : Fin 16) : wEquiv (c, i) = wOf c i := by
  apply Fin.ext; simp [wEquiv, wOf, finProdFinEquiv]; omega

omit [FloatOps F] in
/-- A family over the 32 workers is the family over the two SparseCores of the families over their 16 subcores. -/
theorem bigSep_workers (Φ : Fin 32 → sProp 𝕄) :
    bigSep Finset.univ Φ = bigSep Finset.univ fun c : Fin 2 => bigSep Finset.univ fun i : Fin 16 => Φ (wOf c i) := by
  rw [bigSep_univ_equiv wEquiv Φ, bigSep_univ_prod]
  exact bigSep_congr fun c _ => bigSep_congr fun i _ => by rw [wEquiv_apply]

/-- The whole operands at rows contents `f`, but for the table's share that stays with the TensorCore, are the 32 workers' operands. -/
theorem deal (d : Dev nD) (f : Buf (Elt F) (oLoc d)) :
    iprop((tLoc d ↦{fullShare} tabF m d) ∗ (iLoc d ↦{fullShare} idxF m d) ∗ (oLoc d ↦{fullShare} f))
      ⊣⊢ iprop((tLoc d ↦{Transfers.shareDrop fullShare 32} tabF m d) ∗ bigSep Finset.univ fun c : Fin 2 => bigSep Finset.univ fun i : Fin 16 => wRes m d (wOf c i) f) := by
  rw [← bigSep_workers (fun w => wRes m d w f)]
  unfold wRes
  rw [bigSep_sep', bigSep_sep', ← iPts_parts, ← oPts_parts]
  constructor
  · iintro ⟨Ht, Hi, Ho⟩
    ihave Ht' := (Transfers.pointsTo_toks_split (ℓ := tLoc d) (S := Finset.univ) (f := tabF m d) fullShare 32) $$ Ht
    icases Ht' with ⟨Hd, Hts⟩
    isplitl [Hd]; · iexact Hd
    isplitl [Hts]; · iexact Hts
    isplitl [Hi]; · iexact Hi
    iexact Ho
  · iintro ⟨Hd, Hts, Hi, Ho⟩
    isplitl [Hd Hts]
    · iapply (Transfers.pointsTo_toks_join (ℓ := tLoc d) (S := Finset.univ) (f := tabF m d) fullShare 32)
      isplitl [Hd]; · iexact Hd
      iexact Hts
    isplitl [Hi]; · iexact Hi
    iexact Ho

/-! ## The run of @main -/

/-- The mask as @main's second result holds it. -/
def maskF (d : Dev nD) : Buf (Elt F) (aLoc d main_v3) := m (aLoc d main_arg1)

/-- The valuation after the SparseCore call and the mask's copy. -/
def V3 (d : Dev nD) : Valuation τ sig (Elt F) := Function.update (Function.update (V2 m d) r2' (outF m d)) r3' (maskF m d)
/-- After the rows' reshape. -/
def V4 (d : Dev nD) : Valuation τ sig (Elt F) := (opOut (F := F)).result (V3 m d)

/-- What @main leaves the claim: the arguments at their launch contents, the two results. -/
abbrev FIN (d : Dev nD) : sProp 𝕄 :=
  iprop((aLoc d main_arg0 ↦{fullShare} m (aLoc d main_arg0)) ∗ (aLoc d main_arg1 ↦{fullShare} m (aLoc d main_arg1)) ∗ (aLoc d main_arg2 ↦{fullShare} m (aLoc d main_arg2))
    ∗ (aLoc d main_v4 ↦{fullShare} V4 m d r4') ∗ (aLoc d main_v3 ↦{fullShare} maskF m d))

omit [FloatOps F] in
theorem st0_eq (d : Dev nD) : (bigSep Finset.univ fun c : Fin ((K (F := F)).nCore 0) => (P m).st 0 d c)
    = bigSep Finset.univ fun c : Fin 2 => bigSep Finset.univ fun i : Fin 16 => wRes m d (wOf c i) (m (oLoc d)) :=
  bigSep_congr fun c _ => rfl
omit [FloatOps F] in
theorem dn0_eq (d : Dev nD) : (bigSep Finset.univ fun c : Fin ((K (F := F)).nCore 0) => (P m).dn 0 d c)
    = bigSep Finset.univ fun c : Fin 2 => bigSep Finset.univ fun i : Fin 16 => wRes m d (wOf c i) (outF m d) :=
  bigSep_congr fun c _ => rfl

/-- The rows' buffer is still at its launch contents when the call starts. -/
theorem V2_r2 (d : Dev nD) : V2 m d r2' = m (oLoc d) := by
  unfold V2 V1
  rw [(opTab (F := F)).result_of_not_mem _ (b := r2') (show r2' ∉ ({r1'} : Finset (DevRef τ sig)) by decide),
    (opIdx (F := F)).result_of_not_mem _ (b := r2') (show r2' ∉ ({r0'} : Finset (DevRef τ sig)) by decide)]
  rfl

theorem V2_of_ne (d : Dev nD) (b : DevRef τ sig) (h0 : b ≠ r0') (h1 : b ≠ r1') : V2 m d b = V0 m d b := by
  unfold V2 V1
  rw [(opTab (F := F)).result_of_not_mem _ (b := b) (show b ∉ ({r1'} : Finset (DevRef τ sig)) from fun h => h1 (Finset.mem_singleton.mp h)),
    (opIdx (F := F)).result_of_not_mem _ (b := b) (show b ∉ ({r0'} : Finset (DevRef τ sig)) from fun h => h0 (Finset.mem_singleton.mp h))]

set_option pp.maxSteps 4000 in

theorem V3_of_ne (d : Dev nD) (b : DevRef τ sig) (h2 : b ≠ r2') (h3 : b ≠ r3') : V3 m d b = V2 m d b := by
  unfold V3; rw [Function.update_of_ne h3, Function.update_of_ne h2]
theorem V3_r2 (d : Dev nD) : V3 m d r2' = outF m d := by
  unfold V3; rw [Function.update_of_ne (show r2' ≠ r3' by decide), Function.update_self]
theorem V3_r3 (d : Dev nD) : V3 m d r3' = maskF m d := by
  unfold V3; rw [Function.update_self]
theorem V4_of_ne (d : Dev nD) (b : DevRef τ sig) (h : b ≠ r4') : V4 m d b = V3 m d b :=
  (opOut (F := F)).result_of_not_mem _ (b := b) (show b ∉ ({r4'} : Finset (DevRef τ sig)) from fun hb => h (Finset.mem_singleton.mp hb))

/-- What the mask's copy does at its line of @main, as the theorem about that call states it: from the region
    boundary, the mask and the result buffer whole, what the TensorCore owes, and the pipeline's cells `G d`, the
    call ends with the result buffer holding the mask and the rest as it was. -/
def MaskSpec (G : Dev nD → sProp 𝕄) : Prop :=
  ∀ (d : Dev nD) (a : Buf (Elt F) (aLoc d main_arg1)) (f : Buf (Elt F) (aLoc d main_v3))
    (O : CellTallies nD τ sig (HIx 1)) (_ : ∀ g, O g none = 0) (b : ℕ),
    iprop(levAts (K (F := F)).L (K (F := F)).lev ∗ boundary (SparseCore.T d) ∗ (aLoc d main_arg1 ↦{fullShare} a) ∗ (aLoc d main_v3 ↦{fullShare} f)
        ∗ (∃ W, ⌜(K (F := F)).WBelow (SparseCore.T d) W b⌝ ∗ owes (SparseCore.T d) O W) ∗ G d)
      ⊢ wp frame (wpE ((K (F := F)).defs (D (F := F))) 𝒱 (SparseCore.T d) none) Set.univ
          (Prog.lift (TpuEff.customCall (SparseCore.inner (Pipeline.entry 0)) ()))
          fun _ => iprop(boundary (SparseCore.T d) ∗ (aLoc d main_arg1 ↦{fullShare} a) ∗ (aLoc d main_v3 ↦{fullShare} (fun i => a i))
            ∗ (∃ W, ⌜(K (F := F)).WBelow (SparseCore.T d) W b⌝ ∗ owes (SparseCore.T d) O W))

omit [FloatOps F] in
/-- The TensorCore's state before call `n` is what it owes beside the rest. -/
theorem tcSt_split (d : Dev nD) (n : ℕ) :
    ∃ R : sProp 𝕄, ((K (F := F)).tcSt EH d n : sProp 𝕄)
      = iprop((∃ W, ⌜(K (F := F)).WBelow (SparseCore.T d) W (8 * n)⌝ ∗ owes (SparseCore.T d) ((K (F := F)).Otc d n) W) ∗ R) :=
  ⟨_, by unfold SparseCore.Cfg.tcSt; rfl⟩

omit [FloatOps F] in
/-- After the one call the TensorCore owes no start signal. -/
theorem Otc_one (d : Dev nD) (g : GSem nD τ sig) : (K (F := F)).Otc d 1 g none = 0 := by
  unfold SparseCore.Cfg.Otc
  simp

theorem held_V3 (d : Dev nD) :
    (iprop((aLoc d main_arg0 ↦{fullShare} V2 m d a0') ∗ (aLoc d main_arg1 ↦{fullShare} V2 m d a1') ∗ (aLoc d main_arg2 ↦{fullShare} V2 m d a2')
      ∗ (iLoc d ↦{fullShare} idxF m d) ∗ (tLoc d ↦{fullShare} tabF m d) ∗ (oLoc d ↦{fullShare} outF m d)
      ∗ (aLoc d main_v3 ↦{fullShare} fun i => V2 m d a1' i) ∗ (aLoc d main_v4 ↦{fullShare} V2 m d r4')) : sProp 𝕄)
      = held (SparseCore.T d) S8 (V3 m d) := by
  rw [held_S8, V3_of_ne m d a0' (by decide) (by decide), V3_of_ne m d a1' (by decide) (by decide), V3_of_ne m d a2' (by decide) (by decide),
    V3_of_ne m d r0' (by decide) (by decide), V3_of_ne m d r1' (by decide) (by decide), V3_r2, V3_r3, V3_of_ne m d r4' (by decide) (by decide)]
  rfl

theorem held_V4 (d : Dev nD) :
    (held (SparseCore.T d) S8 ((opOut (F := F)).result (V3 m d)) : sProp 𝕄)
      = iprop((aLoc d main_arg0 ↦{fullShare} m (aLoc d main_arg0)) ∗ (aLoc d main_arg1 ↦{fullShare} m (aLoc d main_arg1)) ∗ (aLoc d main_arg2 ↦{fullShare} m (aLoc d main_arg2))
        ∗ (aLoc d main_v0 ↦{fullShare} V4 m d r0') ∗ (aLoc d main_v1 ↦{fullShare} V4 m d r1') ∗ (aLoc d main_v2 ↦{fullShare} V4 m d r2')
        ∗ (aLoc d main_v3 ↦{fullShare} maskF m d) ∗ (aLoc d main_v4 ↦{fullShare} V4 m d r4')) := by
  rw [show (held (SparseCore.T d) S8 ((opOut (F := F)).result (V3 m d)) : sProp 𝕄) = _ from held_S8 (F := F) d (V4 m d),
    V4_of_ne m d a0' (by decide), V4_of_ne m d a1' (by decide), V4_of_ne m d a2' (by decide), V4_of_ne m d r3' (by decide),
    V3_of_ne m d a0' (by decide) (by decide), V3_of_ne m d a1' (by decide) (by decide), V3_of_ne m d a2' (by decide) (by decide), V3_r3,
    V2_of_ne m d a0' (by decide) (by decide), V2_of_ne m d a1' (by decide) (by decide), V2_of_ne m d a2' (by decide) (by decide)]
  rfl

set_option pp.deepTerms false in
theorem hmain (G : Dev nD → sProp 𝕄) (hmask : MaskSpec (F := F) G) (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d) := by
  obtain ⟨R, hR⟩ := tcSt_split (F := F) d 1
  have hR1 : ((K (F := F)).tcSt EH d (↑(0 : Fin 1) + 1) : sProp 𝕄) = _ := hR
  unfold SparseCore.Cfg.tcRes
  rw [unscoped_held]
  simp only [main, wp_bind, wp_pure]
  iintro ⟨#Hctx, Hst, ⟨Hb, Hheld, Hsems, Hprng⟩, HG⟩
  iapply (wp_hlo_within 𝒱 (SparseCore.T d) none Set.univ (op := opIdx) (S := S8) hIdx (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := opTab) (S := S8) hTab (V := V1 m d)) $$ [Hb Hheld]
  · isplitl [Hb]; · iexact Hb
    iexact Hheld
  iintro ⟨Hb, Hheld⟩
  rw [wp_ret]; imodintro
  ihave Hh := (Entails.of_eq (show (held (SparseCore.T d) S8 ((opTab (F := F)).result (V1 m d)) : sProp 𝕄) = _ from held_S8 (F := F) d (V2 m d))) $$ Hheld
  icases Hh with ⟨Ha0, Ha1, Ha2, Hr0, Hr1, Hr2, Hr3, Hr4⟩
  rw [V2_r2 m d]
  -- the operands dealt to the workers, the call, the results gathered
  ihave Hdeal := (deal m d (m (oLoc d))).1 $$ [Hr1 Hr0 Hr2]
  · isplitl [Hr1]; · iexact Hr1
    isplitl [Hr0]; · iexact Hr0
    iexact Hr2
  icases Hdeal with ⟨Htd, Hws⟩
  iapply ((K (F := F)).wp_run (D (F := F)) 𝒱 (EH := EH) (P := P m) κ d 0) $$ [Hst Hws Htd Ha0 Ha1 Ha2 Hr3 Hr4 Hb Hsems Hprng HG]
  isplitr; · iexact Hctx
  isplitl [Hst]; · iexact Hst
  isplitl [Hws]
  · rw [st0_eq]; iexact Hws
  iintro ⟨Hst, Hdn⟩
  ihave Hdn' := (Entails.of_eq (dn0_eq m d)) $$ Hdn
  ihave Hback := (deal m d (outF m d)).2 $$ [Htd Hdn']
  · isplitl [Htd]; · iexact Htd
    iexact Hdn'
  icases Hback with ⟨Hr1, Hr0, Hr2⟩
  -- the mask's copy on the TensorCore
  ihave Hlev := ((K (F := F)).ctx_levAts (EH := EH) (P := P m) κ) $$ Hctx
  ihave Hst' := (Entails.of_eq hR1) $$ Hst
  icases Hst' with ⟨HO, Hrest⟩
  iapply (wp_wand_r frame _ _) $$ [Hlev Hb Ha1 Hr3 HO HG Hrest Ha0 Ha2 Hr0 Hr1 Hr2 Hr4 Hprng Hsems]
  isplitl [Hlev Hb Ha1 Hr3 HO HG]
  · iapply (hmask d (V2 m d a1') (V2 m d r3') _ (Otc_one (F := F) d) _) $$ [Hlev Hb Ha1 Hr3 HO HG]
    isplitl [Hlev]; · iexact Hlev
    isplitl [Hb]; · iexact Hb
    isplitl [Ha1]; · iexact Ha1
    isplitl [Hr3]; · iexact Hr3
    isplitl [HO]; · iexact HO
    iexact HG
  iintro %_ ⟨Hb, Ha1, Hr3, HO⟩
  -- the rows' reshape
  iapply (wp_hlo_within 𝒱 (SparseCore.T d) none Set.univ (op := opOut) (S := S8) hOut (V := V3 m d)) $$ [Hb Ha0 Ha1 Ha2 Hr0 Hr1 Hr2 Hr3 Hr4]
  · isplitl [Hb]; · iexact Hb
    iapply (Entails.of_eq (held_V3 m d))
    isplitl [Ha0]; · iexact Ha0
    isplitl [Ha1]; · iexact Ha1
    isplitl [Ha2]; · iexact Ha2
    isplitl [Hr0]; · iexact Hr0
    isplitl [Hr1]; · iexact Hr1
    isplitl [Hr2]; · iexact Hr2
    isplitl [Hr3]; · iexact Hr3
    iexact Hr4
  iintro ⟨Hb, Hheld⟩
  ihave Hh := (Entails.of_eq (held_V4 m d)) $$ Hheld
  icases Hh with ⟨Ha0, Ha1, Ha2, -, -, -, Hr3, Hr4⟩
  rw [wp_ret]; imodintro; imodintro
  isplitl [HO Hrest]
  · iapply (Entails.of_eq hR.symm)
    isplitl [HO]; · iexact HO
    iexact Hrest
  isplitl [Ha0]; · iexact Ha0
  isplitl [Ha1]; · iexact Ha1
  isplitl [Ha2]; · iexact Ha2
  isplitl [Hr4]; · iexact Hr4
  iexact Hr3

end Cert.Proof.KB

end
-- ==== Proof.Bits.Value.lean ====
/-
  The lookup's result read at an index. @main flattens the indices `[204800, 16]` to `[3276800]` and the table
  `[66, 64]` to `[4224]` (row-major reshapes), the call leaves row `r` of `[3276800, 64]` holding the flat table at
  `idx[r] · 64 + ·`, and the rows are reshaped to `[204800, 16, 64]`. A reshape read at an index is the operand at the
  index with the same row-major position: flat position `t · 16 + c` is `(t, c)`, flat position `x · 64 + e` is
  `(x, e)`, and `(t, c, e)` is row `t · 16 + c`, column `e`. With every index word at most 65 the position
  `x · 64 + e` is below 4224, so its remainder by 4224 is itself: the result at `(t, c, e)` is the table at
  `(idx[t, c], e)`.
-/
import proofs.«204299_g532575945014_cont_9to1c4b_494_30_alg».proof.Proof.Bits.Launch
import Idealize.ShloMosaic.Lib.Pipeline.Value
import Idealize.ShloMosaic.Lib.ValueIdx

noncomputable section

namespace Cert.Proof.KB

open Cert.Kernel Cert.Kernel.Gen
open Idealize.ShloMosaic
open Idealize.ShloMosaic.SparseCore (S V T)

/-! ## The three reshapes at an index -/

section Reshapes
variable {α : Type}

/-- The flattened indices at `t · 16 + c` are the indices at `(t, c)`. -/
theorem flatIdx_apply (x : S204800x16.Idx → α) (t : Fin 204800) (c : Fin 16) :
    shapeCast S3276800 x shapeCasts_S204800x16_S3276800 (ValueIdx.ix1 (n := 3276800) ⟨t.val * 16 + c.val, by omega⟩)
      = x (ValueIdx.ix2 t c) :=
  shapeCast_apply x _ _ _ (by
    rw [Shape.rowMajor_val_two, Shape.rowMajor_val_one]
    rfl)

/-- The flattened table at `r · 64 + e` is the table at `(r, e)`. -/
theorem flatTab_apply (x : S66x64.Idx → α) (r : Fin 66) (e : Fin 64) :
    shapeCast S4224 x shapeCasts_S66x64_S4224 (ValueIdx.ix1 (n := 4224) ⟨r.val * 64 + e.val, by omega⟩)
      = x (ValueIdx.ix2 r e) :=
  shapeCast_apply x _ _ _ (by
    rw [Shape.rowMajor_val_two, Shape.rowMajor_val_one]
    rfl)

/-- The rows reshaped to three axes: `(t, c, e)` is row `t · 16 + c`, column `e`. -/
theorem rows3_apply (y : S3276800x64.Idx → α) (t : Fin 204800) (c : Fin 16) (e : Fin 64) :
    shapeCast S204800x16x64 y shapeCasts_S3276800x64_S204800x16x64 (ValueIdx.ix3 t c e)
      = y (ValueIdx.ix2 (n0 := 3276800) (n1 := 64) ⟨t.val * 16 + c.val, by omega⟩ e) :=
  shapeCast_apply y _ _ _ (by
    rw [Shape.rowMajor_val_three, Shape.rowMajor_val_two]
    rfl)

end Reshapes

/-! ## The valuations at the reshaped buffers -/

variable {F : FTy → Type} [FloatOps F]
variable (m : (ℓ : Loc nD τ sig) → Buf (Elt F) ℓ)

/-- The flat indices are the indices' reshape. -/
theorem idxF_eq (d : Dev nD) :
    idxF m d = shapeCast S3276800 (m (aLoc d main_arg0)) shapeCasts_S204800x16_S3276800 := by
  unfold idxF V2
  rw [(opTab (F := F)).result_of_not_mem _ (b := r0') (show r0' ∉ ({r1'} : Finset (DevRef τ sig)) by decide)]
  unfold V1
  exact StableHlo.reshape_result main_arg0 main_v0 rfl shapeCasts_S204800x16_S3276800 _ _ (V0 m d)

/-- The flat table is the table's reshape. -/
theorem tabF_eq (d : Dev nD) :
    tabF m d = shapeCast S4224 (m (aLoc d main_arg2)) shapeCasts_S66x64_S4224 := by
  unfold tabF V2
  rw [StableHlo.reshape_result main_arg2 main_v1 rfl shapeCasts_S66x64_S4224 _ _ (V1 m d)]
  unfold V1
  rw [(opIdx (F := F)).result_of_not_mem _ (b := a2') (show a2' ∉ ({r0'} : Finset (DevRef τ sig)) by decide)]
  rfl

/-- The result buffer is the reshape of the rows the call left. -/
theorem V4_r4 (d : Dev nD) :
    V4 m d r4' = shapeCast S204800x16x64 (outF m d) shapeCasts_S3276800x64_S204800x16x64 := by
  unfold V4
  rw [StableHlo.reshape_result main_v2 main_v4 rfl shapeCasts_S3276800x64_S204800x16x64 _ _ (V3 m d), V3_r2]
  rfl

/-! ## At an index -/

/-- The flat indices at `t · 16 + c` are the launch indices at `(t, c)`. -/
theorem idxF_apply (d : Dev nD) (t : Fin 204800) (c : Fin 16) :
    idxF m d (ValueIdx.ix1 (n := 3276800) ⟨t.val * 16 + c.val, by omega⟩) = m (aLoc d main_arg0) (ValueIdx.ix2 t c) := by
  rw [idxF_eq]
  exact flatIdx_apply _ t c

/-- Every flat position is such a position. -/
theorem flat_split (j : S3276800.Idx) :
    ∃ (t : Fin 204800) (c : Fin 16), j = ValueIdx.ix1 (n := 3276800) ⟨t.val * 16 + c.val, by omega⟩ := by
  have hj : (j 0).val < 3276800 := (j 0).isLt
  refine ⟨⟨(j 0).val / 16, by omega⟩, ⟨(j 0).val % 16, Nat.mod_lt _ (by decide)⟩, ?_⟩
  refine (ValueIdx.eq_ix1 j).trans ?_
  congr 1
  exact Fin.ext (by show (j 0).val = (j 0).val / 16 * 16 + (j 0).val % 16; omega)

/-- Launch indices at most 65 give flat indices at most 65. -/
theorem idxOK_of_le (h : ∀ (d : Dev nD) i, (m (aLoc d main_arg0) i).toNat ≤ 65) : IdxOK m := by
  intro d j
  obtain ⟨t, c, rfl⟩ := flat_split j
  rw [idxF_apply]
  exact h d _

/-- The result at `(t, c, e)`, the launch indices at most 65: the table at row `idx[t, c]`, column `e`. -/
theorem V4_apply (d : Dev nD) (h : ∀ i, (m (aLoc d main_arg0) i).toNat ≤ 65) (t : Fin 204800) (c : Fin 16) (e : Fin 64) :
    V4 m d r4' (ValueIdx.ix3 t c e)
      = m (aLoc d main_arg2) (ValueIdx.ix2 (n0 := 66) (n1 := 64)
          ⟨(m (aLoc d main_arg0) (ValueIdx.ix2 t c)).toNat % 66, Nat.mod_lt _ (by decide)⟩ e) := by
  have hx := h (ValueIdx.ix2 t c)
  rw [V4_r4]
  refine (rows3_apply (outF m d) t c e).trans ?_
  show gRow (tabF m d) (idxF m d (ValueIdx.ix1 (n := 3276800) ⟨t.val * 16 + c.val, by omega⟩)) e = _
  rw [idxF_apply, tabF_eq]
  unfold gRow
  refine Eq.trans ?_ (flatTab_apply (m (aLoc d main_arg2))
    ⟨(m (aLoc d main_arg0) (ValueIdx.ix2 t c)).toNat % 66, Nat.mod_lt _ (by decide)⟩ e)
  congr 2
  exact Fin.ext (by
    show ((m (aLoc d main_arg0) (ValueIdx.ix2 t c)).toNat * 64 + e.val) % 4224
      = (m (aLoc d main_arg0) (ValueIdx.ix2 t c)).toNat % 66 * 64 + e.val
    have he : e.val < 64 := e.isLt
    omega)

end Cert.Proof.KB

end
-- ==== Proof.Ideal.Mask.lean ====
/-
  The TensorCore pipeline that runs inside the SparseCore program: the block-by-block copy of the array
  behind window 0 (main_arg1) into the array behind window 1 (main_v3).

  * the body at a symbolic grid point: it loads its input staging block whole and stores it whole into
    its output staging block;
  * the pipeline's proof data over entry contents a (input) and f (output): after every point
    both staging blocks hold block t of a;
  * the whole-array value: the 25 blocks of 8192 rows cover the 204800 rows, so the output array ends
    holding a;
  * the region as one step of @main on the TensorCore thread, entered while that thread still owes
    units at the indices of the SparseCore calls (never at index none, where the pipeline's own
    waits are recorded).
-/
import proofs.«204299_g532575945014_cont_9to1c4b_494_30_alg».proof.Proof.Gen.KernelIdeal.Launch
import proofs.«204299_g532575945014_cont_9to1c4b_494_30_alg».proof.Proof.Gen.KernelIdeal.Points
import Idealize.ShloMosaic.Lib.Pipeline.FrameBody
import Idealize.ShloMosaic.Lib.Pipeline.Regions
import Idealize.ShloMosaic.Lib.Pipeline.Value
import Idealize.ShloMosaic.Lib.SparseCore.Launch
import Idealize.ShloMosaic.Lib.Tactic

set_option maxRecDepth 16384
-- a theorem's pre-declared type and its final one differ in how a thread's processor is spelt
set_option Elab.async false

noncomputable section

namespace Cert.Proof.KI.Mask

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]
variable {U : Type} [URA U]

local notation "𝕄" => MT nD τ sig (SparseCore.Cfg.HIx 1) (Elt F) ℕ U ℕ
local notation "HI" => SparseCore.Cfg.HIx 1

/-! ## The body -/

/-- The one rectangle the body touches: the whole staging block. -/
abbrev rAll : Rect S8192x16 := Rect.unit (s := S8192x16) ![0, 0] S8192x16.size inb_S8192x16_S8192x16_0_0

theorem hz : (![0, 0] : Fin 2 → Nat) = fun _ => 0 := funext fun a => by fin_cases a <;> rfl

/-- What the body's one store leaves in the output block: the loaded input block, as one piece. -/
def outBlk (x0 : Vec F S8192x16 .i32) : Vec F S8192x16 .i32 :=
  View.canon [⟨rAll, View.ld x0 rAll⟩]

/-- The piece is the whole block, so it covers it. -/
theorem cover_out (p0 : Vec F S8192x16 .i32) (y : S8192x16.Idx) :
    ∃ pc ∈ ([⟨rAll, p0⟩] : List (View.Piece (Elt F) S8192x16 .i32)), y ∈ pc.1.set :=
  View.cover_of_tiled [⟨rAll, p0⟩] S8192x16.size (by rfl) y

/-- The stored block is the input block itself. -/
theorem outBlk_eq (x0 : Vec F S8192x16 .i32) : outBlk x0 = x0 := by
  unfold outBlk
  rw [View.canon_unit_zero hz]
  simp only [View.ld_unit_zero (S := S8192x16) hz]

set_option maxHeartbeats 1000000 in
/-- The body on whole staging memrefs, the input's at x0 and the output's at anything, leaves the input's as
    it was and the output's at x0. -/
theorem sound_kernel (c : Dev nD) (E : Set ℕ) (i : grid1.Coords)
    (arg1 : Memref sig .tc .vmem S8192x16 .i32) (harg1 : arg1.IsWhole)
    (arg2 : Memref sig .tc .vmem S8192x16 .i32) (harg2 : arg2.IsWhole)
    (x0 : Vec F S8192x16 .i32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (outBlk x0)) -∗ K ⟨⟩))
      ⊢ wp frame (wpE (defs₀ (F := F)) Variants.none c none) E (cc1__mask_body i arg1 harg1 arg2 harg2) K := by
  unfold cc1__mask_body
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover_out _)

/-! ## The pipeline's proof data -/

/-- No pipeline of the program has a prefetched table. -/
abbrev adm : (p : Fin 1) → (pcfgs (F := F) p).Adm := fun p => (cfgs p).toPCfg_adm

section Data

variable (a : (c : Dev nD) → Buf (Elt F) ((c : Thread nD τ).loc main_arg1))
  (f : (c : Dev nD) → Buf (Elt F) ((c : Thread nD τ).loc main_v3))
  (O : Dev nD → CellTallies nD τ sig HI) (B : Dev nD → Set (SemLoc sig × HI))

/-- Block t of the input array a c. -/
def iblk (c : Dev nD) (t : Fin cfg1.N) : ((cfg1.win 0).xblock (cfg1.grid.coords t)).Idx → Elt F (cfg1.win 0).elt :=
  ((cfg1.win 0).blk t).view.read (Elt F) (a c)

/-- The proof data on core c: the input array at a c, the output array at f c; after the body at point t
    both staging blocks hold block t of a c; the core owes O c throughout, its recorded pairs within B c. -/
def dat (c : Dev nD) : Dat τ (Elt F) HI ℕ U ℕ cfg1 c where
  A w := match w with
    | ⟨0, _⟩ => a c
    | ⟨1, _⟩ => f c
  after w t := match w with
    | ⟨0, _⟩ => iblk a c t
    | ⟨1, _⟩ => iblk a c t
  Φ _ := iprop(emp)
  q _ := fullShare
  owed _ := O c
  recorded _ := B c

theorem A_0 (c : Dev nD) : (dat (U := U) a f O B c).A 0 = a c := by dsimp only [dat]
theorem A_1 (c : Dev nD) : (dat (U := U) a f O B c).A 1 = f c := by dsimp only [dat]
theorem after_0 (c : Dev nD) (t : Fin cfg1.N) : (dat (U := U) a f O B c).after 0 t = iblk a c t := by dsimp only [dat]
theorem after_1 (c : Dev nD) (t : Fin cfg1.N) : (dat (U := U) a f O B c).after 1 t = iblk a c t := by dsimp only [dat]

/-- The input's current staging buffer holds its block at every point, fetched there or not. -/
theorem before_0 (c : Dev nD) (t : Fin cfg1.N) (d) : (dat (U := U) a f O B c).before 0 t d = iblk a c t :=
  ((dat (U := U) a f O B c).before_in_eq_fetched 0 rfl (fun _ => rfl) (fun _ _ _ => rfl)
      (fun t => by rw [after_0]; unfold Dat.blockOf iblk; rw [A_0]; try rfl) t d).trans
    (by unfold Dat.fetched Dat.blockOf iblk; rw [A_0]; try rfl)

/-! ## The body obligation, at a symbolic point -/

def bodyPre (c : Dev nD) (t : Fin cfg1.N) : sProp 𝕄 :=
  iprop((dat (U := U) a f O B c).Φ t.castSucc ∗ (dat (U := U) a f O B c).owesAt none t.castSucc
    ∗ (∃ d, owns (c : Thread nD τ) (st1_0 t) fullShare ((dat (U := U) a f O B c).before 0 t d))
    ∗ (∃ d, owns (c : Thread nD τ) (st1_1 t) fullShare ((dat (U := U) a f O B c).before 1 t d)))

def bodyPost (c : Dev nD) (t : Fin cfg1.N) : sProp 𝕄 :=
  iprop((dat (U := U) a f O B c).Φ t.succ ∗ (dat (U := U) a f O B c).owesAt none t.succ
    ∗ owns (c : Thread nD τ) (st1_0 t) fullShare ((dat (U := U) a f O B c).after 0 t)
    ∗ owns (c : Thread nD τ) (st1_1 t) fullShare ((dat (U := U) a f O B c).after 1 t))

theorem sound_body (c : Dev nD) (t : Fin cfg1.N) :
    bodyPre (U := U) a f O B c t ⊢ wp frame (wpE (defs₀ (F := F)) Variants.none c none) Set.univ (bodyAt1 t) (fun _ => bodyPost (U := U) a f O B c t) := by
  unfold bodyPre bodyPost bodyAt1
  simp only [before_0]
  rw [show (dat (U := U) a f O B c).Φ t.succ = (dat (U := U) a f O B c).Φ t.castSucc from rfl,
    show (dat (U := U) a f O B c).owesAt none t.succ = (dat (U := U) a f O B c).owesAt none t.castSucc from rfl,
    after_0, after_1]
  iintro ⟨HΦ, Ho, ⟨%d0, H0⟩, ⟨%d1, H1⟩⟩
  iapply (sound_kernel c Set.univ (grid1.coords t) _ _ _ _ (iblk a c t) _)
  isplitl [H0]; · iexact H0
  isplitl [H1]; · iexists _; iexact H1
  iintro ⟨H0, H1⟩
  isplitl [HΦ]; · iexact HΦ
  isplitl [Ho]; · iexact Ho
  isplitl [H0]; · iexact H0
  rw [outBlk_eq]
  iexact H1

theorem body_obligation (c : Dev nD) : BodyObligation (dat (U := U) a f O B c) (defs₀ (F := F)) Variants.none none Set.univ := fun t => by
  rw [bigSep_W1, bigSep_W1]
  exact sound_body (U := U) a f O B c t

end Data

/-! ## The value: the output array ends holding the input array -/

section Value

variable (a : (c : Dev nD) → Buf (Elt F) ((c : Thread nD τ).loc main_arg1))
  (f : (c : Dev nD) → Buf (Elt F) ((c : Thread nD τ).loc main_v3))
  (O : Dev nD → CellTallies nD τ sig HI) (B : Dev nD → Set (SemLoc sig × HI))

/-- The input array read at the output array's type: the two arrays have one shape and element type. -/
def aOut (c : Dev nD) : Buf (Elt F) ((c : Thread nD τ).loc main_v3) := fun i => a c i

/-- The printed index maps, decided over the grid: at point t both windows are on block (t, 0). -/
theorem idx_facts : ∀ t : Fin cfg1.N, win1_0.index t (0 : Fin 2) = t.val ∧ win1_0.index t (1 : Fin 2) = 0
    ∧ win1_1.index t (0 : Fin 2) = t.val ∧ win1_1.index t (1 : Fin 2) = 0 :=
  (by decide +kernel : ∀ t : Fin grid1.N, _)

/-- What point t writes back is block t of the input array. -/
theorem flushed_eq (c : Dev nD) (t : Fin cfg1.N) :
    (dat (U := U) a f O B c).flushed 1 t = ((cfg1.win 1).blk t).view.read (Elt F) (aOut a c) := by
  show (cfg1.win 1).cut (grid1.coords t) ((dat (U := U) a f O B c).after 1 t) = _
  rw [after_1]
  unfold iblk aOut
  obtain ⟨e0, e1, e2, e3⟩ := idx_facts t
  funext j
  show a c (((cfg1.win 0).blk t).view.emb j) = a c (((cfg1.win 1).blk t).view.emb j)
  have h0 : ((cfg1.win 0).blk t).view.emb j = ((cfg1.win 1).blk t).view.emb j := by
    funext x; apply Fin.ext
    match x with
    | ⟨0, _⟩ => show win1_0.index t (0 : Fin 2) * 8192 + 1 * (j 0).val = win1_1.index t (0 : Fin 2) * 8192 + 1 * (j 0).val; omega
    | ⟨1, _⟩ => show win1_0.index t (1 : Fin 2) * 16 + 1 * (j 1).val = win1_1.index t (1 : Fin 2) * 16 + 1 * (j 1).val; omega
  rw [h0]

/-- An index of the array is in point t's block iff each coordinate is in the block's range on its axis. -/
theorem mem_blk (t : Fin cfg1.N) (i : S204800x16.Idx) :
    i ∈ ((cfg1.win 1).blk t).view.set ↔ ∀ x : Fin 2, win1_1.index t x * S8192x16.size x ≤ (i x).val ∧ (i x).val < win1_1.index t x * S8192x16.size x + S8192x16.size x := by
  show i ∈ ((View.whole main_v3).slice (win1_1.rect t)).set ↔ _
  rw [View.set_slice_whole, Rect.mem_set_unit]
  exact Iff.rfl

/-- Row r lies in the block of point r / 8192: the 25 blocks of 8192 rows cover the 204800 rows. -/
theorem cover (i : S204800x16.Idx) : ∃ t : Fin cfg1.N, (cfg1.win 1).flush t = true ∧ i ∈ ((cfg1.win 1).blk t).view.set := by
  have hi0 : (i 0).val < 204800 := (i 0).isLt
  have hi1 : (i 1).val < 16 := (i 1).isLt
  have hN : cfg1.N = 25 := N_1
  let t : Fin cfg1.N := ⟨(i 0).val / 8192, by rw [hN]; omega⟩
  have ht : t.val = (i 0).val / 8192 := rfl
  obtain ⟨e0, e1, e2, e3⟩ := idx_facts t
  refine ⟨t, flush1_1 t, ?_⟩
  rw [mem_blk]
  intro x
  match x with
  | ⟨0, _⟩ => show win1_1.index t (0 : Fin 2) * 8192 ≤ (i 0).val ∧ (i 0).val < win1_1.index t (0 : Fin 2) * 8192 + 8192; omega
  | ⟨1, _⟩ => show win1_1.index t (1 : Fin 2) * 16 ≤ (i 1).val ∧ (i 1).val < win1_1.index t (1 : Fin 2) * 16 + 16; omega

/-- After the 25 points the output array holds the input array. -/
theorem arrAt_out (c : Dev nD) : (dat (U := U) a f O B c).arrAt 1 cfg1.N = aOut a c :=
  (dat (U := U) a f O B c).arrAt_eq_of_cover 1 (aOut a c) (fun t _ => flushed_eq a f O B c t) (fun i => cover i)

/-- The input array is never written. -/
theorem arrAt_in (c : Dev nD) (n : ℕ) : (dat (U := U) a f O B c).arrAt 0 n = a c :=
  ((dat (U := U) a f O B c).arrAt_in 0 rfl n).trans (A_0 a f O B c)

/-- The windowed arrays, one by one. -/
theorem arrays_two (c : Dev nD) (G : (w : Fin cfg1.W) → Buf (Elt F) ((cfg1.win w).arr.view.loc (c : Thread nD τ))) :
    ((dat (U := U) a f O B c).arrays G : sProp 𝕄)
      = iprop(((c : Thread nD τ).loc main_arg1 ↦{fullShare} G 0) ∗ ((c : Thread nD τ).loc main_v3 ↦{fullShare} G 1)) := by
  have e0 : (cfg1.win 0).arr.view.set = Finset.univ := (Memref.isWhole_whole main_arg1).set_eq_univ
  have e1 : (cfg1.win 1).arr.view.set = Finset.univ := (Memref.isWhole_whole main_v3).set_eq_univ
  unfold Dat.arrays
  refine (bigSep_W1 _).trans ?_
  beta_reduce
  rw [e0, e1]
  rfl

end Value

/-! ## The region as one step of @main on the TensorCore thread -/

section Region

variable (a : (c : Dev nD) → Buf (Elt F) ((c : Thread nD τ).loc main_arg1))
  (f : (c : Dev nD) → Buf (Elt F) ((c : Thread nD τ).loc main_v3))
  (O : Dev nD → CellTallies nD τ sig HI) (B : Dev nD → Set (SemLoc sig × HI))
  (lv : GSem nD τ sig → HI → ℕ) (hlv : (sc (F := F)).Refines lv) (hO : ∀ c g, O c g none = 0)

/-- The one pipeline's proof data, as a family over the pipelines. -/
def pdats : (p : Fin 1) → (c : Dev nD) → Dat τ (Elt F) HI ℕ U ℕ (Pipeline.pin (pcfgs (F := F)) adm p) c
  | ⟨0, _⟩ => fun c => dat a f O B c

/-- The thread state the region is entered from: the two arrays whole, and what the thread owes with its recorded
    pairs within B c. -/
def regPre (c : Dev nD) : sProp 𝕄 :=
  iprop(((c : Thread nD τ).loc main_arg1 ↦{fullShare} a c) ∗ ((c : Thread nD τ).loc main_v3 ↦{fullShare} f c)
    ∗ Pipeline.owesWithin c (O c) (B c))

/-- The thread state it leaves: the input array as it was, the output array at the input's contents, the same
    debt, the recorded pairs within B c and the pipeline's own waits (its DMA semaphores at index none). -/
def regPost (c : Dev nD) : sProp 𝕄 :=
  iprop(((c : Thread nD τ).loc main_arg1 ↦{fullShare} a c) ∗ ((c : Thread nD τ).loc main_v3 ↦{fullShare} aOut a c)
    ∗ Pipeline.owesWithin c (O c) (B c ∪ cfg1.waitPairs none))

set_option backward.isDefEq.respectTransparency.types false in
/-- The region record: entered from regPre, left at regPost; nothing enters the pipeline's invariant and
    nothing bypasses it; the waits of the staging cells are at index none, below everything the thread owes. -/
def reg : Pipeline.RegionSeg (pcfgs (F := F)) adm (pdats (U := U) a f O B) none defs₀ Variants.none (sc (F := F)).L lv 0 where
  win := launch1.win.to₀
  block_pos := launch1.block_pos
  stage_whole := launch1.stage_whole
  K := PEmpty
  osem k := k.elim
  ho := Pipeline.OwnSemFacts.none _
  hbody c := (body_obligation (U := U) a f O B c).loose
  hwaits c := Pipeline.cellsWaits_intro (Pipeline.pin (pcfgs (F := F)) adm) (pdats (U := U) a f O B) none 0 c
    fun w s t => (sc (F := F)).mayWait_none (.dma _) (hO c) lv hlv
  pre c := regPre (U := U) a f O B c
  post c := regPost (U := U) a O B c
  X _ := iprop(emp)
  Y _ := iprop(emp)
  Z _ := iprop(emp)
  hentry c := by
    rw [Pipeline.ownSems0_none]
    show _ ⊢ |={Set.univ}=> iprop((dat (U := U) a f O B c).arrays ((dat (U := U) a f O B c).arrAt · 0) ∗ _ ∗ (dat (U := U) a f O B c).owesAt none 0 ∗ _ ∗ _)
    rw [arrays_two]
    show _ ⊢ |={Set.univ}=> iprop((((c : Thread nD τ).loc main_arg1 ↦{fullShare} (dat (U := U) a f O B c).A 0) ∗ ((c : Thread nD τ).loc main_v3 ↦{fullShare} (dat (U := U) a f O B c).A 1)) ∗ _ ∗ _ ∗ _ ∗ _)
    rw [A_0, A_1]
    unfold regPre
    iintro ⟨⟨Ha, Hf, HO⟩, -, -⟩
    imodintro
    isplitl [Ha Hf]
    · isplitl [Ha]; · iexact Ha
      iexact Hf
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun _ h => Or.inl (hW h)
      iexact HO
    isplitr <;> iempintro
  hin c := by
    show _ ⊢ (BI.emp : sProp 𝕄)
    iintro -; iempintro
  hout c := by
    rw [Pipeline.ownSems0_none]
    show (BI.emp : sProp 𝕄) ⊢ iprop(emp ∗ emp ∗ Pipeline.scopedRest spec1 c)
    rw [scopedRest1_eq]
    iintro -
    isplitr; · iempintro
    isplitr <;> iempintro
  hexit c := by
    show iprop((dat (U := U) a f O B c).arrays ((dat (U := U) a f O B c).arrAt · cfg1.N) ∗ (dat (U := U) a f O B c).owesAt none (Fin.last cfg1.N) ∗ _ ∗ _) ⊢ _
    rw [arrays_two]
    show iprop((((c : Thread nD τ).loc main_arg1 ↦{fullShare} (dat (U := U) a f O B c).arrAt 0 cfg1.N) ∗ ((c : Thread nD τ).loc main_v3 ↦{fullShare} (dat (U := U) a f O B c).arrAt 1 cfg1.N)) ∗ _ ∗ _ ∗ _) ⊢ _
    rw [arrAt_in, arrAt_out]
    unfold regPost
    iintro ⟨⟨Ha, Hf⟩, HO, -, -⟩
    imodintro
    isplitl [Ha]; · iexact Ha
    isplitl [Hf]; · iexact Hf
    iexact HO

end Region

/-! ## The call, as @main runs it -/

section Call

/-- The call in the pipeline library's own signature; @main's line is this program lifted to the SparseCore
    program's signature. -/
abbrev callP : Prog (TpuEff nD τ sig (Elt F) (Pipeline.Sig Λ₀ (Fin 1) fun p => (pcfgs (F := F) p).Adm) .tc) PUnit :=
  Prog.lift (.customCall (Pipeline.entry 0) ())

set_option maxHeartbeats 400000 in
set_option backward.isDefEq.respectTransparency.types false in
/-- The pipeline's call inside the SparseCore program, on the TensorCore thread of device d, over families of
    array contents: from the level facts, the region boundary (staging buffers at anything, scoped semaphores at
    zero), the two arrays whole, the thread's debt O d (nothing at index none) with its recorded pairs within
    B d, and the staging cells' ghost state and duty tokens as the launch funds them, the call runs to the boundary,
    the input array unchanged, the output array at the input's contents, and the same debt. -/
theorem wp_mask_call_fam [∀ e, Nonempty (Elt F e)]
    (EP : Emb (URounds (GSem nD τ sig) Unit) (MT nD τ sig HI (Elt F) ℕ U ℕ)) [EP.LandsIn (upEmb : UEmb _ 𝕄)]
    (a : (c : Dev nD) → Buf (Elt F) ((c : Thread nD τ).loc main_arg1))
    (f : (c : Dev nD) → Buf (Elt F) ((c : Thread nD τ).loc main_v3))
    (O : Dev nD → CellTallies nD τ sig HI) (B : Dev nD → Set (SemLoc sig × HI))
    (lv : GSem nD τ sig → HI → ℕ) (hlv : (sc (F := F)).Refines lv) (hO : ∀ c g, O c g none = 0) (d : Dev nD) :
    iprop(levAts (sc (F := F)).L lv ∗ boundary (SparseCore.T d) ∗ regPre (U := U) a f O B d
        ∗ Pipeline.cellsGhost (Pipeline.pin (pcfgs (F := F)) adm) EP 0 d ∗ Pipeline.toksInit (Pipeline.pin (pcfgs (F := F)) adm) EP 0 d)
      ⊢ wp frame (wpE ((sc (F := F)).defs (Pipeline.defs pcfgs defs₀)) Variants.none.lift (SparseCore.T d) none) Set.univ
          (Prog.lift (.customCall (SparseCore.inner (Pipeline.entry 0)) ()))
          fun _ => iprop(boundary (SparseCore.T d) ∗ regPost (U := U) a O B d) := by
  have hinj : Function.Injective (cellOf (nD := nD) (τ := τ) (Pipeline.pin (pcfgs (F := F)) adm)) := cellOf_inj
  have hreg := Pipeline.RegionSeg.wp (pcfgs (F := F)) adm (pdats (U := U) a f O B) none hinj EP defs₀ Variants.none (sc (F := F)).L lv
    (reg (U := U) a f O B lv hlv hO) d none (fun _ h => nomatch h) (k := Prog.ret)
    (Q := fun _ => iprop(boundary (SparseCore.T d) ∗ regPost (U := U) a O B d))
  rw [show (reg (U := U) a f O B lv hlv hO).pre d = regPre (U := U) a f O B d from rfl,
    show (reg (U := U) a f O B lv hlv hO).post d = regPost (U := U) a O B d from rfl] at hreg
  have hl := (sc (F := F)).wp_liftProg (Pipeline.defs pcfgs defs₀) Variants.none.lift (SparseCore.T d) Set.univ none
    (callP (F := F)) (fun _ => iprop(boundary (SparseCore.T d) ∗ regPost (U := U) a O B d))
  refine BIBase.Entails.trans ?_ hl
  refine BIBase.Entails.trans ?_ hreg
  iintro ⟨#Hla, Hb, Hpre, Hg, Ht⟩
  isplitr [Hb Hpre Hg Ht]
  · iintro ⟨Hb, Hpost⟩
    rw [wp_ret]; imodintro
    isplitl [Hb]; · iexact Hb
    iexact Hpost
  isplitl [Hb]; · iexact Hb
  isplitl [Hpre]; · iexact Hpre
  isplitr; · iexact Hla
  isplitl [Hg]; · iexact Hg
  iexact Ht

/-- One device's contents read as a family over the mesh's devices: the mesh has one device. -/
def fam {R : Ref sig .tc} (d : Dev nD) (x : Buf (Elt F) ((d : Thread nD τ).loc R)) (c : Dev nD) :
    Buf (Elt F) ((c : Thread nD τ).loc R) :=
  cast (congrArg (fun c : Dev nD => Buf (Elt F) ((c : Thread nD τ).loc R)) (Subsingleton.elim d c)) x

theorem fam_self {R : Ref sig .tc} (d : Dev nD) (x : Buf (Elt F) ((d : Thread nD τ).loc R)) : fam (F := F) d x d = x :=
  cast_eq _ x

set_option maxHeartbeats 400000 in
/-- The same on one device's arrays, the thread's recorded pairs all at or below level b (the pipeline's own
    waits are at index none, level 0). -/
theorem wp_mask_call [∀ e, Nonempty (Elt F e)]
    (EP : Emb (URounds (GSem nD τ sig) Unit) (MT nD τ sig HI (Elt F) ℕ U ℕ)) [EP.LandsIn (upEmb : UEmb _ 𝕄)]
    (d : Dev nD) (a : Buf (Elt F) ((SparseCore.T d).loc main_arg1)) (f : Buf (Elt F) ((SparseCore.T d).loc main_v3))
    (O : CellTallies nD τ sig HI) (hO : ∀ g, O g none = 0) (b : ℕ)
    (lv : GSem nD τ sig → HI → ℕ) (hlv : (sc (F := F)).Refines lv) :
    iprop(levAts (sc (F := F)).L lv ∗ boundary (SparseCore.T d) ∗ ((SparseCore.T d).loc main_arg1 ↦{fullShare} a)
        ∗ ((SparseCore.T d).loc main_v3 ↦{fullShare} f)
        ∗ (∃ W, ⌜(sc (F := F)).WBelow (SparseCore.T d) W b⌝ ∗ owes (SparseCore.T d) O W)
        ∗ Pipeline.cellsGhost (Pipeline.pin (pcfgs (F := F)) adm) EP 0 d ∗ Pipeline.toksInit (Pipeline.pin (pcfgs (F := F)) adm) EP 0 d)
      ⊢ wp frame (wpE ((sc (F := F)).defs (Pipeline.defs pcfgs defs₀)) Variants.none.lift (SparseCore.T d) none) Set.univ
          (Prog.lift (.customCall (SparseCore.inner (Pipeline.entry 0)) ()))
          fun _ => iprop(boundary (SparseCore.T d) ∗ ((SparseCore.T d).loc main_arg1 ↦{fullShare} a)
            ∗ ((SparseCore.T d).loc main_v3 ↦{fullShare} (fun i => a i))
            ∗ (∃ W, ⌜(sc (F := F)).WBelow (SparseCore.T d) W b⌝ ∗ owes (SparseCore.T d) O W)) := by
  have h := wp_mask_call_fam (U := U) EP (fam d a) (fam d f) (fun _ => O)
    (fun _ => {p | (sc (F := F)).lev (nD := nD) (SparseCore.T d, p.1) p.2 ≤ b}) lv hlv (fun _ => hO) d
  refine BIBase.Entails.trans ?_ (BIBase.Entails.trans h (wp_mono frame _ Set.univ fun _ => ?_))
  · unfold regPre Pipeline.owesWithin
    rw [fam_self, fam_self]
    iintro ⟨Hla, Hb, Ha, Hf, ⟨%W, %hW, HO⟩, Hg, Ht⟩
    isplitl [Hla]; · iexact Hla
    isplitl [Hb]; · iexact Hb
    isplitl [Ha Hf HO]
    · isplitl [Ha]; · iexact Ha
      isplitl [Hf]; · iexact Hf
      iexists W; isplitr
      · ipureintro; exact fun p hp => hW p (Finset.mem_coe.mp hp)
      iexact HO
    isplitl [Hg]; · iexact Hg
    iexact Ht
  · unfold regPost Pipeline.owesWithin aOut
    rw [fam_self]
    iintro ⟨Hb, Ha, Hf, ⟨%W, %hW, HO⟩⟩
    isplitl [Hb]; · iexact Hb
    isplitl [Ha]; · iexact Ha
    isplitl [Hf]; · iexact Hf
    iexists W; isplitr
    · ipureintro
      intro p hp
      rcases hW (Finset.mem_coe.mpr hp) with h | ⟨w, s, rfl⟩
      · exact h
      · exact Nat.zero_le _
    iexact HO

end Call

end Cert.Proof.KI.Mask

end
-- ==== Proof.Ideal.MaskLaunch.lean ====
/-
  The TensorCore pipeline's part of the launch: its staging cells' ghost state as the launch element funds it,
  and the theorem of the pipeline's call stated at the launch's resource algebra.
-/
import proofs.«204299_g532575945014_cont_9to1c4b_494_30_alg».proof.Proof.Ideal.Launch
import proofs.«204299_g532575945014_cont_9to1c4b_494_30_alg».proof.Proof.Ideal.Mask

-- a theorem's pre-declared type and its final one differ in how a thread's processor is spelt
set_option Elab.async false

noncomputable section

namespace Cert.Proof.KI

open Cert.KernelIdeal Cert.KernelIdeal.Gen

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- The pipeline's staging cells on device d as the launch deals them: their ghost state and the duty tokens of
    the transfers the pipeline's loop issues. -/
def Gm (d : Dev nD) : sProp 𝕄 :=
  iprop(Pipeline.cellsGhost (Pipeline.pin (pcfgs (F := F)) Mask.adm) EP 0 d
    ∗ Pipeline.toksInit (Pipeline.pin (pcfgs (F := F)) Mask.adm) EP 0 d)

/-- The launch element of the pipeline's rounds component: the staging cells and the transfers' duty tokens. -/
def uP : UP :=
  initOf (Pipeline.cells (nD := nD) (τ := τ) cfgs cellOf_inj) (Pipeline.launchToks (nD := nD) (τ := τ) cfgs cellOf_inj)

/-- Funding: the launch element yields every device's cells. The program has one pipeline, so the conjunction
    over the pipelines is its one summand. -/
theorem fund_Gm : (BI.own (EP (F := F) uP) : sProp 𝕄) ⊢ iprop(|==> bigSep Finset.univ fun d : Dev nD => Gm (F := F) d) := by
  refine BIBase.Entails.trans (Pipeline.fund_ghost cfgs (EP (F := F)) cellOf_inj) (BI.bupd_mono ?_)
  rw [← bigSep_sep']
  refine bigSep_mono fun d _ => ?_
  rw [show (Finset.univ : Finset (Fin 1)) = {0} from rfl, bigSep_singleton, bigSep_singleton]
  unfold Gm
  exact BI.Entails.refl _

/-- The call's theorem at the launch's algebra and the handshakes' own levels. -/
theorem maskSpec [∀ e, Nonempty (Elt F e)] : MaskSpec (F := F) (Gm (F := F)) := by
  intro d a f O hO b
  unfold Gm
  exact Mask.wp_mask_call (U := UU) (EP (F := F)) d a f O hO b (K (F := F)).lev (K (F := F)).refines_self

end Cert.Proof.KI

end
-- ==== Proof.Bits.Mask.lean ====
/-
  The TensorCore pipeline that runs inside the SparseCore program: the block-by-block copy of the array
  behind window 0 (main_arg1) into the array behind window 1 (main_v3).

  * the body at a symbolic grid point: it loads its input staging block whole and stores it whole into
    its output staging block;
  * the pipeline's proof data over entry contents a (input) and f (output): after every point
    both staging blocks hold block t of a;
  * the whole-array value: the 25 blocks of 8192 rows cover the 204800 rows, so the output array ends
    holding a;
  * the region as one step of @main on the TensorCore thread, entered while that thread still owes
    units at the indices of the SparseCore calls (never at index none, where the pipeline's own
    waits are recorded).
-/
import proofs.«204299_g532575945014_cont_9to1c4b_494_30_alg».proof.Proof.Gen.Kernel.Launch
import proofs.«204299_g532575945014_cont_9to1c4b_494_30_alg».proof.Proof.Gen.Kernel.Points
import Idealize.ShloMosaic.Lib.Pipeline.FrameBody
import Idealize.ShloMosaic.Lib.Pipeline.Regions
import Idealize.ShloMosaic.Lib.Pipeline.Value
import Idealize.ShloMosaic.Lib.SparseCore.Launch
import Idealize.ShloMosaic.Lib.Tactic

set_option maxRecDepth 16384
-- a theorem's pre-declared type and its final one differ in how a thread's processor is spelt
set_option Elab.async false

noncomputable section

namespace Cert.Proof.KB.Mask

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]
variable {U : Type} [URA U]

local notation "𝕄" => MT nD τ sig (SparseCore.Cfg.HIx 1) (Elt F) ℕ U ℕ
local notation "HI" => SparseCore.Cfg.HIx 1

/-! ## The body -/

/-- The one rectangle the body touches: the whole staging block. -/
abbrev rAll : Rect S8192x16 := Rect.unit (s := S8192x16) ![0, 0] S8192x16.size inb_S8192x16_S8192x16_0_0

theorem hz : (![0, 0] : Fin 2 → Nat) = fun _ => 0 := funext fun a => by fin_cases a <;> rfl

/-- What the body's one store leaves in the output block: the loaded input block, as one piece. -/
def outBlk (x0 : Vec F S8192x16 .i32) : Vec F S8192x16 .i32 :=
  View.canon [⟨rAll, View.ld x0 rAll⟩]

/-- The piece is the whole block, so it covers it. -/
theorem cover_out (p0 : Vec F S8192x16 .i32) (y : S8192x16.Idx) :
    ∃ pc ∈ ([⟨rAll, p0⟩] : List (View.Piece (Elt F) S8192x16 .i32)), y ∈ pc.1.set :=
  View.cover_of_tiled [⟨rAll, p0⟩] S8192x16.size (by rfl) y

/-- The stored block is the input block itself. -/
theorem outBlk_eq (x0 : Vec F S8192x16 .i32) : outBlk x0 = x0 := by
  unfold outBlk
  rw [View.canon_unit_zero hz]
  simp only [View.ld_unit_zero (S := S8192x16) hz]

set_option maxHeartbeats 1000000 in
/-- The body on whole staging memrefs, the input's at x0 and the output's at anything, leaves the input's as
    it was and the output's at x0. -/
theorem sound_kernel (c : Dev nD) (E : Set ℕ) (i : grid1.Coords)
    (arg1 : Memref sig .tc .vmem S8192x16 .i32) (harg1 : arg1.IsWhole)
    (arg2 : Memref sig .tc .vmem S8192x16 .i32) (harg2 : arg2.IsWhole)
    (x0 : Vec F S8192x16 .i32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (outBlk x0)) -∗ K ⟨⟩))
      ⊢ wp frame (wpE (defs₀ (F := F)) Variants.none c none) E (cc1__mask_body i arg1 harg1 arg2 harg2) K := by
  unfold cc1__mask_body
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover_out _)

/-! ## The pipeline's proof data -/

/-- No pipeline of the program has a prefetched table. -/
abbrev adm : (p : Fin 1) → (pcfgs (F := F) p).Adm := fun p => (cfgs p).toPCfg_adm

section Data

variable (a : (c : Dev nD) → Buf (Elt F) ((c : Thread nD τ).loc main_arg1))
  (f : (c : Dev nD) → Buf (Elt F) ((c : Thread nD τ).loc main_v3))
  (O : Dev nD → CellTallies nD τ sig HI) (B : Dev nD → Set (SemLoc sig × HI))

/-- Block t of the input array a c. -/
def iblk (c : Dev nD) (t : Fin cfg1.N) : ((cfg1.win 0).xblock (cfg1.grid.coords t)).Idx → Elt F (cfg1.win 0).elt :=
  ((cfg1.win 0).blk t).view.read (Elt F) (a c)

/-- The proof data on core c: the input array at a c, the output array at f c; after the body at point t
    both staging blocks hold block t of a c; the core owes O c throughout, its recorded pairs within B c. -/
def dat (c : Dev nD) : Dat τ (Elt F) HI ℕ U ℕ cfg1 c where
  A w := match w with
    | ⟨0, _⟩ => a c
    | ⟨1, _⟩ => f c
  after w t := match w with
    | ⟨0, _⟩ => iblk a c t
    | ⟨1, _⟩ => iblk a c t
  Φ _ := iprop(emp)
  q _ := fullShare
  owed _ := O c
  recorded _ := B c

theorem A_0 (c : Dev nD) : (dat (U := U) a f O B c).A 0 = a c := by dsimp only [dat]
theorem A_1 (c : Dev nD) : (dat (U := U) a f O B c).A 1 = f c := by dsimp only [dat]
theorem after_0 (c : Dev nD) (t : Fin cfg1.N) : (dat (U := U) a f O B c).after 0 t = iblk a c t := by dsimp only [dat]
theorem after_1 (c : Dev nD) (t : Fin cfg1.N) : (dat (U := U) a f O B c).after 1 t = iblk a c t := by dsimp only [dat]

/-- The input's current staging buffer holds its block at every point, fetched there or not. -/
theorem before_0 (c : Dev nD) (t : Fin cfg1.N) (d) : (dat (U := U) a f O B c).before 0 t d = iblk a c t :=
  ((dat (U := U) a f O B c).before_in_eq_fetched 0 rfl (fun _ => rfl) (fun _ _ _ => rfl)
      (fun t => by rw [after_0]; unfold Dat.blockOf iblk; rw [A_0]; try rfl) t d).trans
    (by unfold Dat.fetched Dat.blockOf iblk; rw [A_0]; try rfl)

/-! ## The body obligation, at a symbolic point -/

def bodyPre (c : Dev nD) (t : Fin cfg1.N) : sProp 𝕄 :=
  iprop((dat (U := U) a f O B c).Φ t.castSucc ∗ (dat (U := U) a f O B c).owesAt none t.castSucc
    ∗ (∃ d, owns (c : Thread nD τ) (st1_0 t) fullShare ((dat (U := U) a f O B c).before 0 t d))
    ∗ (∃ d, owns (c : Thread nD τ) (st1_1 t) fullShare ((dat (U := U) a f O B c).before 1 t d)))

def bodyPost (c : Dev nD) (t : Fin cfg1.N) : sProp 𝕄 :=
  iprop((dat (U := U) a f O B c).Φ t.succ ∗ (dat (U := U) a f O B c).owesAt none t.succ
    ∗ owns (c : Thread nD τ) (st1_0 t) fullShare ((dat (U := U) a f O B c).after 0 t)
    ∗ owns (c : Thread nD τ) (st1_1 t) fullShare ((dat (U := U) a f O B c).after 1 t))

theorem sound_body (c : Dev nD) (t : Fin cfg1.N) :
    bodyPre (U := U) a f O B c t ⊢ wp frame (wpE (defs₀ (F := F)) Variants.none c none) Set.univ (bodyAt1 t) (fun _ => bodyPost (U := U) a f O B c t) := by
  unfold bodyPre bodyPost bodyAt1
  simp only [before_0]
  rw [show (dat (U := U) a f O B c).Φ t.succ = (dat (U := U) a f O B c).Φ t.castSucc from rfl,
    show (dat (U := U) a f O B c).owesAt none t.succ = (dat (U := U) a f O B c).owesAt none t.castSucc from rfl,
    after_0, after_1]
  iintro ⟨HΦ, Ho, ⟨%d0, H0⟩, ⟨%d1, H1⟩⟩
  iapply (sound_kernel c Set.univ (grid1.coords t) _ _ _ _ (iblk a c t) _)
  isplitl [H0]; · iexact H0
  isplitl [H1]; · iexists _; iexact H1
  iintro ⟨H0, H1⟩
  isplitl [HΦ]; · iexact HΦ
  isplitl [Ho]; · iexact Ho
  isplitl [H0]; · iexact H0
  rw [outBlk_eq]
  iexact H1

theorem body_obligation (c : Dev nD) : BodyObligation (dat (U := U) a f O B c) (defs₀ (F := F)) Variants.none none Set.univ := fun t => by
  rw [bigSep_W1, bigSep_W1]
  exact sound_body (U := U) a f O B c t

end Data

/-! ## The value: the output array ends holding the input array -/

section Value

variable (a : (c : Dev nD) → Buf (Elt F) ((c : Thread nD τ).loc main_arg1))
  (f : (c : Dev nD) → Buf (Elt F) ((c : Thread nD τ).loc main_v3))
  (O : Dev nD → CellTallies nD τ sig HI) (B : Dev nD → Set (SemLoc sig × HI))

/-- The input array read at the output array's type: the two arrays have one shape and element type. -/
def aOut (c : Dev nD) : Buf (Elt F) ((c : Thread nD τ).loc main_v3) := fun i => a c i

/-- The printed index maps, decided over the grid: at point t both windows are on block (t, 0). -/
theorem idx_facts : ∀ t : Fin cfg1.N, win1_0.index t (0 : Fin 2) = t.val ∧ win1_0.index t (1 : Fin 2) = 0
    ∧ win1_1.index t (0 : Fin 2) = t.val ∧ win1_1.index t (1 : Fin 2) = 0 :=
  (by decide +kernel : ∀ t : Fin grid1.N, _)

/-- What point t writes back is block t of the input array. -/
theorem flushed_eq (c : Dev nD) (t : Fin cfg1.N) :
    (dat (U := U) a f O B c).flushed 1 t = ((cfg1.win 1).blk t).view.read (Elt F) (aOut a c) := by
  show (cfg1.win 1).cut (grid1.coords t) ((dat (U := U) a f O B c).after 1 t) = _
  rw [after_1]
  unfold iblk aOut
  obtain ⟨e0, e1, e2, e3⟩ := idx_facts t
  funext j
  show a c (((cfg1.win 0).blk t).view.emb j) = a c (((cfg1.win 1).blk t).view.emb j)
  have h0 : ((cfg1.win 0).blk t).view.emb j = ((cfg1.win 1).blk t).view.emb j := by
    funext x; apply Fin.ext
    match x with
    | ⟨0, _⟩ => show win1_0.index t (0 : Fin 2) * 8192 + 1 * (j 0).val = win1_1.index t (0 : Fin 2) * 8192 + 1 * (j 0).val; omega
    | ⟨1, _⟩ => show win1_0.index t (1 : Fin 2) * 16 + 1 * (j 1).val = win1_1.index t (1 : Fin 2) * 16 + 1 * (j 1).val; omega
  rw [h0]

/-- An index of the array is in point t's block iff each coordinate is in the block's range on its axis. -/
theorem mem_blk (t : Fin cfg1.N) (i : S204800x16.Idx) :
    i ∈ ((cfg1.win 1).blk t).view.set ↔ ∀ x : Fin 2, win1_1.index t x * S8192x16.size x ≤ (i x).val ∧ (i x).val < win1_1.index t x * S8192x16.size x + S8192x16.size x := by
  show i ∈ ((View.whole main_v3).slice (win1_1.rect t)).set ↔ _
  rw [View.set_slice_whole, Rect.mem_set_unit]
  exact Iff.rfl

/-- Row r lies in the block of point r / 8192: the 25 blocks of 8192 rows cover the 204800 rows. -/
theorem cover (i : S204800x16.Idx) : ∃ t : Fin cfg1.N, (cfg1.win 1).flush t = true ∧ i ∈ ((cfg1.win 1).blk t).view.set := by
  have hi0 : (i 0).val < 204800 := (i 0).isLt
  have hi1 : (i 1).val < 16 := (i 1).isLt
  have hN : cfg1.N = 25 := N_1
  let t : Fin cfg1.N := ⟨(i 0).val / 8192, by rw [hN]; omega⟩
  have ht : t.val = (i 0).val / 8192 := rfl
  obtain ⟨e0, e1, e2, e3⟩ := idx_facts t
  refine ⟨t, flush1_1 t, ?_⟩
  rw [mem_blk]
  intro x
  match x with
  | ⟨0, _⟩ => show win1_1.index t (0 : Fin 2) * 8192 ≤ (i 0).val ∧ (i 0).val < win1_1.index t (0 : Fin 2) * 8192 + 8192; omega
  | ⟨1, _⟩ => show win1_1.index t (1 : Fin 2) * 16 ≤ (i 1).val ∧ (i 1).val < win1_1.index t (1 : Fin 2) * 16 + 16; omega

/-- After the 25 points the output array holds the input array. -/
theorem arrAt_out (c : Dev nD) : (dat (U := U) a f O B c).arrAt 1 cfg1.N = aOut a c :=
  (dat (U := U) a f O B c).arrAt_eq_of_cover 1 (aOut a c) (fun t _ => flushed_eq a f O B c t) (fun i => cover i)

/-- The input array is never written. -/
theorem arrAt_in (c : Dev nD) (n : ℕ) : (dat (U := U) a f O B c).arrAt 0 n = a c :=
  ((dat (U := U) a f O B c).arrAt_in 0 rfl n).trans (A_0 a f O B c)

/-- The windowed arrays, one by one. -/
theorem arrays_two (c : Dev nD) (G : (w : Fin cfg1.W) → Buf (Elt F) ((cfg1.win w).arr.view.loc (c : Thread nD τ))) :
    ((dat (U := U) a f O B c).arrays G : sProp 𝕄)
      = iprop(((c : Thread nD τ).loc main_arg1 ↦{fullShare} G 0) ∗ ((c : Thread nD τ).loc main_v3 ↦{fullShare} G 1)) := by
  have e0 : (cfg1.win 0).arr.view.set = Finset.univ := (Memref.isWhole_whole main_arg1).set_eq_univ
  have e1 : (cfg1.win 1).arr.view.set = Finset.univ := (Memref.isWhole_whole main_v3).set_eq_univ
  unfold Dat.arrays
  refine (bigSep_W1 _).trans ?_
  beta_reduce
  rw [e0, e1]
  rfl

end Value

/-! ## The region as one step of @main on the TensorCore thread -/

section Region

variable (a : (c : Dev nD) → Buf (Elt F) ((c : Thread nD τ).loc main_arg1))
  (f : (c : Dev nD) → Buf (Elt F) ((c : Thread nD τ).loc main_v3))
  (O : Dev nD → CellTallies nD τ sig HI) (B : Dev nD → Set (SemLoc sig × HI))
  (lv : GSem nD τ sig → HI → ℕ) (hlv : (sc (F := F)).Refines lv) (hO : ∀ c g, O c g none = 0)

/-- The one pipeline's proof data, as a family over the pipelines. -/
def pdats : (p : Fin 1) → (c : Dev nD) → Dat τ (Elt F) HI ℕ U ℕ (Pipeline.pin (pcfgs (F := F)) adm p) c
  | ⟨0, _⟩ => fun c => dat a f O B c

/-- The thread state the region is entered from: the two arrays whole, and what the thread owes with its recorded
    pairs within B c. -/
def regPre (c : Dev nD) : sProp 𝕄 :=
  iprop(((c : Thread nD τ).loc main_arg1 ↦{fullShare} a c) ∗ ((c : Thread nD τ).loc main_v3 ↦{fullShare} f c)
    ∗ Pipeline.owesWithin c (O c) (B c))

/-- The thread state it leaves: the input array as it was, the output array at the input's contents, the same
    debt, the recorded pairs within B c and the pipeline's own waits (its DMA semaphores at index none). -/
def regPost (c : Dev nD) : sProp 𝕄 :=
  iprop(((c : Thread nD τ).loc main_arg1 ↦{fullShare} a c) ∗ ((c : Thread nD τ).loc main_v3 ↦{fullShare} aOut a c)
    ∗ Pipeline.owesWithin c (O c) (B c ∪ cfg1.waitPairs none))

set_option backward.isDefEq.respectTransparency.types false in
/-- The region record: entered from regPre, left at regPost; nothing enters the pipeline's invariant and
    nothing bypasses it; the waits of the staging cells are at index none, below everything the thread owes. -/
def reg : Pipeline.RegionSeg (pcfgs (F := F)) adm (pdats (U := U) a f O B) none defs₀ Variants.none (sc (F := F)).L lv 0 where
  win := launch1.win.to₀
  block_pos := launch1.block_pos
  stage_whole := launch1.stage_whole
  K := PEmpty
  osem k := k.elim
  ho := Pipeline.OwnSemFacts.none _
  hbody c := (body_obligation (U := U) a f O B c).loose
  hwaits c := Pipeline.cellsWaits_intro (Pipeline.pin (pcfgs (F := F)) adm) (pdats (U := U) a f O B) none 0 c
    fun w s t => (sc (F := F)).mayWait_none (.dma _) (hO c) lv hlv
  pre c := regPre (U := U) a f O B c
  post c := regPost (U := U) a O B c
  X _ := iprop(emp)
  Y _ := iprop(emp)
  Z _ := iprop(emp)
  hentry c := by
    rw [Pipeline.ownSems0_none]
    show _ ⊢ |={Set.univ}=> iprop((dat (U := U) a f O B c).arrays ((dat (U := U) a f O B c).arrAt · 0) ∗ _ ∗ (dat (U := U) a f O B c).owesAt none 0 ∗ _ ∗ _)
    rw [arrays_two]
    show _ ⊢ |={Set.univ}=> iprop((((c : Thread nD τ).loc main_arg1 ↦{fullShare} (dat (U := U) a f O B c).A 0) ∗ ((c : Thread nD τ).loc main_v3 ↦{fullShare} (dat (U := U) a f O B c).A 1)) ∗ _ ∗ _ ∗ _ ∗ _)
    rw [A_0, A_1]
    unfold regPre
    iintro ⟨⟨Ha, Hf, HO⟩, -, -⟩
    imodintro
    isplitl [Ha Hf]
    · isplitl [Ha]; · iexact Ha
      iexact Hf
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun _ h => Or.inl (hW h)
      iexact HO
    isplitr <;> iempintro
  hin c := by
    show _ ⊢ (BI.emp : sProp 𝕄)
    iintro -; iempintro
  hout c := by
    rw [Pipeline.ownSems0_none]
    show (BI.emp : sProp 𝕄) ⊢ iprop(emp ∗ emp ∗ Pipeline.scopedRest spec1 c)
    rw [scopedRest1_eq]
    iintro -
    isplitr; · iempintro
    isplitr <;> iempintro
  hexit c := by
    show iprop((dat (U := U) a f O B c).arrays ((dat (U := U) a f O B c).arrAt · cfg1.N) ∗ (dat (U := U) a f O B c).owesAt none (Fin.last cfg1.N) ∗ _ ∗ _) ⊢ _
    rw [arrays_two]
    show iprop((((c : Thread nD τ).loc main_arg1 ↦{fullShare} (dat (U := U) a f O B c).arrAt 0 cfg1.N) ∗ ((c : Thread nD τ).loc main_v3 ↦{fullShare} (dat (U := U) a f O B c).arrAt 1 cfg1.N)) ∗ _ ∗ _ ∗ _) ⊢ _
    rw [arrAt_in, arrAt_out]
    unfold regPost
    iintro ⟨⟨Ha, Hf⟩, HO, -, -⟩
    imodintro
    isplitl [Ha]; · iexact Ha
    isplitl [Hf]; · iexact Hf
    iexact HO

end Region

/-! ## The call, as @main runs it -/

section Call

/-- The call in the pipeline library's own signature; @main's line is this program lifted to the SparseCore
    program's signature. -/
abbrev callP : Prog (TpuEff nD τ sig (Elt F) (Pipeline.Sig Λ₀ (Fin 1) fun p => (pcfgs (F := F) p).Adm) .tc) PUnit :=
  Prog.lift (.customCall (Pipeline.entry 0) ())

set_option maxHeartbeats 400000 in
set_option backward.isDefEq.respectTransparency.types false in
/-- The pipeline's call inside the SparseCore program, on the TensorCore thread of device d, over families of
    array contents: from the level facts, the region boundary (staging buffers at anything, scoped semaphores at
    zero), the two arrays whole, the thread's debt O d (nothing at index none) with its recorded pairs within
    B d, and the staging cells' ghost state and duty tokens as the launch funds them, the call runs to the boundary,
    the input array unchanged, the output array at the input's contents, and the same debt. -/
theorem wp_mask_call_fam [∀ e, Nonempty (Elt F e)]
    (EP : Emb (URounds (GSem nD τ sig) Unit) (MT nD τ sig HI (Elt F) ℕ U ℕ)) [EP.LandsIn (upEmb : UEmb _ 𝕄)]
    (a : (c : Dev nD) → Buf (Elt F) ((c : Thread nD τ).loc main_arg1))
    (f : (c : Dev nD) → Buf (Elt F) ((c : Thread nD τ).loc main_v3))
    (O : Dev nD → CellTallies nD τ sig HI) (B : Dev nD → Set (SemLoc sig × HI))
    (lv : GSem nD τ sig → HI → ℕ) (hlv : (sc (F := F)).Refines lv) (hO : ∀ c g, O c g none = 0) (d : Dev nD) :
    iprop(levAts (sc (F := F)).L lv ∗ boundary (SparseCore.T d) ∗ regPre (U := U) a f O B d
        ∗ Pipeline.cellsGhost (Pipeline.pin (pcfgs (F := F)) adm) EP 0 d ∗ Pipeline.toksInit (Pipeline.pin (pcfgs (F := F)) adm) EP 0 d)
      ⊢ wp frame (wpE ((sc (F := F)).defs (Pipeline.defs pcfgs defs₀)) Variants.none.lift (SparseCore.T d) none) Set.univ
          (Prog.lift (.customCall (SparseCore.inner (Pipeline.entry 0)) ()))
          fun _ => iprop(boundary (SparseCore.T d) ∗ regPost (U := U) a O B d) := by
  have hinj : Function.Injective (cellOf (nD := nD) (τ := τ) (Pipeline.pin (pcfgs (F := F)) adm)) := cellOf_inj
  have hreg := Pipeline.RegionSeg.wp (pcfgs (F := F)) adm (pdats (U := U) a f O B) none hinj EP defs₀ Variants.none (sc (F := F)).L lv
    (reg (U := U) a f O B lv hlv hO) d none (fun _ h => nomatch h) (k := Prog.ret)
    (Q := fun _ => iprop(boundary (SparseCore.T d) ∗ regPost (U := U) a O B d))
  rw [show (reg (U := U) a f O B lv hlv hO).pre d = regPre (U := U) a f O B d from rfl,
    show (reg (U := U) a f O B lv hlv hO).post d = regPost (U := U) a O B d from rfl] at hreg
  have hl := (sc (F := F)).wp_liftProg (Pipeline.defs pcfgs defs₀) Variants.none.lift (SparseCore.T d) Set.univ none
    (callP (F := F)) (fun _ => iprop(boundary (SparseCore.T d) ∗ regPost (U := U) a O B d))
  refine BIBase.Entails.trans ?_ hl
  refine BIBase.Entails.trans ?_ hreg
  iintro ⟨#Hla, Hb, Hpre, Hg, Ht⟩
  isplitr [Hb Hpre Hg Ht]
  · iintro ⟨Hb, Hpost⟩
    rw [wp_ret]; imodintro
    isplitl [Hb]; · iexact Hb
    iexact Hpost
  isplitl [Hb]; · iexact Hb
  isplitl [Hpre]; · iexact Hpre
  isplitr; · iexact Hla
  isplitl [Hg]; · iexact Hg
  iexact Ht

/-- One device's contents read as a family over the mesh's devices: the mesh has one device. -/
def fam {R : Ref sig .tc} (d : Dev nD) (x : Buf (Elt F) ((d : Thread nD τ).loc R)) (c : Dev nD) :
    Buf (Elt F) ((c : Thread nD τ).loc R) :=
  cast (congrArg (fun c : Dev nD => Buf (Elt F) ((c : Thread nD τ).loc R)) (Subsingleton.elim d c)) x

theorem fam_self {R : Ref sig .tc} (d : Dev nD) (x : Buf (Elt F) ((d : Thread nD τ).loc R)) : fam (F := F) d x d = x :=
  cast_eq _ x

set_option maxHeartbeats 400000 in
/-- The same on one device's arrays, the thread's recorded pairs all at or below level b (the pipeline's own
    waits are at index none, level 0). -/
theorem wp_mask_call [∀ e, Nonempty (Elt F e)]
    (EP : Emb (URounds (GSem nD τ sig) Unit) (MT nD τ sig HI (Elt F) ℕ U ℕ)) [EP.LandsIn (upEmb : UEmb _ 𝕄)]
    (d : Dev nD) (a : Buf (Elt F) ((SparseCore.T d).loc main_arg1)) (f : Buf (Elt F) ((SparseCore.T d).loc main_v3))
    (O : CellTallies nD τ sig HI) (hO : ∀ g, O g none = 0) (b : ℕ)
    (lv : GSem nD τ sig → HI → ℕ) (hlv : (sc (F := F)).Refines lv) :
    iprop(levAts (sc (F := F)).L lv ∗ boundary (SparseCore.T d) ∗ ((SparseCore.T d).loc main_arg1 ↦{fullShare} a)
        ∗ ((SparseCore.T d).loc main_v3 ↦{fullShare} f)
        ∗ (∃ W, ⌜(sc (F := F)).WBelow (SparseCore.T d) W b⌝ ∗ owes (SparseCore.T d) O W)
        ∗ Pipeline.cellsGhost (Pipeline.pin (pcfgs (F := F)) adm) EP 0 d ∗ Pipeline.toksInit (Pipeline.pin (pcfgs (F := F)) adm) EP 0 d)
      ⊢ wp frame (wpE ((sc (F := F)).defs (Pipeline.defs pcfgs defs₀)) Variants.none.lift (SparseCore.T d) none) Set.univ
          (Prog.lift (.customCall (SparseCore.inner (Pipeline.entry 0)) ()))
          fun _ => iprop(boundary (SparseCore.T d) ∗ ((SparseCore.T d).loc main_arg1 ↦{fullShare} a)
            ∗ ((SparseCore.T d).loc main_v3 ↦{fullShare} (fun i => a i))
            ∗ (∃ W, ⌜(sc (F := F)).WBelow (SparseCore.T d) W b⌝ ∗ owes (SparseCore.T d) O W)) := by
  have h := wp_mask_call_fam (U := U) EP (fam d a) (fam d f) (fun _ => O)
    (fun _ => {p | (sc (F := F)).lev (nD := nD) (SparseCore.T d, p.1) p.2 ≤ b}) lv hlv (fun _ => hO) d
  refine BIBase.Entails.trans ?_ (BIBase.Entails.trans h (wp_mono frame _ Set.univ fun _ => ?_))
  · unfold regPre Pipeline.owesWithin
    rw [fam_self, fam_self]
    iintro ⟨Hla, Hb, Ha, Hf, ⟨%W, %hW, HO⟩, Hg, Ht⟩
    isplitl [Hla]; · iexact Hla
    isplitl [Hb]; · iexact Hb
    isplitl [Ha Hf HO]
    · isplitl [Ha]; · iexact Ha
      isplitl [Hf]; · iexact Hf
      iexists W; isplitr
      · ipureintro; exact fun p hp => hW p (Finset.mem_coe.mp hp)
      iexact HO
    isplitl [Hg]; · iexact Hg
    iexact Ht
  · unfold regPost Pipeline.owesWithin aOut
    rw [fam_self]
    iintro ⟨Hb, Ha, Hf, ⟨%W, %hW, HO⟩⟩
    isplitl [Hb]; · iexact Hb
    isplitl [Ha]; · iexact Ha
    isplitl [Hf]; · iexact Hf
    iexists W; isplitr
    · ipureintro
      intro p hp
      rcases hW (Finset.mem_coe.mpr hp) with h | ⟨w, s, rfl⟩
      · exact h
      · exact Nat.zero_le _
    iexact HO

end Call

end Cert.Proof.KB.Mask

end
-- ==== Proof.Bits.MaskLaunch.lean ====
/-
  The TensorCore pipeline's part of the launch: its staging cells' ghost state as the launch element funds it,
  and the theorem of the pipeline's call stated at the launch's resource algebra.
-/
import proofs.«204299_g532575945014_cont_9to1c4b_494_30_alg».proof.Proof.Bits.Launch
import proofs.«204299_g532575945014_cont_9to1c4b_494_30_alg».proof.Proof.Bits.Mask

-- a theorem's pre-declared type and its final one differ in how a thread's processor is spelt
set_option Elab.async false

noncomputable section

namespace Cert.Proof.KB

open Cert.Kernel Cert.Kernel.Gen

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- The pipeline's staging cells on device d as the launch deals them: their ghost state and the duty tokens of
    the transfers the pipeline's loop issues. -/
def Gm (d : Dev nD) : sProp 𝕄 :=
  iprop(Pipeline.cellsGhost (Pipeline.pin (pcfgs (F := F)) Mask.adm) EP 0 d
    ∗ Pipeline.toksInit (Pipeline.pin (pcfgs (F := F)) Mask.adm) EP 0 d)

/-- The launch element of the pipeline's rounds component: the staging cells and the transfers' duty tokens. -/
def uP : UP :=
  initOf (Pipeline.cells (nD := nD) (τ := τ) cfgs cellOf_inj) (Pipeline.launchToks (nD := nD) (τ := τ) cfgs cellOf_inj)

/-- Funding: the launch element yields every device's cells. The program has one pipeline, so the conjunction
    over the pipelines is its one summand. -/
theorem fund_Gm : (BI.own (EP (F := F) uP) : sProp 𝕄) ⊢ iprop(|==> bigSep Finset.univ fun d : Dev nD => Gm (F := F) d) := by
  refine BIBase.Entails.trans (Pipeline.fund_ghost cfgs (EP (F := F)) cellOf_inj) (BI.bupd_mono ?_)
  rw [← bigSep_sep']
  refine bigSep_mono fun d _ => ?_
  rw [show (Finset.univ : Finset (Fin 1)) = {0} from rfl, bigSep_singleton, bigSep_singleton]
  unfold Gm
  exact BI.Entails.refl _

/-- The call's theorem at the launch's algebra and the handshakes' own levels. -/
theorem maskSpec [∀ e, Nonempty (Elt F e)] : MaskSpec (F := F) (Gm (F := F)) := by
  intro d a f O hO b
  unfold Gm
  exact Mask.wp_mask_call (U := UU) (EP (F := F)) d a f O hO b (K (F := F)).lev (K (F := F)).refines_self

end Cert.Proof.KB

end
-- ==== Proof.Ideal.Run.lean ====
/-
  The lookup's run: what the final memory holds, read off what @main leaves, and the launch theorem applied.
-/
import proofs.«204299_g532575945014_cont_9to1c4b_494_30_alg».proof.Proof.Ideal.Launch
import Idealize.ShloMosaic.Lib.SparseCore.Launch
import Idealize.ShloMosaic.Lib.StableHlo.Run
import Idealize.ShloMosaic.Lib.Pipeline.Kit
import Idealize.ShloMosaic.Lib.Tactic

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg) [FloatOps F]

/-- What the final memory of device `d` holds: the two results, the arguments as launched. -/
def fq (d : Dev nD) (s' : Phys nD τ sig (Elt F)) : Prop :=
  s'.mem.mem (aLoc d main_v4) = V4 m d r4' ∧ s'.mem.mem (aLoc d main_v3) = maskF m d
    ∧ s'.mem.mem (aLoc d main_arg0) = m (aLoc d main_arg0) ∧ s'.mem.mem (aLoc d main_arg1) = m (aLoc d main_arg1) ∧ s'.mem.mem (aLoc d main_arg2) = m (aLoc d main_arg2)

theorem hfin (d : Dev nD) (s' : Phys nD τ sig (Elt F)) : iprop(FIN m d ∗ SI s') ⊢ (⌜fq m d s'⌝ : sProp 𝕄) := by
  iintro ⟨⟨Ha0, Ha1, Ha2, Hr4, Hr3⟩, HSI⟩
  ihave H := (persistent_entails_right (SI_pointsTo_agree (st := s') (ℓ := aLoc d main_arg0) (I := Finset.univ) (q := fullShare) (f := m (aLoc d main_arg0)))) $$ [HSI Ha0]
  · isplitl [HSI] <;> iassumption
  icases H with ⟨%h0, HSI, -⟩
  ihave H := (persistent_entails_right (SI_pointsTo_agree (st := s') (ℓ := aLoc d main_arg1) (I := Finset.univ) (q := fullShare) (f := m (aLoc d main_arg1)))) $$ [HSI Ha1]
  · isplitl [HSI] <;> iassumption
  icases H with ⟨%h1, HSI, -⟩
  ihave H := (persistent_entails_right (SI_pointsTo_agree (st := s') (ℓ := aLoc d main_arg2) (I := Finset.univ) (q := fullShare) (f := m (aLoc d main_arg2)))) $$ [HSI Ha2]
  · isplitl [HSI] <;> iassumption
  icases H with ⟨%h2, HSI, -⟩
  ihave H := (persistent_entails_right (SI_pointsTo_agree (st := s') (ℓ := aLoc d main_v4) (I := Finset.univ) (q := fullShare) (f := V4 m d r4'))) $$ [HSI Hr4]
  · isplitl [HSI] <;> iassumption
  icases H with ⟨%h4, HSI, -⟩
  ihave H := (SI_pointsTo_agree (st := s') (ℓ := aLoc d main_v3) (I := Finset.univ) (q := fullShare) (f := maskF m d)) $$ [HSI Hr3]
  · isplitl [HSI] <;> iassumption
  icases H with %h3
  ipureintro
  exact ⟨funext fun i => h4 i (Finset.mem_univ i), funext fun i => h3 i (Finset.mem_univ i), funext fun i => h0 i (Finset.mem_univ i),
    funext fun i => h1 i (Finset.mem_univ i), funext fun i => h2 i (Finset.mem_univ i)⟩

/-- The run's post: on every device the two results and the arguments. -/
def QC : PUnit × MemSt nD τ sig (Elt F) → Prop := fun r => ∀ c : Dev nD,
  r.2.mem (aLoc c main_v4) = V4 m c r4' ∧ r.2.mem (aLoc c main_v3) = maskF m c
    ∧ r.2.mem (aLoc c main_arg0) = m (aLoc c main_arg0) ∧ r.2.mem (aLoc c main_arg1) = m (aLoc c main_arg1) ∧ r.2.mem (aLoc c main_arg2) = m (aLoc c main_arg2)

/-- The program's run, from the worker's body, the mask call's theorem and the launch element's split. -/
theorem run_main [∀ e, Nonempty (Elt F e)] (hbody : TileBodySpec (F := F)) (hpre : IdxOK m) (G : Dev nD → sProp 𝕄) (hmask : MaskSpec (F := F) G) (u₀ : UU)
    (hu₀ : iprop(ownU u₀ ∗ (P m).oxCred ∗ (K (F := F)).freeSems0) ⊢ |={Set.univ}=> iprop(BI.own (EH (initOf (K (F := F)).hsCells (K (F := F)).hsToks)) ∗ bigSep Finset.univ G
      ∗ bigSep Finset.univ fun thr : Thread nD τ => bigSep Finset.univ fun q : Fin 1 => (P m).x q thr)) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m hbody hpre)
    (fun q _ => match q with | 0 => SparseCore.Cfg.VecSplit.of_plain (vecSplit m))
    m ρ main G (FIN m) u₀ hu₀ (hmain m ρ G hmask) (fq m) (hfin m) (QC m) (fun _ h => h)

omit [FloatOps F] in
theorem bigSep_emp' {I : Type} (s : Finset I) : (bigSep s fun _ => iprop(emp)) = (iprop(emp) : sProp 𝕄) := bigSep_emp_const s

/-- The launch element: the handshakes' rounds, the pipeline's rounds, the counters. -/
def u₀' (uP : UP) : UU := (initOf (K (F := F)).hsCells (K (F := F)).hsToks, (uP, 1))

theorem hu₀' (uP : UP) (Gm : Dev nD → sProp 𝕄) (fund : (BI.own (EP (F := F) uP) : sProp 𝕄) ⊢ iprop(|==> bigSep Finset.univ fun d : Dev nD => Gm d)) :
    iprop(ownU (u₀' (F := F) uP) ∗ (P m).oxCred ∗ (K (F := F)).freeSems0) ⊢ |={Set.univ}=> iprop(BI.own (EH (initOf (K (F := F)).hsCells (K (F := F)).hsToks)) ∗ bigSep Finset.univ Gm
      ∗ bigSep Finset.univ fun thr : Thread nD τ => bigSep Finset.univ fun q : Fin 1 => (P m).x q thr) := by
  unfold u₀'
  iintro ⟨Hu, -, -⟩
  ihave H := (ownU_pair _ _) $$ Hu
  icases H with ⟨HH, HR⟩
  ihave H2 := (own_pair_emb embR uP (1 : Counters)) $$ HR
  icases H2 with ⟨HP, -⟩
  imod (show (BI.own (((Emb.inl : Emb UP (UP × Counters)).trans embR) uP) : sProp 𝕄) ⊢ iprop(|==> bigSep Finset.univ fun d : Dev nD => Gm d) from fund) $$ HP with HG
  imodintro
  isplitl [HH]; · iexact HH
  isplitl [HG]; · iexact HG
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-- The run from the three ingredients proved apart: the worker's body, the mask call with the pipeline's cells funded
    from the launch element, and the flat indices in range. -/
theorem run_of [∀ e, Nonempty (Elt F e)] (hbody : TileBodySpec (F := F)) (hpre : IdxOK m) (uP : UP) (Gm : Dev nD → sProp 𝕄)
    (fund : (BI.own (EP (F := F) uP) : sProp 𝕄) ⊢ iprop(|==> bigSep Finset.univ fun d : Dev nD => Gm d)) (hmask : MaskSpec (F := F) Gm) :
    θ_run (Cert.KernelIdeal.defs (F := F)) (Cert.KernelIdeal.threads (F := F)) ⟨m, fun _ => 0, ρ⟩ (QC m) :=
  run_main m ρ hbody hpre Gm hmask (u₀' (F := F) uP) (hu₀' m uP Gm fund)

end Cert.Proof.KI

end
-- ==== Proof.Bits.Run.lean ====
/-
  The lookup's run: what the final memory holds, read off what @main leaves, and the launch theorem applied.
-/
import proofs.«204299_g532575945014_cont_9to1c4b_494_30_alg».proof.Proof.Bits.Launch
import Idealize.ShloMosaic.Lib.SparseCore.Launch
import Idealize.ShloMosaic.Lib.StableHlo.Run
import Idealize.ShloMosaic.Lib.Pipeline.Kit
import Idealize.ShloMosaic.Lib.Tactic

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg) [FloatOps F]

/-- What the final memory of device `d` holds: the two results, the arguments as launched. -/
def fq (d : Dev nD) (s' : Phys nD τ sig (Elt F)) : Prop :=
  s'.mem.mem (aLoc d main_v4) = V4 m d r4' ∧ s'.mem.mem (aLoc d main_v3) = maskF m d
    ∧ s'.mem.mem (aLoc d main_arg0) = m (aLoc d main_arg0) ∧ s'.mem.mem (aLoc d main_arg1) = m (aLoc d main_arg1) ∧ s'.mem.mem (aLoc d main_arg2) = m (aLoc d main_arg2)

theorem hfin (d : Dev nD) (s' : Phys nD τ sig (Elt F)) : iprop(FIN m d ∗ SI s') ⊢ (⌜fq m d s'⌝ : sProp 𝕄) := by
  iintro ⟨⟨Ha0, Ha1, Ha2, Hr4, Hr3⟩, HSI⟩
  ihave H := (persistent_entails_right (SI_pointsTo_agree (st := s') (ℓ := aLoc d main_arg0) (I := Finset.univ) (q := fullShare) (f := m (aLoc d main_arg0)))) $$ [HSI Ha0]
  · isplitl [HSI] <;> iassumption
  icases H with ⟨%h0, HSI, -⟩
  ihave H := (persistent_entails_right (SI_pointsTo_agree (st := s') (ℓ := aLoc d main_arg1) (I := Finset.univ) (q := fullShare) (f := m (aLoc d main_arg1)))) $$ [HSI Ha1]
  · isplitl [HSI] <;> iassumption
  icases H with ⟨%h1, HSI, -⟩
  ihave H := (persistent_entails_right (SI_pointsTo_agree (st := s') (ℓ := aLoc d main_arg2) (I := Finset.univ) (q := fullShare) (f := m (aLoc d main_arg2)))) $$ [HSI Ha2]
  · isplitl [HSI] <;> iassumption
  icases H with ⟨%h2, HSI, -⟩
  ihave H := (persistent_entails_right (SI_pointsTo_agree (st := s') (ℓ := aLoc d main_v4) (I := Finset.univ) (q := fullShare) (f := V4 m d r4'))) $$ [HSI Hr4]
  · isplitl [HSI] <;> iassumption
  icases H with ⟨%h4, HSI, -⟩
  ihave H := (SI_pointsTo_agree (st := s') (ℓ := aLoc d main_v3) (I := Finset.univ) (q := fullShare) (f := maskF m d)) $$ [HSI Hr3]
  · isplitl [HSI] <;> iassumption
  icases H with %h3
  ipureintro
  exact ⟨funext fun i => h4 i (Finset.mem_univ i), funext fun i => h3 i (Finset.mem_univ i), funext fun i => h0 i (Finset.mem_univ i),
    funext fun i => h1 i (Finset.mem_univ i), funext fun i => h2 i (Finset.mem_univ i)⟩

/-- The run's post: on every device the two results and the arguments. -/
def QC : PUnit × MemSt nD τ sig (Elt F) → Prop := fun r => ∀ c : Dev nD,
  r.2.mem (aLoc c main_v4) = V4 m c r4' ∧ r.2.mem (aLoc c main_v3) = maskF m c
    ∧ r.2.mem (aLoc c main_arg0) = m (aLoc c main_arg0) ∧ r.2.mem (aLoc c main_arg1) = m (aLoc c main_arg1) ∧ r.2.mem (aLoc c main_arg2) = m (aLoc c main_arg2)

/-- The program's run, from the worker's body, the mask call's theorem and the launch element's split. -/
theorem run_main [∀ e, Nonempty (Elt F e)] (hbody : TileBodySpec (F := F)) (hpre : IdxOK m) (G : Dev nD → sProp 𝕄) (hmask : MaskSpec (F := F) G) (u₀ : UU)
    (hu₀ : iprop(ownU u₀ ∗ (P m).oxCred ∗ (K (F := F)).freeSems0) ⊢ |={Set.univ}=> iprop(BI.own (EH (initOf (K (F := F)).hsCells (K (F := F)).hsToks)) ∗ bigSep Finset.univ G
      ∗ bigSep Finset.univ fun thr : Thread nD τ => bigSep Finset.univ fun q : Fin 1 => (P m).x q thr)) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m hbody hpre)
    (fun q _ => match q with | 0 => SparseCore.Cfg.VecSplit.of_plain (vecSplit m))
    m ρ main G (FIN m) u₀ hu₀ (hmain m ρ G hmask) (fq m) (hfin m) (QC m) (fun _ h => h)

omit [FloatOps F] in
theorem bigSep_emp' {I : Type} (s : Finset I) : (bigSep s fun _ => iprop(emp)) = (iprop(emp) : sProp 𝕄) := bigSep_emp_const s

/-- The launch element: the handshakes' rounds, the pipeline's rounds, the counters. -/
def u₀' (uP : UP) : UU := (initOf (K (F := F)).hsCells (K (F := F)).hsToks, (uP, 1))

theorem hu₀' (uP : UP) (Gm : Dev nD → sProp 𝕄) (fund : (BI.own (EP (F := F) uP) : sProp 𝕄) ⊢ iprop(|==> bigSep Finset.univ fun d : Dev nD => Gm d)) :
    iprop(ownU (u₀' (F := F) uP) ∗ (P m).oxCred ∗ (K (F := F)).freeSems0) ⊢ |={Set.univ}=> iprop(BI.own (EH (initOf (K (F := F)).hsCells (K (F := F)).hsToks)) ∗ bigSep Finset.univ Gm
      ∗ bigSep Finset.univ fun thr : Thread nD τ => bigSep Finset.univ fun q : Fin 1 => (P m).x q thr) := by
  unfold u₀'
  iintro ⟨Hu, -, -⟩
  ihave H := (ownU_pair _ _) $$ Hu
  icases H with ⟨HH, HR⟩
  ihave H2 := (own_pair_emb embR uP (1 : Counters)) $$ HR
  icases H2 with ⟨HP, -⟩
  imod (show (BI.own (((Emb.inl : Emb UP (UP × Counters)).trans embR) uP) : sProp 𝕄) ⊢ iprop(|==> bigSep Finset.univ fun d : Dev nD => Gm d) from fund) $$ HP with HG
  imodintro
  isplitl [HH]; · iexact HH
  isplitl [HG]; · iexact HG
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-- The run from the three ingredients proved apart: the worker's body, the mask call with the pipeline's cells funded
    from the launch element, and the flat indices in range. -/
theorem run_of [∀ e, Nonempty (Elt F e)] (hbody : TileBodySpec (F := F)) (hpre : IdxOK m) (uP : UP) (Gm : Dev nD → sProp 𝕄)
    (fund : (BI.own (EP (F := F) uP) : sProp 𝕄) ⊢ iprop(|==> bigSep Finset.univ fun d : Dev nD => Gm d)) (hmask : MaskSpec (F := F) Gm) :
    θ_run (Cert.Kernel.defs (F := F)) (Cert.Kernel.threads (F := F)) ⟨m, fun _ => 0, ρ⟩ (QC m) :=
  run_main m ρ hbody hpre Gm hmask (u₀' (F := F) uP) (hu₀' m uP Gm fund)

end Cert.Proof.KB

end
-- ==== Proof.Ideal.TripDefs.lean ====
/-
  One inner trip of the lookup's gather, its vocabulary: the thread of the tile at grid coordinates L, and what one
  trip does to the output scratch. Trip k reads the 16 indices enc[16k .. 16k+16) and rewrites rows
  16k .. 16k+16 of the 256 x 64 scratch: row r becomes row enc[r] of the table, every other row is untouched.
-/
import proofs.«204299_g532575945014_cont_9to1c4b_494_30_alg».proof.Proof.Ideal.Common
import Idealize.ShloMosaic.Lib.SparseCore.Launch
import Idealize.ShloMosaic.Lib.ValueIdx

noncomputable section

namespace Cert.Proof.KI.Trip

open Cert.KernelIdeal Cert.KernelIdeal.Gen
open Cert.Proof.KI
open Idealize.ShloMosaic
open Idealize.ShloMosaic.SparseCore (S V T)
open Idealize.SL Idealize.SL.Sem

variable {F : FTy → Type}

/-- The vector subcore (tile) at grid coordinates `L` of device `d`. -/
abbrev thr (d : Dev nD) (L : grid0.Coords) : Thread nD τ := SparseCore.V d ((L 0).castLE hcore0) ((L 1).castLE hsub0)

/-- The output scratch after trip `k`, from its contents `o` before: rows `16k ≤ r < 16k + 16` hold the table's rows
    `enc r`, the others are as they were. -/
def tripUpd (tab : S4224.Idx → Elt F .f32) (enc : S256.Idx → BitVec 32) (k : ℕ) (o : S256x64.Idx → Elt F .f32) :
    S256x64.Idx → Elt F .f32 :=
  fun j => if 16 * k ≤ (j 0).val ∧ (j 0).val < 16 * k + 16 then gRow tab (enc (ValueIdx.ix1 (n := 256) (j 0))) (j 1) else o j

theorem tripUpd_of_mem (tab : S4224.Idx → Elt F .f32) (enc : S256.Idx → BitVec 32) (k : ℕ) (o : S256x64.Idx → Elt F .f32)
    (j : S256x64.Idx) (h : 16 * k ≤ (j 0).val ∧ (j 0).val < 16 * k + 16) :
    tripUpd tab enc k o j = gRow tab (enc (ValueIdx.ix1 (n := 256) (j 0))) (j 1) := if_pos h

theorem tripUpd_of_not_mem (tab : S4224.Idx → Elt F .f32) (enc : S256.Idx → BitVec 32) (k : ℕ) (o : S256x64.Idx → Elt F .f32)
    (j : S256x64.Idx) (h : ¬(16 * k ≤ (j 0).val ∧ (j 0).val < 16 * k + 16)) : tripUpd tab enc k o j = o j := if_neg h

end Cert.Proof.KI.Trip

end
-- ==== Proof.Ideal.TripLemmas.lean ====
/-
  Arithmetic and list lemmas for one inner trip of the lookup's gather.
  * The index vector of a gather, enc * 64 + iota + c, addresses word enc * 64 + c + lane (no wrap-around: enc ≤ 65).
  * A list of stores of 1 x 16 pieces, piece (l, q) at row 16 k + l, columns 16 q .. 16 q + 16, each holding the row
    function G there, reads back as G on the pieces and as the old contents elsewhere.
  * The 64 pieces (l, q), l < 16, q < 4, cover exactly rows 16 k .. 16 k + 16.
-/
import proofs.«204299_g532575945014_cont_9to1c4b_494_30_alg».proof.Proof.Ideal.TripDefs
import Idealize.ShloMosaic.Lib.Writes
import Idealize.ShloMosaic.Lib.Exec

noncomputable section

namespace Cert.Proof.KI.Trip

open Cert.KernelIdeal Cert.KernelIdeal.Gen
open Cert.Proof.KI
open Idealize.ShloMosaic
open Idealize.SL Idealize.SL.Sem

variable {F : FTy → Type}

/-- The index vector of one gather: lane `x` addresses word `e * 64 + x + c` of the flat table. -/
theorem gidx_toNat (e c : BitVec 32) (he : e.toNat ≤ 65) (hc : c.toNat ≤ 48) (x : S16.Idx) :
    (addi (addi (muli (broadcast S16 e) (broadcast S16 64#32)) (iota .scVector S16 32 [0] iota_S16_d0_w32_scVector))
        (broadcast S16 c) x).toNat = e.toNat * 64 + (x 0).val + c.toNat := by
  have hx : (x 0).val < 16 := (x 0).isLt
  simp only [addi, muli, broadcast, iota, IntOp.addi, IntOp.muli, List.foldl_cons, List.foldl_nil, Nat.zero_mul, Nat.zero_add,
    BitVec.toNat_add, BitVec.toNat_mul, BitVec.toNat_ofNat]
  omega

/-- The check a gather owes: every lane of its index vector is inside the flat table. -/
theorem chk_ok (v : IVec S16 32) (e c : BitVec 32)
    (hv : v = addi (addi (muli (broadcast S16 e) (broadcast S16 64#32)) (iota .scVector S16 32 [0] iota_S16_d0_w32_scVector))
        (broadcast S16 c))
    (he : e.toNat ≤ 65) (hc : c.toNat ≤ 48) :
    ∀ a x, ((![v] : Fin 1 → IVec S16 32) a x).toNat < S4224.size a := by
  intro a x
  have ha : a = 0 := Subsingleton.elim _ _
  subst ha hv
  show (addi (addi (muli (broadcast S16 e) (broadcast S16 64#32)) (iota .scVector S16 32 [0] iota_S16_d0_w32_scVector))
        (broadcast S16 c) x).toNat < 4224
  rw [gidx_toNat e c he hc x]
  have hx : (x 0).val < 16 := (x 0).isLt
  omega

/-- Lane `l` of a vector of 16 words, as the kernel extracts it. -/
theorem lane_eq (w : IVec S16 32) (l : ℕ) (hl : l < 16) (h1 : S16.Slices ![l] S1) (h2 : ∀ a, (![0] : Fin 1 → ℕ) a < S1.size a) :
    extractAt ![0] (extractStridedSlice S1 ![l] w h1) h2 = w (ValueIdx.ix1 (n := 16) ⟨l, hl⟩) := by
  unfold extractAt extractStridedSlice
  congr 1
  funext a
  have ha : a = 0 := Subsingleton.elim _ _
  subst ha
  apply Fin.ext
  show l + 0 = l
  rfl

/-- The row function: inside the trip's rows, entry `(r, c)` of the output scratch is entry `c` of the table's row `enc r`. -/
def gfun (tab : S4224.Idx → Elt F .f32) (enc : S256.Idx → BitVec 32) : S256x64.Idx → Elt F .f32 :=
  fun j => gRow tab (enc (ValueIdx.ix1 (n := 256) (j 0))) (j 1)

/-- Index `j` lies in piece `(l, q)` of trip `k`: row `16 k + l`, columns `16 q .. 16 q + 16`. -/
def Cond (k : ℕ) (lq : ℕ × ℕ) (j : S256x64.Idx) : Prop :=
  (j 0).val = 16 * k + lq.1 ∧ 16 * lq.2 ≤ (j 1).val ∧ (j 1).val < 16 * lq.2 + 16

/-- A stored piece is piece `(l, q)` of trip `k` and holds `G` there. -/
def PieceOk (G : S256x64.Idx → Elt F .f32) (k : ℕ) (p : View.Piece (Elt F) S256x64 .f32) (lq : ℕ × ℕ) : Prop :=
  (∀ j : S256x64.Idx, j ∈ p.1.set ↔ Cond k lq j) ∧ ∀ x, p.2 x = G (p.1.emb x)

/-- A list of such pieces reads back as `G` on the pieces and as the old contents off them. -/
theorem read_writes_of_ok {sig : RefSig} {κ : Kind} {sp : Space} (v : View sig κ sp S256x64 .f32) (o : v.ty.Contents (Elt F))
    (G : S256x64.Idx → Elt F .f32) (k : ℕ) (j : S256x64.Idx) :
    ∀ (L : List (View.Piece (Elt F) S256x64 .f32)) (S : List (ℕ × ℕ)), List.Forall₂ (PieceOk G k) L S →
      ((∃ lq ∈ S, Cond k lq j) → v.read (Elt F) (v.writes (Elt F) o L) j = G j)
        ∧ ((¬∃ lq ∈ S, Cond k lq j) → v.read (Elt F) (v.writes (Elt F) o L) j = v.read (Elt F) o j) := by
  intro L S hLS
  induction hLS with
  | nil => exact ⟨fun ⟨_, hm, _⟩ => absurd hm List.not_mem_nil, fun _ => rfl⟩
  | @cons p lq L S hp _ ih =>
    obtain ⟨hmem, hpay⟩ := hp
    by_cases hj : j ∈ p.1.set
    · obtain ⟨x, rfl⟩ : ∃ x, p.1.emb x = j := p.1.exists_idx_of_mem hj
      obtain ⟨r, w⟩ := p
      refine ⟨fun _ => ?_, fun hn => absurd ⟨lq, List.mem_cons_self, (hmem _).mp hj⟩ hn⟩
      rw [View.read_writes_cons_emb]
      exact hpay x
    · have hy' : j ∉ Finset.univ.map p.1.emb := by rwa [Rect.map_emb_univ]
      rw [View.writes_cons, View.read_slice_write_of_not_mem p.1 _ _ _ hy']
      refine ⟨fun ⟨lq', hm, hc⟩ => ih.1 ?_, fun hn => ih.2 fun ⟨lq', hm, hc⟩ => hn ⟨lq', List.mem_cons_of_mem _ hm, hc⟩⟩
      rcases List.mem_cons.mp hm with rfl | hm
      · exact absurd ((hmem _).mpr hc) hj
      · exact ⟨lq', hm, hc⟩

/-- The pieces of a trip, in the order the list of stores holds them (the last store first). -/
def S64 : List (ℕ × ℕ) := [(15, 3), (15, 2), (15, 1), (15, 0), (14, 3), (14, 2), (14, 1), (14, 0), (13, 3), (13, 2), (13, 1), (13, 0), (12, 3), (12, 2), (12, 1), (12, 0), (11, 3), (11, 2), (11, 1), (11, 0), (10, 3), (10, 2), (10, 1), (10, 0), (9, 3), (9, 2), (9, 1), (9, 0), (8, 3), (8, 2), (8, 1), (8, 0), (7, 3), (7, 2), (7, 1), (7, 0), (6, 3), (6, 2), (6, 1), (6, 0), (5, 3), (5, 2), (5, 1), (5, 0), (4, 3), (4, 2), (4, 1), (4, 0), (3, 3), (3, 2), (3, 1), (3, 0), (2, 3), (2, 2), (2, 1), (2, 0), (1, 3), (1, 2), (1, 1), (1, 0), (0, 3), (0, 2), (0, 1), (0, 0)]

theorem S64_lt : ∀ lq ∈ S64, lq.1 < 16 := by decide
theorem S64_mem : ∀ l < 16, ∀ q < 4, (l, q) ∈ S64 := by decide

/-- The 64 pieces cover exactly the trip's 16 rows. -/
theorem S64_iff (k : ℕ) (j : S256x64.Idx) : (∃ lq ∈ S64, Cond k lq j) ↔ (16 * k ≤ (j 0).val ∧ (j 0).val < 16 * k + 16) := by
  have h1 : (j 1).val < 64 := ValueIdx.idx2_lt1 j
  constructor
  · rintro ⟨lq, hm, h0, -, -⟩
    have := S64_lt lq hm
    omega
  · intro h
    refine ⟨((j 0).val - 16 * k, (j 1).val / 16), S64_mem _ (by omega) _ (by omega), ?_, ?_, ?_⟩
    · show (j 0).val = 16 * k + ((j 0).val - 16 * k); omega
    · show 16 * ((j 1).val / 16) ≤ (j 1).val; omega
    · show (j 1).val < 16 * ((j 1).val / 16) + 16; omega

/-- One stored piece: at the closed form `(16 k + l, 16 q)` of its offsets, holding the gathered 16 floats
    `tab[enc(16 k + l) * 64 + 16 q + x]`, it is piece `(l, q)` of trip `k` and holds the row function there. -/
theorem piece_ok (tab : S4224.Idx → Elt F .f32) (enc : S256.Idx → BitVec 32) (hle : ∀ x, (enc x).toNat ≤ 65)
    (k : ℕ) (off : Fin 2 → ℕ) [co : ClosedOff off] (inb : ∀ a, off a + S1x16.size a ≤ S256x64.size a)
    (l q : ℕ) (hl : 16 * k + l < 256) (hq : q < 4) (hform : co.form = ![16 * k + l, 16 * q])
    (tabv : S4224.Idx → Elt F .f32) (htab : tabv = tab)
    (v : IVec S16 32) (e c : BitVec 32)
    (hv : v = addi (addi (muli (broadcast S16 e) (broadcast S16 64#32)) (iota .scVector S16 32 [0] iota_S16_d0_w32_scVector))
        (broadcast S16 c))
    (he : e = enc (ValueIdx.ix1 (n := 256) ⟨16 * k + l, hl⟩)) (hc : c.toNat = 16 * q)
    (h : ∀ a x, ((![v] : Fin 1 → IVec S16 32) a x).toNat < S4224.size a) (pf : S16.ShapeCasts S1x16) :
    PieceOk (gfun tab enc) k ⟨Rect.unit (s := S256x64) off S1x16.size inb, shapeCast S1x16 (loadIdx tabv ![v] h) pf⟩ (l, q) := by
  have hoff : off = ![16 * k + l, 16 * q] := co.eq.trans hform
  subst htab hv
  refine ⟨fun j => ?_, fun x => ?_⟩
  · rw [Rect.mem_set_unit, Fin.forall_fin_two, hoff]
    show ((16 * k + l ≤ (j 0).val ∧ (j 0).val < 16 * k + l + 1) ∧ (16 * q ≤ (j 1).val ∧ (j 1).val < 16 * q + 16)) ↔ _
    unfold Cond
    constructor <;> intro hh <;> (simp only at hh ⊢; omega)
  · have he65 : e.toNat ≤ 65 := he ▸ hle _
    have o0 : off 0 = 16 * k + l := by rw [hoff]; rfl
    have o1 : off 1 = 16 * q := by rw [hoff]; rfl
    have hx0 : (x 0).val < 1 := (x 0).isLt
    have hx1 : (x 1).val < 16 := (x 1).isLt
    have hy : ((Shape.reshapeEquiv pf x) 0).val = (x 0).val * 16 + (x 1).val := by
      have := Shape.rowMajor_reshapeEquiv pf x
      rw [Shape.rowMajor_val_one, Shape.rowMajor_val_two] at this
      exact this
    have h0 : (Rect.unit (s := S256x64) off S1x16.size inb).emb x 0 = (⟨16 * k + l, hl⟩ : Fin 256) := by
      apply Fin.ext
      rw [Rect.emb_apply, Rect.off_unit, Rect.stride_unit]
      show off 0 + 1 * (x 0).val = 16 * k + l
      omega
    have h1 : ((Rect.unit (s := S256x64) off S1x16.size inb).emb x 1).val = 16 * q + (x 1).val := by
      rw [Rect.emb_apply, Rect.off_unit, Rect.stride_unit]
      omega
    show tabv (idxAt ![_] h (Shape.reshapeEquiv pf x)) = gRow tabv (enc (ValueIdx.ix1 (n := 256) ((Rect.unit (s := S256x64) off S1x16.size inb).emb x 0))) ((Rect.unit (s := S256x64) off S1x16.size inb).emb x 1)
    rw [h0, ← he]
    unfold gRow
    congr 1
    funext a
    have ha : a = 0 := Subsingleton.elim _ _
    subst ha
    apply Fin.ext
    show (addi (addi (muli (broadcast S16 e) (broadcast S16 64#32)) (iota .scVector S16 32 [0] iota_S16_d0_w32_scVector))
        (broadcast S16 c) (Shape.reshapeEquiv pf x)).toNat = (e.toNat * 64 + ((Rect.unit (s := S256x64) off S1x16.size inb).emb x 1).val) % 4224
    rw [gidx_toNat e c he65 (by omega), hy, h1, hc]
    omega

/-- What a trip's 64 stores leave, read at one index: the row function on rows `16 k .. 16 k + 16`, the old contents
    elsewhere. -/
theorem read_writes_trip {sig : RefSig} {κ : Kind} {sp : Space} (v : View sig κ sp S256x64 .f32) (o : v.ty.Contents (Elt F))
    (tab : S4224.Idx → Elt F .f32) (enc : S256.Idx → BitVec 32) (k : ℕ) (L : List (View.Piece (Elt F) S256x64 .f32))
    (hL : List.Forall₂ (PieceOk (gfun tab enc) k) L S64) (j : S256x64.Idx) :
    v.read (Elt F) (v.writes (Elt F) o L) j
      = if 16 * k ≤ (j 0).val ∧ (j 0).val < 16 * k + 16 then gfun tab enc j else v.read (Elt F) o j := by
  have h := read_writes_of_ok v o (gfun tab enc) k j L S64 hL
  by_cases hj : 16 * k ≤ (j 0).val ∧ (j 0).val < 16 * k + 16
  · rw [if_pos hj]; exact h.1 ((S64_iff k j).mpr hj)
  · rw [if_neg hj]; exact h.2 fun hh => hj ((S64_iff k j).mp hh)

end Cert.Proof.KI.Trip

end
-- ==== Proof.Ideal.Trip.lean ====
/-
  One inner trip of the lookup's gather, for both inner loops. A trip loads 16 indices, and for each of the 16 lanes
  and each quarter of a 64-float row gathers 16 consecutive floats of the table scratch (at enc * 64 + 16 q + lane)
  and stores them into the output scratch's row 16 k + l, columns 16 q .. 16 q + 16.
  The index of every gather is below 4224 because every index word is at most 65 (65 * 64 + 63 = 4223); the 64
  stored pieces tile rows 16 k .. 16 k + 16 of the scratch, and each piece holds the table's row at its place.
-/
import proofs.«204299_g532575945014_cont_9to1c4b_494_30_alg».proof.Proof.Ideal.TripDefs
import proofs.«204299_g532575945014_cont_9to1c4b_494_30_alg».proof.Proof.Ideal.TripLemmas
import proofs.«204299_g532575945014_cont_9to1c4b_494_30_alg».proof.Proof.Gen.KernelIdeal
import proofs.«204299_g532575945014_cont_9to1c4b_494_30_alg».proof.Proof.Gen.KernelIdeal.Skeleton
import Idealize.ShloMosaic.Lib.SparseCore.Launch
import Idealize.ShloMosaic.Lib.SparseCore.Ops
import Idealize.ShloMosaic.Lib.Writes
import Idealize.ShloMosaic.Lib.Tactic

noncomputable section

namespace Cert.Proof.KI.Trip

open Cert.KernelIdeal Cert.KernelIdeal.Gen
open Cert.Proof.KI
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]
variable {U : Type} [URA U]

local notation "𝕄" => MT nD τ sig (HIx 1) (Elt F) ℕ U ℕ

local notation "hTab" => (Memref.whole Cert.KernelIdeal.main_v1_scv : Memref Cert.KernelIdeal.sig Kind.scVector Space.hbm Cert.KernelIdeal.S4224 EltTy.f32)
local notation "hIdx" => (Memref.whole Cert.KernelIdeal.main_v0_scv : Memref Cert.KernelIdeal.sig Kind.scVector Space.hbm Cert.KernelIdeal.S3276800 EltTy.i32)
local notation "hOut" => (Memref.whole Cert.KernelIdeal.main_v2_scv : Memref Cert.KernelIdeal.sig Kind.scVector Space.hbm Cert.KernelIdeal.S3276800x64 EltTy.f32)
local notation "sTab" => (Memref.whole Cert.KernelIdeal.cc0_scratch0 : Memref Cert.KernelIdeal.sig Kind.scVector Space.vmem Cert.KernelIdeal.S4224 EltTy.f32)
local notation "sI0" => (Memref.whole Cert.KernelIdeal.cc0_scratch1 : Memref Cert.KernelIdeal.sig Kind.scVector Space.vmem Cert.KernelIdeal.S256 EltTy.i32)
local notation "sI1" => (Memref.whole Cert.KernelIdeal.cc0_scratch2 : Memref Cert.KernelIdeal.sig Kind.scVector Space.vmem Cert.KernelIdeal.S256 EltTy.i32)
local notation "sO0" => (Memref.whole Cert.KernelIdeal.cc0_scratch3 : Memref Cert.KernelIdeal.sig Kind.scVector Space.vmem Cert.KernelIdeal.S256x64 EltTy.f32)
local notation "sO1" => (Memref.whole Cert.KernelIdeal.cc0_scratch4 : Memref Cert.KernelIdeal.sig Kind.scVector Space.vmem Cert.KernelIdeal.S256x64 EltTy.f32)

/-- What a trip's 64 stores leave in the output scratch. -/
theorem writes_trip0 (o : S256x64.Idx → Elt F .f32) (tab : S4224.Idx → Elt F .f32) (enc : S256.Idx → BitVec 32) (k : ℕ)
    (L : List (View.Piece (Elt F) S256x64 .f32)) (hL : List.Forall₂ (PieceOk (gfun tab enc) k) L S64) :
    (sO0).view.writes (Elt F) o L = tripUpd tab enc k o := by
  funext j
  exact read_writes_trip (sO0).view o tab enc k L hL j

/-- What a trip's 64 stores leave in the output scratch. -/
theorem writes_trip1 (o : S256x64.Idx → Elt F .f32) (tab : S4224.Idx → Elt F .f32) (enc : S256.Idx → BitVec 32) (k : ℕ)
    (L : List (View.Piece (Elt F) S256x64 .f32)) (hL : List.Forall₂ (PieceOk (gfun tab enc) k) L S64) :
    (sO1).view.writes (Elt F) o L = tripUpd tab enc k o := by
  funext j
  exact read_writes_trip (sO1).view o tab enc k L hL j

/-- One trip of the first inner loop (index buffer 0, output buffer 0). -/
theorem t2_trip (d : Dev nD) (L : grid0.Coords) (v2 : BitVec 32) (v9 : IVec S16 32) (c0 c1 : BitVec 32)
    (k0_t1 : Fin k0_t1_loop.trips) (k : Fin k0_t2_loop.trips)
    (hv9 : v9 = iota .scVector S16 32 [0] iota_S16_d0_w32_scVector)
    (tab : S4224.Idx → Elt F .f32) (enc : S256.Idx → BitVec 32) (o : S256x64.Idx → Elt F .f32)
    (hle : ∀ x, (enc x).toNat ≤ 65) :
    (iprop(((sTab).view.loc (thr d L) ↦{fullShare} tab) ∗ ((sI0).view.loc (thr d L) ↦{fullShare} enc)
        ∗ ((sO0).view.loc (thr d L) ↦{fullShare} o)) : sProp 𝕄)
      ⊢ wp frame (wpE (defs₀ (F := F)) Variants.none (thr d L) none) Set.univ
          (k0_t2_body L hTab (Memref.isWhole_whole _) hIdx (Memref.isWhole_whole _) hOut (Memref.isWhole_whole _)
            sTab (Memref.isWhole_whole _) sI0 (Memref.isWhole_whole _) sI1 (Memref.isWhole_whole _)
            sO0 (Memref.isWhole_whole _) sO1 (Memref.isWhole_whole _)
            cc0_scratch5 cc0_scratch6 cc0_scratch7 cc0_scratch8 cc0_scratch9 v2 v9 c0 c1 k0_t1 k ())
          fun _ => iprop(((sTab).view.loc (thr d L) ↦{fullShare} tab) ∗ ((sI0).view.loc (thr d L) ↦{fullShare} enc)
            ∗ ((sO0).view.loc (thr d L) ↦{fullShare} tripUpd tab enc k.val o)) := by
  subst hv9
  have hk : k.val < 16 := k.isLt
  have henc : ∀ (j j' : S256.Idx), (j 0).val = (j' 0).val → enc j = enc j' := fun j j' h =>
    congrArg enc (by rw [ValueIdx.eq_ix1 j, ValueIdx.eq_ix1 j']; exact congrArg _ (Fin.ext h))
  -- the 16 loaded indices are enc[16 k .. 16 k + 16)
  have hlane : ∀ (l : ℕ) (hl : l < 16) (h1 : S16.Slices ![l] S1) (h2 : ∀ a, (![0] : Fin 1 → ℕ) a < S1.size a),
      extractAt ![0] (extractStridedSlice (s := S16) S1 ![l]
          (View.readAt (Elt F) (sI0).view (Rect.unit (s := S256) (k0_off4 k) S16.size (k0_off4_inb k)).toLoadRect enc : IVec S16 32) h1) h2
        = enc (ValueIdx.ix1 (n := 256) ⟨16 * k.val + l, by omega⟩) := by
    intro l hl h1 h2
    rw [lane_eq _ l hl h1 h2]
    apply henc
    have ho := congrFun (k0_off4_eq k) 0
    show k0_off4 k 0 + 1 * l = 16 * k.val + l
    rw [ho]
    show 16 * k.val + 1 * l = 16 * k.val + l
    omega
  iintro ⟨Ht, Hi, Ho⟩
  sl_respell [k0_t2_body, k0_part1, k0_part2, k0_part3, k0_part4, k0_part5, k0_part6, k0_part7, k0_part8, k0_part9, k0_part10, k0_part11, k0_part12, k0_part13, k0_part14, k0_part15, k0_part16, k0_part17, k0_part18, k0_part19, SparseCore.vectorLoadIdx]
  sl_exec (disch := (refine chk_ok _ _ _ rfl ?_ (by decide); exact (congrArg BitVec.toNat (hlane _ (by decide) _ _)).trans_le (hle _)))
  sl_step
  isplitl [Ht]; · iexact Ht
  isplitl [Hi]; · iexact Hi
  iapply (Entails.of_eq (congrArg (fun f => ((sO0).view.loc (thr d L) ↦{fullShare} f : sProp 𝕄)) (writes_trip0 o tab enc k.val _ ?hL))) $$ Ho
  case hL =>
    repeat (first
      | exact List.Forall₂.nil
      | refine List.Forall₂.cons (piece_ok tab enc hle k.val _ _ _ _ (by omega) (by decide) rfl _ (Memref.readAt_whole _ _ _) _ _ _ rfl
          (hlane _ (by decide) _ _) rfl _ _) ?_)

/-- One trip of the second inner loop (index buffer 1, output buffer 1). -/
theorem t3_trip (d : Dev nD) (L : grid0.Coords) (v2 : BitVec 32) (v9 : IVec S16 32) (c0 c1 : BitVec 32)
    (k0_t1 : Fin k0_t1_loop.trips) (k : Fin k0_t3_loop.trips)
    (hv9 : v9 = iota .scVector S16 32 [0] iota_S16_d0_w32_scVector)
    (tab : S4224.Idx → Elt F .f32) (enc : S256.Idx → BitVec 32) (o : S256x64.Idx → Elt F .f32)
    (hle : ∀ x, (enc x).toNat ≤ 65) :
    (iprop(((sTab).view.loc (thr d L) ↦{fullShare} tab) ∗ ((sI1).view.loc (thr d L) ↦{fullShare} enc)
        ∗ ((sO1).view.loc (thr d L) ↦{fullShare} o)) : sProp 𝕄)
      ⊢ wp frame (wpE (defs₀ (F := F)) Variants.none (thr d L) none) Set.univ
          (k0_t3_body L hTab (Memref.isWhole_whole _) hIdx (Memref.isWhole_whole _) hOut (Memref.isWhole_whole _)
            sTab (Memref.isWhole_whole _) sI0 (Memref.isWhole_whole _) sI1 (Memref.isWhole_whole _)
            sO0 (Memref.isWhole_whole _) sO1 (Memref.isWhole_whole _)
            cc0_scratch5 cc0_scratch6 cc0_scratch7 cc0_scratch8 cc0_scratch9 v2 v9 c0 c1 k0_t1 k ())
          fun _ => iprop(((sTab).view.loc (thr d L) ↦{fullShare} tab) ∗ ((sI1).view.loc (thr d L) ↦{fullShare} enc)
            ∗ ((sO1).view.loc (thr d L) ↦{fullShare} tripUpd tab enc k.val o)) := by
  subst hv9
  have hk : k.val < 16 := k.isLt
  have henc : ∀ (j j' : S256.Idx), (j 0).val = (j' 0).val → enc j = enc j' := fun j j' h =>
    congrArg enc (by rw [ValueIdx.eq_ix1 j, ValueIdx.eq_ix1 j']; exact congrArg _ (Fin.ext h))
  -- the 16 loaded indices are enc[16 k .. 16 k + 16)
  have hlane : ∀ (l : ℕ) (hl : l < 16) (h1 : S16.Slices ![l] S1) (h2 : ∀ a, (![0] : Fin 1 → ℕ) a < S1.size a),
      extractAt ![0] (extractStridedSlice (s := S16) S1 ![l]
          (View.readAt (Elt F) (sI1).view (Rect.unit (s := S256) (k0_off41 k) S16.size (k0_off41_inb k)).toLoadRect enc : IVec S16 32) h1) h2
        = enc (ValueIdx.ix1 (n := 256) ⟨16 * k.val + l, by omega⟩) := by
    intro l hl h1 h2
    rw [lane_eq _ l hl h1 h2]
    apply henc
    have ho := congrFun (k0_off41_eq k) 0
    show k0_off41 k 0 + 1 * l = 16 * k.val + l
    rw [ho]
    show 16 * k.val + 1 * l = 16 * k.val + l
    omega
  iintro ⟨Ht, Hi, Ho⟩
  sl_respell [k0_t3_body, k0_part20, k0_part21, k0_part22, k0_part23, k0_part24, k0_part25, k0_part26, k0_part27, k0_part28, k0_part29, k0_part30, k0_part31, k0_part32, k0_part33, k0_part34, k0_part35, k0_part36, k0_part37, k0_part38, SparseCore.vectorLoadIdx]
  sl_exec (disch := (refine chk_ok _ _ _ rfl ?_ (by decide); exact (congrArg BitVec.toNat (hlane _ (by decide) _ _)).trans_le (hle _)))
  sl_step
  isplitl [Ht]; · iexact Ht
  isplitl [Hi]; · iexact Hi
  iapply (Entails.of_eq (congrArg (fun f => ((sO1).view.loc (thr d L) ↦{fullShare} f : sProp 𝕄)) (writes_trip1 o tab enc k.val _ ?hL))) $$ Ho
  case hL =>
    repeat (first
      | exact List.Forall₂.nil
      | refine List.Forall₂.cons (piece_ok tab enc hle k.val _ _ _ _ (by omega) (by decide) rfl _ (Memref.readAt_whole _ _ _) _ _ _ rfl
          (hlane _ (by decide) _ _) rfl _ _) ?_)

end Cert.Proof.KI.Trip

end
-- ==== Proof.Ideal.Tile.lean ====
/-
  The lookup on ONE vector subcore, at a symbolic tile `L` of device `d`: the tile with worker number
  `w = 2·subcore + core` owns the 102,400 indices from `w · 102400` on and the same rows of the result, and works
  through them in 400 steps of 256.

  The transfers. Five semaphores, each with at most one copy outstanding, and no access to a copy's source or
  destination while it is pending:
    * the table, whole, into its scratch: issued and waited for at once;
    * the indices of step `s` into the first index buffer (`s` even) or the second (`s` odd), each buffer on its own
      semaphore: the first two issued before the loop, the copy for step `s + 2` issued at the end of step `s`, after
      the step has read the buffer, and waited for at the start of step `s + 2`;
    * the 256 gathered rows of step `s` out of the first output buffer (`s` even) or the second (`s` odd), each on its
      own semaphore: issued after the step has filled the buffer, waited for at the start of step `s + 2`, before the
      buffer is overwritten; the last two after the loop.
  The outer loop has 200 trips of two steps. Before trip `t`: the table scratch holds the table; the indices below step
  `2t` are back in hand, those of steps `2t` and `2t + 1` are in flight, the later ones still in hand; the rows below
  step `2t - 2` hold the result, those of steps `2t - 2` and `2t - 1` are in flight (at the result), the later ones
  untouched. A step's inner loop of 16 trips fills the output buffer 16 rows at a time from the table scratch at the
  landed indices, each of which is at most 65 because every index is.

  The value: row `r` of the result is the table's row `idx r`, entry `(r, e)` the flat table at `idx r · 64 + e`. A landed
  chunk of indices is the index array read at the chunk's positions; the rows an output copy writes are the result's rows
  at those positions; the 400 chunks of a tile are consecutive ranges, joined back into the tile's part at the end.
-/
import proofs.«204299_g532575945014_cont_9to1c4b_494_30_alg».proof.Proof.Ideal.Common
import proofs.«204299_g532575945014_cont_9to1c4b_494_30_alg».proof.Proof.Gen.KernelIdeal
import proofs.«204299_g532575945014_cont_9to1c4b_494_30_alg».proof.Proof.Gen.KernelIdeal.Skeleton
import proofs.«204299_g532575945014_cont_9to1c4b_494_30_alg».proof.Proof.Ideal.Trip
import Idealize.ShloMosaic.Lib.SparseCore.Launch
import Idealize.ShloMosaic.Lib.SparseCore.Ops
import Idealize.ShloMosaic.Lib.Pipeline.Kit
import Idealize.ShloMosaic.Lib.Tactic
import Idealize.ShloMosaic.Lib.WordExact

noncomputable section

namespace Cert.Proof.KI.Tile

open Cert.KernelIdeal Cert.KernelIdeal.Gen
open Cert.Proof.KI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 1) fun p => (pcfgs (F := F) p).Adm
abbrev K : SparseCore.Cfg τ sig (ΛP (F := F)) 1 := sc (F := F)
abbrev 𝒱₀ : Variants := Variants.none

variable {U : Type} [URA U] [CountersIn U]

local notation "𝕄" => MT nD τ sig (HIx 1) (Elt F) ℕ U ℕ

local notation "tV" => (Memref.whole Cert.KernelIdeal.main_v1_scv : Memref Cert.KernelIdeal.sig Kind.scVector Space.hbm Cert.KernelIdeal.S4224 EltTy.f32)
local notation "iV" => (Memref.whole Cert.KernelIdeal.main_v0_scv : Memref Cert.KernelIdeal.sig Kind.scVector Space.hbm Cert.KernelIdeal.S3276800 EltTy.i32)
local notation "oV" => (Memref.whole Cert.KernelIdeal.main_v2_scv : Memref Cert.KernelIdeal.sig Kind.scVector Space.hbm Cert.KernelIdeal.S3276800x64 EltTy.f32)
local notation "b0" => (Memref.whole Cert.KernelIdeal.cc0_scratch0 : Memref Cert.KernelIdeal.sig Kind.scVector Space.vmem Cert.KernelIdeal.S4224 EltTy.f32)
local notation "b1" => (Memref.whole Cert.KernelIdeal.cc0_scratch1 : Memref Cert.KernelIdeal.sig Kind.scVector Space.vmem Cert.KernelIdeal.S256 EltTy.i32)
local notation "b2" => (Memref.whole Cert.KernelIdeal.cc0_scratch2 : Memref Cert.KernelIdeal.sig Kind.scVector Space.vmem Cert.KernelIdeal.S256 EltTy.i32)
local notation "b3" => (Memref.whole Cert.KernelIdeal.cc0_scratch3 : Memref Cert.KernelIdeal.sig Kind.scVector Space.vmem Cert.KernelIdeal.S256x64 EltTy.f32)
local notation "b4" => (Memref.whole Cert.KernelIdeal.cc0_scratch4 : Memref Cert.KernelIdeal.sig Kind.scVector Space.vmem Cert.KernelIdeal.S256x64 EltTy.f32)

variable [FloatOps F]

section Tile

variable (d : Dev nD) (L : grid0.Coords)

abbrev cV (L : grid0.Coords) : Fin τ.nSC := (L 0).castLE hcore0
abbrev jV (L : grid0.Coords) : Fin τ.nSub := (L 1).castLE hsub0
/-- The tile's thread. -/
abbrev thr (d : Dev nD) (L : grid0.Coords) : Thread nD τ := V d (cV L) (jV L)

abbrev cell (d : Dev nD) (L : grid0.Coords) (s : DmaSems sig S_) : GSem nD τ sig := (thr d L, .dma s.sem)

omit [FloatOps F] in
theorem cell_mem (s : DmaSems sig S_) (h : (SemLoc.dma s.sem : SemLoc sig).isScoped .scVector = true) :
    cell d L s ∈ ownCells (thr d L) := (mem_ownCells (g := cell d L s)).mpr ⟨rfl, h⟩

omit [FloatOps F] in
theorem cell_ne {s s' : DmaSems sig S_} (h : (SemLoc.dma s.sem : SemLoc sig) ≠ SemLoc.dma s'.sem) : cell d L s ≠ cell d L s' :=
  fun e => h (congrArg Prod.snd e)

omit [FloatOps F] in
theorem ownSems0_V :
    (ownSems0 (thr d L) : sProp 𝕄)
      = iprop(semVal (cell d L cc0_scratch5) 0 ∗ semVal (cell d L cc0_scratch6) 0 ∗ semVal (cell d L cc0_scratch7) 0
          ∗ semVal (cell d L cc0_scratch8) 0 ∗ semVal (cell d L cc0_scratch9) 0
          ∗ bigSep ((((((ownCells (thr d L)).erase (cell d L cc0_scratch5)).erase (cell d L cc0_scratch6)).erase (cell d L cc0_scratch7)).erase
              (cell d L cc0_scratch8)).erase (cell d L cc0_scratch9)) fun g => semVal g 0) := by
  unfold SparseCore.Cfg.ownSems0
  have m5 := cell_mem d L cc0_scratch5 (by decide)
  have m6 := cell_mem d L cc0_scratch6 (by decide)
  have m7 := cell_mem d L cc0_scratch7 (by decide)
  have m8 := cell_mem d L cc0_scratch8 (by decide)
  have m9 := cell_mem d L cc0_scratch9 (by decide)
  have n65 : cell d L cc0_scratch6 ≠ cell d L cc0_scratch5 := cell_ne d L (by decide)
  have n75 : cell d L cc0_scratch7 ≠ cell d L cc0_scratch5 := cell_ne d L (by decide)
  have n76 : cell d L cc0_scratch7 ≠ cell d L cc0_scratch6 := cell_ne d L (by decide)
  have n85 : cell d L cc0_scratch8 ≠ cell d L cc0_scratch5 := cell_ne d L (by decide)
  have n86 : cell d L cc0_scratch8 ≠ cell d L cc0_scratch6 := cell_ne d L (by decide)
  have n87 : cell d L cc0_scratch8 ≠ cell d L cc0_scratch7 := cell_ne d L (by decide)
  have n95 : cell d L cc0_scratch9 ≠ cell d L cc0_scratch5 := cell_ne d L (by decide)
  have n96 : cell d L cc0_scratch9 ≠ cell d L cc0_scratch6 := cell_ne d L (by decide)
  have n97 : cell d L cc0_scratch9 ≠ cell d L cc0_scratch7 := cell_ne d L (by decide)
  have n98 : cell d L cc0_scratch9 ≠ cell d L cc0_scratch8 := cell_ne d L (by decide)
  rw [SparseCore.bigSep_erase' m5,
    SparseCore.bigSep_erase' (Finset.mem_erase.mpr ⟨n65, m6⟩),
    SparseCore.bigSep_erase' (Finset.mem_erase.mpr ⟨n76, Finset.mem_erase.mpr ⟨n75, m7⟩⟩),
    SparseCore.bigSep_erase' (Finset.mem_erase.mpr ⟨n87, Finset.mem_erase.mpr ⟨n86, Finset.mem_erase.mpr ⟨n85, m8⟩⟩⟩),
    SparseCore.bigSep_erase' (Finset.mem_erase.mpr ⟨n98, Finset.mem_erase.mpr ⟨n97, Finset.mem_erase.mpr ⟨n96, Finset.mem_erase.mpr ⟨n95, m9⟩⟩⟩⟩)]

abbrev bref (L : grid0.Coords) (r : Ref sig .scVector) : DevRef τ sig := (Proc.scVector (cV L) (jV L)).devRef r

omit [FloatOps F] in
theorem bref_mem (r : Ref sig .scVector) (h : (bref L r).owner = .proc (Proc.scVector (cV L) (jV L))) :
    bref L r ∈ ownRefs (τ := τ) (.scVector (cV L) (jV L)) := SparseCore.Cfg.mem_ownRefs_of_owner h

omit [FloatOps F] in
theorem bref_ne {r r' : Ref sig .scVector} (h : r ≠ r') : bref L r ≠ bref L r' :=
  fun e => h (Proc.devRef_injective _ e)

omit [FloatOps F] in
/-- The five scratch buffers are among the subcore's own. -/
theorem ownBufs_V :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f) ∗ (∃ f, (thr d L).loc cc0_scratch3 ↦{fullShare} f)
          ∗ (∃ f, (thr d L).loc cc0_scratch4 ↦{fullShare} f)
          ∗ bigSep ((((((ownRefs (τ := τ) (.scVector (cV L) (jV L))).erase (bref L cc0_scratch0)).erase (bref L cc0_scratch1)).erase
              (bref L cc0_scratch2)).erase (bref L cc0_scratch3)).erase (bref L cc0_scratch4))
              fun b => iprop(∃ f, ((d, b) : Loc nD τ sig) ↦{fullShare} f)) := by
  unfold SparseCore.Cfg.ownBufs
  have m0 := bref_mem L cc0_scratch0 rfl
  have m1 := bref_mem L cc0_scratch1 rfl
  have m2 := bref_mem L cc0_scratch2 rfl
  have m3 := bref_mem L cc0_scratch3 rfl
  have m4 := bref_mem L cc0_scratch4 rfl
  have n10 : bref L cc0_scratch1 ≠ bref L cc0_scratch0 := bref_ne L (by decide)
  have n20 : bref L cc0_scratch2 ≠ bref L cc0_scratch0 := bref_ne L (by decide)
  have n21 : bref L cc0_scratch2 ≠ bref L cc0_scratch1 := bref_ne L (by decide)
  have n30 : bref L cc0_scratch3 ≠ bref L cc0_scratch0 := bref_ne L (by decide)
  have n31 : bref L cc0_scratch3 ≠ bref L cc0_scratch1 := bref_ne L (by decide)
  have n32 : bref L cc0_scratch3 ≠ bref L cc0_scratch2 := bref_ne L (by decide)
  have n40 : bref L cc0_scratch4 ≠ bref L cc0_scratch0 := bref_ne L (by decide)
  have n41 : bref L cc0_scratch4 ≠ bref L cc0_scratch1 := bref_ne L (by decide)
  have n42 : bref L cc0_scratch4 ≠ bref L cc0_scratch2 := bref_ne L (by decide)
  have n43 : bref L cc0_scratch4 ≠ bref L cc0_scratch3 := bref_ne L (by decide)
  refine (SparseCore.bigSep_erase' m0).trans ?_
  rw [SparseCore.bigSep_erase' (Finset.mem_erase.mpr ⟨n10, m1⟩),
    SparseCore.bigSep_erase' (Finset.mem_erase.mpr ⟨n21, Finset.mem_erase.mpr ⟨n20, m2⟩⟩),
    SparseCore.bigSep_erase' (Finset.mem_erase.mpr ⟨n32, Finset.mem_erase.mpr ⟨n31, Finset.mem_erase.mpr ⟨n30, m3⟩⟩⟩),
    SparseCore.bigSep_erase' (Finset.mem_erase.mpr ⟨n43, Finset.mem_erase.mpr ⟨n42, Finset.mem_erase.mpr ⟨n41, Finset.mem_erase.mpr ⟨n40, m4⟩⟩⟩⟩)]

omit [FloatOps F] in
theorem pts_tV (q : PosShare TreeShare) (f : Buf (Elt F) (tLoc d)) :
    ((tV).view.loc (thr d L) ↦{q} f : sProp 𝕄) = tLoc d ↦{q} f := rfl
omit [FloatOps F] in
theorem pts_b0 (f : Buf (Elt F) ((thr d L).loc cc0_scratch0)) :
    ((b0).view.loc (thr d L) ↦{fullShare} f : sProp 𝕄) = (thr d L).loc cc0_scratch0 ↦{fullShare} f := rfl
omit [FloatOps F] in
theorem pts_b1 (f : Buf (Elt F) ((thr d L).loc cc0_scratch1)) :
    ((b1).view.loc (thr d L) ↦{fullShare} f : sProp 𝕄) = (thr d L).loc cc0_scratch1 ↦{fullShare} f := rfl
omit [FloatOps F] in
theorem pts_b2 (f : Buf (Elt F) ((thr d L).loc cc0_scratch2)) :
    ((b2).view.loc (thr d L) ↦{fullShare} f : sProp 𝕄) = (thr d L).loc cc0_scratch2 ↦{fullShare} f := rfl
omit [FloatOps F] in
theorem pts_b3 (f : Buf (Elt F) ((thr d L).loc cc0_scratch3)) :
    ((b3).view.loc (thr d L) ↦{fullShare} f : sProp 𝕄) = (thr d L).loc cc0_scratch3 ↦{fullShare} f := rfl
omit [FloatOps F] in
theorem pts_b4 (f : Buf (Elt F) ((thr d L).loc cc0_scratch4)) :
    ((b4).view.loc (thr d L) ↦{fullShare} f : sProp 𝕄) = (thr d L).loc cc0_scratch4 ↦{fullShare} f := rfl

/-! ## Ranges of rows

The tile's indices and rows are consecutive; a step's chunk is a range of 256 of them. Elements are grouped by the
range their first coordinate lies in. -/

/-- The flat indices at positions `[lo, hi)`. -/
def iRng (lo hi : ℕ) : Finset S3276800.Idx := Finset.univ.filter fun j => lo ≤ (j 0).val ∧ (j 0).val < hi
/-- The elements of the rows `[lo, hi)`. -/
def oRng (lo hi : ℕ) : Finset S3276800x64.Idx := Finset.univ.filter fun j => lo ≤ (j 0).val ∧ (j 0).val < hi

theorem mem_iRng {lo hi : ℕ} {j : S3276800.Idx} : j ∈ iRng lo hi ↔ lo ≤ (j 0).val ∧ (j 0).val < hi := by simp [iRng]
theorem mem_oRng {lo hi : ℕ} {j : S3276800x64.Idx} : j ∈ oRng lo hi ↔ lo ≤ (j 0).val ∧ (j 0).val < hi := by simp [oRng]

theorem iRng_union {a b c : ℕ} (h1 : a ≤ b) (h2 : b ≤ c) : iRng a b ∪ iRng b c = iRng a c := by
  ext j; simp only [Finset.mem_union, mem_iRng]; omega
theorem oRng_union {a b c : ℕ} (h1 : a ≤ b) (h2 : b ≤ c) : oRng a b ∪ oRng b c = oRng a c := by
  ext j; simp only [Finset.mem_union, mem_oRng]; omega
theorem iRng_disj {a b c : ℕ} : Disjoint (iRng a b) (iRng b c) :=
  Finset.disjoint_left.mpr fun j h1 h2 => by rw [mem_iRng] at h1 h2; omega
theorem oRng_disj {a b c : ℕ} : Disjoint (oRng a b) (oRng b c) :=
  Finset.disjoint_left.mpr fun j h1 h2 => by rw [mem_oRng] at h1 h2; omega
theorem iRng_empty (a : ℕ) : iRng a a = ∅ := by
  ext j; simp only [mem_iRng, Finset.notMem_empty, iff_false]; omega
theorem oRng_empty (a : ℕ) : oRng a a = ∅ := by
  ext j; simp only [mem_oRng, Finset.notMem_empty, iff_false]; omega

/-- The first index (row) of the tile at `L`. -/
def base (L : grid0.Coords) : ℕ := 204800 * (L 1).val + 102400 * (L 0).val

theorem base_eq (L : grid0.Coords) : base L = 102400 * (wid L).val := by
  unfold base wid; simp only []; omega

theorem base_le (L : grid0.Coords) : base L + 102400 ≤ 3276800 := by
  have h0 : (L 0).val < 2 := (L 0).isLt
  have h1 : (L 1).val < 16 := (L 1).isLt
  unfold base; omega

theorem iSet_eq (L : grid0.Coords) : iSet (wid L) = iRng (base L) (base L + 102400) := by
  show ((View.whole (main_v0_scv : Ref sig .scVector)).slice (iPart (wid L))).set = _
  rw [View.set_slice_whole]
  ext j
  rw [Rect.mem_set_unit, mem_iRng, base_eq]
  change (∀ a : Fin 1, _) ↔ _
  rw [Fin.forall_fin_one]
  simp only [Shape.partIx, Shape.partSize, if_true]
  show (wid L).val * (3276800 / 32) ≤ (j 0).val ∧ (j 0).val < (wid L).val * (3276800 / 32) + 3276800 / 32 ↔ _
  omega

theorem oSet_eq (L : grid0.Coords) : oSet (wid L) = oRng (base L) (base L + 102400) := by
  show ((View.whole (main_v2_scv : Ref sig .scVector)).slice (oPart (wid L))).set = _
  rw [View.set_slice_whole]
  ext j
  rw [Rect.mem_set_unit, mem_oRng, base_eq]
  change (∀ a : Fin 2, _) ↔ _
  rw [Fin.forall_fin_two]
  have h1 : (j 1).val < 64 := (j 1).isLt
  simp only [Shape.partIx, Shape.partSize, if_true]
  show ((wid L).val * (3276800 / 32) ≤ (j 0).val ∧ (j 0).val < (wid L).val * (3276800 / 32) + 3276800 / 32)
      ∧ (0 * 64 ≤ (j 1).val ∧ (j 1).val < 0 * 64 + 64) ↔ _
  omega

/-! ## The chunks, as the program slices them -/

/-- The 256 indices at offsets `off`, and the 256 rows at offsets `off`. -/
abbrev iCh (off : Fin 1 → ℕ) (inb : ∀ a, off a + S256.size a ≤ S3276800.size a) : Memref sig .scVector .hbm S256 .i32 :=
  (iV).slice (Rect.unit (s := S3276800) off S256.size inb) (fun _ => rfl)
abbrev oCh (off : Fin 2 → ℕ) (inb : ∀ a, off a + S256x64.size a ≤ S3276800x64.size a) : Memref sig .scVector .hbm S256x64 .f32 :=
  (oV).slice (Rect.unit (s := S3276800x64) off S256x64.size inb) (fun _ => rfl)

omit [FloatOps F] in
theorem iCh_set (off : Fin 1 → ℕ) (inb) (n : ℕ) (h : off = ![n]) : (iCh off inb).view.set = iRng n (n + 256) := by
  subst h
  show ((View.whole (main_v0_scv : Ref sig .scVector)).slice _).set = _
  rw [View.set_slice_whole]
  ext j
  rw [Rect.mem_set_unit, mem_iRng]
  change (∀ a : Fin 1, _) ↔ _
  rw [Fin.forall_fin_one]
  exact Iff.rfl

omit [FloatOps F] in
theorem oCh_set (off : Fin 2 → ℕ) (inb) (n : ℕ) (h : off = ![n, 0]) : (oCh off inb).view.set = oRng n (n + 256) := by
  subst h
  show ((View.whole (main_v2_scv : Ref sig .scVector)).slice _).set = _
  rw [View.set_slice_whole]
  ext j
  rw [Rect.mem_set_unit, mem_oRng]
  change (∀ a : Fin 2, _) ↔ _
  rw [Fin.forall_fin_two]
  have h1 : (j 1).val < 64 := (j 1).isLt
  show ((n ≤ (j 0).val ∧ (j 0).val < n + 256) ∧ (0 ≤ (j 1).val ∧ (j 1).val < 0 + 64)) ↔ _
  omega

omit [FloatOps F] in
theorem pts_iCh (off : Fin 1 → ℕ) (inb) (n : ℕ) (h : off = ![n]) (f : Buf (Elt F) (iLoc d)) :
    ((iCh off inb).view.loc (thr d L) ↦[(iCh off inb).view.set]{fullShare} f : sProp 𝕄) = iLoc d ↦[iRng n (n + 256)]{fullShare} f := by
  rw [iCh_set off inb n h]
omit [FloatOps F] in
theorem pts_oCh (off : Fin 2 → ℕ) (inb) (n : ℕ) (h : off = ![n, 0]) (f : Buf (Elt F) (oLoc d)) :
    ((oCh off inb).view.loc (thr d L) ↦[(oCh off inb).view.set]{fullShare} f : sProp 𝕄) = oLoc d ↦[oRng n (n + 256)]{fullShare} f := by
  rw [oCh_set off inb n h]

omit [FloatOps F] in
theorem pts_iRng_split (q : PosShare TreeShare) (f : Buf (Elt F) (iLoc d)) {a b c : ℕ} (h1 : a ≤ b) (h2 : b ≤ c) :
    (iLoc d ↦[iRng a c]{q} f : sProp 𝕄) ⊣⊢ iprop((iLoc d ↦[iRng a b]{q} f) ∗ iLoc d ↦[iRng b c]{q} f) := by
  rw [← iRng_union h1 h2]; exact pointsTo_union iRng_disj
omit [FloatOps F] in
theorem pts_oRng_split (q : PosShare TreeShare) (f : Buf (Elt F) (oLoc d)) {a b c : ℕ} (h1 : a ≤ b) (h2 : b ≤ c) :
    (oLoc d ↦[oRng a c]{q} f : sProp 𝕄) ⊣⊢ iprop((oLoc d ↦[oRng a b]{q} f) ∗ oLoc d ↦[oRng b c]{q} f) := by
  rw [← oRng_union h1 h2]; exact pointsTo_union oRng_disj

omit [FloatOps F] in
/-- The same range under other spellings of its bounds. -/
theorem iRng_cast (q : PosShare TreeShare) (f : Buf (Elt F) (iLoc d)) (a b a' b' : ℕ) (ha : a = a') (hb : b = b') :
    (iLoc d ↦[iRng a b]{q} f : sProp 𝕄) ⊢ iLoc d ↦[iRng a' b']{q} f := by
  subst ha; subst hb; iintro H; iexact H
omit [FloatOps F] in
theorem oRng_cast (q : PosShare TreeShare) (f : Buf (Elt F) (oLoc d)) (a b a' b' : ℕ) (ha : a = a') (hb : b = b') :
    (oLoc d ↦[oRng a b]{q} f : sProp 𝕄) ⊢ oLoc d ↦[oRng a' b']{q} f := by
  subst ha; subst hb; iintro H; iexact H

/-! ## The values -/

/-- The 256 indices from position `n` on (the remainder only makes the function total). -/
def encOf (idx : S3276800.Idx → BitVec 32) (n : ℕ) : S256.Idx → BitVec 32 :=
  fun x => idx (ValueIdx.ix1 (n := 3276800) ⟨(n + (x 0).val) % 3276800, Nat.mod_lt _ (by norm_num)⟩)

/-- A buffer of 256 rows gathered from the table at the indices `enc`. -/
def rowsAt (tab : S4224.Idx → Elt F .f32) (enc : S256.Idx → BitVec 32) : S256x64.Idx → Elt F .f32 :=
  fun j => gRow tab (enc (ValueIdx.ix1 (n := 256) (j 0))) (j 1)

/-- The output buffer after `k` inner trips: the rows below `16 k` gathered, the others as at entry. -/
def innerAcc (tab : S4224.Idx → Elt F .f32) (enc : S256.Idx → BitVec 32) (k : ℕ) (o : S256x64.Idx → Elt F .f32) :
    S256x64.Idx → Elt F .f32 :=
  fun j => if (j 0).val < 16 * k then gRow tab (enc (ValueIdx.ix1 (n := 256) (j 0))) (j 1) else o j

theorem innerAcc_zero (tab : S4224.Idx → Elt F .f32) (enc : S256.Idx → BitVec 32) (o : S256x64.Idx → Elt F .f32) :
    innerAcc tab enc 0 o = o := by
  funext j; unfold innerAcc; rw [if_neg (by omega)]

theorem innerAcc_succ (tab : S4224.Idx → Elt F .f32) (enc : S256.Idx → BitVec 32) (k : ℕ) (o : S256x64.Idx → Elt F .f32) :
    Trip.tripUpd tab enc k (innerAcc tab enc k o) = innerAcc tab enc (k + 1) o := by
  funext j
  by_cases h : 16 * k ≤ (j 0).val ∧ (j 0).val < 16 * k + 16
  · rw [Trip.tripUpd_of_mem (h := h)]; unfold innerAcc; rw [if_pos (by omega)]
  · rw [Trip.tripUpd_of_not_mem (h := h)]; unfold innerAcc
    by_cases h' : (j 0).val < 16 * k
    · rw [if_pos h', if_pos (by omega)]
    · rw [if_neg h', if_neg (by omega)]

theorem innerAcc_full (tab : S4224.Idx → Elt F .f32) (enc : S256.Idx → BitVec 32) (o : S256x64.Idx → Elt F .f32) :
    innerAcc tab enc 16 o = rowsAt tab enc := by
  funext j; unfold innerAcc rowsAt
  have h : (j 0).val < 256 := (j 0).isLt
  rw [if_pos (by omega)]

/-! ## What a chunk's copy carries -/

omit [FloatOps F] in
/-- The chunk of the index array at `n`, read through its slice, is the 256 indices from `n` on. -/
theorem iCh_read (off : Fin 1 → ℕ) (inb) (n : ℕ) (h : off = ![n]) (idx : Buf (Elt F) (iLoc d)) :
    (iCh off inb).view.read (Elt F) idx = encOf idx n := by
  subst h
  funext x
  refine (View.read_apply _ _).trans ((cast_eq _ _).trans ?_)
  unfold encOf
  congr 1
  funext a
  match a with
  | ⟨0, _⟩ =>
    refine Fin.ext ?_
    have hx : (x 0).val < 256 := (x 0).isLt
    have hb : n + 256 ≤ 3276800 := inb 0
    show n + 1 * (x 0).val = (n + (x 0).val) % 3276800
    rw [Nat.mod_eq_of_lt (by omega)]; omega

omit [FloatOps F] in
/-- The 256 gathered rows written through the slice of the rows at `n` are the result's rows there. -/
theorem oCh_write (off : Fin 2 → ℕ) (inb) (n : ℕ) (h : off = ![n, 0]) (fo : Buf (Elt F) (oLoc d))
    (tab : Buf (Elt F) (tLoc d)) (idx : Buf (Elt F) (iLoc d)) :
    ∀ i ∈ oRng n (n + 256), (oCh off inb).view.write (Elt F) fo (rowsAt tab (encOf idx n)) Finset.univ i = gOut tab idx i := by
  intro i hi
  have hi' : i ∈ (oCh off inb).view.set := by rw [oCh_set off inb n h]; exact hi
  subst h
  obtain ⟨x, -, rfl⟩ := Finset.mem_map.mp hi'
  rw [View.write_emb_of_mem _ _ (Finset.mem_univ x)]
  refine (cast_eq _ _).trans ?_
  have hx : (x 0).val < 256 := (x 0).isLt
  have hb : n + 256 ≤ 3276800 := inb 0
  unfold rowsAt gOut encOf
  have e1 : x 1 = ((oCh ![n, 0] inb).view.emb x) 1 := Fin.ext (by show (x 1).val = 0 + 1 * (x 1).val; omega)
  have e0 : (⟨(n + (x 0).val) % 3276800, Nat.mod_lt _ (by norm_num)⟩ : Fin 3276800) = ((oCh ![n, 0] inb).view.emb x) 0 :=
    Fin.ext (by show (n + (x 0).val) % 3276800 = n + 1 * (x 0).val; rw [Nat.mod_eq_of_lt (by omega)]; omega)
  rw [← e1, ← e0]

omit [FloatOps F] in
/-- The same, the copy read as one write of the whole chunk. -/
theorem oCh_writes (off : Fin 2 → ℕ) (inb) (n : ℕ) (h : off = ![n, 0]) (fo : Buf (Elt F) (oLoc d))
    (tab : Buf (Elt F) (tLoc d)) (idx : Buf (Elt F) (iLoc d)) :
    ∀ i ∈ oRng n (n + 256),
      (oCh off inb).view.writes (Elt F) fo [⟨Rect.whole S256x64, rowsAt tab (encOf idx n)⟩] i = gOut tab idx i := by
  intro i hi
  rw [View.writes_singleton]
  have hi' : i ∈ ((oCh off inb).view.slice (Rect.whole S256x64)).set := by
    rw [View.set_slice_rectWhole, oCh_set off inb n h]; exact hi
  subst h
  obtain ⟨x, -, rfl⟩ := Finset.mem_map.mp hi'
  rw [View.write_emb_of_mem _ _ (Finset.mem_univ x)]
  refine (cast_eq _ _).trans ?_
  have hx : (x 0).val < 256 := (x 0).isLt
  have hb : n + 256 ≤ 3276800 := inb 0
  unfold rowsAt gOut encOf
  have e1 : x 1 = (((oCh ![n, 0] inb).view.slice (Rect.whole S256x64)).emb x) 1 :=
    Fin.ext (by show (x 1).val = 0 + 1 * (0 + 1 * (x 1).val); omega)
  have e0 : (⟨(n + (x 0).val) % 3276800, Nat.mod_lt _ (by norm_num)⟩ : Fin 3276800)
      = (((oCh ![n, 0] inb).view.slice (Rect.whole S256x64)).emb x) 0 :=
    Fin.ext (by show (n + (x 0).val) % 3276800 = n + 1 * (0 + 1 * (x 0).val); rw [Nat.mod_eq_of_lt (by omega)]; omega)
  rw [← e1, ← e0]

/-- What an output copy delivers, as the invariant states it: the rows at `n` at the result, the buffer back. -/
theorem outD3 (off : Fin 2 → ℕ) (inb) (n : ℕ) (h : off = ![n, 0]) (fo : Buf (Elt F) (oLoc d))
    (tab : Buf (Elt F) (tLoc d)) (idx : Buf (Elt F) (iLoc d)) :
    iprop(((oCh off inb).view.loc (thr d L) ↦[(oCh off inb).view.set]{fullShare}
            (oCh off inb).view.writes (Elt F) fo [⟨Rect.whole S256x64, rowsAt tab (encOf idx n)⟩])
        ∗ ((b3).view.loc (thr d L) ↦[(b3).view.set]{fullShare} rowsAt tab (encOf idx n)))
      ⊢ (iprop((oLoc d ↦[oRng n (n + 256)]{fullShare} gOut tab idx) ∗ ∃ f, (b3).view.loc (thr d L) ↦{fullShare} f) : sProp 𝕄) := by
  have hs : (b3).view.set = Finset.univ := View.set_whole _
  iintro ⟨H1, H2⟩
  isplitl [H1]
  · iapply (Entails.of_eq ((pts_oCh (F := F) (U := U) d L off inb n h _).trans
      (pointsTo_congr (ℓ := oLoc d) (q := fullShare) (I := oRng n (n + 256)) (oCh_writes (F := F) d off inb n h fo tab idx)))) <;> iexact H1
  · iexists _
    iapply (Entails.of_eq (show ((b3).view.loc (thr d L) ↦[(b3).view.set]{fullShare} rowsAt tab (encOf idx n) : sProp 𝕄)
      = (b3).view.loc (thr d L) ↦{fullShare} rowsAt tab (encOf idx n) by rw [hs])); iexact H2

theorem outD4 (off : Fin 2 → ℕ) (inb) (n : ℕ) (h : off = ![n, 0]) (fo : Buf (Elt F) (oLoc d))
    (tab : Buf (Elt F) (tLoc d)) (idx : Buf (Elt F) (iLoc d)) :
    iprop(((oCh off inb).view.loc (thr d L) ↦[(oCh off inb).view.set]{fullShare}
            (oCh off inb).view.writes (Elt F) fo [⟨Rect.whole S256x64, rowsAt tab (encOf idx n)⟩])
        ∗ ((b4).view.loc (thr d L) ↦[(b4).view.set]{fullShare} rowsAt tab (encOf idx n)))
      ⊢ (iprop((oLoc d ↦[oRng n (n + 256)]{fullShare} gOut tab idx) ∗ ∃ f, (b4).view.loc (thr d L) ↦{fullShare} f) : sProp 𝕄) := by
  have hs : (b4).view.set = Finset.univ := View.set_whole _
  iintro ⟨H1, H2⟩
  isplitl [H1]
  · iapply (Entails.of_eq ((pts_oCh (F := F) (U := U) d L off inb n h _).trans
      (pointsTo_congr (ℓ := oLoc d) (q := fullShare) (I := oRng n (n + 256)) (oCh_writes (F := F) d off inb n h fo tab idx)))) <;> iexact H1
  · iexists _
    iapply (Entails.of_eq (show ((b4).view.loc (thr d L) ↦[(b4).view.set]{fullShare} rowsAt tab (encOf idx n) : sProp 𝕄)
      = (b4).view.loc (thr d L) ↦{fullShare} rowsAt tab (encOf idx n) by rw [hs])); iexact H2

omit [FloatOps F] in
/-- What an index copy delivers, as the invariant states it: the buffer at the indices from `n` on, the chunk back. -/
theorem idxD1 (off : Fin 1 → ℕ) (inb) (n : ℕ) (h : off = ![n]) (idx : Buf (Elt F) (iLoc d))
    (f1 : Buf (Elt F) ((thr d L).loc cc0_scratch1)) :
    iprop(((b1).view.loc (thr d L) ↦{fullShare} View.write (Elt F) (b1).view f1 ((iCh off inb).view.read (Elt F) idx) Finset.univ)
        ∗ ((iCh off inb).view.loc (thr d L) ↦[(iCh off inb).view.set]{fullShare} idx))
      ⊢ (iprop(((b1).view.loc (thr d L) ↦{fullShare} encOf idx n) ∗ iLoc d ↦[iRng n (n + 256)]{fullShare} idx) : sProp 𝕄) := by
  have e : View.write (Elt F) (b1).view f1 ((iCh off inb).view.read (Elt F) idx) Finset.univ = encOf idx n :=
    (View.write_whole_univ _ _ _).trans (iCh_read (F := F) d off inb n h idx)
  rw [e, pts_iCh (F := F) d L off inb n h idx]
omit [FloatOps F] in
theorem idxD2 (off : Fin 1 → ℕ) (inb) (n : ℕ) (h : off = ![n]) (idx : Buf (Elt F) (iLoc d))
    (f2 : Buf (Elt F) ((thr d L).loc cc0_scratch2)) :
    iprop(((b2).view.loc (thr d L) ↦{fullShare} View.write (Elt F) (b2).view f2 ((iCh off inb).view.read (Elt F) idx) Finset.univ)
        ∗ ((iCh off inb).view.loc (thr d L) ↦[(iCh off inb).view.set]{fullShare} idx))
      ⊢ (iprop(((b2).view.loc (thr d L) ↦{fullShare} encOf idx n) ∗ iLoc d ↦[iRng n (n + 256)]{fullShare} idx) : sProp 𝕄) := by
  have e : View.write (Elt F) (b2).view f2 ((iCh off inb).view.read (Elt F) idx) Finset.univ = encOf idx n :=
    (View.write_whole_univ _ _ _).trans (iCh_read (F := F) d off inb n h idx)
  rw [e, pts_iCh (F := F) d L off inb n h idx]

omit [FloatOps F] in
/-- The table's copy leaves the table in its scratch. -/
theorem b0_tab (tab : Buf (Elt F) (tLoc d)) (f : Buf (Elt F) ((thr d L).loc cc0_scratch0)) :
    (((b0).view.loc (thr d L) ↦{fullShare} View.write (Elt F) (b0).view f ((tV).view.read (Elt F) tab) Finset.univ : sProp 𝕄))
      = ((b0).view.loc (thr d L) ↦{fullShare} tab) := by
  rw [View.write_whole_univ]; rfl

/-- A returned value bound to a continuation is the continuation at it. -/
theorem prog_ret_bind {Ef : Type → Type} {α β : Type} (a : α) (k : α → Prog Ef β) : (Prog.ret a : Prog Ef α).bind k = k a := rfl

/-! ## What is in flight, and the invariants -/

section Inv

variable (q : PosShare TreeShare) (tab : Buf (Elt F) (tLoc d)) (idx : Buf (Elt F) (iLoc d)) (f0 : Buf (Elt F) (oLoc d))
  (O : CellTallies nD τ sig (HIx 1)) (W : Waits sig (HIx 1))

/-- The copy of the 256 indices at `n` into the first index buffer, in flight: its wait gives the buffer at those
    indices and the chunk of the index array back. -/
def IdxFl1 (n : ℕ) : sProp 𝕄 :=
  Transfers.Flight countersEmb (thr d L) (SemLoc.dma cc0_scratch6.sem) (default : HIx 1) 8192
    iprop(((b1).view.loc (thr d L) ↦{fullShare} encOf idx n) ∗ iLoc d ↦[iRng n (n + 256)]{fullShare} idx)
/-- The same into the second index buffer. -/
def IdxFl2 (n : ℕ) : sProp 𝕄 :=
  Transfers.Flight countersEmb (thr d L) (SemLoc.dma cc0_scratch7.sem) (default : HIx 1) 8192
    iprop(((b2).view.loc (thr d L) ↦{fullShare} encOf idx n) ∗ iLoc d ↦[iRng n (n + 256)]{fullShare} idx)
/-- The copy of the first output buffer to the rows at `n`, in flight: its wait gives those rows at the gathered
    values and the buffer back. -/
def OutFl3 (n : ℕ) : sProp 𝕄 :=
  Transfers.Flight countersEmb (thr d L) (SemLoc.dma cc0_scratch8.sem) (default : HIx 1) 524288
    iprop((oLoc d ↦[oRng n (n + 256)]{fullShare} gOut tab idx) ∗ ∃ f, (b3).view.loc (thr d L) ↦{fullShare} f)
/-- The same from the second output buffer. -/
def OutFl4 (n : ℕ) : sProp 𝕄 :=
  Transfers.Flight countersEmb (thr d L) (SemLoc.dma cc0_scratch9.sem) (default : HIx 1) 524288
    iprop((oLoc d ↦[oRng n (n + 256)]{fullShare} gOut tab idx) ∗ ∃ f, (b4).view.loc (thr d L) ↦{fullShare} f)

/-- Before outer trip `t` (steps `2t` and `2t + 1` to come): the table in its scratch; the indices below step `2t`
    back, those of the two steps in flight, the later ones still held (none in flight after the last trip); the rows
    below step `2t - 2` gathered, those of steps `2t - 2` and `2t - 1` in flight (none before the first trip), the
    later ones untouched. -/
def inv (t : ℕ) (_ : Unit) : sProp 𝕄 :=
  iprop(Transfers.MayWaits (thr d L) (default : HIx 1) O
    ∗ ((tV).view.loc (thr d L) ↦{q} tab)
    ∗ ((b0).view.loc (thr d L) ↦{fullShare} tab)
    ∗ (iLoc d ↦[iRng (base L) (base L + 512 * t)]{fullShare} idx)
    ∗ (oLoc d ↦[oRng (base L) (base L + 512 * (t - 1))]{fullShare} gOut tab idx)
    ∗ (oLoc d ↦[oRng (base L + 512 * t) (base L + 102400)]{fullShare} f0)
    ∗ (if t = 0 then iprop((∃ f, (b3).view.loc (thr d L) ↦{fullShare} f) ∗ semVal (cell d L cc0_scratch8) 0
          ∗ (∃ f, (b4).view.loc (thr d L) ↦{fullShare} f) ∗ semVal (cell d L cc0_scratch9) 0)
        else iprop(OutFl3 d L tab idx (base L + 512 * (t - 1)) ∗ OutFl4 d L tab idx (base L + 512 * (t - 1) + 256)))
    ∗ (if t < 200 then iprop((iLoc d ↦[iRng (base L + 512 * t + 512) (base L + 102400)]{fullShare} idx)
          ∗ IdxFl1 d L idx (base L + 512 * t) ∗ IdxFl2 d L idx (base L + 512 * t + 256))
        else iprop((∃ f, (b1).view.loc (thr d L) ↦{fullShare} f) ∗ semVal (cell d L cc0_scratch6) 0
          ∗ (∃ f, (b2).view.loc (thr d L) ↦{fullShare} f) ∗ semVal (cell d L cc0_scratch7) 0))
    ∗ ∃ W', ⌜∀ p ∈ W', p ∈ W ∨ p.2 = none⌝ ∗ owes (thr d L) O W')

/-- Before inner trip `k` of a step on the first pair of buffers. -/
def inv2 (enc : S256.Idx → BitVec 32) (o : S256x64.Idx → Elt F .f32) (k : ℕ) (_ : Unit) : sProp 𝕄 :=
  iprop(((b0).view.loc (thr d L) ↦{fullShare} tab) ∗ ((b1).view.loc (thr d L) ↦{fullShare} enc)
    ∗ ((b3).view.loc (thr d L) ↦{fullShare} innerAcc tab enc k o))
/-- The same on the second pair. -/
def inv3 (enc : S256.Idx → BitVec 32) (o : S256x64.Idx → Elt F .f32) (k : ℕ) (_ : Unit) : sProp 𝕄 :=
  iprop(((b0).view.loc (thr d L) ↦{fullShare} tab) ∗ ((b2).view.loc (thr d L) ↦{fullShare} enc)
    ∗ ((b4).view.loc (thr d L) ↦{fullShare} innerAcc tab enc k o))

end Inv

set_option maxHeartbeats 8000000 in
theorem trip_first (q : PosShare TreeShare) (tab : Buf (Elt F) (tLoc d)) (idx : Buf (Elt F) (iLoc d)) (hle : ∀ j, (idx j).toNat ≤ 65)
    (f0 : Buf (Elt F) (oLoc d)) (O : CellTallies nD τ sig (HIx 1)) (W : Waits sig (HIx 1))
    (v2 : BitVec 32) (v9 : IVec S16 32) (hv9 : v9 = iota .scVector S16 32 [0] iota_S16_d0_w32_scVector)
    (k : Fin k0_t1_loop.trips) (acc : Unit) (hk : k.val = 0) :
    (inv d L q tab idx f0 O W k.val acc : sProp 𝕄)
      ⊢ wp frame (wpE (defs₀ (F := F)) 𝒱₀ (thr d L) none) Set.univ
          (k0_t1_body L tV (Memref.isWhole_whole _) iV (Memref.isWhole_whole _) oV (Memref.isWhole_whole _)
            b0 (Memref.isWhole_whole _) b1 (Memref.isWhole_whole _) b2 (Memref.isWhole_whole _) b3 (Memref.isWhole_whole _) b4 (Memref.isWhole_whole _)
            cc0_scratch5 cc0_scratch6 cc0_scratch7 cc0_scratch8 cc0_scratch9 v2 v9 k acc)
          (inv d L q tab idx f0 O W (k.val + 1)) := by
  have k0_h1 : ¬ k0_cond1 k = 1#1 := by revert k; decide +kernel
  have k0_h3 : ¬ k0_cond3 k = 1#1 := by revert k; decide +kernel
  have k0_h2 : k0_cond2 k = 1#1 := by revert k; decide +kernel
  have k0_h4 : k0_cond4 k = 1#1 := by revert k; decide +kernel
  unfold k0_t1_body
  rw [k0_part39_eq_skeleton]; unfold k0_part39_skel
  unfold inv OutFl3 OutFl4 IdxFl1 IdxFl2
  rw [if_pos hk, if_pos (by omega : k.val < 200), if_neg (by omega : ¬ k.val + 1 = 0), if_pos (by omega : k.val + 1 < 200)]
  iintro ⟨#Hmw, Ht, H0, Hid, Hod, Hor, ⟨⟨%fb3, Hb3⟩, Hs8, ⟨%fb4, Hb4⟩, Hs9⟩, ⟨Hir, Hf1, Hf2⟩, %W', %hW', HO⟩
  sl_exec
  rw [Prog.bind_assoc]
  sl_for (inv2 d L tab (encOf idx (base L + 512 * k.val)) fb3) $$ [H0 Hf1_dst Hb3]
  case region =>
    intro k2 acc2
    unfold inv2
    refine (Trip.t2_trip d L v2 v9 (0#32) (1#32) k k2 hv9 tab (encOf idx (base L + 512 * k.val))
      (innerAcc tab (encOf idx (base L + 512 * k.val)) k2.val fb3) (fun x => hle _)).trans (wp_mono frame _ _ fun _ => ?_)
    rw [innerAcc_succ]
  · unfold inv2
    rw [innerAcc_zero]
    isplitl [H0]; · iexact H0
    isplitl [Hf1_dst]; · iexact Hf1_dst
    iexact Hb3
  iintro %_ HI
  unfold inv2
  rw [show Scf.trips k0_t2_loop.lb k0_t2_loop.ub k0_t2_loop.st = 16 from by decide, innerAcc_full]
  icases HI with ⟨H0, Hb1, Hb3⟩
  -- the rows of step 2k, carved out of the untouched ones: the first output copy's destination
  ihave Hor2 := (pts_oRng_split (F := F) d fullShare f0 (a := base L + 512 * k.val) (b := base L + 512 * k.val + 256) (c := base L + 102400) (by omega) (by omega)).1 $$ Hor
  icases Hor2 with ⟨Hoc, Hor⟩
  ihave Hoc' := (Entails.of_eq (pts_oCh (F := F) d L (k0_off37 L k) (k0_off37_inb L k) (base L + 512 * k.val) (k0_off37_eq L k) f0).symm) $$ Hoc
  -- the indices of step 2k + 2, carved out of those still held: the next index copy's source
  ihave Hir2 := (pts_iRng_split (F := F) d fullShare idx (a := base L + 512 * k.val + 512) (b := base L + 512 * k.val + 512 + 256) (c := base L + 102400) (by omega) (by omega)).1 $$ Hir
  icases Hir2 with ⟨Hic, Hir⟩
  ihave Hic' := (Entails.of_eq (pts_iCh (F := F) d L (k0_off38 L k) (k0_off38_inb L k k0_h2) (base L + 512 * k.val + 512) (k0_off38_eq L k) idx).symm) $$ Hic
  sl_exec
  rw [Prog.bind_assoc]
  sl_for (inv3 d L tab (encOf idx (base L + 512 * k.val + 256)) fb4) $$ [H0 Hf2_dst Hb4]
  case region =>
    intro k3 acc3
    unfold inv3
    refine (Trip.t3_trip d L v2 v9 (0#32) (1#32) k k3 hv9 tab (encOf idx (base L + 512 * k.val + 256))
      (innerAcc tab (encOf idx (base L + 512 * k.val + 256)) k3.val fb4) (fun x => hle _)).trans (wp_mono frame _ _ fun _ => ?_)
    rw [innerAcc_succ]
  · unfold inv3
    rw [innerAcc_zero]
    isplitl [H0]; · iexact H0
    isplitl [Hf2_dst]; · iexact Hf2_dst
    iexact Hb4
  iintro %_ HI
  unfold inv3
  rw [show Scf.trips k0_t3_loop.lb k0_t3_loop.ub k0_t3_loop.st = 16 from by decide, innerAcc_full]
  icases HI with ⟨H0, Hb2, Hb4⟩
  -- the rows of step 2k + 1 and the indices of step 2k + 3
  ihave Hor2 := (pts_oRng_split (F := F) d fullShare f0 (a := base L + 512 * k.val + 256) (b := base L + 512 * k.val + 256 + 256) (c := base L + 102400) (by omega) (by omega)).1 $$ Hor
  icases Hor2 with ⟨Hoc2, Hor⟩
  ihave Hoc2' := (Entails.of_eq (pts_oCh (F := F) d L (k0_off74 L k) (k0_off74_inb L k) (base L + 512 * k.val + 256) (k0_off74_eq L k) f0).symm) $$ Hoc2
  ihave Hir2 := (pts_iRng_split (F := F) d fullShare idx (a := base L + 512 * k.val + 512 + 256) (b := base L + 512 * k.val + 512 + 256 + 256) (c := base L + 102400) (by omega) (by omega)).1 $$ Hir
  icases Hir2 with ⟨Hic2, Hir⟩
  ihave Hic2' := (Entails.of_eq (pts_iCh (F := F) d L (k0_off75 L k) (k0_off75_inb L k k0_h4) (base L + 512 * k.val + 512 + 256) (k0_off75_eq L k) idx).symm) $$ Hic2
  sl_exec
  rw [show k.val + 1 - 1 = k.val from by omega, show base L + 512 * (k.val + 1) = base L + 512 * k.val + 512 from by omega]
  -- the indices and the rows that came back join those before them
  ihave Hid := (pts_iRng_split (F := F) d fullShare idx (a := base L) (b := base L + 512 * k.val) (c := base L + 512 * k.val + 256) (by omega) (by omega)).2 $$ [Hid Hf1_src]
  · isplitl [Hid] <;> iassumption
  ihave Hid := (pts_iRng_split (F := F) d fullShare idx (a := base L) (b := base L + 512 * k.val + 256) (c := base L + 512 * k.val + 256 + 256) (by omega) (by omega)).2 $$ [Hid Hf2_src]
  · isplitl [Hid] <;> iassumption
  sl_step
  isplitr; · iexact Hmw
  isplitl [Ht]; · iexact Ht
  isplitl [H0]; · iexact H0
  isplitl [Hid]
  · (iapply (iRng_cast (F := F) (U := U) d fullShare idx (base L) (base L + 512 * k.val + 256 + 256) (base L) (base L + 512 * k.val + 512) rfl (by omega))) <;> iexact Hid
  isplitl [Hod]
  · (iapply (oRng_cast (F := F) (U := U) d fullShare (gOut tab idx) (base L) (base L + 512 * (k.val - 1)) (base L) (base L + 512 * k.val) rfl (by omega))) <;> iexact Hod
  isplitl [Hor]
  · (iapply (oRng_cast (F := F) (U := U) d fullShare f0 (base L + 512 * k.val + 256 + 256) (base L + 102400) (base L + 512 * k.val + 512) (base L + 102400) (by omega) rfl)) <;> iexact Hor
  isplitl [Hs8 Hs9]
  · isplitl [Hs8]
    · (iapply (Transfers.Flight_mono countersEmb (thr d L) (outD3 (F := F) (U := U) d L (k0_off37 L k) (k0_off37_inb L k)
        (base L + 512 * k.val) (k0_off37_eq L k) f0 tab idx))) <;> iexact Hs8
    · (iapply (Transfers.Flight_mono countersEmb (thr d L) (outD4 (F := F) (U := U) d L (k0_off74 L k) (k0_off74_inb L k)
        (base L + 512 * k.val + 256) (k0_off74_eq L k) f0 tab idx))) <;> iexact Hs9
  isplitl [Hir Hf1 Hf2]
  · isplitl [Hir]
    · (iapply (iRng_cast (F := F) (U := U) d fullShare idx (base L + 512 * k.val + 512 + 256 + 256) (base L + 102400) (base L + 512 * k.val + 512 + 512) (base L + 102400) (by omega) rfl)) <;> iexact Hir
    isplitl [Hf1]
    · (iapply (Transfers.Flight_mono countersEmb (thr d L) (idxD1 (F := F) (U := U) d L (k0_off38 L k) (k0_off38_inb L k k0_h2)
        (base L + 512 * k.val + 512) (k0_off38_eq L k) idx (encOf idx (base L + 512 * k.val))))) <;> iexact Hf1
    · (iapply (Transfers.Flight_mono countersEmb (thr d L) (idxD2 (F := F) (U := U) d L (k0_off75 L k) (k0_off75_inb L k k0_h4)
        (base L + 512 * k.val + 512 + 256) (k0_off75_eq L k) idx (encOf idx (base L + 512 * k.val + 256))))) <;> iexact Hf2
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact hW' p hp

set_option maxHeartbeats 8000000 in
theorem trip_mid (q : PosShare TreeShare) (tab : Buf (Elt F) (tLoc d)) (idx : Buf (Elt F) (iLoc d)) (hle : ∀ j, (idx j).toNat ≤ 65)
    (f0 : Buf (Elt F) (oLoc d)) (O : CellTallies nD τ sig (HIx 1)) (W : Waits sig (HIx 1))
    (v2 : BitVec 32) (v9 : IVec S16 32) (hv9 : v9 = iota .scVector S16 32 [0] iota_S16_d0_w32_scVector)
    (k : Fin k0_t1_loop.trips) (acc : Unit) (hk1 : 1 ≤ k.val) (hk2 : k.val < 199) :
    (inv d L q tab idx f0 O W k.val acc : sProp 𝕄)
      ⊢ wp frame (wpE (defs₀ (F := F)) 𝒱₀ (thr d L) none) Set.univ
          (k0_t1_body L tV (Memref.isWhole_whole _) iV (Memref.isWhole_whole _) oV (Memref.isWhole_whole _)
            b0 (Memref.isWhole_whole _) b1 (Memref.isWhole_whole _) b2 (Memref.isWhole_whole _) b3 (Memref.isWhole_whole _) b4 (Memref.isWhole_whole _)
            cc0_scratch5 cc0_scratch6 cc0_scratch7 cc0_scratch8 cc0_scratch9 v2 v9 k acc)
          (inv d L q tab idx f0 O W (k.val + 1)) := by
  have k0_h1 : k0_cond1 k = 1#1 := by revert k; decide +kernel
  have k0_h3 : k0_cond3 k = 1#1 := by revert k; decide +kernel
  have k0_h2 : k0_cond2 k = 1#1 := by revert k; decide +kernel
  have k0_h4 : k0_cond4 k = 1#1 := by revert k; decide +kernel
  unfold k0_t1_body
  rw [k0_part39_eq_skeleton]; unfold k0_part39_skel
  unfold inv OutFl3 OutFl4 IdxFl1 IdxFl2
  rw [if_neg (by omega : ¬ k.val = 0), if_pos (by omega : k.val < 200), if_neg (by omega : ¬ k.val + 1 = 0), if_pos (by omega : k.val + 1 < 200)]
  iintro ⟨#Hmw, Ht, H0, Hid, Hod, Hor, ⟨Hf3, Hf4⟩, ⟨Hir, Hf1, Hf2⟩, %W', %hW', HO⟩
  sl_exec
  iapply (Transfers.wp_waitLocalO countersEmb 𝒱₀ (thr d L) none (default : HIx 1)
      (rfl : (oCh (k0_off3 L k) (k0_off3_inb L k k0_h1)).view.dmaCredit = 524288)) $$ [Hf3 HO]
  · isplitl [Hf3]; · iexact Hf3
    isplitl [HO]; · iexact HO
    iapply (Transfers.MayWaits.elim (SemLoc.dma cc0_scratch8.sem)) $$ Hmw
  iintro ⟨⟨Hod3, %fb3, Hb3⟩, Hs8, HO⟩
  rw [Prog.bind_assoc]
  sl_for (inv2 d L tab (encOf idx (base L + 512 * k.val)) fb3) $$ [H0 Hf1_dst Hb3]
  case region =>
    intro k2 acc2
    unfold inv2
    refine (Trip.t2_trip d L v2 v9 (0#32) (1#32) k k2 hv9 tab (encOf idx (base L + 512 * k.val))
      (innerAcc tab (encOf idx (base L + 512 * k.val)) k2.val fb3) (fun x => hle _)).trans (wp_mono frame _ _ fun _ => ?_)
    rw [innerAcc_succ]
  · unfold inv2
    rw [innerAcc_zero]
    isplitl [H0]; · iexact H0
    isplitl [Hf1_dst]; · iexact Hf1_dst
    iexact Hb3
  iintro %_ HI
  unfold inv2
  rw [show Scf.trips k0_t2_loop.lb k0_t2_loop.ub k0_t2_loop.st = 16 from by decide, innerAcc_full]
  icases HI with ⟨H0, Hb1, Hb3⟩
  -- the rows of step 2k, carved out of the untouched ones: the first output copy's destination
  ihave Hor2 := (pts_oRng_split (F := F) d fullShare f0 (a := base L + 512 * k.val) (b := base L + 512 * k.val + 256) (c := base L + 102400) (by omega) (by omega)).1 $$ Hor
  icases Hor2 with ⟨Hoc, Hor⟩
  ihave Hoc' := (Entails.of_eq (pts_oCh (F := F) d L (k0_off37 L k) (k0_off37_inb L k) (base L + 512 * k.val) (k0_off37_eq L k) f0).symm) $$ Hoc
  -- the indices of step 2k + 2, carved out of those still held: the next index copy's source
  ihave Hir2 := (pts_iRng_split (F := F) d fullShare idx (a := base L + 512 * k.val + 512) (b := base L + 512 * k.val + 512 + 256) (c := base L + 102400) (by omega) (by omega)).1 $$ Hir
  icases Hir2 with ⟨Hic, Hir⟩
  ihave Hic' := (Entails.of_eq (pts_iCh (F := F) d L (k0_off38 L k) (k0_off38_inb L k k0_h2) (base L + 512 * k.val + 512) (k0_off38_eq L k) idx).symm) $$ Hic
  sl_exec
  iapply (Transfers.wp_waitLocalO countersEmb 𝒱₀ (thr d L) none (default : HIx 1)
      (rfl : (oCh (k0_off40 L k) (k0_off40_inb L k k0_h3)).view.dmaCredit = 524288)) $$ [Hf4 HO]
  · isplitl [Hf4]; · iexact Hf4
    isplitl [HO]; · iexact HO
    iapply (Transfers.MayWaits.elim (SemLoc.dma cc0_scratch9.sem)) $$ Hmw
  iintro ⟨⟨Hod4, %fb4, Hb4⟩, Hs9, HO⟩
  rw [Prog.bind_assoc]
  sl_for (inv3 d L tab (encOf idx (base L + 512 * k.val + 256)) fb4) $$ [H0 Hf2_dst Hb4]
  case region =>
    intro k3 acc3
    unfold inv3
    refine (Trip.t3_trip d L v2 v9 (0#32) (1#32) k k3 hv9 tab (encOf idx (base L + 512 * k.val + 256))
      (innerAcc tab (encOf idx (base L + 512 * k.val + 256)) k3.val fb4) (fun x => hle _)).trans (wp_mono frame _ _ fun _ => ?_)
    rw [innerAcc_succ]
  · unfold inv3
    rw [innerAcc_zero]
    isplitl [H0]; · iexact H0
    isplitl [Hf2_dst]; · iexact Hf2_dst
    iexact Hb4
  iintro %_ HI
  unfold inv3
  rw [show Scf.trips k0_t3_loop.lb k0_t3_loop.ub k0_t3_loop.st = 16 from by decide, innerAcc_full]
  icases HI with ⟨H0, Hb2, Hb4⟩
  -- the rows of step 2k + 1 and the indices of step 2k + 3
  ihave Hor2 := (pts_oRng_split (F := F) d fullShare f0 (a := base L + 512 * k.val + 256) (b := base L + 512 * k.val + 256 + 256) (c := base L + 102400) (by omega) (by omega)).1 $$ Hor
  icases Hor2 with ⟨Hoc2, Hor⟩
  ihave Hoc2' := (Entails.of_eq (pts_oCh (F := F) d L (k0_off74 L k) (k0_off74_inb L k) (base L + 512 * k.val + 256) (k0_off74_eq L k) f0).symm) $$ Hoc2
  ihave Hir2 := (pts_iRng_split (F := F) d fullShare idx (a := base L + 512 * k.val + 512 + 256) (b := base L + 512 * k.val + 512 + 256 + 256) (c := base L + 102400) (by omega) (by omega)).1 $$ Hir
  icases Hir2 with ⟨Hic2, Hir⟩
  ihave Hic2' := (Entails.of_eq (pts_iCh (F := F) d L (k0_off75 L k) (k0_off75_inb L k k0_h4) (base L + 512 * k.val + 512 + 256) (k0_off75_eq L k) idx).symm) $$ Hic2
  sl_exec
  rw [show k.val + 1 - 1 = k.val from by omega, show base L + 512 * (k.val + 1) = base L + 512 * k.val + 512 from by omega]
  -- the indices and the rows that came back join those before them
  ihave Hid := (pts_iRng_split (F := F) d fullShare idx (a := base L) (b := base L + 512 * k.val) (c := base L + 512 * k.val + 256) (by omega) (by omega)).2 $$ [Hid Hf1_src]
  · isplitl [Hid] <;> iassumption
  ihave Hid := (pts_iRng_split (F := F) d fullShare idx (a := base L) (b := base L + 512 * k.val + 256) (c := base L + 512 * k.val + 256 + 256) (by omega) (by omega)).2 $$ [Hid Hf2_src]
  · isplitl [Hid] <;> iassumption
  ihave Hod := (pts_oRng_split (F := F) d fullShare (gOut tab idx) (a := base L) (b := base L + 512 * (k.val - 1)) (c := base L + 512 * (k.val - 1) + 256) (by omega) (by omega)).2 $$ [Hod Hod3]
  · isplitl [Hod] <;> iassumption
  ihave Hod := (pts_oRng_split (F := F) d fullShare (gOut tab idx) (a := base L) (b := base L + 512 * (k.val - 1) + 256) (c := base L + 512 * (k.val - 1) + 256 + 256) (by omega) (by omega)).2 $$ [Hod Hod4]
  · isplitl [Hod] <;> iassumption
  sl_step
  isplitr; · iexact Hmw
  isplitl [Ht]; · iexact Ht
  isplitl [H0]; · iexact H0
  isplitl [Hid]
  · (iapply (iRng_cast (F := F) (U := U) d fullShare idx (base L) (base L + 512 * k.val + 256 + 256) (base L) (base L + 512 * k.val + 512) rfl (by omega))) <;> iexact Hid
  isplitl [Hod]
  · (iapply (oRng_cast (F := F) (U := U) d fullShare (gOut tab idx) (base L) (base L + 512 * (k.val - 1) + 256 + 256) (base L) (base L + 512 * k.val) rfl (by omega))) <;> iexact Hod
  isplitl [Hor]
  · (iapply (oRng_cast (F := F) (U := U) d fullShare f0 (base L + 512 * k.val + 256 + 256) (base L + 102400) (base L + 512 * k.val + 512) (base L + 102400) (by omega) rfl)) <;> iexact Hor
  isplitl [Hs8 Hs9]
  · isplitl [Hs8]
    · (iapply (Transfers.Flight_mono countersEmb (thr d L) (outD3 (F := F) (U := U) d L (k0_off37 L k) (k0_off37_inb L k)
        (base L + 512 * k.val) (k0_off37_eq L k) f0 tab idx))) <;> iexact Hs8
    · (iapply (Transfers.Flight_mono countersEmb (thr d L) (outD4 (F := F) (U := U) d L (k0_off74 L k) (k0_off74_inb L k)
        (base L + 512 * k.val + 256) (k0_off74_eq L k) f0 tab idx))) <;> iexact Hs9
  isplitl [Hir Hf1 Hf2]
  · isplitl [Hir]
    · (iapply (iRng_cast (F := F) (U := U) d fullShare idx (base L + 512 * k.val + 512 + 256 + 256) (base L + 102400) (base L + 512 * k.val + 512 + 512) (base L + 102400) (by omega) rfl)) <;> iexact Hir
    isplitl [Hf1]
    · (iapply (Transfers.Flight_mono countersEmb (thr d L) (idxD1 (F := F) (U := U) d L (k0_off38 L k) (k0_off38_inb L k k0_h2)
        (base L + 512 * k.val + 512) (k0_off38_eq L k) idx (encOf idx (base L + 512 * k.val))))) <;> iexact Hf1
    · (iapply (Transfers.Flight_mono countersEmb (thr d L) (idxD2 (F := F) (U := U) d L (k0_off75 L k) (k0_off75_inb L k k0_h4)
        (base L + 512 * k.val + 512 + 256) (k0_off75_eq L k) idx (encOf idx (base L + 512 * k.val + 256))))) <;> iexact Hf2
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW' p hp

set_option maxHeartbeats 8000000 in
theorem trip_last (q : PosShare TreeShare) (tab : Buf (Elt F) (tLoc d)) (idx : Buf (Elt F) (iLoc d)) (hle : ∀ j, (idx j).toNat ≤ 65)
    (f0 : Buf (Elt F) (oLoc d)) (O : CellTallies nD τ sig (HIx 1)) (W : Waits sig (HIx 1))
    (v2 : BitVec 32) (v9 : IVec S16 32) (hv9 : v9 = iota .scVector S16 32 [0] iota_S16_d0_w32_scVector)
    (k : Fin k0_t1_loop.trips) (acc : Unit) (hk : k.val = 199) :
    (inv d L q tab idx f0 O W k.val acc : sProp 𝕄)
      ⊢ wp frame (wpE (defs₀ (F := F)) 𝒱₀ (thr d L) none) Set.univ
          (k0_t1_body L tV (Memref.isWhole_whole _) iV (Memref.isWhole_whole _) oV (Memref.isWhole_whole _)
            b0 (Memref.isWhole_whole _) b1 (Memref.isWhole_whole _) b2 (Memref.isWhole_whole _) b3 (Memref.isWhole_whole _) b4 (Memref.isWhole_whole _)
            cc0_scratch5 cc0_scratch6 cc0_scratch7 cc0_scratch8 cc0_scratch9 v2 v9 k acc)
          (inv d L q tab idx f0 O W (k.val + 1)) := by
  have k0_h1 : k0_cond1 k = 1#1 := by revert k; decide +kernel
  have k0_h3 : k0_cond3 k = 1#1 := by revert k; decide +kernel
  have k0_h2 : ¬ k0_cond2 k = 1#1 := by revert k; decide +kernel
  have k0_h4 : ¬ k0_cond4 k = 1#1 := by revert k; decide +kernel
  unfold k0_t1_body
  rw [k0_part39_eq_skeleton]; unfold k0_part39_skel
  unfold inv OutFl3 OutFl4 IdxFl1 IdxFl2
  rw [if_neg (by omega : ¬ k.val = 0), if_pos (by omega : k.val < 200), if_neg (by omega : ¬ k.val + 1 = 0), if_neg (by omega : ¬ k.val + 1 < 200)]
  iintro ⟨#Hmw, Ht, H0, Hid, Hod, Hor, ⟨Hf3, Hf4⟩, ⟨Hir, Hf1, Hf2⟩, %W', %hW', HO⟩
  sl_exec
  iapply (Transfers.wp_waitLocalO countersEmb 𝒱₀ (thr d L) none (default : HIx 1)
      (rfl : (oCh (k0_off3 L k) (k0_off3_inb L k k0_h1)).view.dmaCredit = 524288)) $$ [Hf3 HO]
  · isplitl [Hf3]; · iexact Hf3
    isplitl [HO]; · iexact HO
    iapply (Transfers.MayWaits.elim (SemLoc.dma cc0_scratch8.sem)) $$ Hmw
  iintro ⟨⟨Hod3, %fb3, Hb3⟩, Hs8, HO⟩
  rw [Prog.bind_assoc]
  sl_for (inv2 d L tab (encOf idx (base L + 512 * k.val)) fb3) $$ [H0 Hf1_dst Hb3]
  case region =>
    intro k2 acc2
    unfold inv2
    refine (Trip.t2_trip d L v2 v9 (0#32) (1#32) k k2 hv9 tab (encOf idx (base L + 512 * k.val))
      (innerAcc tab (encOf idx (base L + 512 * k.val)) k2.val fb3) (fun x => hle _)).trans (wp_mono frame _ _ fun _ => ?_)
    rw [innerAcc_succ]
  · unfold inv2
    rw [innerAcc_zero]
    isplitl [H0]; · iexact H0
    isplitl [Hf1_dst]; · iexact Hf1_dst
    iexact Hb3
  iintro %_ HI
  unfold inv2
  rw [show Scf.trips k0_t2_loop.lb k0_t2_loop.ub k0_t2_loop.st = 16 from by decide, innerAcc_full]
  icases HI with ⟨H0, Hb1, Hb3⟩
  -- the rows of step 2k, carved out of the untouched ones: the first output copy's destination
  ihave Hor2 := (pts_oRng_split (F := F) d fullShare f0 (a := base L + 512 * k.val) (b := base L + 512 * k.val + 256) (c := base L + 102400) (by omega) (by omega)).1 $$ Hor
  icases Hor2 with ⟨Hoc, Hor⟩
  ihave Hoc' := (Entails.of_eq (pts_oCh (F := F) d L (k0_off37 L k) (k0_off37_inb L k) (base L + 512 * k.val) (k0_off37_eq L k) f0).symm) $$ Hoc
  sl_exec
  iapply (Transfers.wp_waitLocalO countersEmb 𝒱₀ (thr d L) none (default : HIx 1)
      (rfl : (oCh (k0_off40 L k) (k0_off40_inb L k k0_h3)).view.dmaCredit = 524288)) $$ [Hf4 HO]
  · isplitl [Hf4]; · iexact Hf4
    isplitl [HO]; · iexact HO
    iapply (Transfers.MayWaits.elim (SemLoc.dma cc0_scratch9.sem)) $$ Hmw
  iintro ⟨⟨Hod4, %fb4, Hb4⟩, Hs9, HO⟩
  rw [Prog.bind_assoc]
  sl_for (inv3 d L tab (encOf idx (base L + 512 * k.val + 256)) fb4) $$ [H0 Hf2_dst Hb4]
  case region =>
    intro k3 acc3
    unfold inv3
    refine (Trip.t3_trip d L v2 v9 (0#32) (1#32) k k3 hv9 tab (encOf idx (base L + 512 * k.val + 256))
      (innerAcc tab (encOf idx (base L + 512 * k.val + 256)) k3.val fb4) (fun x => hle _)).trans (wp_mono frame _ _ fun _ => ?_)
    rw [innerAcc_succ]
  · unfold inv3
    rw [innerAcc_zero]
    isplitl [H0]; · iexact H0
    isplitl [Hf2_dst]; · iexact Hf2_dst
    iexact Hb4
  iintro %_ HI
  unfold inv3
  rw [show Scf.trips k0_t3_loop.lb k0_t3_loop.ub k0_t3_loop.st = 16 from by decide, innerAcc_full]
  icases HI with ⟨H0, Hb2, Hb4⟩
  -- the rows of step 2k + 1
  ihave Hor2 := (pts_oRng_split (F := F) d fullShare f0 (a := base L + 512 * k.val + 256) (b := base L + 512 * k.val + 256 + 256) (c := base L + 102400) (by omega) (by omega)).1 $$ Hor
  icases Hor2 with ⟨Hoc2, Hor⟩
  ihave Hoc2' := (Entails.of_eq (pts_oCh (F := F) d L (k0_off74 L k) (k0_off74_inb L k) (base L + 512 * k.val + 256) (k0_off74_eq L k) f0).symm) $$ Hoc2
  sl_exec
  rw [show k.val + 1 - 1 = k.val from by omega, show base L + 512 * (k.val + 1) = base L + 512 * k.val + 512 from by omega]
  -- the indices and the rows that came back join those before them
  ihave Hid := (pts_iRng_split (F := F) d fullShare idx (a := base L) (b := base L + 512 * k.val) (c := base L + 512 * k.val + 256) (by omega) (by omega)).2 $$ [Hid Hf1_src]
  · isplitl [Hid] <;> iassumption
  ihave Hid := (pts_iRng_split (F := F) d fullShare idx (a := base L) (b := base L + 512 * k.val + 256) (c := base L + 512 * k.val + 256 + 256) (by omega) (by omega)).2 $$ [Hid Hf2_src]
  · isplitl [Hid] <;> iassumption
  ihave Hod := (pts_oRng_split (F := F) d fullShare (gOut tab idx) (a := base L) (b := base L + 512 * (k.val - 1)) (c := base L + 512 * (k.val - 1) + 256) (by omega) (by omega)).2 $$ [Hod Hod3]
  · isplitl [Hod] <;> iassumption
  ihave Hod := (pts_oRng_split (F := F) d fullShare (gOut tab idx) (a := base L) (b := base L + 512 * (k.val - 1) + 256) (c := base L + 512 * (k.val - 1) + 256 + 256) (by omega) (by omega)).2 $$ [Hod Hod4]
  · isplitl [Hod] <;> iassumption
  sl_step
  isplitr; · iexact Hmw
  isplitl [Ht]; · iexact Ht
  isplitl [H0]; · iexact H0
  isplitl [Hid]
  · (iapply (iRng_cast (F := F) (U := U) d fullShare idx (base L) (base L + 512 * k.val + 256 + 256) (base L) (base L + 512 * k.val + 512) rfl (by omega))) <;> iexact Hid
  isplitl [Hod]
  · (iapply (oRng_cast (F := F) (U := U) d fullShare (gOut tab idx) (base L) (base L + 512 * (k.val - 1) + 256 + 256) (base L) (base L + 512 * k.val) rfl (by omega))) <;> iexact Hod
  isplitl [Hor]
  · (iapply (oRng_cast (F := F) (U := U) d fullShare f0 (base L + 512 * k.val + 256 + 256) (base L + 102400) (base L + 512 * k.val + 512) (base L + 102400) (by omega) rfl)) <;> iexact Hor
  isplitl [Hs8 Hs9]
  · isplitl [Hs8]
    · (iapply (Transfers.Flight_mono countersEmb (thr d L) (outD3 (F := F) (U := U) d L (k0_off37 L k) (k0_off37_inb L k)
        (base L + 512 * k.val) (k0_off37_eq L k) f0 tab idx))) <;> iexact Hs8
    · (iapply (Transfers.Flight_mono countersEmb (thr d L) (outD4 (F := F) (U := U) d L (k0_off74 L k) (k0_off74_inb L k)
        (base L + 512 * k.val + 256) (k0_off74_eq L k) f0 tab idx))) <;> iexact Hs9
  isplitl [Hb1 Hf1 Hb2 Hf2]
  · isplitl [Hb1]; · iexists _; iexact Hb1
    isplitl [Hf1]; · iexact Hf1
    isplitl [Hb2]; · iexists _; iexact Hb2
    iexact Hf2
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW' p hp

end Tile

set_option maxHeartbeats 8000000 in
theorem tile_body (hF : (K (F := F)).Facts) (d : Dev nD) (L : grid0.Coords) (q : PosShare TreeShare)
    (tab : Buf (Elt F) (tLoc d)) (idx : Buf (Elt F) (iLoc d)) (hle : ∀ j, (idx j).toNat ≤ 65) (f0 : Buf (Elt F) (oLoc d))
    (O : CellTallies nD τ sig (HIx 1)) (W : Waits sig (HIx 1)) (hO : ∀ g, O g none = 0) :
    iprop(levAts (K (F := F)).L (K (F := F)).lev ∗ emp
        ∗ ((tLoc d ↦{q} tab) ∗ (iLoc d ↦[iSet (wid L)]{fullShare} idx) ∗ (oLoc d ↦[oSet (wid L)]{fullShare} f0))
        ∗ scopedBufs (thr d L) ∗ scopedSems0 (thr d L) ∗ owes (thr d L) O W)
      ⊢ (wp frame (wpE (defs₀ (F := F)) 𝒱₀ (thr d L) none) Set.univ
          (cc0_gather_kernel L tV (Memref.isWhole_whole _) iV (Memref.isWhole_whole _) oV (Memref.isWhole_whole _)
            b0 (Memref.isWhole_whole _) b1 (Memref.isWhole_whole _) b2 (Memref.isWhole_whole _) b3 (Memref.isWhole_whole _) b4 (Memref.isWhole_whole _)
            cc0_scratch5 cc0_scratch6 cc0_scratch7 cc0_scratch8 cc0_scratch9)
          fun _ => iprop(((tLoc d ↦{q} tab) ∗ (iLoc d ↦[iSet (wid L)]{fullShare} idx) ∗ (oLoc d ↦[oSet (wid L)]{fullShare} gOut tab idx))
            ∗ scopedBufs (thr d L) ∗ scopedSems0 (thr d L)
            ∗ ∃ W', ⌜∀ p ∈ W', p ∈ W ∨ p.2 = none⌝ ∗ owes (thr d L) O W') : sProp 𝕄) := by
  have htrips : k0_t1_loop.trips = 200 := by decide
  simp only [cc0_gather_kernel_eq_skeleton]; unfold cc0_gather_kernel_skel
  rw [(K (F := F)).scopedBufs_V hF d (cV L) (jV L), SparseCore.Cfg.scopedSems0_V (Val := Elt F) d (cV L) (jV L), ownSems0_V, ownBufs_V,
    iSet_eq, oSet_eq]
  iintro ⟨#Hlv, -, ⟨Ht, Hi, Ho⟩, ⟨⟨%f0', H0⟩, ⟨%f1, H1⟩, ⟨%f2, H2⟩, ⟨%f3, H3⟩, ⟨%f4, H4⟩, Hbufs⟩, ⟨Hs5, Hs6, Hs7, Hs8, Hs9, Hsems⟩, HO⟩
  ihave Hmw := (show levAts (K (F := F)).L (K (F := F)).lev ⊢ Transfers.MayWaits (thr d L) (default : HIx 1) O from
    (K (F := F)).mayWaits_none (thr := thr d L) hO) $$ Hlv
  ihave Ht' := (Entails.of_eq (pts_tV (F := F) d L _ _).symm) $$ Ht
  ihave H0' := (Entails.of_eq (pts_b0 (F := F) d L _).symm) $$ H0
  ihave H1' := (Entails.of_eq (pts_b1 (F := F) d L _).symm) $$ H1
  ihave H2' := (Entails.of_eq (pts_b2 (F := F) d L _).symm) $$ H2
  ihave H3' := (Entails.of_eq (pts_b3 (F := F) d L _).symm) $$ H3
  ihave H4' := (Entails.of_eq (pts_b4 (F := F) d L _).symm) $$ H4
  -- the first two chunks of the tile's indices, carved out: the sources of the first two index copies
  ihave Hi2 := (pts_iRng_split (F := F) d fullShare idx (a := base L) (b := base L + 256) (c := base L + 102400) (by omega) (by omega)).1 $$ Hi
  icases Hi2 with ⟨Hc0, Hi⟩
  ihave Hi2 := (pts_iRng_split (F := F) d fullShare idx (a := base L + 256) (b := base L + 256 + 256) (c := base L + 102400) (by omega) (by omega)).1 $$ Hi
  icases Hi2 with ⟨Hc1, Hi⟩
  ihave Hc0' := (Entails.of_eq (pts_iCh (F := F) d L (k0_off1 L 0#32) (k0_off1_inb L 0) (base L) (k0_off1_eq L 0) idx).symm) $$ Hc0
  ihave Hc1' := (Entails.of_eq (pts_iCh (F := F) d L (k0_off1 L 256#32) (k0_off1_inb L 1) (base L + 256) (k0_off1_eq L 1) idx).symm) $$ Hc1
  sl_exec
  sl_for (inv d L q tab idx f0 O W) $$ [Hmw Ht' H0' Ho H3' Hs8 H4' Hs9 Hi Hs6 Hs7 HO]
  case region =>
    intro k acc
    have hk : k.val < 200 := htrips ▸ k.isLt
    rcases Nat.eq_zero_or_pos k.val with h0 | h1
    · exact trip_first d L q tab idx hle f0 O W _ _ rfl k acc h0
    · rcases Nat.lt_or_ge k.val 199 with h2 | h2
      · exact trip_mid d L q tab idx hle f0 O W _ _ rfl k acc h1 h2
      · exact trip_last d L q tab idx hle f0 O W _ _ rfl k acc (by omega)
  · unfold inv IdxFl1 IdxFl2
    rw [if_pos rfl, if_pos (by omega : (0 : ℕ) < 200)]
    try rw [show base L + 512 * (0 - 1) = base L from rfl]
    try rw [show base L + 512 * 0 = base L from rfl]
    isplitl [Hmw]; · iexact Hmw
    isplitl [Ht']; · iexact Ht'
    isplitl [H0']
    · (iapply (Entails.of_eq (b0_tab (F := F) (U := U) d L tab f0'))) <;> iexact H0'
    isplitr; · rw [iRng_empty, pointsTo_empty]; iempintro
    isplitr; · rw [oRng_empty, pointsTo_empty]; iempintro
    isplitl [Ho]; · iexact Ho
    isplitl [H3' Hs8 H4' Hs9]
    · isplitl [H3']; · iexists _; iexact H3'
      isplitl [Hs8]; · iexact Hs8
      isplitl [H4']; · iexists _; iexact H4'
      iexact Hs9
    isplitl [Hi Hs6 Hs7]
    · isplitl [Hi]
      · (iapply (iRng_cast (F := F) (U := U) d fullShare idx (base L + 256 + 256) (base L + 102400) (base L + 512) (base L + 102400) (by omega) rfl)) <;> iexact Hi
      isplitl [Hs6]
      · (iapply (Transfers.Flight_mono countersEmb (thr d L) (idxD1 (F := F) (U := U) d L (k0_off1 L 0#32) (k0_off1_inb L 0)
          (base L) (k0_off1_eq L 0) idx f1))) <;> iexact Hs6
      · (iapply (Transfers.Flight_mono countersEmb (thr d L) (idxD2 (F := F) (U := U) d L (k0_off1 L 256#32) (k0_off1_inb L 1)
          (base L + 256) (k0_off1_eq L 1) idx f2))) <;> iexact Hs7
    iexists _; isplitr
    swap; · iexact HO
    ipureintro; intro p hp
    rcases Finset.mem_insert.mp hp with hp | hp; · exact .inr (hp ▸ rfl)
    exact .inl hp
  iintro %_ HI
  unfold inv OutFl3 OutFl4
  rw [show Scf.trips k0_t1_loop.lb k0_t1_loop.ub k0_t1_loop.st = 200 from by decide, if_neg (by omega : ¬ (200 : ℕ) = 0),
    if_neg (by omega : ¬ (200 : ℕ) < 200)]
  icases HI with ⟨-, Ht, H0, Hid, Hod, Hor, ⟨Hf3, Hf4⟩, ⟨⟨%g1, Hb1⟩, Hs6, ⟨%g2, Hb2⟩, Hs7⟩, %W', %hW', HO⟩
  sl_exec
  -- the last two output copies land
  iapply (Transfers.wp_waitLocalO countersEmb 𝒱₀ (thr d L) none (default : HIx 1)
      (rfl : (oCh (k0_off76 L 101888#32) (k0_off76_inb L 0)).view.dmaCredit = 524288)) $$ [Hf3 HO]
  · isplitl [Hf3]; · iexact Hf3
    isplitl [HO]; · iexact HO
    iapply (Transfers.MayWaits.elim (SemLoc.dma cc0_scratch8.sem)) $$ Hmw
  iintro ⟨⟨Hod3, %g3, Hb3⟩, Hs8, HO⟩
  iapply (Transfers.wp_waitLocalO countersEmb 𝒱₀ (thr d L) none (default : HIx 1)
      (rfl : (oCh (k0_off76 L 102144#32) (k0_off76_inb L 1)).view.dmaCredit = 524288)) $$ [Hf4 HO]
  · isplitl [Hf4]; · iexact Hf4
    isplitl [HO]; · iexact HO
    iapply (Transfers.MayWaits.elim (SemLoc.dma cc0_scratch9.sem)) $$ Hmw
  iintro ⟨⟨Hod4, %g4, Hb4⟩, Hs9, HO⟩
  ihave Hod := (pts_oRng_split (F := F) d fullShare (gOut tab idx) (a := base L) (b := base L + 512 * (200 - 1)) (c := base L + 512 * (200 - 1) + 256) (by omega) (by omega)).2 $$ [Hod Hod3]
  · isplitl [Hod] <;> iassumption
  ihave Hod := (pts_oRng_split (F := F) d fullShare (gOut tab idx) (a := base L) (b := base L + 512 * (200 - 1) + 256) (c := base L + 512 * (200 - 1) + 256 + 256) (by omega) (by omega)).2 $$ [Hod Hod4]
  · isplitl [Hod] <;> iassumption
  rw [prog_ret_bind]
  sl_step
  isplitl [Ht Hid Hod]
  · isplitl [Ht]; · iexact Ht
    isplitl [Hid]
    · (iapply (iRng_cast (F := F) (U := U) d fullShare idx (base L) (base L + 512 * 200) (base L) (base L + 102400) rfl (by omega))) <;> iexact Hid
    · (iapply (oRng_cast (F := F) (U := U) d fullShare (gOut tab idx) (base L) (base L + 512 * (200 - 1) + 256 + 256) (base L) (base L + 102400) rfl (by omega))) <;> iexact Hod
  isplitl [H0 Hb1 Hb2 Hb3 Hb4 Hbufs]
  · isplitl [H0]; · iexists _; iexact H0
    isplitl [Hb1]; · iexists _; iexact Hb1
    isplitl [Hb2]; · iexists _; iexact Hb2
    isplitl [Hb3]; · iexists _; iexact Hb3
    isplitl [Hb4]; · iexists _; iexact Hb4
    iexact Hbufs
  isplitl [Hs5 Hs6 Hs7 Hs8 Hs9 Hsems]
  · isplitl [Hs5]; · iexact Hs5
    isplitl [Hs6]; · iexact Hs6
    isplitl [Hs7]; · iexact Hs7
    isplitl [Hs8]; · iexact Hs8
    isplitl [Hs9]; · iexact Hs9
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact hW' p hp

end Cert.Proof.KI.Tile

end
-- ==== Proof.Bits.TripDefs.lean ====
/-
  One inner trip of the lookup's gather, its vocabulary: the thread of the tile at grid coordinates L, and what one
  trip does to the output scratch. Trip k reads the 16 indices enc[16k .. 16k+16) and rewrites rows
  16k .. 16k+16 of the 256 x 64 scratch: row r becomes row enc[r] of the table, every other row is untouched.
-/
import proofs.«204299_g532575945014_cont_9to1c4b_494_30_alg».proof.Proof.Bits.Common
import Idealize.ShloMosaic.Lib.SparseCore.Launch
import Idealize.ShloMosaic.Lib.ValueIdx

noncomputable section

namespace Cert.Proof.KB.Trip

open Cert.Kernel Cert.Kernel.Gen
open Cert.Proof.KB
open Idealize.ShloMosaic
open Idealize.ShloMosaic.SparseCore (S V T)
open Idealize.SL Idealize.SL.Sem

variable {F : FTy → Type}

/-- The vector subcore (tile) at grid coordinates `L` of device `d`. -/
abbrev thr (d : Dev nD) (L : grid0.Coords) : Thread nD τ := SparseCore.V d ((L 0).castLE hcore0) ((L 1).castLE hsub0)

/-- The output scratch after trip `k`, from its contents `o` before: rows `16k ≤ r < 16k + 16` hold the table's rows
    `enc r`, the others are as they were. -/
def tripUpd (tab : S4224.Idx → Elt F .f32) (enc : S256.Idx → BitVec 32) (k : ℕ) (o : S256x64.Idx → Elt F .f32) :
    S256x64.Idx → Elt F .f32 :=
  fun j => if 16 * k ≤ (j 0).val ∧ (j 0).val < 16 * k + 16 then gRow tab (enc (ValueIdx.ix1 (n := 256) (j 0))) (j 1) else o j

theorem tripUpd_of_mem (tab : S4224.Idx → Elt F .f32) (enc : S256.Idx → BitVec 32) (k : ℕ) (o : S256x64.Idx → Elt F .f32)
    (j : S256x64.Idx) (h : 16 * k ≤ (j 0).val ∧ (j 0).val < 16 * k + 16) :
    tripUpd tab enc k o j = gRow tab (enc (ValueIdx.ix1 (n := 256) (j 0))) (j 1) := if_pos h

theorem tripUpd_of_not_mem (tab : S4224.Idx → Elt F .f32) (enc : S256.Idx → BitVec 32) (k : ℕ) (o : S256x64.Idx → Elt F .f32)
    (j : S256x64.Idx) (h : ¬(16 * k ≤ (j 0).val ∧ (j 0).val < 16 * k + 16)) : tripUpd tab enc k o j = o j := if_neg h

end Cert.Proof.KB.Trip

end
-- ==== Proof.Bits.TripLemmas.lean ====
/-
  Arithmetic and list lemmas for one inner trip of the lookup's gather.
  * The index vector of a gather, enc * 64 + iota + c, addresses word enc * 64 + c + lane (no wrap-around: enc ≤ 65).
  * A list of stores of 1 x 16 pieces, piece (l, q) at row 16 k + l, columns 16 q .. 16 q + 16, each holding the row
    function G there, reads back as G on the pieces and as the old contents elsewhere.
  * The 64 pieces (l, q), l < 16, q < 4, cover exactly rows 16 k .. 16 k + 16.
-/
import proofs.«204299_g532575945014_cont_9to1c4b_494_30_alg».proof.Proof.Bits.TripDefs
import Idealize.ShloMosaic.Lib.Writes
import Idealize.ShloMosaic.Lib.Exec

noncomputable section

namespace Cert.Proof.KB.Trip

open Cert.Kernel Cert.Kernel.Gen
open Cert.Proof.KB
open Idealize.ShloMosaic
open Idealize.SL Idealize.SL.Sem

variable {F : FTy → Type}

/-- The index vector of one gather: lane `x` addresses word `e * 64 + x + c` of the flat table. -/
theorem gidx_toNat (e c : BitVec 32) (he : e.toNat ≤ 65) (hc : c.toNat ≤ 48) (x : S16.Idx) :
    (addi (addi (muli (broadcast S16 e) (broadcast S16 64#32)) (iota .scVector S16 32 [0] iota_S16_d0_w32_scVector))
        (broadcast S16 c) x).toNat = e.toNat * 64 + (x 0).val + c.toNat := by
  have hx : (x 0).val < 16 := (x 0).isLt
  simp only [addi, muli, broadcast, iota, IntOp.addi, IntOp.muli, List.foldl_cons, List.foldl_nil, Nat.zero_mul, Nat.zero_add,
    BitVec.toNat_add, BitVec.toNat_mul, BitVec.toNat_ofNat]
  omega

/-- The check a gather owes: every lane of its index vector is inside the flat table. -/
theorem chk_ok (v : IVec S16 32) (e c : BitVec 32)
    (hv : v = addi (addi (muli (broadcast S16 e) (broadcast S16 64#32)) (iota .scVector S16 32 [0] iota_S16_d0_w32_scVector))
        (broadcast S16 c))
    (he : e.toNat ≤ 65) (hc : c.toNat ≤ 48) :
    ∀ a x, ((![v] : Fin 1 → IVec S16 32) a x).toNat < S4224.size a := by
  intro a x
  have ha : a = 0 := Subsingleton.elim _ _
  subst ha hv
  show (addi (addi (muli (broadcast S16 e) (broadcast S16 64#32)) (iota .scVector S16 32 [0] iota_S16_d0_w32_scVector))
        (broadcast S16 c) x).toNat < 4224
  rw [gidx_toNat e c he hc x]
  have hx : (x 0).val < 16 := (x 0).isLt
  omega

/-- Lane `l` of a vector of 16 words, as the kernel extracts it. -/
theorem lane_eq (w : IVec S16 32) (l : ℕ) (hl : l < 16) (h1 : S16.Slices ![l] S1) (h2 : ∀ a, (![0] : Fin 1 → ℕ) a < S1.size a) :
    extractAt ![0] (extractStridedSlice S1 ![l] w h1) h2 = w (ValueIdx.ix1 (n := 16) ⟨l, hl⟩) := by
  unfold extractAt extractStridedSlice
  congr 1
  funext a
  have ha : a = 0 := Subsingleton.elim _ _
  subst ha
  apply Fin.ext
  show l + 0 = l
  rfl

/-- The row function: inside the trip's rows, entry `(r, c)` of the output scratch is entry `c` of the table's row `enc r`. -/
def gfun (tab : S4224.Idx → Elt F .f32) (enc : S256.Idx → BitVec 32) : S256x64.Idx → Elt F .f32 :=
  fun j => gRow tab (enc (ValueIdx.ix1 (n := 256) (j 0))) (j 1)

/-- Index `j` lies in piece `(l, q)` of trip `k`: row `16 k + l`, columns `16 q .. 16 q + 16`. -/
def Cond (k : ℕ) (lq : ℕ × ℕ) (j : S256x64.Idx) : Prop :=
  (j 0).val = 16 * k + lq.1 ∧ 16 * lq.2 ≤ (j 1).val ∧ (j 1).val < 16 * lq.2 + 16

/-- A stored piece is piece `(l, q)` of trip `k` and holds `G` there. -/
def PieceOk (G : S256x64.Idx → Elt F .f32) (k : ℕ) (p : View.Piece (Elt F) S256x64 .f32) (lq : ℕ × ℕ) : Prop :=
  (∀ j : S256x64.Idx, j ∈ p.1.set ↔ Cond k lq j) ∧ ∀ x, p.2 x = G (p.1.emb x)

/-- A list of such pieces reads back as `G` on the pieces and as the old contents off them. -/
theorem read_writes_of_ok {sig : RefSig} {κ : Kind} {sp : Space} (v : View sig κ sp S256x64 .f32) (o : v.ty.Contents (Elt F))
    (G : S256x64.Idx → Elt F .f32) (k : ℕ) (j : S256x64.Idx) :
    ∀ (L : List (View.Piece (Elt F) S256x64 .f32)) (S : List (ℕ × ℕ)), List.Forall₂ (PieceOk G k) L S →
      ((∃ lq ∈ S, Cond k lq j) → v.read (Elt F) (v.writes (Elt F) o L) j = G j)
        ∧ ((¬∃ lq ∈ S, Cond k lq j) → v.read (Elt F) (v.writes (Elt F) o L) j = v.read (Elt F) o j) := by
  intro L S hLS
  induction hLS with
  | nil => exact ⟨fun ⟨_, hm, _⟩ => absurd hm List.not_mem_nil, fun _ => rfl⟩
  | @cons p lq L S hp _ ih =>
    obtain ⟨hmem, hpay⟩ := hp
    by_cases hj : j ∈ p.1.set
    · obtain ⟨x, rfl⟩ : ∃ x, p.1.emb x = j := p.1.exists_idx_of_mem hj
      obtain ⟨r, w⟩ := p
      refine ⟨fun _ => ?_, fun hn => absurd ⟨lq, List.mem_cons_self, (hmem _).mp hj⟩ hn⟩
      rw [View.read_writes_cons_emb]
      exact hpay x
    · have hy' : j ∉ Finset.univ.map p.1.emb := by rwa [Rect.map_emb_univ]
      rw [View.writes_cons, View.read_slice_write_of_not_mem p.1 _ _ _ hy']
      refine ⟨fun ⟨lq', hm, hc⟩ => ih.1 ?_, fun hn => ih.2 fun ⟨lq', hm, hc⟩ => hn ⟨lq', List.mem_cons_of_mem _ hm, hc⟩⟩
      rcases List.mem_cons.mp hm with rfl | hm
      · exact absurd ((hmem _).mpr hc) hj
      · exact ⟨lq', hm, hc⟩

/-- The pieces of a trip, in the order the list of stores holds them (the last store first). -/
def S64 : List (ℕ × ℕ) := [(15, 3), (15, 2), (15, 1), (15, 0), (14, 3), (14, 2), (14, 1), (14, 0), (13, 3), (13, 2), (13, 1), (13, 0), (12, 3), (12, 2), (12, 1), (12, 0), (11, 3), (11, 2), (11, 1), (11, 0), (10, 3), (10, 2), (10, 1), (10, 0), (9, 3), (9, 2), (9, 1), (9, 0), (8, 3), (8, 2), (8, 1), (8, 0), (7, 3), (7, 2), (7, 1), (7, 0), (6, 3), (6, 2), (6, 1), (6, 0), (5, 3), (5, 2), (5, 1), (5, 0), (4, 3), (4, 2), (4, 1), (4, 0), (3, 3), (3, 2), (3, 1), (3, 0), (2, 3), (2, 2), (2, 1), (2, 0), (1, 3), (1, 2), (1, 1), (1, 0), (0, 3), (0, 2), (0, 1), (0, 0)]

theorem S64_lt : ∀ lq ∈ S64, lq.1 < 16 := by decide
theorem S64_mem : ∀ l < 16, ∀ q < 4, (l, q) ∈ S64 := by decide

/-- The 64 pieces cover exactly the trip's 16 rows. -/
theorem S64_iff (k : ℕ) (j : S256x64.Idx) : (∃ lq ∈ S64, Cond k lq j) ↔ (16 * k ≤ (j 0).val ∧ (j 0).val < 16 * k + 16) := by
  have h1 : (j 1).val < 64 := ValueIdx.idx2_lt1 j
  constructor
  · rintro ⟨lq, hm, h0, -, -⟩
    have := S64_lt lq hm
    omega
  · intro h
    refine ⟨((j 0).val - 16 * k, (j 1).val / 16), S64_mem _ (by omega) _ (by omega), ?_, ?_, ?_⟩
    · show (j 0).val = 16 * k + ((j 0).val - 16 * k); omega
    · show 16 * ((j 1).val / 16) ≤ (j 1).val; omega
    · show (j 1).val < 16 * ((j 1).val / 16) + 16; omega

/-- One stored piece: at the closed form `(16 k + l, 16 q)` of its offsets, holding the gathered 16 floats
    `tab[enc(16 k + l) * 64 + 16 q + x]`, it is piece `(l, q)` of trip `k` and holds the row function there. -/
theorem piece_ok (tab : S4224.Idx → Elt F .f32) (enc : S256.Idx → BitVec 32) (hle : ∀ x, (enc x).toNat ≤ 65)
    (k : ℕ) (off : Fin 2 → ℕ) [co : ClosedOff off] (inb : ∀ a, off a + S1x16.size a ≤ S256x64.size a)
    (l q : ℕ) (hl : 16 * k + l < 256) (hq : q < 4) (hform : co.form = ![16 * k + l, 16 * q])
    (tabv : S4224.Idx → Elt F .f32) (htab : tabv = tab)
    (v : IVec S16 32) (e c : BitVec 32)
    (hv : v = addi (addi (muli (broadcast S16 e) (broadcast S16 64#32)) (iota .scVector S16 32 [0] iota_S16_d0_w32_scVector))
        (broadcast S16 c))
    (he : e = enc (ValueIdx.ix1 (n := 256) ⟨16 * k + l, hl⟩)) (hc : c.toNat = 16 * q)
    (h : ∀ a x, ((![v] : Fin 1 → IVec S16 32) a x).toNat < S4224.size a) (pf : S16.ShapeCasts S1x16) :
    PieceOk (gfun tab enc) k ⟨Rect.unit (s := S256x64) off S1x16.size inb, shapeCast S1x16 (loadIdx tabv ![v] h) pf⟩ (l, q) := by
  have hoff : off = ![16 * k + l, 16 * q] := co.eq.trans hform
  subst htab hv
  refine ⟨fun j => ?_, fun x => ?_⟩
  · rw [Rect.mem_set_unit, Fin.forall_fin_two, hoff]
    show ((16 * k + l ≤ (j 0).val ∧ (j 0).val < 16 * k + l + 1) ∧ (16 * q ≤ (j 1).val ∧ (j 1).val < 16 * q + 16)) ↔ _
    unfold Cond
    constructor <;> intro hh <;> (simp only at hh ⊢; omega)
  · have he65 : e.toNat ≤ 65 := he ▸ hle _
    have o0 : off 0 = 16 * k + l := by rw [hoff]; rfl
    have o1 : off 1 = 16 * q := by rw [hoff]; rfl
    have hx0 : (x 0).val < 1 := (x 0).isLt
    have hx1 : (x 1).val < 16 := (x 1).isLt
    have hy : ((Shape.reshapeEquiv pf x) 0).val = (x 0).val * 16 + (x 1).val := by
      have := Shape.rowMajor_reshapeEquiv pf x
      rw [Shape.rowMajor_val_one, Shape.rowMajor_val_two] at this
      exact this
    have h0 : (Rect.unit (s := S256x64) off S1x16.size inb).emb x 0 = (⟨16 * k + l, hl⟩ : Fin 256) := by
      apply Fin.ext
      rw [Rect.emb_apply, Rect.off_unit, Rect.stride_unit]
      show off 0 + 1 * (x 0).val = 16 * k + l
      omega
    have h1 : ((Rect.unit (s := S256x64) off S1x16.size inb).emb x 1).val = 16 * q + (x 1).val := by
      rw [Rect.emb_apply, Rect.off_unit, Rect.stride_unit]
      omega
    show tabv (idxAt ![_] h (Shape.reshapeEquiv pf x)) = gRow tabv (enc (ValueIdx.ix1 (n := 256) ((Rect.unit (s := S256x64) off S1x16.size inb).emb x 0))) ((Rect.unit (s := S256x64) off S1x16.size inb).emb x 1)
    rw [h0, ← he]
    unfold gRow
    congr 1
    funext a
    have ha : a = 0 := Subsingleton.elim _ _
    subst ha
    apply Fin.ext
    show (addi (addi (muli (broadcast S16 e) (broadcast S16 64#32)) (iota .scVector S16 32 [0] iota_S16_d0_w32_scVector))
        (broadcast S16 c) (Shape.reshapeEquiv pf x)).toNat = (e.toNat * 64 + ((Rect.unit (s := S256x64) off S1x16.size inb).emb x 1).val) % 4224
    rw [gidx_toNat e c he65 (by omega), hy, h1, hc]
    omega

/-- What a trip's 64 stores leave, read at one index: the row function on rows `16 k .. 16 k + 16`, the old contents
    elsewhere. -/
theorem read_writes_trip {sig : RefSig} {κ : Kind} {sp : Space} (v : View sig κ sp S256x64 .f32) (o : v.ty.Contents (Elt F))
    (tab : S4224.Idx → Elt F .f32) (enc : S256.Idx → BitVec 32) (k : ℕ) (L : List (View.Piece (Elt F) S256x64 .f32))
    (hL : List.Forall₂ (PieceOk (gfun tab enc) k) L S64) (j : S256x64.Idx) :
    v.read (Elt F) (v.writes (Elt F) o L) j
      = if 16 * k ≤ (j 0).val ∧ (j 0).val < 16 * k + 16 then gfun tab enc j else v.read (Elt F) o j := by
  have h := read_writes_of_ok v o (gfun tab enc) k j L S64 hL
  by_cases hj : 16 * k ≤ (j 0).val ∧ (j 0).val < 16 * k + 16
  · rw [if_pos hj]; exact h.1 ((S64_iff k j).mpr hj)
  · rw [if_neg hj]; exact h.2 fun hh => hj ((S64_iff k j).mp hh)

end Cert.Proof.KB.Trip

end
-- ==== Proof.Bits.Trip.lean ====
/-
  One inner trip of the lookup's gather, for both inner loops. A trip loads 16 indices, and for each of the 16 lanes
  and each quarter of a 64-float row gathers 16 consecutive floats of the table scratch (at enc * 64 + 16 q + lane)
  and stores them into the output scratch's row 16 k + l, columns 16 q .. 16 q + 16.
  The index of every gather is below 4224 because every index word is at most 65 (65 * 64 + 63 = 4223); the 64
  stored pieces tile rows 16 k .. 16 k + 16 of the scratch, and each piece holds the table's row at its place.
-/
import proofs.«204299_g532575945014_cont_9to1c4b_494_30_alg».proof.Proof.Bits.TripDefs
import proofs.«204299_g532575945014_cont_9to1c4b_494_30_alg».proof.Proof.Bits.TripLemmas
import proofs.«204299_g532575945014_cont_9to1c4b_494_30_alg».proof.Proof.Gen.Kernel
import proofs.«204299_g532575945014_cont_9to1c4b_494_30_alg».proof.Proof.Gen.Kernel.Skeleton
import Idealize.ShloMosaic.Lib.SparseCore.Launch
import Idealize.ShloMosaic.Lib.SparseCore.Ops
import Idealize.ShloMosaic.Lib.Writes
import Idealize.ShloMosaic.Lib.Tactic

noncomputable section

namespace Cert.Proof.KB.Trip

open Cert.Kernel Cert.Kernel.Gen
open Cert.Proof.KB
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]
variable {U : Type} [URA U]

local notation "𝕄" => MT nD τ sig (HIx 1) (Elt F) ℕ U ℕ

local notation "hTab" => (Memref.whole Cert.Kernel.main_v1_scv : Memref Cert.Kernel.sig Kind.scVector Space.hbm Cert.Kernel.S4224 EltTy.f32)
local notation "hIdx" => (Memref.whole Cert.Kernel.main_v0_scv : Memref Cert.Kernel.sig Kind.scVector Space.hbm Cert.Kernel.S3276800 EltTy.i32)
local notation "hOut" => (Memref.whole Cert.Kernel.main_v2_scv : Memref Cert.Kernel.sig Kind.scVector Space.hbm Cert.Kernel.S3276800x64 EltTy.f32)
local notation "sTab" => (Memref.whole Cert.Kernel.cc0_scratch0 : Memref Cert.Kernel.sig Kind.scVector Space.vmem Cert.Kernel.S4224 EltTy.f32)
local notation "sI0" => (Memref.whole Cert.Kernel.cc0_scratch1 : Memref Cert.Kernel.sig Kind.scVector Space.vmem Cert.Kernel.S256 EltTy.i32)
local notation "sI1" => (Memref.whole Cert.Kernel.cc0_scratch2 : Memref Cert.Kernel.sig Kind.scVector Space.vmem Cert.Kernel.S256 EltTy.i32)
local notation "sO0" => (Memref.whole Cert.Kernel.cc0_scratch3 : Memref Cert.Kernel.sig Kind.scVector Space.vmem Cert.Kernel.S256x64 EltTy.f32)
local notation "sO1" => (Memref.whole Cert.Kernel.cc0_scratch4 : Memref Cert.Kernel.sig Kind.scVector Space.vmem Cert.Kernel.S256x64 EltTy.f32)

/-- What a trip's 64 stores leave in the output scratch. -/
theorem writes_trip0 (o : S256x64.Idx → Elt F .f32) (tab : S4224.Idx → Elt F .f32) (enc : S256.Idx → BitVec 32) (k : ℕ)
    (L : List (View.Piece (Elt F) S256x64 .f32)) (hL : List.Forall₂ (PieceOk (gfun tab enc) k) L S64) :
    (sO0).view.writes (Elt F) o L = tripUpd tab enc k o := by
  funext j
  exact read_writes_trip (sO0).view o tab enc k L hL j

/-- What a trip's 64 stores leave in the output scratch. -/
theorem writes_trip1 (o : S256x64.Idx → Elt F .f32) (tab : S4224.Idx → Elt F .f32) (enc : S256.Idx → BitVec 32) (k : ℕ)
    (L : List (View.Piece (Elt F) S256x64 .f32)) (hL : List.Forall₂ (PieceOk (gfun tab enc) k) L S64) :
    (sO1).view.writes (Elt F) o L = tripUpd tab enc k o := by
  funext j
  exact read_writes_trip (sO1).view o tab enc k L hL j

/-- One trip of the first inner loop (index buffer 0, output buffer 0). -/
theorem t2_trip (d : Dev nD) (L : grid0.Coords) (v2 : BitVec 32) (v9 : IVec S16 32) (c0 c1 : BitVec 32)
    (k0_t1 : Fin k0_t1_loop.trips) (k : Fin k0_t2_loop.trips)
    (hv9 : v9 = iota .scVector S16 32 [0] iota_S16_d0_w32_scVector)
    (tab : S4224.Idx → Elt F .f32) (enc : S256.Idx → BitVec 32) (o : S256x64.Idx → Elt F .f32)
    (hle : ∀ x, (enc x).toNat ≤ 65) :
    (iprop(((sTab).view.loc (thr d L) ↦{fullShare} tab) ∗ ((sI0).view.loc (thr d L) ↦{fullShare} enc)
        ∗ ((sO0).view.loc (thr d L) ↦{fullShare} o)) : sProp 𝕄)
      ⊢ wp frame (wpE (defs₀ (F := F)) Variants.none (thr d L) none) Set.univ
          (k0_t2_body L hTab (Memref.isWhole_whole _) hIdx (Memref.isWhole_whole _) hOut (Memref.isWhole_whole _)
            sTab (Memref.isWhole_whole _) sI0 (Memref.isWhole_whole _) sI1 (Memref.isWhole_whole _)
            sO0 (Memref.isWhole_whole _) sO1 (Memref.isWhole_whole _)
            cc0_scratch5 cc0_scratch6 cc0_scratch7 cc0_scratch8 cc0_scratch9 v2 v9 c0 c1 k0_t1 k ())
          fun _ => iprop(((sTab).view.loc (thr d L) ↦{fullShare} tab) ∗ ((sI0).view.loc (thr d L) ↦{fullShare} enc)
            ∗ ((sO0).view.loc (thr d L) ↦{fullShare} tripUpd tab enc k.val o)) := by
  subst hv9
  have hk : k.val < 16 := k.isLt
  have henc : ∀ (j j' : S256.Idx), (j 0).val = (j' 0).val → enc j = enc j' := fun j j' h =>
    congrArg enc (by rw [ValueIdx.eq_ix1 j, ValueIdx.eq_ix1 j']; exact congrArg _ (Fin.ext h))
  -- the 16 loaded indices are enc[16 k .. 16 k + 16)
  have hlane : ∀ (l : ℕ) (hl : l < 16) (h1 : S16.Slices ![l] S1) (h2 : ∀ a, (![0] : Fin 1 → ℕ) a < S1.size a),
      extractAt ![0] (extractStridedSlice (s := S16) S1 ![l]
          (View.readAt (Elt F) (sI0).view (Rect.unit (s := S256) (k0_off4 k) S16.size (k0_off4_inb k)).toLoadRect enc : IVec S16 32) h1) h2
        = enc (ValueIdx.ix1 (n := 256) ⟨16 * k.val + l, by omega⟩) := by
    intro l hl h1 h2
    rw [lane_eq _ l hl h1 h2]
    apply henc
    have ho := congrFun (k0_off4_eq k) 0
    show k0_off4 k 0 + 1 * l = 16 * k.val + l
    rw [ho]
    show 16 * k.val + 1 * l = 16 * k.val + l
    omega
  iintro ⟨Ht, Hi, Ho⟩
  sl_respell [k0_t2_body, k0_part1, k0_part2, k0_part3, k0_part4, k0_part5, k0_part6, k0_part7, k0_part8, k0_part9, k0_part10, k0_part11, k0_part12, k0_part13, k0_part14, k0_part15, k0_part16, k0_part17, k0_part18, k0_part19, SparseCore.vectorLoadIdx]
  sl_exec (disch := (refine chk_ok _ _ _ rfl ?_ (by decide); exact (congrArg BitVec.toNat (hlane _ (by decide) _ _)).trans_le (hle _)))
  sl_step
  isplitl [Ht]; · iexact Ht
  isplitl [Hi]; · iexact Hi
  iapply (Entails.of_eq (congrArg (fun f => ((sO0).view.loc (thr d L) ↦{fullShare} f : sProp 𝕄)) (writes_trip0 o tab enc k.val _ ?hL))) $$ Ho
  case hL =>
    repeat (first
      | exact List.Forall₂.nil
      | refine List.Forall₂.cons (piece_ok tab enc hle k.val _ _ _ _ (by omega) (by decide) rfl _ (Memref.readAt_whole _ _ _) _ _ _ rfl
          (hlane _ (by decide) _ _) rfl _ _) ?_)

/-- One trip of the second inner loop (index buffer 1, output buffer 1). -/
theorem t3_trip (d : Dev nD) (L : grid0.Coords) (v2 : BitVec 32) (v9 : IVec S16 32) (c0 c1 : BitVec 32)
    (k0_t1 : Fin k0_t1_loop.trips) (k : Fin k0_t3_loop.trips)
    (hv9 : v9 = iota .scVector S16 32 [0] iota_S16_d0_w32_scVector)
    (tab : S4224.Idx → Elt F .f32) (enc : S256.Idx → BitVec 32) (o : S256x64.Idx → Elt F .f32)
    (hle : ∀ x, (enc x).toNat ≤ 65) :
    (iprop(((sTab).view.loc (thr d L) ↦{fullShare} tab) ∗ ((sI1).view.loc (thr d L) ↦{fullShare} enc)
        ∗ ((sO1).view.loc (thr d L) ↦{fullShare} o)) : sProp 𝕄)
      ⊢ wp frame (wpE (defs₀ (F := F)) Variants.none (thr d L) none) Set.univ
          (k0_t3_body L hTab (Memref.isWhole_whole _) hIdx (Memref.isWhole_whole _) hOut (Memref.isWhole_whole _)
            sTab (Memref.isWhole_whole _) sI0 (Memref.isWhole_whole _) sI1 (Memref.isWhole_whole _)
            sO0 (Memref.isWhole_whole _) sO1 (Memref.isWhole_whole _)
            cc0_scratch5 cc0_scratch6 cc0_scratch7 cc0_scratch8 cc0_scratch9 v2 v9 c0 c1 k0_t1 k ())
          fun _ => iprop(((sTab).view.loc (thr d L) ↦{fullShare} tab) ∗ ((sI1).view.loc (thr d L) ↦{fullShare} enc)
            ∗ ((sO1).view.loc (thr d L) ↦{fullShare} tripUpd tab enc k.val o)) := by
  subst hv9
  have hk : k.val < 16 := k.isLt
  have henc : ∀ (j j' : S256.Idx), (j 0).val = (j' 0).val → enc j = enc j' := fun j j' h =>
    congrArg enc (by rw [ValueIdx.eq_ix1 j, ValueIdx.eq_ix1 j']; exact congrArg _ (Fin.ext h))
  -- the 16 loaded indices are enc[16 k .. 16 k + 16)
  have hlane : ∀ (l : ℕ) (hl : l < 16) (h1 : S16.Slices ![l] S1) (h2 : ∀ a, (![0] : Fin 1 → ℕ) a < S1.size a),
      extractAt ![0] (extractStridedSlice (s := S16) S1 ![l]
          (View.readAt (Elt F) (sI1).view (Rect.unit (s := S256) (k0_off41 k) S16.size (k0_off41_inb k)).toLoadRect enc : IVec S16 32) h1) h2
        = enc (ValueIdx.ix1 (n := 256) ⟨16 * k.val + l, by omega⟩) := by
    intro l hl h1 h2
    rw [lane_eq _ l hl h1 h2]
    apply henc
    have ho := congrFun (k0_off41_eq k) 0
    show k0_off41 k 0 + 1 * l = 16 * k.val + l
    rw [ho]
    show 16 * k.val + 1 * l = 16 * k.val + l
    omega
  iintro ⟨Ht, Hi, Ho⟩
  sl_respell [k0_t3_body, k0_part20, k0_part21, k0_part22, k0_part23, k0_part24, k0_part25, k0_part26, k0_part27, k0_part28, k0_part29, k0_part30, k0_part31, k0_part32, k0_part33, k0_part34, k0_part35, k0_part36, k0_part37, k0_part38, SparseCore.vectorLoadIdx]
  sl_exec (disch := (refine chk_ok _ _ _ rfl ?_ (by decide); exact (congrArg BitVec.toNat (hlane _ (by decide) _ _)).trans_le (hle _)))
  sl_step
  isplitl [Ht]; · iexact Ht
  isplitl [Hi]; · iexact Hi
  iapply (Entails.of_eq (congrArg (fun f => ((sO1).view.loc (thr d L) ↦{fullShare} f : sProp 𝕄)) (writes_trip1 o tab enc k.val _ ?hL))) $$ Ho
  case hL =>
    repeat (first
      | exact List.Forall₂.nil
      | refine List.Forall₂.cons (piece_ok tab enc hle k.val _ _ _ _ (by omega) (by decide) rfl _ (Memref.readAt_whole _ _ _) _ _ _ rfl
          (hlane _ (by decide) _ _) rfl _ _) ?_)

end Cert.Proof.KB.Trip

end
-- ==== Proof.Bits.Tile.lean ====
/-
  The lookup on ONE vector subcore, at a symbolic tile `L` of device `d`: the tile with worker number
  `w = 2·subcore + core` owns the 102,400 indices from `w · 102400` on and the same rows of the result, and works
  through them in 400 steps of 256.

  The transfers. Five semaphores, each with at most one copy outstanding, and no access to a copy's source or
  destination while it is pending:
    * the table, whole, into its scratch: issued and waited for at once;
    * the indices of step `s` into the first index buffer (`s` even) or the second (`s` odd), each buffer on its own
      semaphore: the first two issued before the loop, the copy for step `s + 2` issued at the end of step `s`, after
      the step has read the buffer, and waited for at the start of step `s + 2`;
    * the 256 gathered rows of step `s` out of the first output buffer (`s` even) or the second (`s` odd), each on its
      own semaphore: issued after the step has filled the buffer, waited for at the start of step `s + 2`, before the
      buffer is overwritten; the last two after the loop.
  The outer loop has 200 trips of two steps. Before trip `t`: the table scratch holds the table; the indices below step
  `2t` are back in hand, those of steps `2t` and `2t + 1` are in flight, the later ones still in hand; the rows below
  step `2t - 2` hold the result, those of steps `2t - 2` and `2t - 1` are in flight (at the result), the later ones
  untouched. A step's inner loop of 16 trips fills the output buffer 16 rows at a time from the table scratch at the
  landed indices, each of which is at most 65 because every index is.

  The value: row `r` of the result is the table's row `idx r`, entry `(r, e)` the flat table at `idx r · 64 + e`. A landed
  chunk of indices is the index array read at the chunk's positions; the rows an output copy writes are the result's rows
  at those positions; the 400 chunks of a tile are consecutive ranges, joined back into the tile's part at the end.
-/
import proofs.«204299_g532575945014_cont_9to1c4b_494_30_alg».proof.Proof.Bits.Common
import proofs.«204299_g532575945014_cont_9to1c4b_494_30_alg».proof.Proof.Gen.Kernel
import proofs.«204299_g532575945014_cont_9to1c4b_494_30_alg».proof.Proof.Gen.Kernel.Skeleton
import proofs.«204299_g532575945014_cont_9to1c4b_494_30_alg».proof.Proof.Bits.Trip
import Idealize.ShloMosaic.Lib.SparseCore.Launch
import Idealize.ShloMosaic.Lib.SparseCore.Ops
import Idealize.ShloMosaic.Lib.Pipeline.Kit
import Idealize.ShloMosaic.Lib.Tactic
import Idealize.ShloMosaic.Lib.WordExact

noncomputable section

namespace Cert.Proof.KB.Tile

open Cert.Kernel Cert.Kernel.Gen
open Cert.Proof.KB

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 1) fun p => (pcfgs (F := F) p).Adm
abbrev K : SparseCore.Cfg τ sig (ΛP (F := F)) 1 := sc (F := F)
abbrev 𝒱₀ : Variants := Variants.none

variable {U : Type} [URA U] [CountersIn U]

local notation "𝕄" => MT nD τ sig (HIx 1) (Elt F) ℕ U ℕ

local notation "tV" => (Memref.whole Cert.Kernel.main_v1_scv : Memref Cert.Kernel.sig Kind.scVector Space.hbm Cert.Kernel.S4224 EltTy.f32)
local notation "iV" => (Memref.whole Cert.Kernel.main_v0_scv : Memref Cert.Kernel.sig Kind.scVector Space.hbm Cert.Kernel.S3276800 EltTy.i32)
local notation "oV" => (Memref.whole Cert.Kernel.main_v2_scv : Memref Cert.Kernel.sig Kind.scVector Space.hbm Cert.Kernel.S3276800x64 EltTy.f32)
local notation "b0" => (Memref.whole Cert.Kernel.cc0_scratch0 : Memref Cert.Kernel.sig Kind.scVector Space.vmem Cert.Kernel.S4224 EltTy.f32)
local notation "b1" => (Memref.whole Cert.Kernel.cc0_scratch1 : Memref Cert.Kernel.sig Kind.scVector Space.vmem Cert.Kernel.S256 EltTy.i32)
local notation "b2" => (Memref.whole Cert.Kernel.cc0_scratch2 : Memref Cert.Kernel.sig Kind.scVector Space.vmem Cert.Kernel.S256 EltTy.i32)
local notation "b3" => (Memref.whole Cert.Kernel.cc0_scratch3 : Memref Cert.Kernel.sig Kind.scVector Space.vmem Cert.Kernel.S256x64 EltTy.f32)
local notation "b4" => (Memref.whole Cert.Kernel.cc0_scratch4 : Memref Cert.Kernel.sig Kind.scVector Space.vmem Cert.Kernel.S256x64 EltTy.f32)

variable [FloatOps F]

section Tile

variable (d : Dev nD) (L : grid0.Coords)

abbrev cV (L : grid0.Coords) : Fin τ.nSC := (L 0).castLE hcore0
abbrev jV (L : grid0.Coords) : Fin τ.nSub := (L 1).castLE hsub0
/-- The tile's thread. -/
abbrev thr (d : Dev nD) (L : grid0.Coords) : Thread nD τ := V d (cV L) (jV L)

abbrev cell (d : Dev nD) (L : grid0.Coords) (s : DmaSems sig S_) : GSem nD τ sig := (thr d L, .dma s.sem)

omit [FloatOps F] in
theorem cell_mem (s : DmaSems sig S_) (h : (SemLoc.dma s.sem : SemLoc sig).isScoped .scVector = true) :
    cell d L s ∈ ownCells (thr d L) := (mem_ownCells (g := cell d L s)).mpr ⟨rfl, h⟩

omit [FloatOps F] in
theorem cell_ne {s s' : DmaSems sig S_} (h : (SemLoc.dma s.sem : SemLoc sig) ≠ SemLoc.dma s'.sem) : cell d L s ≠ cell d L s' :=
  fun e => h (congrArg Prod.snd e)

omit [FloatOps F] in
theorem ownSems0_V :
    (ownSems0 (thr d L) : sProp 𝕄)
      = iprop(semVal (cell d L cc0_scratch5) 0 ∗ semVal (cell d L cc0_scratch6) 0 ∗ semVal (cell d L cc0_scratch7) 0
          ∗ semVal (cell d L cc0_scratch8) 0 ∗ semVal (cell d L cc0_scratch9) 0
          ∗ bigSep ((((((ownCells (thr d L)).erase (cell d L cc0_scratch5)).erase (cell d L cc0_scratch6)).erase (cell d L cc0_scratch7)).erase
              (cell d L cc0_scratch8)).erase (cell d L cc0_scratch9)) fun g => semVal g 0) := by
  unfold SparseCore.Cfg.ownSems0
  have m5 := cell_mem d L cc0_scratch5 (by decide)
  have m6 := cell_mem d L cc0_scratch6 (by decide)
  have m7 := cell_mem d L cc0_scratch7 (by decide)
  have m8 := cell_mem d L cc0_scratch8 (by decide)
  have m9 := cell_mem d L cc0_scratch9 (by decide)
  have n65 : cell d L cc0_scratch6 ≠ cell d L cc0_scratch5 := cell_ne d L (by decide)
  have n75 : cell d L cc0_scratch7 ≠ cell d L cc0_scratch5 := cell_ne d L (by decide)
  have n76 : cell d L cc0_scratch7 ≠ cell d L cc0_scratch6 := cell_ne d L (by decide)
  have n85 : cell d L cc0_scratch8 ≠ cell d L cc0_scratch5 := cell_ne d L (by decide)
  have n86 : cell d L cc0_scratch8 ≠ cell d L cc0_scratch6 := cell_ne d L (by decide)
  have n87 : cell d L cc0_scratch8 ≠ cell d L cc0_scratch7 := cell_ne d L (by decide)
  have n95 : cell d L cc0_scratch9 ≠ cell d L cc0_scratch5 := cell_ne d L (by decide)
  have n96 : cell d L cc0_scratch9 ≠ cell d L cc0_scratch6 := cell_ne d L (by decide)
  have n97 : cell d L cc0_scratch9 ≠ cell d L cc0_scratch7 := cell_ne d L (by decide)
  have n98 : cell d L cc0_scratch9 ≠ cell d L cc0_scratch8 := cell_ne d L (by decide)
  rw [SparseCore.bigSep_erase' m5,
    SparseCore.bigSep_erase' (Finset.mem_erase.mpr ⟨n65, m6⟩),
    SparseCore.bigSep_erase' (Finset.mem_erase.mpr ⟨n76, Finset.mem_erase.mpr ⟨n75, m7⟩⟩),
    SparseCore.bigSep_erase' (Finset.mem_erase.mpr ⟨n87, Finset.mem_erase.mpr ⟨n86, Finset.mem_erase.mpr ⟨n85, m8⟩⟩⟩),
    SparseCore.bigSep_erase' (Finset.mem_erase.mpr ⟨n98, Finset.mem_erase.mpr ⟨n97, Finset.mem_erase.mpr ⟨n96, Finset.mem_erase.mpr ⟨n95, m9⟩⟩⟩⟩)]

abbrev bref (L : grid0.Coords) (r : Ref sig .scVector) : DevRef τ sig := (Proc.scVector (cV L) (jV L)).devRef r

omit [FloatOps F] in
theorem bref_mem (r : Ref sig .scVector) (h : (bref L r).owner = .proc (Proc.scVector (cV L) (jV L))) :
    bref L r ∈ ownRefs (τ := τ) (.scVector (cV L) (jV L)) := SparseCore.Cfg.mem_ownRefs_of_owner h

omit [FloatOps F] in
theorem bref_ne {r r' : Ref sig .scVector} (h : r ≠ r') : bref L r ≠ bref L r' :=
  fun e => h (Proc.devRef_injective _ e)

omit [FloatOps F] in
/-- The five scratch buffers are among the subcore's own. -/
theorem ownBufs_V :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f) ∗ (∃ f, (thr d L).loc cc0_scratch3 ↦{fullShare} f)
          ∗ (∃ f, (thr d L).loc cc0_scratch4 ↦{fullShare} f)
          ∗ bigSep ((((((ownRefs (τ := τ) (.scVector (cV L) (jV L))).erase (bref L cc0_scratch0)).erase (bref L cc0_scratch1)).erase
              (bref L cc0_scratch2)).erase (bref L cc0_scratch3)).erase (bref L cc0_scratch4))
              fun b => iprop(∃ f, ((d, b) : Loc nD τ sig) ↦{fullShare} f)) := by
  unfold SparseCore.Cfg.ownBufs
  have m0 := bref_mem L cc0_scratch0 rfl
  have m1 := bref_mem L cc0_scratch1 rfl
  have m2 := bref_mem L cc0_scratch2 rfl
  have m3 := bref_mem L cc0_scratch3 rfl
  have m4 := bref_mem L cc0_scratch4 rfl
  have n10 : bref L cc0_scratch1 ≠ bref L cc0_scratch0 := bref_ne L (by decide)
  have n20 : bref L cc0_scratch2 ≠ bref L cc0_scratch0 := bref_ne L (by decide)
  have n21 : bref L cc0_scratch2 ≠ bref L cc0_scratch1 := bref_ne L (by decide)
  have n30 : bref L cc0_scratch3 ≠ bref L cc0_scratch0 := bref_ne L (by decide)
  have n31 : bref L cc0_scratch3 ≠ bref L cc0_scratch1 := bref_ne L (by decide)
  have n32 : bref L cc0_scratch3 ≠ bref L cc0_scratch2 := bref_ne L (by decide)
  have n40 : bref L cc0_scratch4 ≠ bref L cc0_scratch0 := bref_ne L (by decide)
  have n41 : bref L cc0_scratch4 ≠ bref L cc0_scratch1 := bref_ne L (by decide)
  have n42 : bref L cc0_scratch4 ≠ bref L cc0_scratch2 := bref_ne L (by decide)
  have n43 : bref L cc0_scratch4 ≠ bref L cc0_scratch3 := bref_ne L (by decide)
  refine (SparseCore.bigSep_erase' m0).trans ?_
  rw [SparseCore.bigSep_erase' (Finset.mem_erase.mpr ⟨n10, m1⟩),
    SparseCore.bigSep_erase' (Finset.mem_erase.mpr ⟨n21, Finset.mem_erase.mpr ⟨n20, m2⟩⟩),
    SparseCore.bigSep_erase' (Finset.mem_erase.mpr ⟨n32, Finset.mem_erase.mpr ⟨n31, Finset.mem_erase.mpr ⟨n30, m3⟩⟩⟩),
    SparseCore.bigSep_erase' (Finset.mem_erase.mpr ⟨n43, Finset.mem_erase.mpr ⟨n42, Finset.mem_erase.mpr ⟨n41, Finset.mem_erase.mpr ⟨n40, m4⟩⟩⟩⟩)]

omit [FloatOps F] in
theorem pts_tV (q : PosShare TreeShare) (f : Buf (Elt F) (tLoc d)) :
    ((tV).view.loc (thr d L) ↦{q} f : sProp 𝕄) = tLoc d ↦{q} f := rfl
omit [FloatOps F] in
theorem pts_b0 (f : Buf (Elt F) ((thr d L).loc cc0_scratch0)) :
    ((b0).view.loc (thr d L) ↦{fullShare} f : sProp 𝕄) = (thr d L).loc cc0_scratch0 ↦{fullShare} f := rfl
omit [FloatOps F] in
theorem pts_b1 (f : Buf (Elt F) ((thr d L).loc cc0_scratch1)) :
    ((b1).view.loc (thr d L) ↦{fullShare} f : sProp 𝕄) = (thr d L).loc cc0_scratch1 ↦{fullShare} f := rfl
omit [FloatOps F] in
theorem pts_b2 (f : Buf (Elt F) ((thr d L).loc cc0_scratch2)) :
    ((b2).view.loc (thr d L) ↦{fullShare} f : sProp 𝕄) = (thr d L).loc cc0_scratch2 ↦{fullShare} f := rfl
omit [FloatOps F] in
theorem pts_b3 (f : Buf (Elt F) ((thr d L).loc cc0_scratch3)) :
    ((b3).view.loc (thr d L) ↦{fullShare} f : sProp 𝕄) = (thr d L).loc cc0_scratch3 ↦{fullShare} f := rfl
omit [FloatOps F] in
theorem pts_b4 (f : Buf (Elt F) ((thr d L).loc cc0_scratch4)) :
    ((b4).view.loc (thr d L) ↦{fullShare} f : sProp 𝕄) = (thr d L).loc cc0_scratch4 ↦{fullShare} f := rfl

/-! ## Ranges of rows

The tile's indices and rows are consecutive; a step's chunk is a range of 256 of them. Elements are grouped by the
range their first coordinate lies in. -/

/-- The flat indices at positions `[lo, hi)`. -/
def iRng (lo hi : ℕ) : Finset S3276800.Idx := Finset.univ.filter fun j => lo ≤ (j 0).val ∧ (j 0).val < hi
/-- The elements of the rows `[lo, hi)`. -/
def oRng (lo hi : ℕ) : Finset S3276800x64.Idx := Finset.univ.filter fun j => lo ≤ (j 0).val ∧ (j 0).val < hi

theorem mem_iRng {lo hi : ℕ} {j : S3276800.Idx} : j ∈ iRng lo hi ↔ lo ≤ (j 0).val ∧ (j 0).val < hi := by simp [iRng]
theorem mem_oRng {lo hi : ℕ} {j : S3276800x64.Idx} : j ∈ oRng lo hi ↔ lo ≤ (j 0).val ∧ (j 0).val < hi := by simp [oRng]

theorem iRng_union {a b c : ℕ} (h1 : a ≤ b) (h2 : b ≤ c) : iRng a b ∪ iRng b c = iRng a c := by
  ext j; simp only [Finset.mem_union, mem_iRng]; omega
theorem oRng_union {a b c : ℕ} (h1 : a ≤ b) (h2 : b ≤ c) : oRng a b ∪ oRng b c = oRng a c := by
  ext j; simp only [Finset.mem_union, mem_oRng]; omega
theorem iRng_disj {a b c : ℕ} : Disjoint (iRng a b) (iRng b c) :=
  Finset.disjoint_left.mpr fun j h1 h2 => by rw [mem_iRng] at h1 h2; omega
theorem oRng_disj {a b c : ℕ} : Disjoint (oRng a b) (oRng b c) :=
  Finset.disjoint_left.mpr fun j h1 h2 => by rw [mem_oRng] at h1 h2; omega
theorem iRng_empty (a : ℕ) : iRng a a = ∅ := by
  ext j; simp only [mem_iRng, Finset.notMem_empty, iff_false]; omega
theorem oRng_empty (a : ℕ) : oRng a a = ∅ := by
  ext j; simp only [mem_oRng, Finset.notMem_empty, iff_false]; omega

/-- The first index (row) of the tile at `L`. -/
def base (L : grid0.Coords) : ℕ := 204800 * (L 1).val + 102400 * (L 0).val

theorem base_eq (L : grid0.Coords) : base L = 102400 * (wid L).val := by
  unfold base wid; simp only []; omega

theorem base_le (L : grid0.Coords) : base L + 102400 ≤ 3276800 := by
  have h0 : (L 0).val < 2 := (L 0).isLt
  have h1 : (L 1).val < 16 := (L 1).isLt
  unfold base; omega

theorem iSet_eq (L : grid0.Coords) : iSet (wid L) = iRng (base L) (base L + 102400) := by
  show ((View.whole (main_v0_scv : Ref sig .scVector)).slice (iPart (wid L))).set = _
  rw [View.set_slice_whole]
  ext j
  rw [Rect.mem_set_unit, mem_iRng, base_eq]
  change (∀ a : Fin 1, _) ↔ _
  rw [Fin.forall_fin_one]
  simp only [Shape.partIx, Shape.partSize, if_true]
  show (wid L).val * (3276800 / 32) ≤ (j 0).val ∧ (j 0).val < (wid L).val * (3276800 / 32) + 3276800 / 32 ↔ _
  omega

theorem oSet_eq (L : grid0.Coords) : oSet (wid L) = oRng (base L) (base L + 102400) := by
  show ((View.whole (main_v2_scv : Ref sig .scVector)).slice (oPart (wid L))).set = _
  rw [View.set_slice_whole]
  ext j
  rw [Rect.mem_set_unit, mem_oRng, base_eq]
  change (∀ a : Fin 2, _) ↔ _
  rw [Fin.forall_fin_two]
  have h1 : (j 1).val < 64 := (j 1).isLt
  simp only [Shape.partIx, Shape.partSize, if_true]
  show ((wid L).val * (3276800 / 32) ≤ (j 0).val ∧ (j 0).val < (wid L).val * (3276800 / 32) + 3276800 / 32)
      ∧ (0 * 64 ≤ (j 1).val ∧ (j 1).val < 0 * 64 + 64) ↔ _
  omega

/-! ## The chunks, as the program slices them -/

/-- The 256 indices at offsets `off`, and the 256 rows at offsets `off`. -/
abbrev iCh (off : Fin 1 → ℕ) (inb : ∀ a, off a + S256.size a ≤ S3276800.size a) : Memref sig .scVector .hbm S256 .i32 :=
  (iV).slice (Rect.unit (s := S3276800) off S256.size inb) (fun _ => rfl)
abbrev oCh (off : Fin 2 → ℕ) (inb : ∀ a, off a + S256x64.size a ≤ S3276800x64.size a) : Memref sig .scVector .hbm S256x64 .f32 :=
  (oV).slice (Rect.unit (s := S3276800x64) off S256x64.size inb) (fun _ => rfl)

omit [FloatOps F] in
theorem iCh_set (off : Fin 1 → ℕ) (inb) (n : ℕ) (h : off = ![n]) : (iCh off inb).view.set = iRng n (n + 256) := by
  subst h
  show ((View.whole (main_v0_scv : Ref sig .scVector)).slice _).set = _
  rw [View.set_slice_whole]
  ext j
  rw [Rect.mem_set_unit, mem_iRng]
  change (∀ a : Fin 1, _) ↔ _
  rw [Fin.forall_fin_one]
  exact Iff.rfl

omit [FloatOps F] in
theorem oCh_set (off : Fin 2 → ℕ) (inb) (n : ℕ) (h : off = ![n, 0]) : (oCh off inb).view.set = oRng n (n + 256) := by
  subst h
  show ((View.whole (main_v2_scv : Ref sig .scVector)).slice _).set = _
  rw [View.set_slice_whole]
  ext j
  rw [Rect.mem_set_unit, mem_oRng]
  change (∀ a : Fin 2, _) ↔ _
  rw [Fin.forall_fin_two]
  have h1 : (j 1).val < 64 := (j 1).isLt
  show ((n ≤ (j 0).val ∧ (j 0).val < n + 256) ∧ (0 ≤ (j 1).val ∧ (j 1).val < 0 + 64)) ↔ _
  omega

omit [FloatOps F] in
theorem pts_iCh (off : Fin 1 → ℕ) (inb) (n : ℕ) (h : off = ![n]) (f : Buf (Elt F) (iLoc d)) :
    ((iCh off inb).view.loc (thr d L) ↦[(iCh off inb).view.set]{fullShare} f : sProp 𝕄) = iLoc d ↦[iRng n (n + 256)]{fullShare} f := by
  rw [iCh_set off inb n h]
omit [FloatOps F] in
theorem pts_oCh (off : Fin 2 → ℕ) (inb) (n : ℕ) (h : off = ![n, 0]) (f : Buf (Elt F) (oLoc d)) :
    ((oCh off inb).view.loc (thr d L) ↦[(oCh off inb).view.set]{fullShare} f : sProp 𝕄) = oLoc d ↦[oRng n (n + 256)]{fullShare} f := by
  rw [oCh_set off inb n h]

omit [FloatOps F] in
theorem pts_iRng_split (q : PosShare TreeShare) (f : Buf (Elt F) (iLoc d)) {a b c : ℕ} (h1 : a ≤ b) (h2 : b ≤ c) :
    (iLoc d ↦[iRng a c]{q} f : sProp 𝕄) ⊣⊢ iprop((iLoc d ↦[iRng a b]{q} f) ∗ iLoc d ↦[iRng b c]{q} f) := by
  rw [← iRng_union h1 h2]; exact pointsTo_union iRng_disj
omit [FloatOps F] in
theorem pts_oRng_split (q : PosShare TreeShare) (f : Buf (Elt F) (oLoc d)) {a b c : ℕ} (h1 : a ≤ b) (h2 : b ≤ c) :
    (oLoc d ↦[oRng a c]{q} f : sProp 𝕄) ⊣⊢ iprop((oLoc d ↦[oRng a b]{q} f) ∗ oLoc d ↦[oRng b c]{q} f) := by
  rw [← oRng_union h1 h2]; exact pointsTo_union oRng_disj

omit [FloatOps F] in
/-- The same range under other spellings of its bounds. -/
theorem iRng_cast (q : PosShare TreeShare) (f : Buf (Elt F) (iLoc d)) (a b a' b' : ℕ) (ha : a = a') (hb : b = b') :
    (iLoc d ↦[iRng a b]{q} f : sProp 𝕄) ⊢ iLoc d ↦[iRng a' b']{q} f := by
  subst ha; subst hb; iintro H; iexact H
omit [FloatOps F] in
theorem oRng_cast (q : PosShare TreeShare) (f : Buf (Elt F) (oLoc d)) (a b a' b' : ℕ) (ha : a = a') (hb : b = b') :
    (oLoc d ↦[oRng a b]{q} f : sProp 𝕄) ⊢ oLoc d ↦[oRng a' b']{q} f := by
  subst ha; subst hb; iintro H; iexact H

/-! ## The values -/

/-- The 256 indices from position `n` on (the remainder only makes the function total). -/
def encOf (idx : S3276800.Idx → BitVec 32) (n : ℕ) : S256.Idx → BitVec 32 :=
  fun x => idx (ValueIdx.ix1 (n := 3276800) ⟨(n + (x 0).val) % 3276800, Nat.mod_lt _ (by norm_num)⟩)

/-- A buffer of 256 rows gathered from the table at the indices `enc`. -/
def rowsAt (tab : S4224.Idx → Elt F .f32) (enc : S256.Idx → BitVec 32) : S256x64.Idx → Elt F .f32 :=
  fun j => gRow tab (enc (ValueIdx.ix1 (n := 256) (j 0))) (j 1)

/-- The output buffer after `k` inner trips: the rows below `16 k` gathered, the others as at entry. -/
def innerAcc (tab : S4224.Idx → Elt F .f32) (enc : S256.Idx → BitVec 32) (k : ℕ) (o : S256x64.Idx → Elt F .f32) :
    S256x64.Idx → Elt F .f32 :=
  fun j => if (j 0).val < 16 * k then gRow tab (enc (ValueIdx.ix1 (n := 256) (j 0))) (j 1) else o j

theorem innerAcc_zero (tab : S4224.Idx → Elt F .f32) (enc : S256.Idx → BitVec 32) (o : S256x64.Idx → Elt F .f32) :
    innerAcc tab enc 0 o = o := by
  funext j; unfold innerAcc; rw [if_neg (by omega)]

theorem innerAcc_succ (tab : S4224.Idx → Elt F .f32) (enc : S256.Idx → BitVec 32) (k : ℕ) (o : S256x64.Idx → Elt F .f32) :
    Trip.tripUpd tab enc k (innerAcc tab enc k o) = innerAcc tab enc (k + 1) o := by
  funext j
  by_cases h : 16 * k ≤ (j 0).val ∧ (j 0).val < 16 * k + 16
  · rw [Trip.tripUpd_of_mem (h := h)]; unfold innerAcc; rw [if_pos (by omega)]
  · rw [Trip.tripUpd_of_not_mem (h := h)]; unfold innerAcc
    by_cases h' : (j 0).val < 16 * k
    · rw [if_pos h', if_pos (by omega)]
    · rw [if_neg h', if_neg (by omega)]

theorem innerAcc_full (tab : S4224.Idx → Elt F .f32) (enc : S256.Idx → BitVec 32) (o : S256x64.Idx → Elt F .f32) :
    innerAcc tab enc 16 o = rowsAt tab enc := by
  funext j; unfold innerAcc rowsAt
  have h : (j 0).val < 256 := (j 0).isLt
  rw [if_pos (by omega)]

/-! ## What a chunk's copy carries -/

omit [FloatOps F] in
/-- The chunk of the index array at `n`, read through its slice, is the 256 indices from `n` on. -/
theorem iCh_read (off : Fin 1 → ℕ) (inb) (n : ℕ) (h : off = ![n]) (idx : Buf (Elt F) (iLoc d)) :
    (iCh off inb).view.read (Elt F) idx = encOf idx n := by
  subst h
  funext x
  refine (View.read_apply _ _).trans ((cast_eq _ _).trans ?_)
  unfold encOf
  congr 1
  funext a
  match a with
  | ⟨0, _⟩ =>
    refine Fin.ext ?_
    have hx : (x 0).val < 256 := (x 0).isLt
    have hb : n + 256 ≤ 3276800 := inb 0
    show n + 1 * (x 0).val = (n + (x 0).val) % 3276800
    rw [Nat.mod_eq_of_lt (by omega)]; omega

omit [FloatOps F] in
/-- The 256 gathered rows written through the slice of the rows at `n` are the result's rows there. -/
theorem oCh_write (off : Fin 2 → ℕ) (inb) (n : ℕ) (h : off = ![n, 0]) (fo : Buf (Elt F) (oLoc d))
    (tab : Buf (Elt F) (tLoc d)) (idx : Buf (Elt F) (iLoc d)) :
    ∀ i ∈ oRng n (n + 256), (oCh off inb).view.write (Elt F) fo (rowsAt tab (encOf idx n)) Finset.univ i = gOut tab idx i := by
  intro i hi
  have hi' : i ∈ (oCh off inb).view.set := by rw [oCh_set off inb n h]; exact hi
  subst h
  obtain ⟨x, -, rfl⟩ := Finset.mem_map.mp hi'
  rw [View.write_emb_of_mem _ _ (Finset.mem_univ x)]
  refine (cast_eq _ _).trans ?_
  have hx : (x 0).val < 256 := (x 0).isLt
  have hb : n + 256 ≤ 3276800 := inb 0
  unfold rowsAt gOut encOf
  have e1 : x 1 = ((oCh ![n, 0] inb).view.emb x) 1 := Fin.ext (by show (x 1).val = 0 + 1 * (x 1).val; omega)
  have e0 : (⟨(n + (x 0).val) % 3276800, Nat.mod_lt _ (by norm_num)⟩ : Fin 3276800) = ((oCh ![n, 0] inb).view.emb x) 0 :=
    Fin.ext (by show (n + (x 0).val) % 3276800 = n + 1 * (x 0).val; rw [Nat.mod_eq_of_lt (by omega)]; omega)
  rw [← e1, ← e0]

omit [FloatOps F] in
/-- The same, the copy read as one write of the whole chunk. -/
theorem oCh_writes (off : Fin 2 → ℕ) (inb) (n : ℕ) (h : off = ![n, 0]) (fo : Buf (Elt F) (oLoc d))
    (tab : Buf (Elt F) (tLoc d)) (idx : Buf (Elt F) (iLoc d)) :
    ∀ i ∈ oRng n (n + 256),
      (oCh off inb).view.writes (Elt F) fo [⟨Rect.whole S256x64, rowsAt tab (encOf idx n)⟩] i = gOut tab idx i := by
  intro i hi
  rw [View.writes_singleton]
  have hi' : i ∈ ((oCh off inb).view.slice (Rect.whole S256x64)).set := by
    rw [View.set_slice_rectWhole, oCh_set off inb n h]; exact hi
  subst h
  obtain ⟨x, -, rfl⟩ := Finset.mem_map.mp hi'
  rw [View.write_emb_of_mem _ _ (Finset.mem_univ x)]
  refine (cast_eq _ _).trans ?_
  have hx : (x 0).val < 256 := (x 0).isLt
  have hb : n + 256 ≤ 3276800 := inb 0
  unfold rowsAt gOut encOf
  have e1 : x 1 = (((oCh ![n, 0] inb).view.slice (Rect.whole S256x64)).emb x) 1 :=
    Fin.ext (by show (x 1).val = 0 + 1 * (0 + 1 * (x 1).val); omega)
  have e0 : (⟨(n + (x 0).val) % 3276800, Nat.mod_lt _ (by norm_num)⟩ : Fin 3276800)
      = (((oCh ![n, 0] inb).view.slice (Rect.whole S256x64)).emb x) 0 :=
    Fin.ext (by show (n + (x 0).val) % 3276800 = n + 1 * (0 + 1 * (x 0).val); rw [Nat.mod_eq_of_lt (by omega)]; omega)
  rw [← e1, ← e0]

/-- What an output copy delivers, as the invariant states it: the rows at `n` at the result, the buffer back. -/
theorem outD3 (off : Fin 2 → ℕ) (inb) (n : ℕ) (h : off = ![n, 0]) (fo : Buf (Elt F) (oLoc d))
    (tab : Buf (Elt F) (tLoc d)) (idx : Buf (Elt F) (iLoc d)) :
    iprop(((oCh off inb).view.loc (thr d L) ↦[(oCh off inb).view.set]{fullShare}
            (oCh off inb).view.writes (Elt F) fo [⟨Rect.whole S256x64, rowsAt tab (encOf idx n)⟩])
        ∗ ((b3).view.loc (thr d L) ↦[(b3).view.set]{fullShare} rowsAt tab (encOf idx n)))
      ⊢ (iprop((oLoc d ↦[oRng n (n + 256)]{fullShare} gOut tab idx) ∗ ∃ f, (b3).view.loc (thr d L) ↦{fullShare} f) : sProp 𝕄) := by
  have hs : (b3).view.set = Finset.univ := View.set_whole _
  iintro ⟨H1, H2⟩
  isplitl [H1]
  · iapply (Entails.of_eq ((pts_oCh (F := F) (U := U) d L off inb n h _).trans
      (pointsTo_congr (ℓ := oLoc d) (q := fullShare) (I := oRng n (n + 256)) (oCh_writes (F := F) d off inb n h fo tab idx)))) <;> iexact H1
  · iexists _
    iapply (Entails.of_eq (show ((b3).view.loc (thr d L) ↦[(b3).view.set]{fullShare} rowsAt tab (encOf idx n) : sProp 𝕄)
      = (b3).view.loc (thr d L) ↦{fullShare} rowsAt tab (encOf idx n) by rw [hs])); iexact H2

theorem outD4 (off : Fin 2 → ℕ) (inb) (n : ℕ) (h : off = ![n, 0]) (fo : Buf (Elt F) (oLoc d))
    (tab : Buf (Elt F) (tLoc d)) (idx : Buf (Elt F) (iLoc d)) :
    iprop(((oCh off inb).view.loc (thr d L) ↦[(oCh off inb).view.set]{fullShare}
            (oCh off inb).view.writes (Elt F) fo [⟨Rect.whole S256x64, rowsAt tab (encOf idx n)⟩])
        ∗ ((b4).view.loc (thr d L) ↦[(b4).view.set]{fullShare} rowsAt tab (encOf idx n)))
      ⊢ (iprop((oLoc d ↦[oRng n (n + 256)]{fullShare} gOut tab idx) ∗ ∃ f, (b4).view.loc (thr d L) ↦{fullShare} f) : sProp 𝕄) := by
  have hs : (b4).view.set = Finset.univ := View.set_whole _
  iintro ⟨H1, H2⟩
  isplitl [H1]
  · iapply (Entails.of_eq ((pts_oCh (F := F) (U := U) d L off inb n h _).trans
      (pointsTo_congr (ℓ := oLoc d) (q := fullShare) (I := oRng n (n + 256)) (oCh_writes (F := F) d off inb n h fo tab idx)))) <;> iexact H1
  · iexists _
    iapply (Entails.of_eq (show ((b4).view.loc (thr d L) ↦[(b4).view.set]{fullShare} rowsAt tab (encOf idx n) : sProp 𝕄)
      = (b4).view.loc (thr d L) ↦{fullShare} rowsAt tab (encOf idx n) by rw [hs])); iexact H2

omit [FloatOps F] in
/-- What an index copy delivers, as the invariant states it: the buffer at the indices from `n` on, the chunk back. -/
theorem idxD1 (off : Fin 1 → ℕ) (inb) (n : ℕ) (h : off = ![n]) (idx : Buf (Elt F) (iLoc d))
    (f1 : Buf (Elt F) ((thr d L).loc cc0_scratch1)) :
    iprop(((b1).view.loc (thr d L) ↦{fullShare} View.write (Elt F) (b1).view f1 ((iCh off inb).view.read (Elt F) idx) Finset.univ)
        ∗ ((iCh off inb).view.loc (thr d L) ↦[(iCh off inb).view.set]{fullShare} idx))
      ⊢ (iprop(((b1).view.loc (thr d L) ↦{fullShare} encOf idx n) ∗ iLoc d ↦[iRng n (n + 256)]{fullShare} idx) : sProp 𝕄) := by
  have e : View.write (Elt F) (b1).view f1 ((iCh off inb).view.read (Elt F) idx) Finset.univ = encOf idx n :=
    (View.write_whole_univ _ _ _).trans (iCh_read (F := F) d off inb n h idx)
  rw [e, pts_iCh (F := F) d L off inb n h idx]
omit [FloatOps F] in
theorem idxD2 (off : Fin 1 → ℕ) (inb) (n : ℕ) (h : off = ![n]) (idx : Buf (Elt F) (iLoc d))
    (f2 : Buf (Elt F) ((thr d L).loc cc0_scratch2)) :
    iprop(((b2).view.loc (thr d L) ↦{fullShare} View.write (Elt F) (b2).view f2 ((iCh off inb).view.read (Elt F) idx) Finset.univ)
        ∗ ((iCh off inb).view.loc (thr d L) ↦[(iCh off inb).view.set]{fullShare} idx))
      ⊢ (iprop(((b2).view.loc (thr d L) ↦{fullShare} encOf idx n) ∗ iLoc d ↦[iRng n (n + 256)]{fullShare} idx) : sProp 𝕄) := by
  have e : View.write (Elt F) (b2).view f2 ((iCh off inb).view.read (Elt F) idx) Finset.univ = encOf idx n :=
    (View.write_whole_univ _ _ _).trans (iCh_read (F := F) d off inb n h idx)
  rw [e, pts_iCh (F := F) d L off inb n h idx]

omit [FloatOps F] in
/-- The table's copy leaves the table in its scratch. -/
theorem b0_tab (tab : Buf (Elt F) (tLoc d)) (f : Buf (Elt F) ((thr d L).loc cc0_scratch0)) :
    (((b0).view.loc (thr d L) ↦{fullShare} View.write (Elt F) (b0).view f ((tV).view.read (Elt F) tab) Finset.univ : sProp 𝕄))
      = ((b0).view.loc (thr d L) ↦{fullShare} tab) := by
  rw [View.write_whole_univ]; rfl

/-- A returned value bound to a continuation is the continuation at it. -/
theorem prog_ret_bind {Ef : Type → Type} {α β : Type} (a : α) (k : α → Prog Ef β) : (Prog.ret a : Prog Ef α).bind k = k a := rfl

/-! ## What is in flight, and the invariants -/

section Inv

variable (q : PosShare TreeShare) (tab : Buf (Elt F) (tLoc d)) (idx : Buf (Elt F) (iLoc d)) (f0 : Buf (Elt F) (oLoc d))
  (O : CellTallies nD τ sig (HIx 1)) (W : Waits sig (HIx 1))

/-- The copy of the 256 indices at `n` into the first index buffer, in flight: its wait gives the buffer at those
    indices and the chunk of the index array back. -/
def IdxFl1 (n : ℕ) : sProp 𝕄 :=
  Transfers.Flight countersEmb (thr d L) (SemLoc.dma cc0_scratch6.sem) (default : HIx 1) 8192
    iprop(((b1).view.loc (thr d L) ↦{fullShare} encOf idx n) ∗ iLoc d ↦[iRng n (n + 256)]{fullShare} idx)
/-- The same into the second index buffer. -/
def IdxFl2 (n : ℕ) : sProp 𝕄 :=
  Transfers.Flight countersEmb (thr d L) (SemLoc.dma cc0_scratch7.sem) (default : HIx 1) 8192
    iprop(((b2).view.loc (thr d L) ↦{fullShare} encOf idx n) ∗ iLoc d ↦[iRng n (n + 256)]{fullShare} idx)
/-- The copy of the first output buffer to the rows at `n`, in flight: its wait gives those rows at the gathered
    values and the buffer back. -/
def OutFl3 (n : ℕ) : sProp 𝕄 :=
  Transfers.Flight countersEmb (thr d L) (SemLoc.dma cc0_scratch8.sem) (default : HIx 1) 524288
    iprop((oLoc d ↦[oRng n (n + 256)]{fullShare} gOut tab idx) ∗ ∃ f, (b3).view.loc (thr d L) ↦{fullShare} f)
/-- The same from the second output buffer. -/
def OutFl4 (n : ℕ) : sProp 𝕄 :=
  Transfers.Flight countersEmb (thr d L) (SemLoc.dma cc0_scratch9.sem) (default : HIx 1) 524288
    iprop((oLoc d ↦[oRng n (n + 256)]{fullShare} gOut tab idx) ∗ ∃ f, (b4).view.loc (thr d L) ↦{fullShare} f)

/-- Before outer trip `t` (steps `2t` and `2t + 1` to come): the table in its scratch; the indices below step `2t`
    back, those of the two steps in flight, the later ones still held (none in flight after the last trip); the rows
    below step `2t - 2` gathered, those of steps `2t - 2` and `2t - 1` in flight (none before the first trip), the
    later ones untouched. -/
def inv (t : ℕ) (_ : Unit) : sProp 𝕄 :=
  iprop(Transfers.MayWaits (thr d L) (default : HIx 1) O
    ∗ ((tV).view.loc (thr d L) ↦{q} tab)
    ∗ ((b0).view.loc (thr d L) ↦{fullShare} tab)
    ∗ (iLoc d ↦[iRng (base L) (base L + 512 * t)]{fullShare} idx)
    ∗ (oLoc d ↦[oRng (base L) (base L + 512 * (t - 1))]{fullShare} gOut tab idx)
    ∗ (oLoc d ↦[oRng (base L + 512 * t) (base L + 102400)]{fullShare} f0)
    ∗ (if t = 0 then iprop((∃ f, (b3).view.loc (thr d L) ↦{fullShare} f) ∗ semVal (cell d L cc0_scratch8) 0
          ∗ (∃ f, (b4).view.loc (thr d L) ↦{fullShare} f) ∗ semVal (cell d L cc0_scratch9) 0)
        else iprop(OutFl3 d L tab idx (base L + 512 * (t - 1)) ∗ OutFl4 d L tab idx (base L + 512 * (t - 1) + 256)))
    ∗ (if t < 200 then iprop((iLoc d ↦[iRng (base L + 512 * t + 512) (base L + 102400)]{fullShare} idx)
          ∗ IdxFl1 d L idx (base L + 512 * t) ∗ IdxFl2 d L idx (base L + 512 * t + 256))
        else iprop((∃ f, (b1).view.loc (thr d L) ↦{fullShare} f) ∗ semVal (cell d L cc0_scratch6) 0
          ∗ (∃ f, (b2).view.loc (thr d L) ↦{fullShare} f) ∗ semVal (cell d L cc0_scratch7) 0))
    ∗ ∃ W', ⌜∀ p ∈ W', p ∈ W ∨ p.2 = none⌝ ∗ owes (thr d L) O W')

/-- Before inner trip `k` of a step on the first pair of buffers. -/
def inv2 (enc : S256.Idx → BitVec 32) (o : S256x64.Idx → Elt F .f32) (k : ℕ) (_ : Unit) : sProp 𝕄 :=
  iprop(((b0).view.loc (thr d L) ↦{fullShare} tab) ∗ ((b1).view.loc (thr d L) ↦{fullShare} enc)
    ∗ ((b3).view.loc (thr d L) ↦{fullShare} innerAcc tab enc k o))
/-- The same on the second pair. -/
def inv3 (enc : S256.Idx → BitVec 32) (o : S256x64.Idx → Elt F .f32) (k : ℕ) (_ : Unit) : sProp 𝕄 :=
  iprop(((b0).view.loc (thr d L) ↦{fullShare} tab) ∗ ((b2).view.loc (thr d L) ↦{fullShare} enc)
    ∗ ((b4).view.loc (thr d L) ↦{fullShare} innerAcc tab enc k o))

end Inv

set_option maxHeartbeats 8000000 in
theorem trip_first (q : PosShare TreeShare) (tab : Buf (Elt F) (tLoc d)) (idx : Buf (Elt F) (iLoc d)) (hle : ∀ j, (idx j).toNat ≤ 65)
    (f0 : Buf (Elt F) (oLoc d)) (O : CellTallies nD τ sig (HIx 1)) (W : Waits sig (HIx 1))
    (v2 : BitVec 32) (v9 : IVec S16 32) (hv9 : v9 = iota .scVector S16 32 [0] iota_S16_d0_w32_scVector)
    (k : Fin k0_t1_loop.trips) (acc : Unit) (hk : k.val = 0) :
    (inv d L q tab idx f0 O W k.val acc : sProp 𝕄)
      ⊢ wp frame (wpE (defs₀ (F := F)) 𝒱₀ (thr d L) none) Set.univ
          (k0_t1_body L tV (Memref.isWhole_whole _) iV (Memref.isWhole_whole _) oV (Memref.isWhole_whole _)
            b0 (Memref.isWhole_whole _) b1 (Memref.isWhole_whole _) b2 (Memref.isWhole_whole _) b3 (Memref.isWhole_whole _) b4 (Memref.isWhole_whole _)
            cc0_scratch5 cc0_scratch6 cc0_scratch7 cc0_scratch8 cc0_scratch9 v2 v9 k acc)
          (inv d L q tab idx f0 O W (k.val + 1)) := by
  have k0_h1 : ¬ k0_cond1 k = 1#1 := by revert k; decide +kernel
  have k0_h3 : ¬ k0_cond3 k = 1#1 := by revert k; decide +kernel
  have k0_h2 : k0_cond2 k = 1#1 := by revert k; decide +kernel
  have k0_h4 : k0_cond4 k = 1#1 := by revert k; decide +kernel
  unfold k0_t1_body
  rw [k0_part39_eq_skeleton]; unfold k0_part39_skel
  unfold inv OutFl3 OutFl4 IdxFl1 IdxFl2
  rw [if_pos hk, if_pos (by omega : k.val < 200), if_neg (by omega : ¬ k.val + 1 = 0), if_pos (by omega : k.val + 1 < 200)]
  iintro ⟨#Hmw, Ht, H0, Hid, Hod, Hor, ⟨⟨%fb3, Hb3⟩, Hs8, ⟨%fb4, Hb4⟩, Hs9⟩, ⟨Hir, Hf1, Hf2⟩, %W', %hW', HO⟩
  sl_exec
  rw [Prog.bind_assoc]
  sl_for (inv2 d L tab (encOf idx (base L + 512 * k.val)) fb3) $$ [H0 Hf1_dst Hb3]
  case region =>
    intro k2 acc2
    unfold inv2
    refine (Trip.t2_trip d L v2 v9 (0#32) (1#32) k k2 hv9 tab (encOf idx (base L + 512 * k.val))
      (innerAcc tab (encOf idx (base L + 512 * k.val)) k2.val fb3) (fun x => hle _)).trans (wp_mono frame _ _ fun _ => ?_)
    rw [innerAcc_succ]
  · unfold inv2
    rw [innerAcc_zero]
    isplitl [H0]; · iexact H0
    isplitl [Hf1_dst]; · iexact Hf1_dst
    iexact Hb3
  iintro %_ HI
  unfold inv2
  rw [show Scf.trips k0_t2_loop.lb k0_t2_loop.ub k0_t2_loop.st = 16 from by decide, innerAcc_full]
  icases HI with ⟨H0, Hb1, Hb3⟩
  -- the rows of step 2k, carved out of the untouched ones: the first output copy's destination
  ihave Hor2 := (pts_oRng_split (F := F) d fullShare f0 (a := base L + 512 * k.val) (b := base L + 512 * k.val + 256) (c := base L + 102400) (by omega) (by omega)).1 $$ Hor
  icases Hor2 with ⟨Hoc, Hor⟩
  ihave Hoc' := (Entails.of_eq (pts_oCh (F := F) d L (k0_off37 L k) (k0_off37_inb L k) (base L + 512 * k.val) (k0_off37_eq L k) f0).symm) $$ Hoc
  -- the indices of step 2k + 2, carved out of those still held: the next index copy's source
  ihave Hir2 := (pts_iRng_split (F := F) d fullShare idx (a := base L + 512 * k.val + 512) (b := base L + 512 * k.val + 512 + 256) (c := base L + 102400) (by omega) (by omega)).1 $$ Hir
  icases Hir2 with ⟨Hic, Hir⟩
  ihave Hic' := (Entails.of_eq (pts_iCh (F := F) d L (k0_off38 L k) (k0_off38_inb L k k0_h2) (base L + 512 * k.val + 512) (k0_off38_eq L k) idx).symm) $$ Hic
  sl_exec
  rw [Prog.bind_assoc]
  sl_for (inv3 d L tab (encOf idx (base L + 512 * k.val + 256)) fb4) $$ [H0 Hf2_dst Hb4]
  case region =>
    intro k3 acc3
    unfold inv3
    refine (Trip.t3_trip d L v2 v9 (0#32) (1#32) k k3 hv9 tab (encOf idx (base L + 512 * k.val + 256))
      (innerAcc tab (encOf idx (base L + 512 * k.val + 256)) k3.val fb4) (fun x => hle _)).trans (wp_mono frame _ _ fun _ => ?_)
    rw [innerAcc_succ]
  · unfold inv3
    rw [innerAcc_zero]
    isplitl [H0]; · iexact H0
    isplitl [Hf2_dst]; · iexact Hf2_dst
    iexact Hb4
  iintro %_ HI
  unfold inv3
  rw [show Scf.trips k0_t3_loop.lb k0_t3_loop.ub k0_t3_loop.st = 16 from by decide, innerAcc_full]
  icases HI with ⟨H0, Hb2, Hb4⟩
  -- the rows of step 2k + 1 and the indices of step 2k + 3
  ihave Hor2 := (pts_oRng_split (F := F) d fullShare f0 (a := base L + 512 * k.val + 256) (b := base L + 512 * k.val + 256 + 256) (c := base L + 102400) (by omega) (by omega)).1 $$ Hor
  icases Hor2 with ⟨Hoc2, Hor⟩
  ihave Hoc2' := (Entails.of_eq (pts_oCh (F := F) d L (k0_off74 L k) (k0_off74_inb L k) (base L + 512 * k.val + 256) (k0_off74_eq L k) f0).symm) $$ Hoc2
  ihave Hir2 := (pts_iRng_split (F := F) d fullShare idx (a := base L + 512 * k.val + 512 + 256) (b := base L + 512 * k.val + 512 + 256 + 256) (c := base L + 102400) (by omega) (by omega)).1 $$ Hir
  icases Hir2 with ⟨Hic2, Hir⟩
  ihave Hic2' := (Entails.of_eq (pts_iCh (F := F) d L (k0_off75 L k) (k0_off75_inb L k k0_h4) (base L + 512 * k.val + 512 + 256) (k0_off75_eq L k) idx).symm) $$ Hic2
  sl_exec
  rw [show k.val + 1 - 1 = k.val from by omega, show base L + 512 * (k.val + 1) = base L + 512 * k.val + 512 from by omega]
  -- the indices and the rows that came back join those before them
  ihave Hid := (pts_iRng_split (F := F) d fullShare idx (a := base L) (b := base L + 512 * k.val) (c := base L + 512 * k.val + 256) (by omega) (by omega)).2 $$ [Hid Hf1_src]
  · isplitl [Hid] <;> iassumption
  ihave Hid := (pts_iRng_split (F := F) d fullShare idx (a := base L) (b := base L + 512 * k.val + 256) (c := base L + 512 * k.val + 256 + 256) (by omega) (by omega)).2 $$ [Hid Hf2_src]
  · isplitl [Hid] <;> iassumption
  sl_step
  isplitr; · iexact Hmw
  isplitl [Ht]; · iexact Ht
  isplitl [H0]; · iexact H0
  isplitl [Hid]
  · (iapply (iRng_cast (F := F) (U := U) d fullShare idx (base L) (base L + 512 * k.val + 256 + 256) (base L) (base L + 512 * k.val + 512) rfl (by omega))) <;> iexact Hid
  isplitl [Hod]
  · (iapply (oRng_cast (F := F) (U := U) d fullShare (gOut tab idx) (base L) (base L + 512 * (k.val - 1)) (base L) (base L + 512 * k.val) rfl (by omega))) <;> iexact Hod
  isplitl [Hor]
  · (iapply (oRng_cast (F := F) (U := U) d fullShare f0 (base L + 512 * k.val + 256 + 256) (base L + 102400) (base L + 512 * k.val + 512) (base L + 102400) (by omega) rfl)) <;> iexact Hor
  isplitl [Hs8 Hs9]
  · isplitl [Hs8]
    · (iapply (Transfers.Flight_mono countersEmb (thr d L) (outD3 (F := F) (U := U) d L (k0_off37 L k) (k0_off37_inb L k)
        (base L + 512 * k.val) (k0_off37_eq L k) f0 tab idx))) <;> iexact Hs8
    · (iapply (Transfers.Flight_mono countersEmb (thr d L) (outD4 (F := F) (U := U) d L (k0_off74 L k) (k0_off74_inb L k)
        (base L + 512 * k.val + 256) (k0_off74_eq L k) f0 tab idx))) <;> iexact Hs9
  isplitl [Hir Hf1 Hf2]
  · isplitl [Hir]
    · (iapply (iRng_cast (F := F) (U := U) d fullShare idx (base L + 512 * k.val + 512 + 256 + 256) (base L + 102400) (base L + 512 * k.val + 512 + 512) (base L + 102400) (by omega) rfl)) <;> iexact Hir
    isplitl [Hf1]
    · (iapply (Transfers.Flight_mono countersEmb (thr d L) (idxD1 (F := F) (U := U) d L (k0_off38 L k) (k0_off38_inb L k k0_h2)
        (base L + 512 * k.val + 512) (k0_off38_eq L k) idx (encOf idx (base L + 512 * k.val))))) <;> iexact Hf1
    · (iapply (Transfers.Flight_mono countersEmb (thr d L) (idxD2 (F := F) (U := U) d L (k0_off75 L k) (k0_off75_inb L k k0_h4)
        (base L + 512 * k.val + 512 + 256) (k0_off75_eq L k) idx (encOf idx (base L + 512 * k.val + 256))))) <;> iexact Hf2
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact hW' p hp

set_option maxHeartbeats 8000000 in
theorem trip_mid (q : PosShare TreeShare) (tab : Buf (Elt F) (tLoc d)) (idx : Buf (Elt F) (iLoc d)) (hle : ∀ j, (idx j).toNat ≤ 65)
    (f0 : Buf (Elt F) (oLoc d)) (O : CellTallies nD τ sig (HIx 1)) (W : Waits sig (HIx 1))
    (v2 : BitVec 32) (v9 : IVec S16 32) (hv9 : v9 = iota .scVector S16 32 [0] iota_S16_d0_w32_scVector)
    (k : Fin k0_t1_loop.trips) (acc : Unit) (hk1 : 1 ≤ k.val) (hk2 : k.val < 199) :
    (inv d L q tab idx f0 O W k.val acc : sProp 𝕄)
      ⊢ wp frame (wpE (defs₀ (F := F)) 𝒱₀ (thr d L) none) Set.univ
          (k0_t1_body L tV (Memref.isWhole_whole _) iV (Memref.isWhole_whole _) oV (Memref.isWhole_whole _)
            b0 (Memref.isWhole_whole _) b1 (Memref.isWhole_whole _) b2 (Memref.isWhole_whole _) b3 (Memref.isWhole_whole _) b4 (Memref.isWhole_whole _)
            cc0_scratch5 cc0_scratch6 cc0_scratch7 cc0_scratch8 cc0_scratch9 v2 v9 k acc)
          (inv d L q tab idx f0 O W (k.val + 1)) := by
  have k0_h1 : k0_cond1 k = 1#1 := by revert k; decide +kernel
  have k0_h3 : k0_cond3 k = 1#1 := by revert k; decide +kernel
  have k0_h2 : k0_cond2 k = 1#1 := by revert k; decide +kernel
  have k0_h4 : k0_cond4 k = 1#1 := by revert k; decide +kernel
  unfold k0_t1_body
  rw [k0_part39_eq_skeleton]; unfold k0_part39_skel
  unfold inv OutFl3 OutFl4 IdxFl1 IdxFl2
  rw [if_neg (by omega : ¬ k.val = 0), if_pos (by omega : k.val < 200), if_neg (by omega : ¬ k.val + 1 = 0), if_pos (by omega : k.val + 1 < 200)]
  iintro ⟨#Hmw, Ht, H0, Hid, Hod, Hor, ⟨Hf3, Hf4⟩, ⟨Hir, Hf1, Hf2⟩, %W', %hW', HO⟩
  sl_exec
  iapply (Transfers.wp_waitLocalO countersEmb 𝒱₀ (thr d L) none (default : HIx 1)
      (rfl : (oCh (k0_off3 L k) (k0_off3_inb L k k0_h1)).view.dmaCredit = 524288)) $$ [Hf3 HO]
  · isplitl [Hf3]; · iexact Hf3
    isplitl [HO]; · iexact HO
    iapply (Transfers.MayWaits.elim (SemLoc.dma cc0_scratch8.sem)) $$ Hmw
  iintro ⟨⟨Hod3, %fb3, Hb3⟩, Hs8, HO⟩
  rw [Prog.bind_assoc]
  sl_for (inv2 d L tab (encOf idx (base L + 512 * k.val)) fb3) $$ [H0 Hf1_dst Hb3]
  case region =>
    intro k2 acc2
    unfold inv2
    refine (Trip.t2_trip d L v2 v9 (0#32) (1#32) k k2 hv9 tab (encOf idx (base L + 512 * k.val))
      (innerAcc tab (encOf idx (base L + 512 * k.val)) k2.val fb3) (fun x => hle _)).trans (wp_mono frame _ _ fun _ => ?_)
    rw [innerAcc_succ]
  · unfold inv2
    rw [innerAcc_zero]
    isplitl [H0]; · iexact H0
    isplitl [Hf1_dst]; · iexact Hf1_dst
    iexact Hb3
  iintro %_ HI
  unfold inv2
  rw [show Scf.trips k0_t2_loop.lb k0_t2_loop.ub k0_t2_loop.st = 16 from by decide, innerAcc_full]
  icases HI with ⟨H0, Hb1, Hb3⟩
  -- the rows of step 2k, carved out of the untouched ones: the first output copy's destination
  ihave Hor2 := (pts_oRng_split (F := F) d fullShare f0 (a := base L + 512 * k.val) (b := base L + 512 * k.val + 256) (c := base L + 102400) (by omega) (by omega)).1 $$ Hor
  icases Hor2 with ⟨Hoc, Hor⟩
  ihave Hoc' := (Entails.of_eq (pts_oCh (F := F) d L (k0_off37 L k) (k0_off37_inb L k) (base L + 512 * k.val) (k0_off37_eq L k) f0).symm) $$ Hoc
  -- the indices of step 2k + 2, carved out of those still held: the next index copy's source
  ihave Hir2 := (pts_iRng_split (F := F) d fullShare idx (a := base L + 512 * k.val + 512) (b := base L + 512 * k.val + 512 + 256) (c := base L + 102400) (by omega) (by omega)).1 $$ Hir
  icases Hir2 with ⟨Hic, Hir⟩
  ihave Hic' := (Entails.of_eq (pts_iCh (F := F) d L (k0_off38 L k) (k0_off38_inb L k k0_h2) (base L + 512 * k.val + 512) (k0_off38_eq L k) idx).symm) $$ Hic
  sl_exec
  iapply (Transfers.wp_waitLocalO countersEmb 𝒱₀ (thr d L) none (default : HIx 1)
      (rfl : (oCh (k0_off40 L k) (k0_off40_inb L k k0_h3)).view.dmaCredit = 524288)) $$ [Hf4 HO]
  · isplitl [Hf4]; · iexact Hf4
    isplitl [HO]; · iexact HO
    iapply (Transfers.MayWaits.elim (SemLoc.dma cc0_scratch9.sem)) $$ Hmw
  iintro ⟨⟨Hod4, %fb4, Hb4⟩, Hs9, HO⟩
  rw [Prog.bind_assoc]
  sl_for (inv3 d L tab (encOf idx (base L + 512 * k.val + 256)) fb4) $$ [H0 Hf2_dst Hb4]
  case region =>
    intro k3 acc3
    unfold inv3
    refine (Trip.t3_trip d L v2 v9 (0#32) (1#32) k k3 hv9 tab (encOf idx (base L + 512 * k.val + 256))
      (innerAcc tab (encOf idx (base L + 512 * k.val + 256)) k3.val fb4) (fun x => hle _)).trans (wp_mono frame _ _ fun _ => ?_)
    rw [innerAcc_succ]
  · unfold inv3
    rw [innerAcc_zero]
    isplitl [H0]; · iexact H0
    isplitl [Hf2_dst]; · iexact Hf2_dst
    iexact Hb4
  iintro %_ HI
  unfold inv3
  rw [show Scf.trips k0_t3_loop.lb k0_t3_loop.ub k0_t3_loop.st = 16 from by decide, innerAcc_full]
  icases HI with ⟨H0, Hb2, Hb4⟩
  -- the rows of step 2k + 1 and the indices of step 2k + 3
  ihave Hor2 := (pts_oRng_split (F := F) d fullShare f0 (a := base L + 512 * k.val + 256) (b := base L + 512 * k.val + 256 + 256) (c := base L + 102400) (by omega) (by omega)).1 $$ Hor
  icases Hor2 with ⟨Hoc2, Hor⟩
  ihave Hoc2' := (Entails.of_eq (pts_oCh (F := F) d L (k0_off74 L k) (k0_off74_inb L k) (base L + 512 * k.val + 256) (k0_off74_eq L k) f0).symm) $$ Hoc2
  ihave Hir2 := (pts_iRng_split (F := F) d fullShare idx (a := base L + 512 * k.val + 512 + 256) (b := base L + 512 * k.val + 512 + 256 + 256) (c := base L + 102400) (by omega) (by omega)).1 $$ Hir
  icases Hir2 with ⟨Hic2, Hir⟩
  ihave Hic2' := (Entails.of_eq (pts_iCh (F := F) d L (k0_off75 L k) (k0_off75_inb L k k0_h4) (base L + 512 * k.val + 512 + 256) (k0_off75_eq L k) idx).symm) $$ Hic2
  sl_exec
  rw [show k.val + 1 - 1 = k.val from by omega, show base L + 512 * (k.val + 1) = base L + 512 * k.val + 512 from by omega]
  -- the indices and the rows that came back join those before them
  ihave Hid := (pts_iRng_split (F := F) d fullShare idx (a := base L) (b := base L + 512 * k.val) (c := base L + 512 * k.val + 256) (by omega) (by omega)).2 $$ [Hid Hf1_src]
  · isplitl [Hid] <;> iassumption
  ihave Hid := (pts_iRng_split (F := F) d fullShare idx (a := base L) (b := base L + 512 * k.val + 256) (c := base L + 512 * k.val + 256 + 256) (by omega) (by omega)).2 $$ [Hid Hf2_src]
  · isplitl [Hid] <;> iassumption
  ihave Hod := (pts_oRng_split (F := F) d fullShare (gOut tab idx) (a := base L) (b := base L + 512 * (k.val - 1)) (c := base L + 512 * (k.val - 1) + 256) (by omega) (by omega)).2 $$ [Hod Hod3]
  · isplitl [Hod] <;> iassumption
  ihave Hod := (pts_oRng_split (F := F) d fullShare (gOut tab idx) (a := base L) (b := base L + 512 * (k.val - 1) + 256) (c := base L + 512 * (k.val - 1) + 256 + 256) (by omega) (by omega)).2 $$ [Hod Hod4]
  · isplitl [Hod] <;> iassumption
  sl_step
  isplitr; · iexact Hmw
  isplitl [Ht]; · iexact Ht
  isplitl [H0]; · iexact H0
  isplitl [Hid]
  · (iapply (iRng_cast (F := F) (U := U) d fullShare idx (base L) (base L + 512 * k.val + 256 + 256) (base L) (base L + 512 * k.val + 512) rfl (by omega))) <;> iexact Hid
  isplitl [Hod]
  · (iapply (oRng_cast (F := F) (U := U) d fullShare (gOut tab idx) (base L) (base L + 512 * (k.val - 1) + 256 + 256) (base L) (base L + 512 * k.val) rfl (by omega))) <;> iexact Hod
  isplitl [Hor]
  · (iapply (oRng_cast (F := F) (U := U) d fullShare f0 (base L + 512 * k.val + 256 + 256) (base L + 102400) (base L + 512 * k.val + 512) (base L + 102400) (by omega) rfl)) <;> iexact Hor
  isplitl [Hs8 Hs9]
  · isplitl [Hs8]
    · (iapply (Transfers.Flight_mono countersEmb (thr d L) (outD3 (F := F) (U := U) d L (k0_off37 L k) (k0_off37_inb L k)
        (base L + 512 * k.val) (k0_off37_eq L k) f0 tab idx))) <;> iexact Hs8
    · (iapply (Transfers.Flight_mono countersEmb (thr d L) (outD4 (F := F) (U := U) d L (k0_off74 L k) (k0_off74_inb L k)
        (base L + 512 * k.val + 256) (k0_off74_eq L k) f0 tab idx))) <;> iexact Hs9
  isplitl [Hir Hf1 Hf2]
  · isplitl [Hir]
    · (iapply (iRng_cast (F := F) (U := U) d fullShare idx (base L + 512 * k.val + 512 + 256 + 256) (base L + 102400) (base L + 512 * k.val + 512 + 512) (base L + 102400) (by omega) rfl)) <;> iexact Hir
    isplitl [Hf1]
    · (iapply (Transfers.Flight_mono countersEmb (thr d L) (idxD1 (F := F) (U := U) d L (k0_off38 L k) (k0_off38_inb L k k0_h2)
        (base L + 512 * k.val + 512) (k0_off38_eq L k) idx (encOf idx (base L + 512 * k.val))))) <;> iexact Hf1
    · (iapply (Transfers.Flight_mono countersEmb (thr d L) (idxD2 (F := F) (U := U) d L (k0_off75 L k) (k0_off75_inb L k k0_h4)
        (base L + 512 * k.val + 512 + 256) (k0_off75_eq L k) idx (encOf idx (base L + 512 * k.val + 256))))) <;> iexact Hf2
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW' p hp

set_option maxHeartbeats 8000000 in
theorem trip_last (q : PosShare TreeShare) (tab : Buf (Elt F) (tLoc d)) (idx : Buf (Elt F) (iLoc d)) (hle : ∀ j, (idx j).toNat ≤ 65)
    (f0 : Buf (Elt F) (oLoc d)) (O : CellTallies nD τ sig (HIx 1)) (W : Waits sig (HIx 1))
    (v2 : BitVec 32) (v9 : IVec S16 32) (hv9 : v9 = iota .scVector S16 32 [0] iota_S16_d0_w32_scVector)
    (k : Fin k0_t1_loop.trips) (acc : Unit) (hk : k.val = 199) :
    (inv d L q tab idx f0 O W k.val acc : sProp 𝕄)
      ⊢ wp frame (wpE (defs₀ (F := F)) 𝒱₀ (thr d L) none) Set.univ
          (k0_t1_body L tV (Memref.isWhole_whole _) iV (Memref.isWhole_whole _) oV (Memref.isWhole_whole _)
            b0 (Memref.isWhole_whole _) b1 (Memref.isWhole_whole _) b2 (Memref.isWhole_whole _) b3 (Memref.isWhole_whole _) b4 (Memref.isWhole_whole _)
            cc0_scratch5 cc0_scratch6 cc0_scratch7 cc0_scratch8 cc0_scratch9 v2 v9 k acc)
          (inv d L q tab idx f0 O W (k.val + 1)) := by
  have k0_h1 : k0_cond1 k = 1#1 := by revert k; decide +kernel
  have k0_h3 : k0_cond3 k = 1#1 := by revert k; decide +kernel
  have k0_h2 : ¬ k0_cond2 k = 1#1 := by revert k; decide +kernel
  have k0_h4 : ¬ k0_cond4 k = 1#1 := by revert k; decide +kernel
  unfold k0_t1_body
  rw [k0_part39_eq_skeleton]; unfold k0_part39_skel
  unfold inv OutFl3 OutFl4 IdxFl1 IdxFl2
  rw [if_neg (by omega : ¬ k.val = 0), if_pos (by omega : k.val < 200), if_neg (by omega : ¬ k.val + 1 = 0), if_neg (by omega : ¬ k.val + 1 < 200)]
  iintro ⟨#Hmw, Ht, H0, Hid, Hod, Hor, ⟨Hf3, Hf4⟩, ⟨Hir, Hf1, Hf2⟩, %W', %hW', HO⟩
  sl_exec
  iapply (Transfers.wp_waitLocalO countersEmb 𝒱₀ (thr d L) none (default : HIx 1)
      (rfl : (oCh (k0_off3 L k) (k0_off3_inb L k k0_h1)).view.dmaCredit = 524288)) $$ [Hf3 HO]
  · isplitl [Hf3]; · iexact Hf3
    isplitl [HO]; · iexact HO
    iapply (Transfers.MayWaits.elim (SemLoc.dma cc0_scratch8.sem)) $$ Hmw
  iintro ⟨⟨Hod3, %fb3, Hb3⟩, Hs8, HO⟩
  rw [Prog.bind_assoc]
  sl_for (inv2 d L tab (encOf idx (base L + 512 * k.val)) fb3) $$ [H0 Hf1_dst Hb3]
  case region =>
    intro k2 acc2
    unfold inv2
    refine (Trip.t2_trip d L v2 v9 (0#32) (1#32) k k2 hv9 tab (encOf idx (base L + 512 * k.val))
      (innerAcc tab (encOf idx (base L + 512 * k.val)) k2.val fb3) (fun x => hle _)).trans (wp_mono frame _ _ fun _ => ?_)
    rw [innerAcc_succ]
  · unfold inv2
    rw [innerAcc_zero]
    isplitl [H0]; · iexact H0
    isplitl [Hf1_dst]; · iexact Hf1_dst
    iexact Hb3
  iintro %_ HI
  unfold inv2
  rw [show Scf.trips k0_t2_loop.lb k0_t2_loop.ub k0_t2_loop.st = 16 from by decide, innerAcc_full]
  icases HI with ⟨H0, Hb1, Hb3⟩
  -- the rows of step 2k, carved out of the untouched ones: the first output copy's destination
  ihave Hor2 := (pts_oRng_split (F := F) d fullShare f0 (a := base L + 512 * k.val) (b := base L + 512 * k.val + 256) (c := base L + 102400) (by omega) (by omega)).1 $$ Hor
  icases Hor2 with ⟨Hoc, Hor⟩
  ihave Hoc' := (Entails.of_eq (pts_oCh (F := F) d L (k0_off37 L k) (k0_off37_inb L k) (base L + 512 * k.val) (k0_off37_eq L k) f0).symm) $$ Hoc
  sl_exec
  iapply (Transfers.wp_waitLocalO countersEmb 𝒱₀ (thr d L) none (default : HIx 1)
      (rfl : (oCh (k0_off40 L k) (k0_off40_inb L k k0_h3)).view.dmaCredit = 524288)) $$ [Hf4 HO]
  · isplitl [Hf4]; · iexact Hf4
    isplitl [HO]; · iexact HO
    iapply (Transfers.MayWaits.elim (SemLoc.dma cc0_scratch9.sem)) $$ Hmw
  iintro ⟨⟨Hod4, %fb4, Hb4⟩, Hs9, HO⟩
  rw [Prog.bind_assoc]
  sl_for (inv3 d L tab (encOf idx (base L + 512 * k.val + 256)) fb4) $$ [H0 Hf2_dst Hb4]
  case region =>
    intro k3 acc3
    unfold inv3
    refine (Trip.t3_trip d L v2 v9 (0#32) (1#32) k k3 hv9 tab (encOf idx (base L + 512 * k.val + 256))
      (innerAcc tab (encOf idx (base L + 512 * k.val + 256)) k3.val fb4) (fun x => hle _)).trans (wp_mono frame _ _ fun _ => ?_)
    rw [innerAcc_succ]
  · unfold inv3
    rw [innerAcc_zero]
    isplitl [H0]; · iexact H0
    isplitl [Hf2_dst]; · iexact Hf2_dst
    iexact Hb4
  iintro %_ HI
  unfold inv3
  rw [show Scf.trips k0_t3_loop.lb k0_t3_loop.ub k0_t3_loop.st = 16 from by decide, innerAcc_full]
  icases HI with ⟨H0, Hb2, Hb4⟩
  -- the rows of step 2k + 1
  ihave Hor2 := (pts_oRng_split (F := F) d fullShare f0 (a := base L + 512 * k.val + 256) (b := base L + 512 * k.val + 256 + 256) (c := base L + 102400) (by omega) (by omega)).1 $$ Hor
  icases Hor2 with ⟨Hoc2, Hor⟩
  ihave Hoc2' := (Entails.of_eq (pts_oCh (F := F) d L (k0_off74 L k) (k0_off74_inb L k) (base L + 512 * k.val + 256) (k0_off74_eq L k) f0).symm) $$ Hoc2
  sl_exec
  rw [show k.val + 1 - 1 = k.val from by omega, show base L + 512 * (k.val + 1) = base L + 512 * k.val + 512 from by omega]
  -- the indices and the rows that came back join those before them
  ihave Hid := (pts_iRng_split (F := F) d fullShare idx (a := base L) (b := base L + 512 * k.val) (c := base L + 512 * k.val + 256) (by omega) (by omega)).2 $$ [Hid Hf1_src]
  · isplitl [Hid] <;> iassumption
  ihave Hid := (pts_iRng_split (F := F) d fullShare idx (a := base L) (b := base L + 512 * k.val + 256) (c := base L + 512 * k.val + 256 + 256) (by omega) (by omega)).2 $$ [Hid Hf2_src]
  · isplitl [Hid] <;> iassumption
  ihave Hod := (pts_oRng_split (F := F) d fullShare (gOut tab idx) (a := base L) (b := base L + 512 * (k.val - 1)) (c := base L + 512 * (k.val - 1) + 256) (by omega) (by omega)).2 $$ [Hod Hod3]
  · isplitl [Hod] <;> iassumption
  ihave Hod := (pts_oRng_split (F := F) d fullShare (gOut tab idx) (a := base L) (b := base L + 512 * (k.val - 1) + 256) (c := base L + 512 * (k.val - 1) + 256 + 256) (by omega) (by omega)).2 $$ [Hod Hod4]
  · isplitl [Hod] <;> iassumption
  sl_step
  isplitr; · iexact Hmw
  isplitl [Ht]; · iexact Ht
  isplitl [H0]; · iexact H0
  isplitl [Hid]
  · (iapply (iRng_cast (F := F) (U := U) d fullShare idx (base L) (base L + 512 * k.val + 256 + 256) (base L) (base L + 512 * k.val + 512) rfl (by omega))) <;> iexact Hid
  isplitl [Hod]
  · (iapply (oRng_cast (F := F) (U := U) d fullShare (gOut tab idx) (base L) (base L + 512 * (k.val - 1) + 256 + 256) (base L) (base L + 512 * k.val) rfl (by omega))) <;> iexact Hod
  isplitl [Hor]
  · (iapply (oRng_cast (F := F) (U := U) d fullShare f0 (base L + 512 * k.val + 256 + 256) (base L + 102400) (base L + 512 * k.val + 512) (base L + 102400) (by omega) rfl)) <;> iexact Hor
  isplitl [Hs8 Hs9]
  · isplitl [Hs8]
    · (iapply (Transfers.Flight_mono countersEmb (thr d L) (outD3 (F := F) (U := U) d L (k0_off37 L k) (k0_off37_inb L k)
        (base L + 512 * k.val) (k0_off37_eq L k) f0 tab idx))) <;> iexact Hs8
    · (iapply (Transfers.Flight_mono countersEmb (thr d L) (outD4 (F := F) (U := U) d L (k0_off74 L k) (k0_off74_inb L k)
        (base L + 512 * k.val + 256) (k0_off74_eq L k) f0 tab idx))) <;> iexact Hs9
  isplitl [Hb1 Hf1 Hb2 Hf2]
  · isplitl [Hb1]; · iexists _; iexact Hb1
    isplitl [Hf1]; · iexact Hf1
    isplitl [Hb2]; · iexists _; iexact Hb2
    iexact Hf2
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW' p hp

end Tile

set_option maxHeartbeats 8000000 in
theorem tile_body (hF : (K (F := F)).Facts) (d : Dev nD) (L : grid0.Coords) (q : PosShare TreeShare)
    (tab : Buf (Elt F) (tLoc d)) (idx : Buf (Elt F) (iLoc d)) (hle : ∀ j, (idx j).toNat ≤ 65) (f0 : Buf (Elt F) (oLoc d))
    (O : CellTallies nD τ sig (HIx 1)) (W : Waits sig (HIx 1)) (hO : ∀ g, O g none = 0) :
    iprop(levAts (K (F := F)).L (K (F := F)).lev ∗ emp
        ∗ ((tLoc d ↦{q} tab) ∗ (iLoc d ↦[iSet (wid L)]{fullShare} idx) ∗ (oLoc d ↦[oSet (wid L)]{fullShare} f0))
        ∗ scopedBufs (thr d L) ∗ scopedSems0 (thr d L) ∗ owes (thr d L) O W)
      ⊢ (wp frame (wpE (defs₀ (F := F)) 𝒱₀ (thr d L) none) Set.univ
          (cc0_gather_kernel L tV (Memref.isWhole_whole _) iV (Memref.isWhole_whole _) oV (Memref.isWhole_whole _)
            b0 (Memref.isWhole_whole _) b1 (Memref.isWhole_whole _) b2 (Memref.isWhole_whole _) b3 (Memref.isWhole_whole _) b4 (Memref.isWhole_whole _)
            cc0_scratch5 cc0_scratch6 cc0_scratch7 cc0_scratch8 cc0_scratch9)
          fun _ => iprop(((tLoc d ↦{q} tab) ∗ (iLoc d ↦[iSet (wid L)]{fullShare} idx) ∗ (oLoc d ↦[oSet (wid L)]{fullShare} gOut tab idx))
            ∗ scopedBufs (thr d L) ∗ scopedSems0 (thr d L)
            ∗ ∃ W', ⌜∀ p ∈ W', p ∈ W ∨ p.2 = none⌝ ∗ owes (thr d L) O W') : sProp 𝕄) := by
  have htrips : k0_t1_loop.trips = 200 := by decide
  simp only [cc0_gather_kernel_eq_skeleton]; unfold cc0_gather_kernel_skel
  rw [(K (F := F)).scopedBufs_V hF d (cV L) (jV L), SparseCore.Cfg.scopedSems0_V (Val := Elt F) d (cV L) (jV L), ownSems0_V, ownBufs_V,
    iSet_eq, oSet_eq]
  iintro ⟨#Hlv, -, ⟨Ht, Hi, Ho⟩, ⟨⟨%f0', H0⟩, ⟨%f1, H1⟩, ⟨%f2, H2⟩, ⟨%f3, H3⟩, ⟨%f4, H4⟩, Hbufs⟩, ⟨Hs5, Hs6, Hs7, Hs8, Hs9, Hsems⟩, HO⟩
  ihave Hmw := (show levAts (K (F := F)).L (K (F := F)).lev ⊢ Transfers.MayWaits (thr d L) (default : HIx 1) O from
    (K (F := F)).mayWaits_none (thr := thr d L) hO) $$ Hlv
  ihave Ht' := (Entails.of_eq (pts_tV (F := F) d L _ _).symm) $$ Ht
  ihave H0' := (Entails.of_eq (pts_b0 (F := F) d L _).symm) $$ H0
  ihave H1' := (Entails.of_eq (pts_b1 (F := F) d L _).symm) $$ H1
  ihave H2' := (Entails.of_eq (pts_b2 (F := F) d L _).symm) $$ H2
  ihave H3' := (Entails.of_eq (pts_b3 (F := F) d L _).symm) $$ H3
  ihave H4' := (Entails.of_eq (pts_b4 (F := F) d L _).symm) $$ H4
  -- the first two chunks of the tile's indices, carved out: the sources of the first two index copies
  ihave Hi2 := (pts_iRng_split (F := F) d fullShare idx (a := base L) (b := base L + 256) (c := base L + 102400) (by omega) (by omega)).1 $$ Hi
  icases Hi2 with ⟨Hc0, Hi⟩
  ihave Hi2 := (pts_iRng_split (F := F) d fullShare idx (a := base L + 256) (b := base L + 256 + 256) (c := base L + 102400) (by omega) (by omega)).1 $$ Hi
  icases Hi2 with ⟨Hc1, Hi⟩
  ihave Hc0' := (Entails.of_eq (pts_iCh (F := F) d L (k0_off1 L 0#32) (k0_off1_inb L 0) (base L) (k0_off1_eq L 0) idx).symm) $$ Hc0
  ihave Hc1' := (Entails.of_eq (pts_iCh (F := F) d L (k0_off1 L 256#32) (k0_off1_inb L 1) (base L + 256) (k0_off1_eq L 1) idx).symm) $$ Hc1
  sl_exec
  sl_for (inv d L q tab idx f0 O W) $$ [Hmw Ht' H0' Ho H3' Hs8 H4' Hs9 Hi Hs6 Hs7 HO]
  case region =>
    intro k acc
    have hk : k.val < 200 := htrips ▸ k.isLt
    rcases Nat.eq_zero_or_pos k.val with h0 | h1
    · exact trip_first d L q tab idx hle f0 O W _ _ rfl k acc h0
    · rcases Nat.lt_or_ge k.val 199 with h2 | h2
      · exact trip_mid d L q tab idx hle f0 O W _ _ rfl k acc h1 h2
      · exact trip_last d L q tab idx hle f0 O W _ _ rfl k acc (by omega)
  · unfold inv IdxFl1 IdxFl2
    rw [if_pos rfl, if_pos (by omega : (0 : ℕ) < 200)]
    try rw [show base L + 512 * (0 - 1) = base L from rfl]
    try rw [show base L + 512 * 0 = base L from rfl]
    isplitl [Hmw]; · iexact Hmw
    isplitl [Ht']; · iexact Ht'
    isplitl [H0']
    · (iapply (Entails.of_eq (b0_tab (F := F) (U := U) d L tab f0'))) <;> iexact H0'
    isplitr; · rw [iRng_empty, pointsTo_empty]; iempintro
    isplitr; · rw [oRng_empty, pointsTo_empty]; iempintro
    isplitl [Ho]; · iexact Ho
    isplitl [H3' Hs8 H4' Hs9]
    · isplitl [H3']; · iexists _; iexact H3'
      isplitl [Hs8]; · iexact Hs8
      isplitl [H4']; · iexists _; iexact H4'
      iexact Hs9
    isplitl [Hi Hs6 Hs7]
    · isplitl [Hi]
      · (iapply (iRng_cast (F := F) (U := U) d fullShare idx (base L + 256 + 256) (base L + 102400) (base L + 512) (base L + 102400) (by omega) rfl)) <;> iexact Hi
      isplitl [Hs6]
      · (iapply (Transfers.Flight_mono countersEmb (thr d L) (idxD1 (F := F) (U := U) d L (k0_off1 L 0#32) (k0_off1_inb L 0)
          (base L) (k0_off1_eq L 0) idx f1))) <;> iexact Hs6
      · (iapply (Transfers.Flight_mono countersEmb (thr d L) (idxD2 (F := F) (U := U) d L (k0_off1 L 256#32) (k0_off1_inb L 1)
          (base L + 256) (k0_off1_eq L 1) idx f2))) <;> iexact Hs7
    iexists _; isplitr
    swap; · iexact HO
    ipureintro; intro p hp
    rcases Finset.mem_insert.mp hp with hp | hp; · exact .inr (hp ▸ rfl)
    exact .inl hp
  iintro %_ HI
  unfold inv OutFl3 OutFl4
  rw [show Scf.trips k0_t1_loop.lb k0_t1_loop.ub k0_t1_loop.st = 200 from by decide, if_neg (by omega : ¬ (200 : ℕ) = 0),
    if_neg (by omega : ¬ (200 : ℕ) < 200)]
  icases HI with ⟨-, Ht, H0, Hid, Hod, Hor, ⟨Hf3, Hf4⟩, ⟨⟨%g1, Hb1⟩, Hs6, ⟨%g2, Hb2⟩, Hs7⟩, %W', %hW', HO⟩
  sl_exec
  -- the last two output copies land
  iapply (Transfers.wp_waitLocalO countersEmb 𝒱₀ (thr d L) none (default : HIx 1)
      (rfl : (oCh (k0_off76 L 101888#32) (k0_off76_inb L 0)).view.dmaCredit = 524288)) $$ [Hf3 HO]
  · isplitl [Hf3]; · iexact Hf3
    isplitl [HO]; · iexact HO
    iapply (Transfers.MayWaits.elim (SemLoc.dma cc0_scratch8.sem)) $$ Hmw
  iintro ⟨⟨Hod3, %g3, Hb3⟩, Hs8, HO⟩
  iapply (Transfers.wp_waitLocalO countersEmb 𝒱₀ (thr d L) none (default : HIx 1)
      (rfl : (oCh (k0_off76 L 102144#32) (k0_off76_inb L 1)).view.dmaCredit = 524288)) $$ [Hf4 HO]
  · isplitl [Hf4]; · iexact Hf4
    isplitl [HO]; · iexact HO
    iapply (Transfers.MayWaits.elim (SemLoc.dma cc0_scratch9.sem)) $$ Hmw
  iintro ⟨⟨Hod4, %g4, Hb4⟩, Hs9, HO⟩
  ihave Hod := (pts_oRng_split (F := F) d fullShare (gOut tab idx) (a := base L) (b := base L + 512 * (200 - 1)) (c := base L + 512 * (200 - 1) + 256) (by omega) (by omega)).2 $$ [Hod Hod3]
  · isplitl [Hod] <;> iassumption
  ihave Hod := (pts_oRng_split (F := F) d fullShare (gOut tab idx) (a := base L) (b := base L + 512 * (200 - 1) + 256) (c := base L + 512 * (200 - 1) + 256 + 256) (by omega) (by omega)).2 $$ [Hod Hod4]
  · isplitl [Hod] <;> iassumption
  rw [prog_ret_bind]
  sl_step
  isplitl [Ht Hid Hod]
  · isplitl [Ht]; · iexact Ht
    isplitl [Hid]
    · (iapply (iRng_cast (F := F) (U := U) d fullShare idx (base L) (base L + 512 * 200) (base L) (base L + 102400) rfl (by omega))) <;> iexact Hid
    · (iapply (oRng_cast (F := F) (U := U) d fullShare (gOut tab idx) (base L) (base L + 512 * (200 - 1) + 256 + 256) (base L) (base L + 102400) rfl (by omega))) <;> iexact Hod
  isplitl [H0 Hb1 Hb2 Hb3 Hb4 Hbufs]
  · isplitl [H0]; · iexists _; iexact H0
    isplitl [Hb1]; · iexists _; iexact Hb1
    isplitl [Hb2]; · iexists _; iexact Hb2
    isplitl [Hb3]; · iexists _; iexact Hb3
    isplitl [Hb4]; · iexists _; iexact Hb4
    iexact Hbufs
  isplitl [Hs5 Hs6 Hs7 Hs8 Hs9 Hsems]
  · isplitl [Hs5]; · iexact Hs5
    isplitl [Hs6]; · iexact Hs6
    isplitl [Hs7]; · iexact Hs7
    isplitl [Hs8]; · iexact Hs8
    isplitl [Hs9]; · iexact Hs9
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact hW' p hp

end Cert.Proof.KB.Tile

end
-- ==== Proof.lean ====
/-
  The lookup's certificate: each of the 32 SparseCore workers copies the table into its own memory and, chunk by chunk of
  256 indices, gathers the table's rows at its 102,400 indices into the flat result, while the TensorCore copies the mask
  block by block; the reference takes the table's rows at the same indices and returns the mask. Under the precondition
  (every index between 0 and 65) both results are, entry (t, c, e), the table's entry (encodings[t, c], e), and the mask.
  The three frames are the runs with the values dropped; the idealization rewrote nothing.
-/
import proofs.«204299_g532575945014_cont_9to1c4b_494_30_alg».proof.Defs
import proofs.«204299_g532575945014_cont_9to1c4b_494_30_alg».proof.Proof.Gen.Kernel
import proofs.«204299_g532575945014_cont_9to1c4b_494_30_alg».proof.Proof.Gen.KernelIdeal
import proofs.«204299_g532575945014_cont_9to1c4b_494_30_alg».proof.Proof.Gen.ReferenceIdeal
import proofs.«204299_g532575945014_cont_9to1c4b_494_30_alg».proof.Proof.Gen.Pre_input_domain
import proofs.«204299_g532575945014_cont_9to1c4b_494_30_alg».proof.Proof.PreDecode
import proofs.«204299_g532575945014_cont_9to1c4b_494_30_alg».proof.Proof.RefRun
import proofs.«204299_g532575945014_cont_9to1c4b_494_30_alg».proof.Proof.Bridge
import proofs.«204299_g532575945014_cont_9to1c4b_494_30_alg».proof.Proof.Ideal.Value
import proofs.«204299_g532575945014_cont_9to1c4b_494_30_alg».proof.Proof.Bits.Value
import proofs.«204299_g532575945014_cont_9to1c4b_494_30_alg».proof.Proof.Ideal.MaskLaunch
import proofs.«204299_g532575945014_cont_9to1c4b_494_30_alg».proof.Proof.Bits.MaskLaunch
import proofs.«204299_g532575945014_cont_9to1c4b_494_30_alg».proof.Proof.Ideal.Run
import proofs.«204299_g532575945014_cont_9to1c4b_494_30_alg».proof.Proof.Bits.Run
import proofs.«204299_g532575945014_cont_9to1c4b_494_30_alg».proof.Proof.Ideal.Tile
import proofs.«204299_g532575945014_cont_9to1c4b_494_30_alg».proof.Proof.Bits.Tile

noncomputable section

namespace Cert.Proof

open Idealize.ShloMosaic Idealize.SL.Sem

instance : ∀ e, Nonempty (Elt Ideal e) := fun e => by cases e <;> first | exact ⟨(0 : BitVec _)⟩ | exact ⟨(0 : EReal)⟩
instance : ∀ e, Nonempty (Elt Bits e) := fun e => by cases e <;> exact ⟨(0 : BitVec _)⟩

/-- The precondition bounds every index of the launch memory: at the word level, -/
theorem leB [Cert.Pre_input_domain.Facts] (m : (ℓ : Loc Cert.Kernel.nD Cert.Kernel.τ Cert.Kernel.sig) → Buf (Elt Bits) ℓ) (h : Cert.Pre_Kernel m) :
    ∀ (d : Dev Cert.Kernel.nD) i, (m (Cert.Proof.KB.aLoc d Cert.Kernel.main_arg0) i).toNat ≤ 65 :=
  fun d => Cert.Proof.PreDecode.enc_le_of_fn (F := Bits) _ _ _ (h d)

/-- and at the ideal instance. -/
theorem leI [Cert.Pre_input_domain.Facts] (m : (ℓ : Loc Cert.KernelIdeal.nD Cert.KernelIdeal.τ Cert.KernelIdeal.sig) → Buf (Elt Ideal) ℓ) (h : Cert.Pre_KernelIdeal m) :
    ∀ (d : Dev Cert.KernelIdeal.nD) i, (m (Cert.Proof.KI.aLoc d Cert.KernelIdeal.main_arg0) i).toNat ≤ 65 :=
  fun d => Cert.Proof.PreDecode.enc_le_of_fn (F := Ideal) _ _ _ (h d)

/-- One worker's task, at the word level and at the ideal instance. -/
theorem bodyB : Cert.Proof.KB.TileBodySpec (F := Bits) := fun d L q tab idx hle f0 O W hO =>
  Cert.Proof.KB.Tile.tile_body (U := Cert.Proof.KB.UU) Cert.Proof.KB.facts d L q tab idx hle f0 O W hO
theorem bodyI : Cert.Proof.KI.TileBodySpec (F := Ideal) := fun d L q tab idx hle f0 O W hO =>
  Cert.Proof.KI.Tile.tile_body (U := Cert.Proof.KI.UU) Cert.Proof.KI.facts d L q tab idx hle f0 O W hO

/-- The word-level program's run: both results named, the arguments kept. -/
theorem runB [Cert.Pre_input_domain.Facts] (m : (ℓ : Loc Cert.Kernel.nD Cert.Kernel.τ Cert.Kernel.sig) → Buf (Elt Bits) ℓ) (ρ : Dev Cert.Kernel.nD → PrngReg) (h : Cert.Pre_Kernel m) :
    θ_run (Cert.Kernel.defs (F := Bits)) (Cert.Kernel.threads (F := Bits)) ⟨m, fun _ => 0, ρ⟩ (Cert.Proof.KB.QC m) :=
  Cert.Proof.KB.run_of m ρ bodyB (Cert.Proof.KB.idxOK_of_le m (leB m h)) Cert.Proof.KB.uP Cert.Proof.KB.Gm Cert.Proof.KB.fund_Gm Cert.Proof.KB.maskSpec

/-- The idealized program's run. -/
theorem runI [Cert.Pre_input_domain.Facts] (m : (ℓ : Loc Cert.KernelIdeal.nD Cert.KernelIdeal.τ Cert.KernelIdeal.sig) → Buf (Elt Ideal) ℓ) (ρ : Dev Cert.KernelIdeal.nD → PrngReg) (h : Cert.Pre_KernelIdeal m) :
    θ_run (Cert.KernelIdeal.defs (F := Ideal)) (Cert.KernelIdeal.threads (F := Ideal)) ⟨m, fun _ => 0, ρ⟩ (Cert.Proof.KI.QC m) :=
  Cert.Proof.KI.run_of m ρ bodyI (Cert.Proof.KI.idxOK_of_le m (leI m h)) Cert.Proof.KI.uP Cert.Proof.KI.Gm Cert.Proof.KI.fund_Gm Cert.Proof.KI.maskSpec

theorem frame_k : Cert.frame_Kernel (hKernel := Cert.Kernel.Gen.facts) (hPre_input_domain := Cert.Pre_input_domain.Gen.facts) :=
  letI := Cert.Pre_input_domain.Gen.facts
  fun m ρ h => (θ_run Cert.Kernel.defs _ _).mono (fun _ hr c => ⟨(hr c).2.2.1, (hr c).2.2.2.1, (hr c).2.2.2.2⟩) (runB m ρ h)
theorem frame_ki : Cert.frame_KernelIdeal (hKernelIdeal := Cert.KernelIdeal.Gen.facts) (hPre_input_domain := Cert.Pre_input_domain.Gen.facts) :=
  letI := Cert.Pre_input_domain.Gen.facts
  fun m ρ h => (θ_run Cert.KernelIdeal.defs _ _).mono (fun _ hr c => ⟨(hr c).2.2.1, (hr c).2.2.2.1, (hr c).2.2.2.2⟩) (runI m ρ h)
/-- The reference's frame: its run with the result dropped. -/
theorem frame_ri : Cert.frame_ReferenceIdeal (hReferenceIdeal := Cert.ReferenceIdeal.Gen.facts) (hPre_input_domain := Cert.Pre_input_domain.Gen.facts) :=
  fun m ρ _ => (θ_run Cert.ReferenceIdeal.defs _ _).mono (fun _ hr c => (hr c).2) (Cert.Proof.Ref.run_composed m ρ)

/-- Both programs, from memories agreeing on the arguments, end with the table's rows at the indices and with the mask. -/
theorem algebraic : Cert.algebraic_KernelIdeal_ReferenceIdeal (hKernelIdeal := Cert.KernelIdeal.Gen.facts) (hReferenceIdeal := Cert.ReferenceIdeal.Gen.facts)
    (hPre_input_domain := Cert.Pre_input_domain.Gen.facts) := by
  letI := Cert.Pre_input_domain.Gen.facts
  intro m ρ m' ρ' hpre hagree
  refine ⟨fun c => Cert.Proof.KI.V4 (F := Ideal) m c Cert.Proof.KI.r4', fun c => Cert.Proof.KI.maskF m c, ?_, ?_⟩
  · exact (θ_run Cert.KernelIdeal.defs _ _).mono (fun _ hr c => hr c) (runI m ρ hpre)
  · have hle' : ∀ (c : Dev Cert.ReferenceIdeal.nD) i, (m' ((c.tc : Thread Cert.ReferenceIdeal.nD Cert.ReferenceIdeal.τ).loc Cert.ReferenceIdeal.main_arg0) i).toNat ≤ 65 := by
      intro c i; rw [(hagree c).1]; exact leI m hpre c i
    refine (θ_run Cert.ReferenceIdeal.defs _ _).mono (fun _ hr c => ⟨?_, ?_, (hr c).2.1, (hr c).2.2.1, (hr c).2.2.2⟩) (Cert.Proof.Ref.run m' ρ' hle')
    · rw [(hr c).1, (hagree c).1, (hagree c).2.2]; exact (Cert.Proof.Bridge.out_eq_ref m c (leI m hpre c)).symm
    · rw [(hr c).2.2.1, (hagree c).2.1]; rfl

theorem claim : Cert.Claim := ⟨Cert.Kernel.Gen.facts, Cert.KernelIdeal.Gen.facts, Cert.ReferenceIdeal.Gen.facts, Cert.Pre_input_domain.Gen.facts,
  frame_k, frame_ki, frame_ri, trivial, algebraic⟩

end Cert.Proof

end
